-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x50 : S_.BroadcastsInDim S4096x50 (![] : Fin 0 → Fin S4096x50.rank)
  reducesTo_S4096x50_S_d0_1 : S4096x50.ReducesTo [0, 1] S_

variable [Facts]

def fn {F : FTy → Type} [FloatOps F] (main_arg0 : IVec S4096x50 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S4096x50 32 := broadcastInDim S4096x50 ![] bcast_S_S4096x50 main_c_0
  let main_v5 : IVec S4096x50 1 := cmpi .sge main_arg0 main_v4
  let main_c_1 : IVec S_ 32 := constantI S_ 32 99999#32
  let main_v6 : IVec S4096x50 32 := broadcastInDim S4096x50 ![] bcast_S_S4096x50 main_c_1
  let main_v7 : IVec S4096x50 1 := cmpi .sle main_arg0 main_v6
  let main_v8 : IVec S4096x50 1 := andi main_v5 main_v7
  let main_c_2 : IVec S_ 1 := constantI S_ 1 1#1
  let main_v9 : IVec S_ 1 := (fun x v => Host.reduce IntOp.andi x v reducesTo_S4096x50_S_d0_1 h_S_) main_v8 main_c_2
  let main_v10 : IVec S_ 1 := andi main_v3 main_v9
  main_v10
-- ==== Kernel.lean ====
abbrev S4096x50 : Shape := ⟨2, ![4096, 50]⟩
abbrev S100000x128 : Shape := ⟨2, ![100000, 128]⟩
abbrev S50x4096 : Shape := ⟨2, ![50, 4096]⟩
abbrev S204800x128 : Shape := ⟨2, ![204800, 128]⟩
abbrev S50x128 : Shape := ⟨2, ![50, 128]⟩
abbrev S128x128 : Shape := ⟨2, ![128, 128]⟩
abbrev S_ : Shape := ⟨0, ![]⟩
abbrev S1x128 : Shape := ⟨2, ![1, 128]⟩
abbrev S128 : Shape := ⟨1, ![128]⟩
abbrev S50x4096x128 : Shape := ⟨3, ![50, 4096, 128]⟩
abbrev S4096x50x128 : Shape := ⟨3, ![4096, 50, 128]⟩

abbrev nBuf : Table → Nat
  | .hbm => 6
  | .local .scVector .vmem => 6
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S50x4096, .i32⟩
  | .hbm, ⟨3, _⟩ => ⟨S204800x128, .f32⟩
  | .hbm, ⟨4, _⟩ => ⟨S50x4096x128, .f32⟩
  | .hbm, ⟨5, _⟩ => ⟨S4096x50x128, .f32⟩
  | .local .scVector .vmem, ⟨0, _⟩ => ⟨S50x128, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_30_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
@[reducible] def k0_t1_loop : Scf.Loop 32 :=
  let c0_i32_17 : BitVec 32 := 0#32
  let c10_i32 : BitVec 32 := 10#32
  let v18 : BitVec 32 := Scalar.addi c0_i32_17 c10_i32
  let c1_i32_18 : BitVec 32 := 1#32
  ⟨c0_i32_17, v18, c1_i32_18⟩
def k0_off2 (i : grid0.Coords) (k0_t1 : Fin k0_t1_loop.trips) (c0_i32_34 : BitVec 32) : Fin 2 → Nat :=
  let c0_i32_17 : BitVec 32 := 0#32
  let c1_i32_18 : BitVec 32 := 1#32
  let arg21 : BitVec 32 := Scf.iv c0_i32_17 c1_i32_18 k0_t1
  let c5_i32 : BitVec 32 := 5#32
  let v29 : BitVec 32 := Scalar.muli arg21 c5_i32
  let v33 : BitVec 32 := Scalar.addi v29 c0_i32_34
  let c4096_i32 : BitVec 32 := 4096#32
  let v34 : BitVec 32 := Scalar.muli v33 c4096_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v35 : BitVec 32 := Scalar.addi v34 v2
  let c0_i32_35 : BitVec 32 := 0#32
  ![v35.toNat, 0]
def k0_cond1 (k0_t1 : Fin k0_t1_loop.trips) : BitVec 1 :=
  let c0_i32_17 : BitVec 32 := 0#32
  let c1_i32_18 : BitVec 32 := 1#32
  let arg21 : BitVec 32 := Scf.iv c0_i32_17 c1_i32_18 k0_t1
  let c5_i32 : BitVec 32 := 5#32
  let v29 : BitVec 32 := Scalar.muli arg21 c5_i32
  let c0_i32_69 : BitVec 32 := 0#32
  let v70 : BitVec 32 := Scalar.addi v29 c0_i32_69
  let c5_i32_70 : BitVec 32 := 5#32
  let v71 : BitVec 32 := Scalar.addi v70 c5_i32_70
  let c50_i32 : BitVec 32 := 50#32
  let v72 : BitVec 1 := Scalar.cmpi .slt v71 c50_i32
  let v73 : BitVec 32 := Scalar.extui v72
  let c0_i32_71 : BitVec 32 := 0#32
  let v74 : BitVec 1 := Scalar.cmpi .ne v73 c0_i32_71
  v74

def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_88 : BitVec 32 := 0#32
  ![v2.toNat, 0]
def k0_off4 (k0_t1 : Fin k0_t1_loop.trips) : Fin 2 → Nat :=
  let c0_i32_17 : BitVec 32 := 0#32
  let c1_i32_18 : BitVec 32 := 1#32
  let arg21 : BitVec 32 := Scf.iv c0_i32_17 c1_i32_18 k0_t1
  let c5_i32 : BitVec 32 := 5#32
  let v29 : BitVec 32 := Scalar.muli arg21 c5_i32
  let c0_i32_90 : BitVec 32 := 0#32
  let v97 : BitVec 32 := Scalar.addi v29 c0_i32_90
  let c5_i32_91 : BitVec 32 := 5#32
  let v98 : BitVec 32 := Scalar.addi v97 c5_i32_91
  let c0_i32_92 : BitVec 32 := 0#32
  ![v98.toNat, 0]
def k0_cond2 (k0_t1 : Fin k0_t1_loop.trips) : BitVec 1 :=
  let c0_i32_17 : BitVec 32 := 0#32
  let c1_i32_18 : BitVec 32 := 1#32
  let arg21 : BitVec 32 := Scf.iv c0_i32_17 c1_i32_18 k0_t1
  let c5_i32 : BitVec 32 := 5#32
  let v29 : BitVec 32 := Scalar.muli arg21 c5_i32
  let c1_i32_72 : BitVec 32 := 1#32
  let v75 : BitVec 32 := Scalar.addi v29 c1_i32_72
  let c5_i32_73 : BitVec 32 := 5#32
  let v76 : BitVec 32 := Scalar.addi v75 c5_i32_73
  let c50_i32_74 : BitVec 32 := 50#32
  let v77 : BitVec 1 := Scalar.cmpi .slt v76 c50_i32_74
  let v78 : BitVec 32 := Scalar.extui v77
  let c0_i32_75 : BitVec 32 := 0#32
  let v79 : BitVec 1 := Scalar.cmpi .ne v78 c0_i32_75
  v79

def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_88 : BitVec 32 := 0#32
  ![v2.toNat, 0]
def k0_off6 (k0_t1 : Fin k0_t1_loop.trips) : Fin 2 → Nat :=
  let c0_i32_17 : BitVec 32 := 0#32
  let c1_i32_18 : BitVec 32 := 1#32
  let arg21 : BitVec 32 := Scf.iv c0_i32_17 c1_i32_18 k0_t1
  let c5_i32 : BitVec 32 := 5#32
  let v29 : BitVec 32 := Scalar.muli arg21 c5_i32
  let c1_i32_90 : BitVec 32 := 1#32
  let v97 : BitVec 32 := Scalar.addi v29 c1_i32_90
  let c5_i32_91 : BitVec 32 := 5#32
  let v98 : BitVec 32 := Scalar.addi v97 c5_i32_91
  let c0_i32_92 : BitVec 32 := 0#32
  ![v98.toNat, 0]
def k0_cond3 (k0_t1 : Fin k0_t1_loop.trips) : BitVec 1 :=
  let c0_i32_17 : BitVec 32 := 0#32
  let c1_i32_18 : BitVec 32 := 1#32
  let arg21 : BitVec 32 := Scf.iv c0_i32_17 c1_i32_18 k0_t1
  let c5_i32 : BitVec 32 := 5#32
  let v29 : BitVec 32 := Scalar.muli arg21 c5_i32
  let c2_i32_76 : BitVec 32 := 2#32
  let v80 : BitVec 32 := Scalar.addi v29 c2_i32_76
  let c5_i32_77 : BitVec 32 := 5#32
  let v81 : BitVec 32 := Scalar.addi v80 c5_i32_77
  let c50_i32_78 : BitVec 32 := 50#32
  let v82 : BitVec 1 := Scalar.cmpi .slt v81 c50_i32_78
  let v83 : BitVec 32 := Scalar.extui v82
  let c0_i32_79 : BitVec 32 := 0#32
  let v84 : BitVec 1 := Scalar.cmpi .ne v83 c0_i32_79
  v84

def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_88 : BitVec 32 := 0#32
  ![v2.toNat, 0]
def k0_off8 (k0_t1 : Fin k0_t1_loop.trips) : Fin 2 → Nat :=
  let c0_i32_17 : BitVec 32 := 0#32
  let c1_i32_18 : BitVec 32 := 1#32
  let arg21 : BitVec 32 := Scf.iv c0_i32_17 c1_i32_18 k0_t1
  let c5_i32 : BitVec 32 := 5#32
  let v29 : BitVec 32 := Scalar.muli arg21 c5_i32
  let c2_i32_90 : BitVec 32 := 2#32
  let v97 : BitVec 32 := Scalar.addi v29 c2_i32_90
  let c5_i32_91 : BitVec 32 := 5#32
  let v98 : BitVec 32 := Scalar.addi v97 c5_i32_91
  let c0_i32_92 : BitVec 32 := 0#32
  ![v98.toNat, 0]
def k0_cond4 (k0_t1 : Fin k0_t1_loop.trips) : BitVec 1 :=
  let c0_i32_17 : BitVec 32 := 0#32
  let c1_i32_18 : BitVec 32 := 1#32
  let arg21 : BitVec 32 := Scf.iv c0_i32_17 c1_i32_18 k0_t1
  let c5_i32 : BitVec 32 := 5#32
  let v29 : BitVec 32 := Scalar.muli arg21 c5_i32
  let c3_i32_80 : BitVec 32 := 3#32
  let v85 : BitVec 32 := Scalar.addi v29 c3_i32_80
  let c5_i32_81 : BitVec 32 := 5#32
  let v86 : BitVec 32 := Scalar.addi v85 c5_i32_81
  let c50_i32_82 : BitVec 32 := 50#32
  let v87 : BitVec 1 := Scalar.cmpi .slt v86 c50_i32_82
  let v88 : BitVec 32 := Scalar.extui v87
  let c0_i32_83 : BitVec 32 := 0#32
  let v89 : BitVec 1 := Scalar.cmpi .ne v88 c0_i32_83
  v89

def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_88 : BitVec 32 := 0#32
  ![v2.toNat, 0]
def k0_off10 (k0_t1 : Fin k0_t1_loop.trips) : Fin 2 → Nat :=
  let c0_i32_17 : BitVec 32 := 0#32
  let c1_i32_18 : BitVec 32 := 1#32
  let arg21 : BitVec 32 := Scf.iv c0_i32_17 c1_i32_18 k0_t1
  let c5_i32 : BitVec 32 := 5#32
  let v29 : BitVec 32 := Scalar.muli arg21 c5_i32
  let c3_i32_90 : BitVec 32 := 3#32
  let v97 : BitVec 32 := Scalar.addi v29 c3_i32_90
  let c5_i32_91 : BitVec 32 := 5#32
  let v98 : BitVec 32 := Scalar.addi v97 c5_i32_91
  let c0_i32_92 : BitVec 32 := 0#32
  ![v98.toNat, 0]
def k0_cond5 (k0_t1 : Fin k0_t1_loop.trips) : BitVec 1 :=
  let c0_i32_17 : BitVec 32 := 0#32
  let c1_i32_18 : BitVec 32 := 1#32
  let arg21 : BitVec 32 := Scf.iv c0_i32_17 c1_i32_18 k0_t1
  let c5_i32 : BitVec 32 := 5#32
  let v29 : BitVec 32 := Scalar.muli arg21 c5_i32
  let c4_i32_84 : BitVec 32 := 4#32
  let v90 : BitVec 32 := Scalar.addi v29 c4_i32_84
  let c5_i32_85 : BitVec 32 := 5#32
  let v91 : BitVec 32 := Scalar.addi v90 c5_i32_85
  let c50_i32_86 : BitVec 32 := 50#32
  let v92 : BitVec 1 := Scalar.cmpi .slt v91 c50_i32_86
  let v93 : BitVec 32 := Scalar.extui v92
  let c0_i32_87 : BitVec 32 := 0#32
  let v94 : BitVec 1 := Scalar.cmpi .ne v93 c0_i32_87
  v94

def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_88 : BitVec 32 := 0#32
  ![v2.toNat, 0]
def k0_off12 (k0_t1 : Fin k0_t1_loop.trips) : Fin 2 → Nat :=
  let c0_i32_17 : BitVec 32 := 0#32
  let c1_i32_18 : BitVec 32 := 1#32
  let arg21 : BitVec 32 := Scf.iv c0_i32_17 c1_i32_18 k0_t1
  let c5_i32 : BitVec 32 := 5#32
  let v29 : BitVec 32 := Scalar.muli arg21 c5_i32
  let c4_i32_90 : BitVec 32 := 4#32
  let v97 : BitVec 32 := Scalar.addi v29 c4_i32_90
  let c5_i32_91 : BitVec 32 := 5#32
  let v98 : BitVec 32 := Scalar.addi v97 c5_i32_91
  let c0_i32_92 : BitVec 32 := 0#32
  ![v98.toNat, 0]
def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_20 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x50_S50x4096_1_0 : S4096x50.Transposes [1, 0] S50x4096
  inb_S50x128_S1x128_0_0 : ∀ a, (![0, 0] : Fin 2 → Nat) a + S1x128.size a ≤ S50x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S50x128_S1x128_1_0 : ∀ a, (![1, 0] : Fin 2 → Nat) a + S1x128.size a ≤ S50x128.size a
  inb_S50x128_S1x128_2_0 : ∀ a, (![2, 0] : Fin 2 → Nat) a + S1x128.size a ≤ S50x128.size a
  inb_S50x128_S1x128_3_0 : ∀ a, (![3, 0] : Fin 2 → Nat) a + S1x128.size a ≤ S50x128.size a
  inb_S50x128_S1x128_4_0 : ∀ a, (![4, 0] : Fin 2 → Nat) a + S1x128.size a ≤ S50x128.size a
  shapeCasts_S204800x128_S50x4096x128 : S204800x128.ShapeCasts S50x4096x128
  transposes_S50x4096x128_S4096x50x128_1_0_2 : S50x4096x128.Transposes [1, 0, 2] S4096x50x128
  hcc0_scratch6 : 0 + S_.numel ≤ 11
  hcc0_scratch7 : 1 + S_.numel ≤ 11
  hcc0_scratch8 : 2 + S_.numel ≤ 11
  hcc0_scratch9 : 3 + S_.numel ≤ 11
  hcc0_scratch10 : 4 + S_.numel ≤ 11
  hcc0_scratch11 : 5 + S_.numel ≤ 11
  hcc0_scratch12 : 6 + S_.numel ≤ 11
  hcc0_scratch13 : 7 + S_.numel ≤ 11
  hcc0_scratch14 : 8 + S_.numel ≤ 11
  hcc0_scratch15 : 9 + S_.numel ≤ 11
  hcc0_scoped0 : 10 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S50x128.size a ≤ S50x4096.size a
  k0_t1_ok : k0_t1_loop.OK
  k0_off2_inb : ∀ (i : grid0.Coords) (k0_t1 : Fin k0_t1_loop.trips), ∀ (r : Fin 5), ∀ a, (k0_off2 i k0_t1 (BitVec.ofNat 32 r.val)) a + S128x128.size a ≤ S204800x128.size a
  k0_off3_inb : ∀ (i : grid0.Coords) (k0_t1 : Fin k0_t1_loop.trips), ∀ (k0_h1 : k0_cond1 k0_t1 = 1#1), ∀ a, (k0_off3 i) a + S128x128.size a ≤ S204800x128.size a
  k0_off4_inb : ∀ k0_t1 : Fin k0_t1_loop.trips, ∀ (k0_h1 : k0_cond1 k0_t1 = 1#1), ∀ a, (k0_off4 k0_t1) a + S1x128.size a ≤ S50x128.size a
  k0_off5_inb : ∀ (i : grid0.Coords) (k0_t1 : Fin k0_t1_loop.trips), ∀ (k0_h2 : k0_cond2 k0_t1 = 1#1), ∀ a, (k0_off5 i) a + S128x128.size a ≤ S204800x128.size a
  k0_off6_inb : ∀ k0_t1 : Fin k0_t1_loop.trips, ∀ (k0_h2 : k0_cond2 k0_t1 = 1#1), ∀ a, (k0_off6 k0_t1) a + S1x128.size a ≤ S50x128.size a
  k0_off7_inb : ∀ (i : grid0.Coords) (k0_t1 : Fin k0_t1_loop.trips), ∀ (k0_h3 : k0_cond3 k0_t1 = 1#1), ∀ a, (k0_off7 i) a + S128x128.size a ≤ S204800x128.size a
  k0_off8_inb : ∀ k0_t1 : Fin k0_t1_loop.trips, ∀ (k0_h3 : k0_cond3 k0_t1 = 1#1), ∀ a, (k0_off8 k0_t1) a + S1x128.size a ≤ S50x128.size a
  k0_off9_inb : ∀ (i : grid0.Coords) (k0_t1 : Fin k0_t1_loop.trips), ∀ (k0_h4 : k0_cond4 k0_t1 = 1#1), ∀ a, (k0_off9 i) a + S128x128.size a ≤ S204800x128.size a
  k0_off10_inb : ∀ k0_t1 : Fin k0_t1_loop.trips, ∀ (k0_h4 : k0_cond4 k0_t1 = 1#1), ∀ a, (k0_off10 k0_t1) a + S1x128.size a ≤ S50x128.size a
  k0_off11_inb : ∀ (i : grid0.Coords) (k0_t1 : Fin k0_t1_loop.trips), ∀ (k0_h5 : k0_cond5 k0_t1 = 1#1), ∀ a, (k0_off11 i) a + S128x128.size a ≤ S204800x128.size a
  k0_off12_inb : ∀ k0_t1 : Fin k0_t1_loop.trips, ∀ (k0_h5 : k0_cond5 k0_t1 = 1#1), ∀ a, (k0_off12 k0_t1) a + S1x128.size a ≤ S50x128.size a
  k0_off13_inb : ∀ i : grid0.Coords, ∀ a, (k0_off13 i) a + S128x128.size a ≤ S204800x128.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11
abbrev cc0_scratch12 : DmaSems sig S_ := SemArray.consecutive 6 S_ hcc0_scratch12
abbrev cc0_scratch13 : DmaSems sig S_ := SemArray.consecutive 7 S_ hcc0_scratch13
abbrev cc0_scratch14 : DmaSems sig S_ := SemArray.consecutive 8 S_ hcc0_scratch14
abbrev cc0_scratch15 : DmaSems sig S_ := SemArray.consecutive 9 S_ hcc0_scratch15
abbrev cc0_scoped0 : DmaSems sig S_ := SemArray.consecutive 10 S_ hcc0_scoped0

class Facts : Prop extends Facts₀ where

variable [Facts]
-- ==== ReferenceIdeal.lean ====
abbrev S4096x50 : Shape := ⟨2, ![4096, 50]⟩
abbrev S100000x128 : Shape := ⟨2, ![100000, 128]⟩
abbrev S204800 : Shape := ⟨1, ![204800]⟩
abbrev S_ : Shape := ⟨0, ![]⟩
abbrev S204800x1 : Shape := ⟨2, ![204800, 1]⟩
abbrev S1 : Shape := ⟨1, ![1]⟩
abbrev S1x1 : Shape := ⟨2, ![1, 1]⟩
abbrev S204800x128 : Shape := ⟨2, ![204800, 128]⟩
abbrev S4096x50x128 : Shape := ⟨3, ![4096, 50, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S204800, .i32⟩
  | .hbm, ⟨3, _⟩ => ⟨S_, .i32⟩
  | .hbm, ⟨4, _⟩ => ⟨S204800, .i32⟩
  | .hbm, ⟨5, _⟩ => ⟨S204800, .i1⟩
  | .hbm, ⟨6, _⟩ => ⟨S_, .i32⟩
  | .hbm, ⟨7, _⟩ => ⟨S204800, .i32⟩
  | .hbm, ⟨8, _⟩ => ⟨S204800, .i32⟩
  | .hbm, ⟨9, _⟩ => ⟨S204800, .i32⟩
  | .hbm, ⟨10, _⟩ => ⟨S204800x1, .i32⟩
  | .hbm, ⟨11, _⟩ => ⟨S1, .i32⟩
  | .hbm, ⟨12, _⟩ => ⟨S_, .i32⟩
  | .hbm, ⟨13, _⟩ => ⟨S204800x1, .i32⟩
  | .hbm, ⟨14, _⟩ => ⟨S204800x1, .i1⟩
  | .hbm, ⟨15, _⟩ => ⟨S1x1, .i32⟩
  | .hbm, ⟨16, _⟩ => ⟨S204800x1, .i32⟩
  | .hbm, ⟨17, _⟩ => ⟨S204800x1, .i1⟩
  | .hbm, ⟨18, _⟩ => ⟨S204800x1, .i1⟩
  | .hbm, ⟨19, _⟩ => ⟨S_, .i1⟩
  | .hbm, ⟨20, _⟩ => ⟨S204800, .i1⟩
  | .hbm, ⟨21, _⟩ => ⟨S204800x128, .f32⟩
  | .hbm, ⟨22, _⟩ => ⟨S204800x128, .i1⟩
  | .hbm, ⟨23, _⟩ => ⟨S_, .f32⟩
  | .hbm, ⟨24, _⟩ => ⟨S204800x128, .f32⟩
  | .hbm, ⟨25, _⟩ => ⟨S204800x128, .f32⟩
  | .hbm, ⟨26, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]

class Facts₀ : Prop where
  shapeCasts_S4096x50_S204800 : S4096x50.ShapeCasts S204800
  bcast_S_S204800 : S_.BroadcastsInDim S204800 (![] : Fin 0 → Fin S204800.rank)
  bcast_S204800_S204800x1_0 : S204800.BroadcastsInDim S204800x1 (![0] : Fin 1 → Fin S204800x1.rank)
  bcast_S_S204800x1 : S_.BroadcastsInDim S204800x1 (![] : Fin 0 → Fin S204800x1.rank)
  bcast_S1_S1x1_1 : S1.BroadcastsInDim S1x1 (![1] : Fin 1 → Fin S1x1.rank)
  bcast_S1x1_S204800x1_0_1 : S1x1.BroadcastsInDim S204800x1 (![0, 1] : Fin 2 → Fin S204800x1.rank)
  reducesTo_S204800x1_S204800_d1 : S204800x1.ReducesTo [1] S204800
  h_S_ : 0 < S_.numel
  bcast_S204800_S204800x128_0 : S204800.BroadcastsInDim S204800x128 (![0] : Fin 1 → Fin S204800x128.rank)
  bcast_S_S204800x128 : S_.BroadcastsInDim S204800x128 (![] : Fin 0 → Fin S204800x128.rank)
  shapeCasts_S204800x128_S4096x50x128 : S204800x128.ShapeCasts S4096x50x128
  gather_S100000x128_S204800x1_S204800x128_1_0_n_n_0_1_1128_wf : GatherDims.WF S100000x128 S204800x1 S204800x128 [1] [0] [] [0] [] 1 ![1, 128]

variable [Facts₀]

def gather_S100000x128_S204800x1_S204800x128_1_0_n_n_0_1_1128 : GatherDims S100000x128 S204800x1 S204800x128 where
  offsetDims := [1]
  collapsedSliceDims := [0]
  operandBatchingDims := []
  startIndicesBatchingDims := []
  startIndexMap := [0]
  indexVectorDim := 1
  sliceSizes := ![1, 128]
  wf := gather_S100000x128_S204800x1_S204800x128_1_0_n_n_0_1_1128_wf

class Facts : Prop extends Facts₀ where

variable [Facts]
-- ==== Proof.Spec.lean ====
/-
  The specification both programs meet: an embedding lookup. The result's entry (b, j, l) is entry l of the
  table row that token (b, j) names. Stated once, over the literal shapes, for any element type, so that the
  word-level and the ideal readings of the programs share it.
-/
import Idealize.ShloMosaic.Lib.ValueIdx

noncomputable section

namespace Cert.Spec

open Idealize.ShloMosaic Idealize.ShloMosaic.ValueIdx

/-- Every token id names a row of the table: read as a natural number it is below 100000. -/
def InRange (ids : (⟨2, ![4096, 50]⟩ : Shape).Idx → BitVec 32) : Prop := ∀ j, (ids j).toNat < 100000

/-- The table row a token id names. An id outside the table is read signed and clamped to the table's rows, so
    the function is total; on ids in range it is the id itself (`row_of_lt`). -/
def row (v : BitVec 32) : Fin 100000 := ⟨min v.toInt.toNat 99999, by omega⟩

theorem row_of_lt (v : BitVec 32) (h : v.toNat < 100000) : (row v).val = v.toNat := by
  unfold row
  have e : v.toInt = (v.toNat : Int) := by
    rw [BitVec.toInt_eq_toNat_cond]; split
    · rfl
    · omega
  simp only [e, Int.toNat_natCast]
  omega

/-- The embedding lookup: entry (b, j, l) of the result is entry l of the table row that token (b, j) names. -/
def lookup {α : Type} (ids : (⟨2, ![4096, 50]⟩ : Shape).Idx → BitVec 32) (W : (⟨2, ![100000, 128]⟩ : Shape).Idx → α) :
    (⟨3, ![4096, 50, 128]⟩ : Shape).Idx → α :=
  fun i => W (ix2 (row (ids (ix2 (i 0) (i 1)))) (i 2))

/-- The same table of rows before the last re-layout: row r = j · 4096 + b of a [204800, 128] array holds the
    table row of token (b, j), the token ids given TRANSPOSED (as a [50, 4096] array). -/
def rows2d {α : Type} (idsT : (⟨2, ![50, 4096]⟩ : Shape).Idx → BitVec 32) (W : (⟨2, ![100000, 128]⟩ : Shape).Idx → α) :
    (⟨2, ![204800, 128]⟩ : Shape).Idx → α :=
  fun i => W (ix2 (row (idsT (ix2 (n0 := 50) (n1 := 4096) ⟨(i 0).val / 4096, by have : (i 0).val < 204800 := (i 0).isLt; omega⟩ ⟨(i 0).val % 4096, by omega⟩))) (i 1))

end Cert.Spec

end
-- ==== Proof.PreRange.lean ====
/-
  The precondition read back: where the printed input-domain predicate holds, every token id names a row of the
  table. The predicate is the conjunction of two "all" reductions; only the second, over the ids, is used: it says
  of each id v that 0 ≤ v and v ≤ 99999 as signed words, so v read as a natural number is below 100000.
-/
import proofs.«206436_g50972671869147_cont_8to1c4_798_20_alg».proof.Pre_input_domain
import proofs.«206436_g50972671869147_cont_8to1c4_798_20_alg».proof.Proof.Gen.Pre_input_domain
import proofs.«206436_g50972671869147_cont_8to1c4_798_20_alg».proof.Proof.Spec
import Idealize.ShloMosaic.Lib.ReduceAll

namespace Cert.PreRange

open Idealize.ShloMosaic

/-- The scalar shape has one index. -/
instance : Subsingleton Cert.Pre_input_domain.S_.Idx := ⟨fun _ _ => funext fun d => d.elim0⟩

/-- A signed 32-bit word between 0 and 99999 is, read unsigned, below 100000. -/
theorem toNat_lt_of_signed_bounds (v : BitVec 32) (h0 : (0#32 : BitVec 32).toInt ≤ v.toInt)
    (h1 : v.toInt ≤ (99999#32 : BitVec 32).toInt) : v.toNat < 100000 := by
  have e0 : (0#32 : BitVec 32).toInt = 0 := by decide
  have e1 : (99999#32 : BitVec 32).toInt = 99999 := by decide
  rw [e0] at h0
  rw [e1] at h1
  have hc := BitVec.toInt_eq_toNat_cond v
  have hlt := v.isLt
  split at hc <;> omega

/-- Where the input-domain predicate holds, every token id is below 100000. -/
theorem inRange {F : FTy → Type} [FloatOps F] [Cert.Pre_input_domain.Facts]
    (ids : IVec Cert.Pre_input_domain.S4096x50 32) (W : FVec F Cert.Pre_input_domain.S100000x128 .f32)
    (h : Cert.Pre_input_domain.fn (F := F) ids W = fun _ => 1#1) : Cert.Spec.InRange ids := by
  intro j
  -- the predicate at its one index is the `and` of the two reductions
  have h0 : IntOp.andi _ _ = 1#1 := congrFun h ValueIdx.ix0
  -- the second reduction is 1, so each of its operand's elements is
  have h2 : IntOp.andi _ _ = 1#1 := Host.reduce_andi_all _ _ _ _ _ (IntOp.andi_eq_one.1 h0).2 j
  obtain ⟨hge, hle⟩ := IntOp.andi_eq_one.1 h2
  exact toNat_lt_of_signed_bounds (ids j) (IntOp.cmpi_sge.1 hge) (IntOp.cmpi_sle.1 hle)

end Cert.PreRange
-- ==== Proof.RefRun.lean ====
/-
  The reference program as a straight line, and its run.

  The program reshapes the token ids to a flat array, calls the table lookup (whose body wraps negative indices,
  gathers table rows at the clamped indices, builds the in-range mask and selects between the gathered rows and a
  NaN fill), and reshapes the rows back. Once the calls are unfolded at their call sites it is a list of twenty-five
  tensor operations, each writing a buffer of its own; every fair execution therefore terminates with the result
  buffer at the composition `out` of those operations applied to the two arguments, and the arguments unchanged.
-/
import proofs.«206436_g50972671869147_cont_8to1c4_798_20_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F] [Cert.ReferenceIdeal.Facts]

/-- The program's twenty-five operations in order, the two calls unfolded: the flattening of the ids; the lookup's
    twenty-three (the sign test against a broadcast zero, the table height added, the select of the wrapped index,
    the index column, the two bounds tests and their conjunction reduced along the unit axis, the gather, the mask
    broadcast over the row, the NaN fill, the final select); the re-layout of the rows. -/
abbrev ops : List (HloOp τ sig (Elt F)) :=
  [ reshape main_arg0 main_v0 rfl shapeCasts_S4096x50_S204800,
    TRef.nullary main_call0.c (constantI S_ 32 0#32),
    TRef.unary main_call0.c main_call0.v0 (broadcastInDim S204800 ![] bcast_S_S204800),
    TRef.binary (.of main_v0) main_call0.v0 main_call0.v1 (cmpi .slt),
    TRef.nullary main_call0.c_0 (constantI S_ 32 100000#32),
    TRef.unary main_call0.c_0 main_call0.v2 (broadcastInDim S204800 ![] bcast_S_S204800),
    TRef.binary (.of main_v0) main_call0.v2 main_call0.v3 addi,
    TRef.ternary main_call0.v1 main_call0.v3 (.of main_v0) main_call0.call0.v0 select,
    TRef.unary main_call0.call0.v0 main_call0.v5 (broadcastInDim S204800x1 ![0] bcast_S204800_S204800x1_0),
    TRef.nullary main_call0.c_1 (constantI S1 32 99999#32),
    TRef.nullary main_call0.c_2 (constantI S_ 32 0#32),
    TRef.unary main_call0.c_2 main_call0.v6 (broadcastInDim S204800x1 ![] bcast_S_S204800x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S204800x1 ![0, 1] bcast_S1x1_S204800x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S204800x1_S204800_d1 h_S_),
    TRef.binary (.of main_arg1) main_call0.v5 main_call0.v13 (fun x i => Host.gather gather_S100000x128_S204800x1_S204800x128_1_0_n_n_0_1_1128 x i),
    TRef.unary main_call0.v12 main_call0.v14 (broadcastInDim S204800x128 ![0] bcast_S204800_S204800x128_0),
    TRef.nullary main_call0.cst (constant S_ .f32 0x7FC00000#32),
    TRef.unary main_call0.cst main_call0.v15 (broadcastInDim S204800x128 ![] bcast_S_S204800x128),
    TRef.ternary main_call0.v14 main_call0.v13 main_call0.v15 main_call0.v16 select,
    reshape main_v1 main_v2 rfl shapeCasts_S204800x128_S4096x50x128 ]

-- twenty-five binds re-associated
set_option maxRecDepth 1024 in
/-- The program is that straight line: the two functions' bodies substituted at their calls, the sequencing
    re-associated. -/
theorem main_eq (c : Dev nD) : main (F := F) c = seq ops := by
  simp only [main, fn_take.body, fn_where.body, seq, bind_assoc, pure_bind]

/-! ## What the operations compose to -/

/-- The index with a negative value wrapped once round the table: `v + 100000` where `v < 0` as a signed word,
    else `v`. -/
def wrap (v : IVec S204800 32) : IVec S204800 32 :=
  select (cmpi .slt v (broadcastInDim S204800 ![] bcast_S_S204800 (constantI S_ 32 0#32)))
    (addi v (broadcastInDim S204800 ![] bcast_S_S204800 (constantI S_ 32 100000#32))) v

/-- The wrapped indices as a column: the start indices of the gather. -/
def col (v : IVec S204800 32) : IVec S204800x1 32 :=
  broadcastInDim S204800x1 ![0] bcast_S204800_S204800x1_0 (wrap v)

/-- The in-range mask: per row, `0 ≤ index ≤ 99999` as signed words, reduced by `and` along the unit axis. -/
def mask (v : IVec S204800 32) : IVec S204800 1 :=
  Host.reduce IntOp.andi
    (andi (cmpi .sge (col v) (broadcastInDim S204800x1 ![] bcast_S_S204800x1 (constantI S_ 32 0#32)))
      (cmpi .sle (col v)
        (broadcastInDim S204800x1 ![0, 1] bcast_S1x1_S204800x1_0_1
          (broadcastInDim S1x1 ![1] bcast_S1_S1x1_1 (constantI S1 32 99999#32)))))
    (constantI S_ 1 1#1) reducesTo_S204800x1_S204800_d1 h_S_

/-- The looked-up rows: the table gathered at the wrapped indices where the mask holds, the NaN fill elsewhere. -/
def rows (v : IVec S204800 32) (W : FVec F S100000x128 .f32) : FVec F S204800x128 .f32 :=
  select (broadcastInDim S204800x128 ![0] bcast_S204800_S204800x128_0 (mask v))
    (Host.gather gather_S100000x128_S204800x1_S204800x128_1_0_n_n_0_1_1128 W (col v))
    (broadcastInDim S204800x128 ![] bcast_S_S204800x128 (constant S_ .f32 0x7FC00000#32))

/-- The program's result from its two arguments: the ids flattened, the rows looked up, the rows re-laid out. -/
def out (ids : IVec S4096x50 32) (W : FVec F S100000x128 .f32) : FVec F S4096x50x128 .f32 :=
  shapeCast S4096x50x128 (rows (shapeCast S204800 ids shapeCasts_S4096x50_S204800) W) shapeCasts_S204800x128_S4096x50x128

attribute [local irreducible] Host.reduce Host.gather in
set_option maxRecDepth 8192 in
/-- The fold of the operations at the result buffer is `out` of the arguments' contents: the fold unrolled, each
    operation's result rewritten at the buffer it writes to its function's value and left alone at any other buffer;
    what remains differs from `out` by transports along equations that are `rfl` at these literal buffers. The
    reduction and the gather are kept folded meanwhile (the equation never looks inside them). -/
theorem out_eq (V : Valuation τ sig (Elt F)) :
    after ops V (main_v2 : DevRef τ sig) = out (V (main_arg0 : DevRef τ sig)) (V (main_arg1 : DevRef τ sig)) := by
  after_results_simp
  rfl

/-- No operation writes the first argument. -/
theorem arg0_eq (V : Valuation τ sig (Elt F)) :
    after ops V (main_arg0 : DevRef τ sig) = V (main_arg0 : DevRef τ sig) := by
  after_results_simp

/-- No operation writes the second argument. -/
theorem arg1_eq (V : Valuation τ sig (Elt F)) :
    after ops V (main_arg1 : DevRef τ sig) = V (main_arg1 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    reshape_bufs_sub ..⟩

/-- For any float values, from any memory with zero counters: every weakly fair execution of the program terminates
    with the result buffer at `out` of the two arguments' launch contents and both arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefValue

end
-- ==== Proof.RefValue.lean ====
/-
  The reference's result is the embedding lookup.

  Under the precondition every token id v satisfies 0 ≤ v < 100000 as a signed word. Then the wrap of negative
  indices leaves v unchanged, the in-range mask is 1 in every row, the final select keeps the gathered row, and the
  gather's clamp of v to the table's rows is the row v names. The two re-layouts send entry (b, j, l) of the result
  through row b · 50 + j of the flat arrays, so entry (b, j, l) is entry l of the table row of token (b, j).
-/
import proofs.«206436_g50972671869147_cont_8to1c4_798_20_alg».proof.Proof.RefRun
import proofs.«206436_g50972671869147_cont_8to1c4_798_20_alg».proof.Proof.Spec
import Idealize.ShloMosaic.Lib.Pipeline.Value
import Idealize.ShloMosaic.Lib.Affine

noncomputable section

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo

/-! ## Words -/

/-- A word below 100000 read unsigned is the same number read signed. -/
theorem toInt_of_lt (x : BitVec 32) (h : x.toNat < 100000) : x.toInt = (x.toNat : Int) := by
  rw [BitVec.toInt_eq_toNat_cond]
  split
  · rfl
  · omega

/-- Such a word is not negative: the sign test against 0 is the bit 0. -/
theorem slt_zero_of_lt (x : BitVec 32) (h : x.toNat < 100000) : IntOp.cmpi .slt x 0#32 = 0#1 := by
  refine eq_zero_of_ne_one fun e => ?_
  have h1 := IntOp.cmpi_slt.1 e
  rw [toInt_of_lt x h, show (0#32 : BitVec 32).toInt = 0 from by decide] at h1
  omega

/-- Such a word passes both bounds tests. -/
theorem bounds_of_lt (x : BitVec 32) (h : x.toNat < 100000) :
    IntOp.andi (IntOp.cmpi .sge x 0#32) (IntOp.cmpi .sle x 99999#32) = 1#1 := by
  refine IntOp.andi_eq_one.2 ⟨IntOp.cmpi_sge.2 ?_, IntOp.cmpi_sle.2 ?_⟩
  · rw [toInt_of_lt x h, show (0#32 : BitVec 32).toInt = 0 from by decide]; omega
  · rw [toInt_of_lt x h, show (99999#32 : BitVec 32).toInt = 99999 from by decide]; omega

/-- The clamp the gather applies to a start index is the row that index names. -/
theorem row_congr {x y : BitVec 32} (h : x = y) (p : min x.toInt.toNat 99999 < 100000) :
    (⟨min x.toInt.toNat 99999, p⟩ : Fin 100000) = Cert.Spec.row y := by
  subst h; rfl

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_one f l fun n hn => h n (List.mem_cons_of_mem _ hn)

/-- A reduction by `and` of an array of ones, from the initial value 1, is 1 at every index. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_one (fun n => x (s.rowMajor.symm n)) _ fun n _ => hx _

/-! ## The gather of table rows, read at an index -/

section Gather
variable {α : Type}

/-- The gather's dimension numbers: the operand `[100000, 128]`, the start indices a column `[204800, 1]`, whole rows
    of 128 taken, the row axis collapsed. -/
abbrev rowDims (wf : GatherDims.WF S100000x128 S204800x1 S204800x128 [1] [0] [] [0] [] 1 ![1, 128]) :
    GatherDims S100000x128 S204800x1 S204800x128 where
  offsetDims := [1]
  collapsedSliceDims := [0]
  operandBatchingDims := []
  startIndicesBatchingDims := []
  startIndexMap := [0]
  indexVectorDim := 1
  sliceSizes := ![1, 128]
  wf := wf

/-- THE GATHER READ AT `(r, l)`: entry `l` of the table row at the start index `idx[r, 0]`, read signed and clamped
    to the table's rows. -/
theorem gather_row_apply (wf : GatherDims.WF S100000x128 S204800x1 S204800x128 [1] [0] [] [0] [] 1 ![1, 128])
    (x : S100000x128.Idx → α) (idx : IVec S204800x1 32) (r : Fin 204800) (l : Fin 128) :
    Host.gather (rowDims wf) x idx (ix2 r l)
      = x (ix2 (n0 := 100000) (n1 := 128) ⟨min (idx (ix2 r (0 : Fin 1))).toInt.toNat 99999, by omega⟩ l) := by
  unfold Host.gather
  congr 1
  funext a
  refine Fin.ext ?_
  match a with
  | ⟨0, _⟩ =>
    show (rowDims wf).start (ix2 r l) idx 0 + (rowDims wf).batchCoord (ix2 r l) 0 + (rowDims wf).offCoord (ix2 r l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hsi : (rowDims wf).siIdx (ix2 r l) ⟨List.idxOf (0 : Fin 2) (rowDims wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims wf).start (ix2 r l) idx 1 + (rowDims wf).batchCoord (ix2 r l) 1 + (rowDims wf).offCoord (ix2 r l) 1 = l.val
    rw [GatherDims.batchCoord_eq_zero _ _ _ List.not_mem_nil]
    have hs : (rowDims wf).start (ix2 r l) idx 1 = 0 := by
      unfold GatherDims.start
      rw [dif_neg (show ¬ (1 : Fin 2) ∈ ([0] : List (Fin 2)) from by decide)]
    rw [hs]
    simp only [Nat.add_zero, Nat.zero_add]
    rfl

end Gather

/-! ## The lookup's pieces on indices in range -/

section Pieces
variable {F : FTy → Type} [FloatOps F] [Cert.ReferenceIdeal.Facts]

/-- Indices in range are not wrapped. -/
theorem wrap_of_lt (v : IVec S204800 32) (hv : ∀ k, (v k).toNat < 100000) : wrap v = v := by
  funext k
  show Scalar.select (IntOp.cmpi .slt (v k) 0#32) (IntOp.addi (v k) 100000#32) (v k) = v k
  rw [slt_zero_of_lt _ (hv k), select_zero]

/-- The index column read at `(r, 0)` is the index of row `r`. -/
theorem col_apply (v : IVec S204800 32) (hv : ∀ k, (v k).toNat < 100000) (i : S204800x1.Idx) :
    col v i = v (ix1 (i 0)) := by
  unfold col
  rw [wrap_of_lt v hv]
  exact broadcastInDim_apply _ _ _ _ (ix1 (i 0)) fun a => match a with | ⟨0, _⟩ => rfl

/-- On indices in range the mask is 1 in every row. -/
theorem mask_of_lt (v : IVec S204800 32) (hv : ∀ k, (v k).toNat < 100000) (k : S204800.Idx) : mask v k = 1#1 := by
  unfold mask
  refine reduce_andi_of_all _ _ _ _ (fun i => ?_) (fun _ => rfl) k
  show IntOp.andi (IntOp.cmpi .sge (col v i) 0#32) (IntOp.cmpi .sle (col v i) 99999#32) = 1#1
  rw [col_apply v hv i]
  exact bounds_of_lt _ (hv _)

/-- On indices in range, row `r` of the looked-up rows is the table row the index of row `r` names. -/
theorem rows_apply (v : IVec S204800 32) (W : FVec F S100000x128 .f32) (hv : ∀ k, (v k).toNat < 100000)
    (r : Fin 204800) (l : Fin 128) :
    rows v W (ix2 r l) = W (ix2 (Cert.Spec.row (v (ix1 r))) l) := by
  unfold rows
  rw [select_apply]
  have hm : broadcastInDim S204800x128 ![0] bcast_S204800_S204800x128_0 (mask v) (ix2 r l) = 1#1 := mask_of_lt v hv _
  rw [hm, select_one]
  refine (gather_row_apply _ W (col v) r l).trans ?_
  have hc : col v (ix2 r (0 : Fin 1)) = v (ix1 r) := col_apply v hv _
  exact congrArg (fun q => W (ix2 q l)) (row_congr hc _)

end Pieces

/-! ## The result is the lookup -/

section Final
variable {F : FTy → Type} [FloatOps F] [Cert.ReferenceIdeal.Facts]

/-- The flattened ids at row `b · 50 + j` are the id of token `(b, j)`. -/
theorem flat_apply (ids : IVec S4096x50 32) (b : Fin 4096) (j : Fin 50) (h : b.val * 50 + j.val < 204800) :
    shapeCast S204800 ids shapeCasts_S4096x50_S204800 (ix1 ⟨b.val * 50 + j.val, h⟩) = ids (ix2 b j) :=
  shapeCast_apply _ _ _ (ix2 b j) (by
    rw [Shape.rowMajor_val_two, Shape.rowMajor_val_one]
    rfl)

/-- Under the precondition the program's result is the embedding lookup: entry `(b, j, l)` is read through row
    `b · 50 + j` of the looked-up rows, which is the table row the id of token `(b, j)` names. -/
theorem out_eq_lookup (ids : IVec S4096x50 32) (W : FVec F S100000x128 .f32) (hpre : Cert.Spec.InRange ids) :
    out ids W = Cert.Spec.lookup ids W := by
  funext i
  obtain ⟨b, j, l, rfl⟩ : ∃ b j l, i = ix3 b j l := ⟨i 0, i 1, i 2, eq_ix3 i⟩
  have hr : b.val * 50 + j.val < 204800 := by
    have := b.isLt
    have := j.isLt
    omega
  have hv : ∀ k, ((shapeCast S204800 ids shapeCasts_S4096x50_S204800) k).toNat < 100000 := fun k => hpre _
  unfold out
  refine (shapeCast_apply _ _ (ix3 b j l) (ix2 (n0 := 204800) (n1 := 128) ⟨b.val * 50 + j.val, hr⟩ l) (by
    rw [Shape.rowMajor_val_two, Shape.rowMajor_val_three]
    rfl)).trans ?_
  rw [rows_apply _ W hv, flat_apply ids b j hr]
  rfl

/-- For any float values: from a memory whose token ids are all in range, every weakly fair execution of the
    reference terminates with the result buffer at the embedding lookup of the two arguments' launch contents, and
    both arguments unchanged. -/
theorem run_any (m : (ℓ : Loc nD τ sig) → Buf (Elt F) ℓ) (ρ : Dev nD → PrngReg)
    (hpre : ∀ c : Dev nD, Cert.Spec.InRange (m ((c.tc : Thread nD τ).loc main_arg0))) :
    θ_run (defs (F := F)) (onTc (τ := τ) (main (F := F))) ⟨m, fun _ => 0, ρ⟩ (fun r => ∀ c : Dev nD,
        r.2.mem ((c.tc : Thread nD τ).loc main_v2)
          = Cert.Spec.lookup (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c).1.trans (out_eq_lookup _ _ (hpre c)), (h c).2⟩) (run_out m ρ)

end Final

/-- The same at the ideal reading of the floats. -/
theorem run [Cert.ReferenceIdeal.Facts] (m : (ℓ : Loc Cert.ReferenceIdeal.nD Cert.ReferenceIdeal.τ Cert.ReferenceIdeal.sig) → Buf (Elt Ideal) ℓ) (ρ : Dev Cert.ReferenceIdeal.nD → PrngReg)
    (hpre : ∀ c : Dev Cert.ReferenceIdeal.nD, Cert.Spec.InRange (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
        r.2.mem ((c.tc : Thread Cert.ReferenceIdeal.nD Cert.ReferenceIdeal.τ).loc Cert.ReferenceIdeal.main_v2)
          = Cert.Spec.lookup (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  run_any (F := Ideal) m ρ hpre

end Cert.ReferenceIdeal.RefValue

end
-- ==== Proof.KIDefs.lean ====
/-
  The vocabulary of the kernel's frame and value proof for `Cert.KernelIdeal`: the program as the launch theorem sees it,
  the arrays and scratch buffers as a tile addresses them, and the pure contents the proof speaks of — what the index
  scratch holds once the tile's columns of the transposed ids are fetched, the table rows one offset list names, the
  offsets of the tile's blocks of result rows.
-/
import proofs.«206436_g50972671869147_cont_8to1c4_798_20_alg».proof.Defs
import proofs.«206436_g50972671869147_cont_8to1c4_798_20_alg».proof.Proof.Spec
import Idealize.ShloMosaic.Lib.SparseCore.Launch
import Idealize.ShloMosaic.Lib.SparseCore.Ops
import Idealize.ShloMosaic.Lib.SparseCore.Stream
import Idealize.ShloMosaic.Lib.SparseCore.Scatter
import Idealize.ShloMosaic.Lib.StableHlo.Run
import Idealize.ShloMosaic.Lib.Pipeline.Kit
import Idealize.ShloMosaic.Lib.Tactic
import proofs.«206436_g50972671869147_cont_8to1c4_798_20_alg».proof.Proof.Gen.KernelIdeal
import proofs.«206436_g50972671869147_cont_8to1c4_798_20_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch, as the tiles address them -/

abbrev aLoc (d : Dev nD) : Loc nD τ sig := (SparseCore.T d).loc main_arg0
abbrev wLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

local notation "tV" => (Memref.whole Cert.KernelIdeal.main_v0_scv : Memref Cert.KernelIdeal.sig Kind.scVector Space.hbm Cert.KernelIdeal.S50x4096 EltTy.i32)
local notation "wV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S50x128 EltTy.i32)
local notation "b1V" => (Memref.whole Cert.KernelIdeal.cc0_scratch1 : Memref Cert.KernelIdeal.sig Kind.scVector Space.vmem Cert.KernelIdeal.S128x128 EltTy.f32)
local notation "b2V" => (Memref.whole Cert.KernelIdeal.cc0_scratch2 : Memref Cert.KernelIdeal.sig Kind.scVector Space.vmem Cert.KernelIdeal.S128x128 EltTy.f32)
local notation "b3V" => (Memref.whole Cert.KernelIdeal.cc0_scratch3 : Memref Cert.KernelIdeal.sig Kind.scVector Space.vmem Cert.KernelIdeal.S128x128 EltTy.f32)
local notation "b4V" => (Memref.whole Cert.KernelIdeal.cc0_scratch4 : Memref Cert.KernelIdeal.sig Kind.scVector Space.vmem Cert.KernelIdeal.S128x128 EltTy.f32)
local notation "b5V" => (Memref.whole Cert.KernelIdeal.cc0_scratch5 : Memref Cert.KernelIdeal.sig Kind.scVector Space.vmem Cert.KernelIdeal.S128x128 EltTy.f32)

/-! ## One tile's task -/

section Tile

variable [FloatOps F]
variable (d : Dev nD) (L : grid0.Coords)

abbrev cV (L : grid0.Coords) : Fin τ.nSC := (L 0).castLE hcore0
abbrev jV (L : grid0.Coords) : Fin τ.nSub := (L 1).castLE hsub0

/-- The tile's 128 columns of the transposed ids, the whole table, as the task addresses them. -/
abbrev tBlkK (L : grid0.Coords) : Memref sig .scVector .hbm S50x128 .i32 :=
  (tV).slice (Rect.unit (s := S50x4096) (k0_off1 L) S50x128.size (k0_off1_inb L)) (fun _ => rfl)
abbrev wAllK : Memref sig .scVector .hbm S100000x128 .f32 :=
  (wV).slice (Rect.unit (s := S100000x128) ![0, 0] S100000x128.size inb_S100000x128_S100000x128_0_0) (fun _ => rfl)

abbrev cG1 (d : Dev nD) (c : Fin τ.nSC) (i : Fin τ.nSub) : GSem nD τ sig := (V d c i, .dma cc0_scratch6.sem)
abbrev cG2 (d : Dev nD) (c : Fin τ.nSC) (i : Fin τ.nSub) : GSem nD τ sig := (V d c i, .dma cc0_scratch7.sem)
abbrev cG3 (d : Dev nD) (c : Fin τ.nSC) (i : Fin τ.nSub) : GSem nD τ sig := (V d c i, .dma cc0_scratch8.sem)
abbrev cG4 (d : Dev nD) (c : Fin τ.nSC) (i : Fin τ.nSub) : GSem nD τ sig := (V d c i, .dma cc0_scratch9.sem)
abbrev cG5 (d : Dev nD) (c : Fin τ.nSC) (i : Fin τ.nSub) : GSem nD τ sig := (V d c i, .dma cc0_scratch10.sem)
abbrev cS1 (d : Dev nD) (c : Fin τ.nSC) (i : Fin τ.nSub) : GSem nD τ sig := (V d c i, .dma cc0_scratch11.sem)
abbrev cS2 (d : Dev nD) (c : Fin τ.nSC) (i : Fin τ.nSub) : GSem nD τ sig := (V d c i, .dma cc0_scratch12.sem)
abbrev cS3 (d : Dev nD) (c : Fin τ.nSC) (i : Fin τ.nSub) : GSem nD τ sig := (V d c i, .dma cc0_scratch13.sem)
abbrev cS4 (d : Dev nD) (c : Fin τ.nSC) (i : Fin τ.nSub) : GSem nD τ sig := (V d c i, .dma cc0_scratch14.sem)
abbrev cS5 (d : Dev nD) (c : Fin τ.nSC) (i : Fin τ.nSub) : GSem nD τ sig := (V d c i, .dma cc0_scratch15.sem)
abbrev cX (d : Dev nD) (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cG1 d (cV L) (jV L)) 0 ∗ semVal (cG2 d (cV L) (jV L)) 0 ∗ semVal (cG3 d (cV L) (jV L)) 0 ∗ semVal (cG4 d (cV L) (jV L)) 0 ∗ semVal (cG5 d (cV L) (jV L)) 0 ∗ semVal (cS1 d (cV L) (jV L)) 0 ∗ semVal (cS2 d (cV L) (jV L)) 0 ∗ semVal (cS3 d (cV L) (jV L)) 0 ∗ semVal (cS4 d (cV L) (jV L)) 0 ∗ semVal (cS5 d (cV L) (jV L)) 0 ∗ semVal (cX d (cV L) (jV L)) 0
          ∗ bigSep ((((((((((((ownCells (V d (cV L) (jV L))).erase (cG1 d (cV L) (jV L))).erase (cG2 d (cV L) (jV L))).erase (cG3 d (cV L) (jV L))).erase (cG4 d (cV L) (jV L))).erase (cG5 d (cV L) (jV L))).erase (cS1 d (cV L) (jV L))).erase (cS2 d (cV L) (jV L))).erase (cS3 d (cV L) (jV L))).erase (cS4 d (cV L) (jV L))).erase (cS5 d (cV L) (jV L))).erase (cX d (cV L) (jV L))) fun g => semVal g 0) := by
  unfold SparseCore.Cfg.ownSems0
  rw [SparseCore.bigSep_erase' ((mem_ownCells (g := (cG1 d (cV L) (jV L)))).mpr ⟨rfl, by show (SemLoc.dma cc0_scratch6.sem : SemLoc sig).isScoped .scVector = true; decide⟩),
    SparseCore.bigSep_erase' (Finset.mem_erase.mpr ⟨by simp [cG1, cG2]; decide, (mem_ownCells (g := (cG2 d (cV L) (jV L)))).mpr ⟨rfl, by show (SemLoc.dma cc0_scratch7.sem : SemLoc sig).isScoped .scVector = true; decide⟩⟩),
    SparseCore.bigSep_erase' (Finset.mem_erase.mpr ⟨by simp [cG2, cG3]; decide, Finset.mem_erase.mpr ⟨by simp [cG1, cG3]; decide, (mem_ownCells (g := (cG3 d (cV L) (jV L)))).mpr ⟨rfl, by show (SemLoc.dma cc0_scratch8.sem : SemLoc sig).isScoped .scVector = true; decide⟩⟩⟩),
    SparseCore.bigSep_erase' (Finset.mem_erase.mpr ⟨by simp [cG3, cG4]; decide, Finset.mem_erase.mpr ⟨by simp [cG2, cG4]; decide, Finset.mem_erase.mpr ⟨by simp [cG1, cG4]; decide, (mem_ownCells (g := (cG4 d (cV L) (jV L)))).mpr ⟨rfl, by show (SemLoc.dma cc0_scratch9.sem : SemLoc sig).isScoped .scVector = true; decide⟩⟩⟩⟩),
    SparseCore.bigSep_erase' (Finset.mem_erase.mpr ⟨by simp [cG4, cG5]; decide, Finset.mem_erase.mpr ⟨by simp [cG3, cG5]; decide, Finset.mem_erase.mpr ⟨by simp [cG2, cG5]; decide, Finset.mem_erase.mpr ⟨by simp [cG1, cG5]; decide, (mem_ownCells (g := (cG5 d (cV L) (jV L)))).mpr ⟨rfl, by show (SemLoc.dma cc0_scratch10.sem : SemLoc sig).isScoped .scVector = true; decide⟩⟩⟩⟩⟩),
    SparseCore.bigSep_erase' (Finset.mem_erase.mpr ⟨by simp [cG5, cS1]; decide, Finset.mem_erase.mpr ⟨by simp [cG4, cS1]; decide, Finset.mem_erase.mpr ⟨by simp [cG3, cS1]; decide, Finset.mem_erase.mpr ⟨by simp [cG2, cS1]; decide, Finset.mem_erase.mpr ⟨by simp [cG1, cS1]; decide, (mem_ownCells (g := (cS1 d (cV L) (jV L)))).mpr ⟨rfl, by show (SemLoc.dma cc0_scratch11.sem : SemLoc sig).isScoped .scVector = true; decide⟩⟩⟩⟩⟩⟩),
    SparseCore.bigSep_erase' (Finset.mem_erase.mpr ⟨by simp [cS1, cS2]; decide, Finset.mem_erase.mpr ⟨by simp [cG5, cS2]; decide, Finset.mem_erase.mpr ⟨by simp [cG4, cS2]; decide, Finset.mem_erase.mpr ⟨by simp [cG3, cS2]; decide, Finset.mem_erase.mpr ⟨by simp [cG2, cS2]; decide, Finset.mem_erase.mpr ⟨by simp [cG1, cS2]; decide, (mem_ownCells (g := (cS2 d (cV L) (jV L)))).mpr ⟨rfl, by show (SemLoc.dma cc0_scratch12.sem : SemLoc sig).isScoped .scVector = true; decide⟩⟩⟩⟩⟩⟩⟩),
    SparseCore.bigSep_erase' (Finset.mem_erase.mpr ⟨by simp [cS2, cS3]; decide, Finset.mem_erase.mpr ⟨by simp [cS1, cS3]; decide, Finset.mem_erase.mpr ⟨by simp [cG5, cS3]; decide, Finset.mem_erase.mpr ⟨by simp [cG4, cS3]; decide, Finset.mem_erase.mpr ⟨by simp [cG3, cS3]; decide, Finset.mem_erase.mpr ⟨by simp [cG2, cS3]; decide, Finset.mem_erase.mpr ⟨by simp [cG1, cS3]; decide, (mem_ownCells (g := (cS3 d (cV L) (jV L)))).mpr ⟨rfl, by show (SemLoc.dma cc0_scratch13.sem : SemLoc sig).isScoped .scVector = true; decide⟩⟩⟩⟩⟩⟩⟩⟩),
    SparseCore.bigSep_erase' (Finset.mem_erase.mpr ⟨by simp [cS3, cS4]; decide, Finset.mem_erase.mpr ⟨by simp [cS2, cS4]; decide, Finset.mem_erase.mpr ⟨by simp [cS1, cS4]; decide, Finset.mem_erase.mpr ⟨by simp [cG5, cS4]; decide, Finset.mem_erase.mpr ⟨by simp [cG4, cS4]; decide, Finset.mem_erase.mpr ⟨by simp [cG3, cS4]; decide, Finset.mem_erase.mpr ⟨by simp [cG2, cS4]; decide, Finset.mem_erase.mpr ⟨by simp [cG1, cS4]; decide, (mem_ownCells (g := (cS4 d (cV L) (jV L)))).mpr ⟨rfl, by show (SemLoc.dma cc0_scratch14.sem : SemLoc sig).isScoped .scVector = true; decide⟩⟩⟩⟩⟩⟩⟩⟩⟩),
    SparseCore.bigSep_erase' (Finset.mem_erase.mpr ⟨by simp [cS4, cS5]; decide, Finset.mem_erase.mpr ⟨by simp [cS3, cS5]; decide, Finset.mem_erase.mpr ⟨by simp [cS2, cS5]; decide, Finset.mem_erase.mpr ⟨by simp [cS1, cS5]; decide, Finset.mem_erase.mpr ⟨by simp [cG5, cS5]; decide, Finset.mem_erase.mpr ⟨by simp [cG4, cS5]; decide, Finset.mem_erase.mpr ⟨by simp [cG3, cS5]; decide, Finset.mem_erase.mpr ⟨by simp [cG2, cS5]; decide, Finset.mem_erase.mpr ⟨by simp [cG1, cS5]; decide, (mem_ownCells (g := (cS5 d (cV L) (jV L)))).mpr ⟨rfl, by show (SemLoc.dma cc0_scratch15.sem : SemLoc sig).isScoped .scVector = true; decide⟩⟩⟩⟩⟩⟩⟩⟩⟩⟩),
    SparseCore.bigSep_erase' (Finset.mem_erase.mpr ⟨by simp [cS5, cX]; decide, Finset.mem_erase.mpr ⟨by simp [cS4, cX]; decide, Finset.mem_erase.mpr ⟨by simp [cS3, cX]; decide, Finset.mem_erase.mpr ⟨by simp [cS2, cX]; decide, Finset.mem_erase.mpr ⟨by simp [cS1, cX]; decide, Finset.mem_erase.mpr ⟨by simp [cG5, cX]; decide, Finset.mem_erase.mpr ⟨by simp [cG4, cX]; decide, Finset.mem_erase.mpr ⟨by simp [cG3, cX]; decide, Finset.mem_erase.mpr ⟨by simp [cG2, cX]; decide, Finset.mem_erase.mpr ⟨by simp [cG1, cX]; decide, (mem_ownCells (g := (cX d (cV L) (jV L)))).mpr ⟨rfl, by show (SemLoc.dma cc0_scoped0.sem : SemLoc sig).isScoped .scVector = true; decide⟩⟩⟩⟩⟩⟩⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩)]

abbrev tBlkPts (d : Dev nD) (L : grid0.Coords) (it : Buf (Elt F) (tLoc d)) : sProp 𝕄 := tLoc d ↦[(tBlkK L).view.set]{fullShare} it
abbrev wPts (d : Dev nD) (q : PosShare TreeShare) (fw : Buf (Elt F) (wLoc d)) : sProp 𝕄 := wLoc d ↦{q} fw

/-- Row `off 0` of the index scratch as a 128-entry offset list, as the task slices it. -/
abbrev rowK (off : Fin 2 → Nat) (h : ∀ a, off a + S1x128.size a ≤ S50x128.size a) : Memref sig .scVector .vmem S128 .i32 :=
  ((sV).slice (Rect.unit (s := S50x128) off S1x128.size h) (fun _ => rfl)).squeeze S128 squeezes_S1x128_S128

/-- What the index scratch holds once the tile's columns of the transposed ids are fetched. -/
abbrev fiK (d : Dev nD) (L : grid0.Coords) (it : Buf (Elt F) (tLoc d)) : Buf (Elt F) ((V d (cV L) (jV L)).loc cc0_scratch0) :=
  (tBlkK L).view.read (Elt F) it

/-- Every id the scratch holds names a row of the table, when every id of the array does. -/
theorem hinOff (it : Buf (Elt F) (tLoc d)) (hit : ∀ y, (it y).toNat < 100000) (off : Fin 2 → Nat) (h : ∀ a, off a + S1x128.size a ≤ S50x128.size a) :
    ∀ x, ((rowK off h).view.read (Elt F) (fiK d L it) x).toNat < S100000x128.size gathers_S100000x128_S128x128.axis := by
  intro x
  rw [show ∀ j, (rowK off h).view.read (Elt F) (fiK d L it) j = fiK d L it ((rowK off h).view.emb j) from fun j => (View.read_apply _ _).trans (cast_eq _ _)]
  unfold fiK
  rw [show ∀ j, (tBlkK L).view.read (Elt F) it j = it ((tBlkK L).view.emb j) from fun j => (View.read_apply _ _).trans (cast_eq _ _)]
  exact hit _

/-- The rows of the table one offset list names, laid out as a [128, 128] block. -/
abbrev gatOff (it : Buf (Elt F) (tLoc d)) (fw : Buf (Elt F) (wLoc d)) (hit : ∀ y, (it y).toNat < 100000) (off : Fin 2 → Nat) (h : ∀ a, off a + S1x128.size a ≤ S50x128.size a) :
    S128x128.Idx → Elt F .f32 :=
  SparseCore.gatherPayload gathers_S100000x128_S128x128 ((wAllK).view.read (Elt F) fw)
    (SparseCore.rows ((rowK off h).view.read (Elt F) (fiK d L it)) rfl (hinOff d L it hit off h))

/-- The offsets of row `j` of the index scratch, and of the tile's block of result rows for sequence position `j`. -/
abbrev rowOffC (j : ℕ) : Fin 2 → ℕ := ![j, 0]
theorem hrowC (j : ℕ) (hj : j < 50) : ∀ a, rowOffC j a + S1x128.size a ≤ S50x128.size a := by
  intro a
  match a with
  | ⟨0, _⟩ => show j + 1 ≤ 50; omega
  | ⟨1, _⟩ => show 0 + 128 ≤ 128; omega
abbrev oOffC (L : grid0.Coords) (j : ℕ) : Fin 2 → ℕ := ![4096 * j + 256 * (L 1).val + 128 * (L 0).val, 0]
theorem hoC (L : grid0.Coords) (j : ℕ) (hj : j < 50) : ∀ a, oOffC L j a + S128x128.size a ≤ S204800x128.size a := by
  intro a
  have h1 : (L 1).val < 16 := (L 1).isLt
  have h0 : (L 0).val < 2 := (L 0).isLt
  match a with
  | ⟨0, _⟩ => show 4096 * j + 256 * (L 1).val + 128 * (L 0).val + 128 ≤ 204800; omega
  | ⟨1, _⟩ => show 0 + 128 ≤ 128; omega
abbrev oBlkO (off : Fin 2 → ℕ) (h : ∀ a, off a + S128x128.size a ≤ S204800x128.size a) : Memref sig .scVector .hbm S128x128 .f32 :=
  (oV).slice (Rect.unit (s := S204800x128) off S128x128.size h) (fun _ => rfl)
abbrev oSetC (L : grid0.Coords) (j : ℕ) (hj : j < 50) : Finset S204800x128.Idx := (oBlkO (oOffC L j) (hoC L j hj)).view.set

omit [FloatOps F] in
theorem oSet_congr {off off' : Fin 2 → ℕ} (h : ∀ a, off a + S128x128.size a ≤ S204800x128.size a) (h' : ∀ a, off' a + S128x128.size a ≤ S204800x128.size a) (e : off = off') :
    (oBlkO off h).view.set = (oBlkO off' h').view.set := by subst e; rfl

theorem gatOff_congr (it : Buf (Elt F) (tLoc d)) (fw : Buf (Elt F) (wLoc d)) (hit : ∀ y, (it y).toNat < 100000) {off off' : Fin 2 → ℕ}
    (h : ∀ a, off a + S1x128.size a ≤ S50x128.size a) (h' : ∀ a, off' a + S1x128.size a ≤ S50x128.size a) (e : off = off') :
    gatOff d L it fw hit off h = gatOff d L it fw hit off' h' := by subst e; rfl

/-- Slot 1's gather, delivered: its row buffer holds the table rows the list names, and the slot's read shares of the table and of the index scratch are back. -/
abbrev gatD1 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) : sProp 𝕄 :=
  iprop(((V d (cV L) (jV L)).loc cc0_scratch1 ↦{fullShare} gatOff d L it fw hit off h) ∗ (wLoc d ↦{qw} fw) ∗ ((V d (cV L) (jV L)).loc cc0_scratch0 ↦{qs} fiK d L it))

theorem gat_join1 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) (fb : Buf (Elt F) ((V d (cV L) (jV L)).loc cc0_scratch1)) :
    iprop(((wLoc d ↦[Finset.univ \ (wAllK).view.set]{qw} fw) ∗ ((V d (cV L) (jV L)).loc cc0_scratch0 ↦[Finset.univ \ (rowK off h).view.set]{qs} fiK d L it))
        ∗ ((b1V).view.loc (V d (cV L) (jV L)) ↦[(b1V).view.set]{fullShare} View.write (Elt F) (b1V).view fb (gatOff d L it fw hit off h) Finset.univ)
        ∗ ((wAllK).view.loc (V d (cV L) (jV L)) ↦[(wAllK).view.set]{qw} fw)
        ∗ ((rowK off h).view.loc (V d (cV L) (jV L)) ↦[(rowK off h).view.set]{qs} fiK d L it))
      ⊢ gatD1 d L it fw hit qw qs off h := by
  have hbs : (b1V).view.set = Finset.univ := View.set_whole _
  iintro ⟨⟨Hwr, Hsr⟩, Hd, Hws, Hss⟩
  isplitl [Hd]
  · iapply (Entails.of_eq (show ((b1V).view.loc (V d (cV L) (jV L)) ↦[(b1V).view.set]{fullShare} View.write (Elt F) (b1V).view fb (gatOff d L it fw hit off h) Finset.univ : sProp 𝕄)
      = ((V d (cV L) (jV L)).loc cc0_scratch1 ↦{fullShare} gatOff d L it fw hit off h) by rw [hbs, View.write_whole_univ])) $$ Hd
  isplitl [Hws Hwr]
  · iapply (pointsTo_split_subset (q := qw) (f := fw) (S := Finset.univ) (Finset.subset_univ (wAllK).view.set)).2
    isplitl [Hws] <;> iassumption
  · iapply (pointsTo_split_subset (q := qs) (f := fiK d L it) (S := Finset.univ) (Finset.subset_univ (rowK off h).view.set)).2
    isplitl [Hss] <;> iassumption

/-- Slot 2's gather, delivered: its row buffer holds the table rows the list names, and the slot's read shares of the table and of the index scratch are back. -/
abbrev gatD2 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) : sProp 𝕄 :=
  iprop(((V d (cV L) (jV L)).loc cc0_scratch2 ↦{fullShare} gatOff d L it fw hit off h) ∗ (wLoc d ↦{qw} fw) ∗ ((V d (cV L) (jV L)).loc cc0_scratch0 ↦{qs} fiK d L it))

theorem gat_join2 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) (fb : Buf (Elt F) ((V d (cV L) (jV L)).loc cc0_scratch2)) :
    iprop(((wLoc d ↦[Finset.univ \ (wAllK).view.set]{qw} fw) ∗ ((V d (cV L) (jV L)).loc cc0_scratch0 ↦[Finset.univ \ (rowK off h).view.set]{qs} fiK d L it))
        ∗ ((b2V).view.loc (V d (cV L) (jV L)) ↦[(b2V).view.set]{fullShare} View.write (Elt F) (b2V).view fb (gatOff d L it fw hit off h) Finset.univ)
        ∗ ((wAllK).view.loc (V d (cV L) (jV L)) ↦[(wAllK).view.set]{qw} fw)
        ∗ ((rowK off h).view.loc (V d (cV L) (jV L)) ↦[(rowK off h).view.set]{qs} fiK d L it))
      ⊢ gatD2 d L it fw hit qw qs off h := by
  have hbs : (b2V).view.set = Finset.univ := View.set_whole _
  iintro ⟨⟨Hwr, Hsr⟩, Hd, Hws, Hss⟩
  isplitl [Hd]
  · iapply (Entails.of_eq (show ((b2V).view.loc (V d (cV L) (jV L)) ↦[(b2V).view.set]{fullShare} View.write (Elt F) (b2V).view fb (gatOff d L it fw hit off h) Finset.univ : sProp 𝕄)
      = ((V d (cV L) (jV L)).loc cc0_scratch2 ↦{fullShare} gatOff d L it fw hit off h) by rw [hbs, View.write_whole_univ])) $$ Hd
  isplitl [Hws Hwr]
  · iapply (pointsTo_split_subset (q := qw) (f := fw) (S := Finset.univ) (Finset.subset_univ (wAllK).view.set)).2
    isplitl [Hws] <;> iassumption
  · iapply (pointsTo_split_subset (q := qs) (f := fiK d L it) (S := Finset.univ) (Finset.subset_univ (rowK off h).view.set)).2
    isplitl [Hss] <;> iassumption

/-- Slot 3's gather, delivered: its row buffer holds the table rows the list names, and the slot's read shares of the table and of the index scratch are back. -/
abbrev gatD3 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) : sProp 𝕄 :=
  iprop(((V d (cV L) (jV L)).loc cc0_scratch3 ↦{fullShare} gatOff d L it fw hit off h) ∗ (wLoc d ↦{qw} fw) ∗ ((V d (cV L) (jV L)).loc cc0_scratch0 ↦{qs} fiK d L it))

theorem gat_join3 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) (fb : Buf (Elt F) ((V d (cV L) (jV L)).loc cc0_scratch3)) :
    iprop(((wLoc d ↦[Finset.univ \ (wAllK).view.set]{qw} fw) ∗ ((V d (cV L) (jV L)).loc cc0_scratch0 ↦[Finset.univ \ (rowK off h).view.set]{qs} fiK d L it))
        ∗ ((b3V).view.loc (V d (cV L) (jV L)) ↦[(b3V).view.set]{fullShare} View.write (Elt F) (b3V).view fb (gatOff d L it fw hit off h) Finset.univ)
        ∗ ((wAllK).view.loc (V d (cV L) (jV L)) ↦[(wAllK).view.set]{qw} fw)
        ∗ ((rowK off h).view.loc (V d (cV L) (jV L)) ↦[(rowK off h).view.set]{qs} fiK d L it))
      ⊢ gatD3 d L it fw hit qw qs off h := by
  have hbs : (b3V).view.set = Finset.univ := View.set_whole _
  iintro ⟨⟨Hwr, Hsr⟩, Hd, Hws, Hss⟩
  isplitl [Hd]
  · iapply (Entails.of_eq (show ((b3V).view.loc (V d (cV L) (jV L)) ↦[(b3V).view.set]{fullShare} View.write (Elt F) (b3V).view fb (gatOff d L it fw hit off h) Finset.univ : sProp 𝕄)
      = ((V d (cV L) (jV L)).loc cc0_scratch3 ↦{fullShare} gatOff d L it fw hit off h) by rw [hbs, View.write_whole_univ])) $$ Hd
  isplitl [Hws Hwr]
  · iapply (pointsTo_split_subset (q := qw) (f := fw) (S := Finset.univ) (Finset.subset_univ (wAllK).view.set)).2
    isplitl [Hws] <;> iassumption
  · iapply (pointsTo_split_subset (q := qs) (f := fiK d L it) (S := Finset.univ) (Finset.subset_univ (rowK off h).view.set)).2
    isplitl [Hss] <;> iassumption

/-- Slot 4's gather, delivered: its row buffer holds the table rows the list names, and the slot's read shares of the table and of the index scratch are back. -/
abbrev gatD4 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) : sProp 𝕄 :=
  iprop(((V d (cV L) (jV L)).loc cc0_scratch4 ↦{fullShare} gatOff d L it fw hit off h) ∗ (wLoc d ↦{qw} fw) ∗ ((V d (cV L) (jV L)).loc cc0_scratch0 ↦{qs} fiK d L it))

theorem gat_join4 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) (fb : Buf (Elt F) ((V d (cV L) (jV L)).loc cc0_scratch4)) :
    iprop(((wLoc d ↦[Finset.univ \ (wAllK).view.set]{qw} fw) ∗ ((V d (cV L) (jV L)).loc cc0_scratch0 ↦[Finset.univ \ (rowK off h).view.set]{qs} fiK d L it))
        ∗ ((b4V).view.loc (V d (cV L) (jV L)) ↦[(b4V).view.set]{fullShare} View.write (Elt F) (b4V).view fb (gatOff d L it fw hit off h) Finset.univ)
        ∗ ((wAllK).view.loc (V d (cV L) (jV L)) ↦[(wAllK).view.set]{qw} fw)
        ∗ ((rowK off h).view.loc (V d (cV L) (jV L)) ↦[(rowK off h).view.set]{qs} fiK d L it))
      ⊢ gatD4 d L it fw hit qw qs off h := by
  have hbs : (b4V).view.set = Finset.univ := View.set_whole _
  iintro ⟨⟨Hwr, Hsr⟩, Hd, Hws, Hss⟩
  isplitl [Hd]
  · iapply (Entails.of_eq (show ((b4V).view.loc (V d (cV L) (jV L)) ↦[(b4V).view.set]{fullShare} View.write (Elt F) (b4V).view fb (gatOff d L it fw hit off h) Finset.univ : sProp 𝕄)
      = ((V d (cV L) (jV L)).loc cc0_scratch4 ↦{fullShare} gatOff d L it fw hit off h) by rw [hbs, View.write_whole_univ])) $$ Hd
  isplitl [Hws Hwr]
  · iapply (pointsTo_split_subset (q := qw) (f := fw) (S := Finset.univ) (Finset.subset_univ (wAllK).view.set)).2
    isplitl [Hws] <;> iassumption
  · iapply (pointsTo_split_subset (q := qs) (f := fiK d L it) (S := Finset.univ) (Finset.subset_univ (rowK off h).view.set)).2
    isplitl [Hss] <;> iassumption

/-- Slot 5's gather, delivered: its row buffer holds the table rows the list names, and the slot's read shares of the table and of the index scratch are back. -/
abbrev gatD5 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) : sProp 𝕄 :=
  iprop(((V d (cV L) (jV L)).loc cc0_scratch5 ↦{fullShare} gatOff d L it fw hit off h) ∗ (wLoc d ↦{qw} fw) ∗ ((V d (cV L) (jV L)).loc cc0_scratch0 ↦{qs} fiK d L it))

theorem gat_join5 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) (fb : Buf (Elt F) ((V d (cV L) (jV L)).loc cc0_scratch5)) :
    iprop(((wLoc d ↦[Finset.univ \ (wAllK).view.set]{qw} fw) ∗ ((V d (cV L) (jV L)).loc cc0_scratch0 ↦[Finset.univ \ (rowK off h).view.set]{qs} fiK d L it))
        ∗ ((b5V).view.loc (V d (cV L) (jV L)) ↦[(b5V).view.set]{fullShare} View.write (Elt F) (b5V).view fb (gatOff d L it fw hit off h) Finset.univ)
        ∗ ((wAllK).view.loc (V d (cV L) (jV L)) ↦[(wAllK).view.set]{qw} fw)
        ∗ ((rowK off h).view.loc (V d (cV L) (jV L)) ↦[(rowK off h).view.set]{qs} fiK d L it))
      ⊢ gatD5 d L it fw hit qw qs off h := by
  have hbs : (b5V).view.set = Finset.univ := View.set_whole _
  iintro ⟨⟨Hwr, Hsr⟩, Hd, Hws, Hss⟩
  isplitl [Hd]
  · iapply (Entails.of_eq (show ((b5V).view.loc (V d (cV L) (jV L)) ↦[(b5V).view.set]{fullShare} View.write (Elt F) (b5V).view fb (gatOff d L it fw hit off h) Finset.univ : sProp 𝕄)
      = ((V d (cV L) (jV L)).loc cc0_scratch5 ↦{fullShare} gatOff d L it fw hit off h) by rw [hbs, View.write_whole_univ])) $$ Hd
  isplitl [Hws Hwr]
  · iapply (pointsTo_split_subset (q := qw) (f := fw) (S := Finset.univ) (Finset.subset_univ (wAllK).view.set)).2
    isplitl [Hws] <;> iassumption
  · iapply (pointsTo_split_subset (q := qs) (f := fiK d L it) (S := Finset.univ) (Finset.subset_univ (rowK off h).view.set)).2
    isplitl [Hss] <;> iassumption

end Tile

end Cert.Proof.KI

end
-- ==== Proof.FinalValue.lean ====
/-
  The kernel's last two re-layouts, read at an index.

  The kernel works on the token ids TRANSPOSED (a [50, 4096] array) and leaves, in a [204800, 128] array, at row
  r = j · 4096 + b the table row of token (b, j). That array is then re-read as [50, 4096, 128] (row-major, so
  entry (j, b, l) is row j · 4096 + b, column l) and its first two axes are exchanged: entry (b, j, l) of the result
  is entry l of the table row of token (b, j) — the embedding lookup.
-/
import proofs.«206436_g50972671869147_cont_8to1c4_798_20_alg».proof.Proof.Spec
import Idealize.ShloMosaic.Lib.Pipeline.Value

namespace Cert.FinalValue

open Idealize.ShloMosaic Idealize.ShloMosaic.ValueIdx

variable {α : Type}

/-- The transposed ids at `(j, b)` are the ids at `(b, j)`. -/
theorem transpose_ids_apply (ids : (⟨2, ![4096, 50]⟩ : Shape).Idx → BitVec 32)
    (h1 : (⟨2, ![4096, 50]⟩ : Shape).Transposes [1, 0] ⟨2, ![50, 4096]⟩) (j : Fin 50) (b : Fin 4096) :
    transpose ⟨2, ![50, 4096]⟩ [1, 0] ids h1 (ix2 j b) = ids (ix2 b j) :=
  transpose_apply _ _ _ _ (ix2 b j) fun a => match a with | ⟨0, _⟩ => rfl | ⟨1, _⟩ => rfl

/-- Row `j · 4096 + b` of the rows array holds the table row of the transposed ids' entry `(j, b)`: the row number
    splits back into `j` and `b` because `b < 4096`. -/
theorem rows2d_apply (idsT : (⟨2, ![50, 4096]⟩ : Shape).Idx → BitVec 32) (W : (⟨2, ![100000, 128]⟩ : Shape).Idx → α)
    (j : Fin 50) (b : Fin 4096) (l : Fin 128) (h : j.val * 4096 + b.val < 204800) :
    Cert.Spec.rows2d idsT W (ix2 (n0 := 204800) (n1 := 128) ⟨j.val * 4096 + b.val, h⟩ l)
      = W (ix2 (Cert.Spec.row (idsT (ix2 j b))) l) := by
  unfold Cert.Spec.rows2d
  refine congrArg (fun q => W (ix2 (Cert.Spec.row (idsT q)) l)) ?_
  funext a
  refine Fin.ext ?_
  have hb := b.isLt
  match a with
  | ⟨0, _⟩ =>
    show (j.val * 4096 + b.val) / 4096 = j.val
    omega
  | ⟨1, _⟩ =>
    show (j.val * 4096 + b.val) % 4096 = b.val
    omega

/-- The kernel's result after its two re-layouts is the embedding lookup. -/
theorem final_eq (ids : (⟨2, ![4096, 50]⟩ : Shape).Idx → BitVec 32) (W : (⟨2, ![100000, 128]⟩ : Shape).Idx → α)
    (h1 : (⟨2, ![4096, 50]⟩ : Shape).Transposes [1, 0] ⟨2, ![50, 4096]⟩)
    (h2 : (⟨2, ![204800, 128]⟩ : Shape).ShapeCasts ⟨3, ![50, 4096, 128]⟩)
    (h3 : (⟨3, ![50, 4096, 128]⟩ : Shape).Transposes [1, 0, 2] ⟨3, ![4096, 50, 128]⟩) :
    transpose ⟨3, ![4096, 50, 128]⟩ [1, 0, 2]
        (shapeCast ⟨3, ![50, 4096, 128]⟩ (Cert.Spec.rows2d (transpose ⟨2, ![50, 4096]⟩ [1, 0] ids h1) W) h2) h3
      = Cert.Spec.lookup ids W := by
  funext i
  obtain ⟨b, j, l, rfl⟩ : ∃ b j l, i = ix3 b j l := ⟨i 0, i 1, i 2, eq_ix3 i⟩
  have hr : j.val * 4096 + b.val < 204800 := by
    have := b.isLt
    have := j.isLt
    omega
  -- the exchange of the first two axes: (b, j, l) reads (j, b, l)
  refine (transpose_apply _ _ _ (ix3 b j l) (ix3 j b l)
    fun a => match a with | ⟨0, _⟩ => rfl | ⟨1, _⟩ => rfl | ⟨2, _⟩ => rfl).trans ?_
  -- the re-reading of the rows as [50, 4096, 128]: (j, b, l) reads row j · 4096 + b, column l
  refine (shapeCast_apply _ _ (ix3 j b l) (ix2 (n0 := 204800) (n1 := 128) ⟨j.val * 4096 + b.val, hr⟩ l) (by
    rw [Shape.rowMajor_val_two, Shape.rowMajor_val_three]
    rfl)).trans ?_
  rw [rows2d_apply _ W j b l hr, transpose_ids_apply ids h1 j b]
  rfl

/-- The transposed ids are in range where the ids are. -/
theorem inRange_transpose (ids : (⟨2, ![4096, 50]⟩ : Shape).Idx → BitVec 32)
    (h1 : (⟨2, ![4096, 50]⟩ : Shape).Transposes [1, 0] ⟨2, ![50, 4096]⟩) (hin : Cert.Spec.InRange ids) :
    ∀ y, ((transpose ⟨2, ![50, 4096]⟩ [1, 0] ids h1) y).toNat < 100000 :=
  fun _ => hin _

end Cert.FinalValue
-- ==== Proof.KIValue.lean ====
/-
  What one gathered block holds, as the specification's rows.

  The offset list for sequence position j is row j of the tile's index scratch; its entry c is the transposed ids'
  entry (j, 256 · L₁ + 128 · L₀ + c), the tile (L₀, L₁) having fetched those 128 columns. The gather delivers, at
  (c, l) of the block, entry l of the table row that word names. The tile's block of result rows for position j
  starts at row 4096 · j + 256 · L₁ + 128 · L₀ of the rows array; since 256 · L₁ + 128 · L₀ + c < 4096, row
  4096 · j + 256 · L₁ + 128 · L₀ + c splits back into j and that column, and the specification's rows array holds
  there the table row of the same word — the word read as a row number, because it is below 100000.
-/
import proofs.«206436_g50972671869147_cont_8to1c4_798_20_alg».proof.Proof.KIDefs
import proofs.«206436_g50972671869147_cont_8to1c4_798_20_alg».proof.Proof.Spec
import proofs.«206436_g50972671869147_cont_8to1c4_798_20_alg».proof.Proof.FinalValue

noncomputable section

namespace Cert.Proof.KI

open Cert.KernelIdeal Cert.KernelIdeal.Gen

open Idealize.ShloMosaic Idealize.ShloMosaic.ValueIdx

variable {F : FTy → Type} [FloatOps F]

/-- Two rank-2 indices with equal coordinates are equal. -/
theorem idx2_ext {n0 n1 : Nat} (p q : (⟨2, ![n0, n1]⟩ : Shape).Idx) (h0 : (p 0).val = (q 0).val)
    (h1 : (p 1).val = (q 1).val) : p = q := by
  funext a
  refine Fin.ext ?_
  match a with
  | ⟨0, _⟩ => exact h0
  | ⟨1, _⟩ => exact h1

/-- Entry `z` of a one-row slice re-read as a list is entry `(0, z)` of the slice. -/
theorem squeeze_row (h : S128.numel = S1x128.numel) (z : Fin 128) :
    Shape.reshapeEquiv h (ix1 z) = ix2 (0 : Fin 1) z :=
  Shape.reshapeEquiv_eq_of_rowMajor h (by
    rw [Shape.rowMajor_val_two, Shape.rowMajor_val_one]
    show 0 * 128 + z.val = z.val
    omega)

/-- The list's entry at row-major position `k` is its entry `k`. -/
theorem rowMajor_symm_list (k : Fin S128.numel) (hk : k.val < 128) : S128.rowMajor.symm k = ix1 ⟨k.val, hk⟩ :=
  (Equiv.symm_apply_eq _).2 (Fin.ext (by rw [Shape.rowMajor_val_one]))

/-- A tile's columns stay inside the transposed ids' 4096. -/
theorem tile_col_lt (L : grid0.Coords) (z : Fin 128) : 256 * (L 1).val + 128 * (L 0).val + z.val < 4096 := by
  have h1 : (L 1).val < 16 := (L 1).isLt
  have h0 : (L 0).val < 2 := (L 0).isLt
  have := z.isLt
  omega

section Tile

variable (d : Dev nD) (L : grid0.Coords)

/-- Entry `z` of the offset list for sequence position `j`: the transposed ids at `(j, 256 · L₁ + 128 · L₀ + z)`. -/
theorem list_word (it : Buf (Elt F) (tLoc d)) (j : ℕ) (hj : j < 50) (z : Fin 128) :
    (rowK (rowOffC j) (hrowC j hj)).view.read (Elt F) (fiK d L it) (ix1 z)
      = it (ix2 (n0 := 50) (n1 := 4096) ⟨j, hj⟩ ⟨256 * (L 1).val + 128 * (L 0).val + z.val, tile_col_lt L z⟩) := by
  rw [show ∀ y, (rowK (rowOffC j) (hrowC j hj)).view.read (Elt F) (fiK d L it) y
      = fiK d L it ((rowK (rowOffC j) (hrowC j hj)).view.emb y) from fun y => (View.read_apply _ _).trans (cast_eq _ _)]
  unfold fiK
  rw [show ∀ y, (tBlkK L).view.read (Elt F) it y = it ((tBlkK L).view.emb y) from
    fun y => (View.read_apply _ _).trans (cast_eq _ _)]
  refine congrArg it (idx2_ext (n0 := 50) (n1 := 4096) _ _ ?_ ?_)
  · show (k0_off1 L) 0 + 1 * (rowOffC j 0 + 1 * ((Shape.reshapeEquiv _ (ix1 z) : S1x128.Idx) 0).val) = j
    rw [squeeze_row, k0_off1_eq]
    show 0 + 1 * (j + 1 * 0) = j
    omega
  · show (k0_off1 L) 1 + 1 * (rowOffC j 1 + 1 * ((Shape.reshapeEquiv _ (ix1 z) : S1x128.Idx) 1).val)
      = 256 * (L 1).val + 128 * (L 0).val + z.val
    rw [squeeze_row, k0_off1_eq]
    show 256 * (L 1).val + 128 * (L 0).val + 1 * (0 + 1 * z.val) = 256 * (L 1).val + 128 * (L 0).val + z.val
    omega

/-- The gathered block at `(c, l)`: entry `l` of the table row named by the list's entry `c`. -/
theorem gat_left (it : Buf (Elt F) (tLoc d)) (fw : Buf (Elt F) (wLoc d)) (hit : ∀ y, (it y).toNat < 100000) (j : ℕ)
    (hj : j < 50) (x : S128x128.Idx) :
    gatOff d L it fw hit (rowOffC j) (hrowC j hj) x
      = fw (ix2 (n0 := 100000) (n1 := 128)
          ⟨(it (ix2 (n0 := 50) (n1 := 4096) ⟨j, hj⟩ ⟨256 * (L 1).val + 128 * (L 0).val + (x 0).val, tile_col_lt L (x 0)⟩)).toNat,
            hit _⟩ (x 1)) := by
  show (wAllK).view.read (Elt F) fw (gathers_S100000x128_S128x128.idx _ x) = _
  rw [show ∀ y, (wAllK).view.read (Elt F) fw y = fw ((wAllK).view.emb y) from
    fun y => (View.read_apply _ _).trans (cast_eq _ _)]
  refine congrArg fw (idx2_ext (n0 := 100000) (n1 := 128) _ _ ?_ ?_)
  · show 0 + 1 * ((rowK (rowOffC j) (hrowC j hj)).view.read (Elt F) (fiK d L it)
        (S128.rowMajor.symm (Fin.cast _ (x 0)))).toNat = _
    rw [rowMajor_symm_list (Fin.cast _ (x 0)) (x 0).isLt]
    show 0 + 1 * ((rowK (rowOffC j) (hrowC j hj)).view.read (Elt F) (fiK d L it) (ix1 (x 0))).toNat = _
    rw [list_word d L it j hj (x 0)]
    exact (Nat.zero_add _).trans (Nat.one_mul _)
  · show 0 + 1 * (x 1).val = (x 1).val
    omega

/-- The specification's rows array at the same place of the tile's block of result rows: the same entry. -/
theorem gat_right (it : Buf (Elt F) (tLoc d)) (fw : Buf (Elt F) (wLoc d)) (hit : ∀ y, (it y).toNat < 100000) (j : ℕ)
    (hj : j < 50) (x : S128x128.Idx) :
    Cert.Spec.rows2d it fw ((oBlkO (oOffC L j) (hoC L j hj)).view.emb x)
      = fw (ix2 (n0 := 100000) (n1 := 128)
          ⟨(it (ix2 (n0 := 50) (n1 := 4096) ⟨j, hj⟩ ⟨256 * (L 1).val + 128 * (L 0).val + (x 0).val, tile_col_lt L (x 0)⟩)).toNat,
            hit _⟩ (x 1)) := by
  have hc := tile_col_lt L (x 0)
  have hrow : (⟨j, hj⟩ : Fin 50).val * 4096 + (⟨256 * (L 1).val + 128 * (L 0).val + (x 0).val, hc⟩ : Fin 4096).val < 204800 := by
    show j * 4096 + (256 * (L 1).val + 128 * (L 0).val + (x 0).val) < 204800
    omega
  have hi : (oBlkO (oOffC L j) (hoC L j hj)).view.emb x
      = ix2 (n0 := 204800) (n1 := 128)
          ⟨(⟨j, hj⟩ : Fin 50).val * 4096 + (⟨256 * (L 1).val + 128 * (L 0).val + (x 0).val, hc⟩ : Fin 4096).val, hrow⟩ (x 1) :=
    idx2_ext (n0 := 204800) (n1 := 128) _ _
      (by
        show 4096 * j + 256 * (L 1).val + 128 * (L 0).val + 1 * (x 0).val
          = j * 4096 + (256 * (L 1).val + 128 * (L 0).val + (x 0).val)
        omega)
      (by
        show 0 + 1 * (x 1).val = (x 1).val
        omega)
  rw [hi, Cert.FinalValue.rows2d_apply it fw ⟨j, hj⟩ ⟨256 * (L 1).val + 128 * (L 0).val + (x 0).val, hc⟩ (x 1) hrow]
  exact congrArg (fun q => fw (ix2 (n0 := 100000) (n1 := 128) q (x 1))) (Fin.ext (Cert.Spec.row_of_lt _ (hit _)))

/-- THE GATHERED BLOCK IS THE SPECIFICATION'S: what the gather for sequence position `j` delivers at `x` is what the
    specification's rows array holds where the tile's block of result rows for `j` puts `x`. -/
theorem gat_value (d : Dev nD) (L : grid0.Coords) (it : Buf (Elt F) (tLoc d)) (fw : Buf (Elt F) (wLoc d))
    (hit : ∀ y, (it y).toNat < 100000) (j : ℕ) (hj : j < 50) (x : S128x128.Idx) :
    gatOff d L it fw hit (rowOffC j) (hrowC j hj) x
      = Cert.Spec.rows2d it fw ((oBlkO (oOffC L j) (hoC L j hj)).view.emb x) :=
  (gat_left d L it fw hit j hj x).trans (gat_right d L it fw hit j hj x).symm

end Tile

end Cert.Proof.KI

end
-- ==== Proof.KITile.lean ====
/-
  One tile's task of `Cert.KernelIdeal`'s SparseCore kernel, run once at a symbolic tile. The tile fetches its 128 columns of the
  transposed token ids into its index scratch; then, for each of the 50 sequence positions j, it gathers the 128 table rows
  that row j of the scratch names into one of five row buffers and copies that buffer out to rows 4096·j + 128·w … of the
  result (w the tile's number). Five gathers are in flight at a time, one per row buffer, each on a semaphore of its own, and
  a buffer's copy-out is awaited before the buffer is gathered into again; so no buffer is read or written while a transfer
  on it is pending. The loop's invariant says, before trip k: for each buffer the gather of row 5·k + r is in flight and the
  blocks of the positions below 5·k hold their table rows. The value is carried in the invariant: a finished block holds
  the one whole-array function `Cert.Spec.rows2d` of the transposed ids and the table, restricted to the block.
-/
import proofs.«206436_g50972671869147_cont_8to1c4_798_20_alg».proof.Proof.KIDefs
import proofs.«206436_g50972671869147_cont_8to1c4_798_20_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v0_scv : Memref Cert.KernelIdeal.sig Kind.scVector Space.hbm Cert.KernelIdeal.S50x4096 EltTy.i32)
local notation "wV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S50x128 EltTy.i32)
local notation "b1V" => (Memref.whole Cert.KernelIdeal.cc0_scratch1 : Memref Cert.KernelIdeal.sig Kind.scVector Space.vmem Cert.KernelIdeal.S128x128 EltTy.f32)
local notation "b2V" => (Memref.whole Cert.KernelIdeal.cc0_scratch2 : Memref Cert.KernelIdeal.sig Kind.scVector Space.vmem Cert.KernelIdeal.S128x128 EltTy.f32)
local notation "b3V" => (Memref.whole Cert.KernelIdeal.cc0_scratch3 : Memref Cert.KernelIdeal.sig Kind.scVector Space.vmem Cert.KernelIdeal.S128x128 EltTy.f32)
local notation "b4V" => (Memref.whole Cert.KernelIdeal.cc0_scratch4 : Memref Cert.KernelIdeal.sig Kind.scVector Space.vmem Cert.KernelIdeal.S128x128 EltTy.f32)
local notation "b5V" => (Memref.whole Cert.KernelIdeal.cc0_scratch5 : Memref Cert.KernelIdeal.sig Kind.scVector Space.vmem Cert.KernelIdeal.S128x128 EltTy.f32)

section Tile

variable [FloatOps F]
variable (d : Dev nD) (L : grid0.Coords)

/-! ## The loop's invariant -/

/-- The whole [204800, 128] array of table rows the call computes, as one function of the transposed ids and the table. -/
abbrev GK (it : Buf (Elt F) (tLoc d)) (fw : Buf (Elt F) (wLoc d)) : Buf (Elt F) (oLoc d) := Cert.Spec.rows2d it fw

theorem cond1_iff : ∀ k : Fin k0_t1_loop.trips, k0_cond1 k = 1#1 ↔ k.val < 9 := by decide +kernel
theorem cond2_iff : ∀ k : Fin k0_t1_loop.trips, k0_cond2 k = 1#1 ↔ k.val < 9 := by decide +kernel
theorem cond3_iff : ∀ k : Fin k0_t1_loop.trips, k0_cond3 k = 1#1 ↔ k.val < 9 := by decide +kernel
theorem cond4_iff : ∀ k : Fin k0_t1_loop.trips, k0_cond4 k = 1#1 ↔ k.val < 9 := by decide +kernel
theorem cond5_iff : ∀ k : Fin k0_t1_loop.trips, k0_cond5 k = 1#1 ↔ k.val < 9 := by decide +kernel
theorem trips_le : k0_t1_loop.trips ≤ 10 := k0_t1_abs.2.1

omit [FloatOps F] in
theorem off2_eq1 (k : Fin k0_t1_loop.trips) : k0_off2 L k 0#32 = oOffC L (5 * k.val + 0) := by
  refine (k0_off2_eq L k 0).trans ?_
  have e : 20480 * k.val + 4096 * (0 : Fin 5).val + 256 * (L 1).val + 128 * (L 0).val = 4096 * (5 * k.val + 0) + 256 * (L 1).val + 128 * (L 0).val := by
    show 20480 * k.val + 4096 * 0 + 256 * (L 1).val + 128 * (L 0).val = _; omega
  rw [e]
omit [FloatOps F] in
theorem rowoff_eq1 (k : Fin k0_t1_loop.trips) : k0_off4 k = rowOffC (5 * (k.val + 1) + 0) := by
  refine (k0_off4_eq k).trans ?_
  have e : 5 * k.val + 5 = 5 * (k.val + 1) + 0 := by omega
  rw [e]
omit [FloatOps F] in
theorem off2_eq2 (k : Fin k0_t1_loop.trips) : k0_off2 L k 1#32 = oOffC L (5 * k.val + 1) := by
  refine (k0_off2_eq L k 1).trans ?_
  have e : 20480 * k.val + 4096 * (1 : Fin 5).val + 256 * (L 1).val + 128 * (L 0).val = 4096 * (5 * k.val + 1) + 256 * (L 1).val + 128 * (L 0).val := by
    show 20480 * k.val + 4096 * 1 + 256 * (L 1).val + 128 * (L 0).val = _; omega
  rw [e]
omit [FloatOps F] in
theorem rowoff_eq2 (k : Fin k0_t1_loop.trips) : k0_off6 k = rowOffC (5 * (k.val + 1) + 1) := by
  refine (k0_off6_eq k).trans ?_
  have e : 5 * k.val + 6 = 5 * (k.val + 1) + 1 := by omega
  rw [e]
omit [FloatOps F] in
theorem off2_eq3 (k : Fin k0_t1_loop.trips) : k0_off2 L k 2#32 = oOffC L (5 * k.val + 2) := by
  refine (k0_off2_eq L k 2).trans ?_
  have e : 20480 * k.val + 4096 * (2 : Fin 5).val + 256 * (L 1).val + 128 * (L 0).val = 4096 * (5 * k.val + 2) + 256 * (L 1).val + 128 * (L 0).val := by
    show 20480 * k.val + 4096 * 2 + 256 * (L 1).val + 128 * (L 0).val = _; omega
  rw [e]
omit [FloatOps F] in
theorem rowoff_eq3 (k : Fin k0_t1_loop.trips) : k0_off8 k = rowOffC (5 * (k.val + 1) + 2) := by
  refine (k0_off8_eq k).trans ?_
  have e : 5 * k.val + 7 = 5 * (k.val + 1) + 2 := by omega
  rw [e]
omit [FloatOps F] in
theorem off2_eq4 (k : Fin k0_t1_loop.trips) : k0_off2 L k 3#32 = oOffC L (5 * k.val + 3) := by
  refine (k0_off2_eq L k 3).trans ?_
  have e : 20480 * k.val + 4096 * (3 : Fin 5).val + 256 * (L 1).val + 128 * (L 0).val = 4096 * (5 * k.val + 3) + 256 * (L 1).val + 128 * (L 0).val := by
    show 20480 * k.val + 4096 * 3 + 256 * (L 1).val + 128 * (L 0).val = _; omega
  rw [e]
omit [FloatOps F] in
theorem rowoff_eq4 (k : Fin k0_t1_loop.trips) : k0_off10 k = rowOffC (5 * (k.val + 1) + 3) := by
  refine (k0_off10_eq k).trans ?_
  have e : 5 * k.val + 8 = 5 * (k.val + 1) + 3 := by omega
  rw [e]
omit [FloatOps F] in
theorem off2_eq5 (k : Fin k0_t1_loop.trips) : k0_off2 L k 4#32 = oOffC L (5 * k.val + 4) := by
  refine (k0_off2_eq L k 4).trans ?_
  have e : 20480 * k.val + 4096 * (4 : Fin 5).val + 256 * (L 1).val + 128 * (L 0).val = 4096 * (5 * k.val + 4) + 256 * (L 1).val + 128 * (L 0).val := by
    show 20480 * k.val + 4096 * 4 + 256 * (L 1).val + 128 * (L 0).val = _; omega
  rw [e]
omit [FloatOps F] in
theorem rowoff_eq5 (k : Fin k0_t1_loop.trips) : k0_off12 k = rowOffC (5 * (k.val + 1) + 4) := by
  refine (k0_off12_eq k).trans ?_
  have e : 5 * k.val + 9 = 5 * (k.val + 1) + 4 := by omega
  rw [e]

/-- Slot `r`'s blocks of result rows (sequence positions 5·kk + r): those below trip `k` hold the table rows, the others what they held at the start. -/
def blocks (it : Buf (Elt F) (tLoc d)) (fw : Buf (Elt F) (wLoc d)) (f0 : Buf (Elt F) (oLoc d)) (r : ℕ) (hr : r < 5) (k : ℕ) (kk : Fin 10) : sProp 𝕄 :=
  oLoc d ↦[oSetC L (5 * kk.val + r) (by have := kk.isLt; omega)]{fullShare} (if kk.val < k then GK d it fw else f0)

/-- Slot 1's copy-out, delivered: the block of result rows holds the table rows, the row buffer is back. -/
abbrev outD1 (it : Buf (Elt F) (tLoc d)) (fw : Buf (Elt F) (wLoc d)) (hit : ∀ y, (it y).toNat < 100000) (j : ℕ) (hj : j < 50) : sProp 𝕄 :=
  iprop((oLoc d ↦[oSetC L j hj]{fullShare} GK d it fw) ∗ ((V d (cV L) (jV L)).loc cc0_scratch1 ↦{fullShare} gatOff d L it fw hit (rowOffC j) (hrowC j hj)))

/-- Slot 1 before trip `k < 10`: its gather of row 5·k + 0 is in flight, its copy-out semaphore is at zero. -/
def slotA1 (it : Buf (Elt F) (tLoc d)) (fw : Buf (Elt F) (wLoc d)) (hit : ∀ y, (it y).toNat < 100000) (qw : PosShare TreeShare) (f0 : Buf (Elt F) (oLoc d)) (k : ℕ) (hk : k < 10) : sProp 𝕄 :=
  iprop(Transfers.Flight countersEmb (V d (cV L) (jV L)) (SemLoc.dma cc0_scratch6.sem) (default : HIx 1) (b1V).view.dmaCredit
        (gatD1 d L it fw hit (qw.left) ((fullShare : PosShare TreeShare).left) (rowOffC (5 * k + 0)) (hrowC (5 * k + 0) (by omega)))
      ∗ semVal (cS1 d (cV L) (jV L)) 0
      ∗ bigSep Finset.univ (blocks d L it fw f0 0 (by omega) k))

/-- Slot 2's copy-out, delivered: the block of result rows holds the table rows, the row buffer is back. -/
abbrev outD2 (it : Buf (Elt F) (tLoc d)) (fw : Buf (Elt F) (wLoc d)) (hit : ∀ y, (it y).toNat < 100000) (j : ℕ) (hj : j < 50) : sProp 𝕄 :=
  iprop((oLoc d ↦[oSetC L j hj]{fullShare} GK d it fw) ∗ ((V d (cV L) (jV L)).loc cc0_scratch2 ↦{fullShare} gatOff d L it fw hit (rowOffC j) (hrowC j hj)))

/-- Slot 2 before trip `k < 10`: its gather of row 5·k + 1 is in flight, its copy-out semaphore is at zero. -/
def slotA2 (it : Buf (Elt F) (tLoc d)) (fw : Buf (Elt F) (wLoc d)) (hit : ∀ y, (it y).toNat < 100000) (qw : PosShare TreeShare) (f0 : Buf (Elt F) (oLoc d)) (k : ℕ) (hk : k < 10) : sProp 𝕄 :=
  iprop(Transfers.Flight countersEmb (V d (cV L) (jV L)) (SemLoc.dma cc0_scratch7.sem) (default : HIx 1) (b2V).view.dmaCredit
        (gatD2 d L it fw hit (qw.right.left) ((fullShare : PosShare TreeShare).right.left) (rowOffC (5 * k + 1)) (hrowC (5 * k + 1) (by omega)))
      ∗ semVal (cS2 d (cV L) (jV L)) 0
      ∗ bigSep Finset.univ (blocks d L it fw f0 1 (by omega) k))

/-- Slot 3's copy-out, delivered: the block of result rows holds the table rows, the row buffer is back. -/
abbrev outD3 (it : Buf (Elt F) (tLoc d)) (fw : Buf (Elt F) (wLoc d)) (hit : ∀ y, (it y).toNat < 100000) (j : ℕ) (hj : j < 50) : sProp 𝕄 :=
  iprop((oLoc d ↦[oSetC L j hj]{fullShare} GK d it fw) ∗ ((V d (cV L) (jV L)).loc cc0_scratch3 ↦{fullShare} gatOff d L it fw hit (rowOffC j) (hrowC j hj)))

/-- Slot 3 before trip `k < 10`: its gather of row 5·k + 2 is in flight, its copy-out semaphore is at zero. -/
def slotA3 (it : Buf (Elt F) (tLoc d)) (fw : Buf (Elt F) (wLoc d)) (hit : ∀ y, (it y).toNat < 100000) (qw : PosShare TreeShare) (f0 : Buf (Elt F) (oLoc d)) (k : ℕ) (hk : k < 10) : sProp 𝕄 :=
  iprop(Transfers.Flight countersEmb (V d (cV L) (jV L)) (SemLoc.dma cc0_scratch8.sem) (default : HIx 1) (b3V).view.dmaCredit
        (gatD3 d L it fw hit (qw.right.right.left) ((fullShare : PosShare TreeShare).right.right.left) (rowOffC (5 * k + 2)) (hrowC (5 * k + 2) (by omega)))
      ∗ semVal (cS3 d (cV L) (jV L)) 0
      ∗ bigSep Finset.univ (blocks d L it fw f0 2 (by omega) k))

/-- Slot 4's copy-out, delivered: the block of result rows holds the table rows, the row buffer is back. -/
abbrev outD4 (it : Buf (Elt F) (tLoc d)) (fw : Buf (Elt F) (wLoc d)) (hit : ∀ y, (it y).toNat < 100000) (j : ℕ) (hj : j < 50) : sProp 𝕄 :=
  iprop((oLoc d ↦[oSetC L j hj]{fullShare} GK d it fw) ∗ ((V d (cV L) (jV L)).loc cc0_scratch4 ↦{fullShare} gatOff d L it fw hit (rowOffC j) (hrowC j hj)))

/-- Slot 4 before trip `k < 10`: its gather of row 5·k + 3 is in flight, its copy-out semaphore is at zero. -/
def slotA4 (it : Buf (Elt F) (tLoc d)) (fw : Buf (Elt F) (wLoc d)) (hit : ∀ y, (it y).toNat < 100000) (qw : PosShare TreeShare) (f0 : Buf (Elt F) (oLoc d)) (k : ℕ) (hk : k < 10) : sProp 𝕄 :=
  iprop(Transfers.Flight countersEmb (V d (cV L) (jV L)) (SemLoc.dma cc0_scratch9.sem) (default : HIx 1) (b4V).view.dmaCredit
        (gatD4 d L it fw hit (qw.right.right.right.left) ((fullShare : PosShare TreeShare).right.right.right.left) (rowOffC (5 * k + 3)) (hrowC (5 * k + 3) (by omega)))
      ∗ semVal (cS4 d (cV L) (jV L)) 0
      ∗ bigSep Finset.univ (blocks d L it fw f0 3 (by omega) k))

/-- Slot 5's copy-out, delivered: the block of result rows holds the table rows, the row buffer is back. -/
abbrev outD5 (it : Buf (Elt F) (tLoc d)) (fw : Buf (Elt F) (wLoc d)) (hit : ∀ y, (it y).toNat < 100000) (j : ℕ) (hj : j < 50) : sProp 𝕄 :=
  iprop((oLoc d ↦[oSetC L j hj]{fullShare} GK d it fw) ∗ ((V d (cV L) (jV L)).loc cc0_scratch5 ↦{fullShare} gatOff d L it fw hit (rowOffC j) (hrowC j hj)))

/-- Slot 5 before trip `k < 10`: its gather of row 5·k + 4 is in flight, its copy-out semaphore is at zero. -/
def slotA5 (it : Buf (Elt F) (tLoc d)) (fw : Buf (Elt F) (wLoc d)) (hit : ∀ y, (it y).toNat < 100000) (qw : PosShare TreeShare) (f0 : Buf (Elt F) (oLoc d)) (k : ℕ) (hk : k < 10) : sProp 𝕄 :=
  iprop(Transfers.Flight countersEmb (V d (cV L) (jV L)) (SemLoc.dma cc0_scratch10.sem) (default : HIx 1) (b5V).view.dmaCredit
        (gatD5 d L it fw hit (qw.right.right.right.right) ((fullShare : PosShare TreeShare).right.right.right.right) (rowOffC (5 * k + 4)) (hrowC (5 * k + 4) (by omega)))
      ∗ semVal (cS5 d (cV L) (jV L)) 0
      ∗ bigSep Finset.univ (blocks d L it fw f0 4 (by omega) k))

/-! ## Small lemmas the run cites -/

omit [FloatOps F] in
/-- One whole-shape write through a view leaves, on the view's elements, any contents that the payload is the view's read of. -/
theorem writes_whole_eq_on {sig' : RefSig} {κ : Kind} {sp : Space} {s : Shape} {e : EltTy} {Val : EltTy → Type} (v : View sig' κ sp s e)
    (f G : v.ty.Contents Val) (w : s.Idx → Val e) (h : ∀ x, w x = v.read Val G x) :
    ∀ i ∈ v.set, v.writes Val f [⟨Rect.whole s, w⟩] i = G i := by
  intro i hi
  obtain ⟨y, -, rfl⟩ := Finset.mem_map.mp hi
  have h1 := View.read_writes_cons_emb v f (Rect.whole s) w [] y
  rw [Rect.emb_whole_apply, h y, View.read_apply, View.read_apply] at h1
  exact eq_of_heq (((cast_heq _ _).symm.trans (heq_of_eq h1)).trans (cast_heq _ _))

/-- A block of result rows after the copy-out of the rows gathered for its sequence position holds, element by element, the array the call computes. -/
theorem blk_written (it : Buf (Elt F) (tLoc d)) (fw : Buf (Elt F) (wLoc d)) (hit : ∀ y, (it y).toNat < 100000) (f0 : Buf (Elt F) (oLoc d))
    (j : ℕ) (hj : j < 50) (off : Fin 2 → ℕ) (h : ∀ a, off a + S128x128.size a ≤ S204800x128.size a) (e : off = oOffC L j)
    (pay : S128x128.Idx → Elt F .f32) (hpay : pay = gatOff d L it fw hit (rowOffC j) (hrowC j hj)) :
    (((oBlkO off h).view.loc (V d (cV L) (jV L)) ↦[(oBlkO off h).view.set]{fullShare} (oBlkO off h).view.writes (Elt F) f0 [⟨Rect.whole S128x128, pay⟩]) : sProp 𝕄)
      = (oLoc d ↦[oSetC L j hj]{fullShare} GK d it fw) := by
  subst e hpay
  exact pointsTo_congr (writes_whole_eq_on (oBlkO (oOffC L j) h).view f0 (GK d it fw) _
    (fun x => (gat_value d L it fw hit j hj x).trans ((View.read_apply _ _).trans (cast_eq _ _)).symm))

/-- Once a slot's block for trip `k` holds the table rows, its blocks are as the invariant says before trip `k + 1`. -/
theorem blocks_step (it : Buf (Elt F) (tLoc d)) (fw : Buf (Elt F) (wLoc d)) (f0 : Buf (Elt F) (oLoc d)) (r : ℕ) (hr : r < 5) (k : ℕ) (hk10 : k < 10) :
    iprop((oLoc d ↦[oSetC L (5 * k + r) (by omega)]{fullShare} GK d it fw) ∗ bigSep (Finset.univ.erase (⟨k, hk10⟩ : Fin 10)) (blocks d L it fw f0 r hr k))
      ⊢ bigSep Finset.univ (blocks d L it fw f0 r hr (k + 1)) := by
  have e : bigSep (Finset.univ.erase (⟨k, hk10⟩ : Fin 10)) (blocks d L it fw f0 r hr k)
      = bigSep (Finset.univ.erase (⟨k, hk10⟩ : Fin 10)) (blocks d L it fw f0 r hr (k + 1)) :=
    bigSep_congr fun kk hkk => by
      have hne : kk.val ≠ k := fun h => (Finset.mem_erase.mp hkk).1 (Fin.ext h)
      unfold blocks
      by_cases h : kk.val < k
      · rw [if_pos h, if_pos (by omega)]
      · rw [if_neg h, if_neg (by omega)]
  have e2 : blocks d L it fw f0 r hr (k + 1) (⟨k, hk10⟩ : Fin 10) = (oLoc d ↦[oSetC L (5 * k + r) (by omega)]{fullShare} GK d it fw) := by
    unfold blocks; rw [if_pos (Nat.lt_succ_self k)]
  have h3 := Transfers.bigSep_univ_in (⟨k, hk10⟩ : Fin 10) (blocks d L it fw f0 r hr (k + 1))
  rw [e2] at h3
  rw [e]
  exact h3

omit [FloatOps F] in
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

theorem gatD_congr1 (it : Buf (Elt F) (tLoc d)) (fw : Buf (Elt F) (wLoc d)) (hit : ∀ y, (it y).toNat < 100000) (qw qs : PosShare TreeShare) {off off' : Fin 2 → ℕ}
    (h : ∀ a, off a + S1x128.size a ≤ S50x128.size a) (h' : ∀ a, off' a + S1x128.size a ≤ S50x128.size a) (e : off = off') :
    gatD1 d L it fw hit qw qs off h = gatD1 d L it fw hit qw qs off' h' := by subst e; rfl

/-- Slot 1's copy-out, as the run leaves it in flight, delivers the block at the array the call computes and the row buffer whole. -/
theorem out_join1 (it : Buf (Elt F) (tLoc d)) (fw : Buf (Elt F) (wLoc d)) (hit : ∀ y, (it y).toNat < 100000) (f0 : Buf (Elt F) (oLoc d))
    (j : ℕ) (hj : j < 50) (off : Fin 2 → ℕ) (h : ∀ a, off a + S128x128.size a ≤ S204800x128.size a) (e : off = oOffC L j)
    (pay : S128x128.Idx → Elt F .f32) (hpay : pay = gatOff d L it fw hit (rowOffC j) (hrowC j hj)) :
    iprop(((b1V).view.loc (V d (cV L) (jV L)) ↦[Finset.univ \ (b1V).view.set]{fullShare} gatOff d L it fw hit (rowOffC j) (hrowC j hj))
        ∗ ((oBlkO off h).view.loc (V d (cV L) (jV L)) ↦[(oBlkO off h).view.set]{fullShare} (oBlkO off h).view.writes (Elt F) f0 [⟨Rect.whole S128x128, pay⟩])
        ∗ ((b1V).view.loc (V d (cV L) (jV L)) ↦[(b1V).view.set]{fullShare} gatOff d L it fw hit (rowOffC j) (hrowC j hj)))
      ⊢ outD1 d L it fw hit j hj := by
  iintro ⟨Hr, Hblk, Hb⟩
  isplitl [Hblk]
  · iapply (Entails.of_eq (blk_written d L it fw hit f0 j hj off h e pay hpay)) $$ Hblk
  · iapply (pointsTo_split_subset (q := fullShare) (f := gatOff d L it fw hit (rowOffC j) (hrowC j hj)) (S := Finset.univ) (Finset.subset_univ (b1V).view.set)).2
    isplitl [Hb] <;> iassumption

/-- Slot 1 once the loop is over: its last copy-out is in flight, its gather semaphore is at zero. -/
def slotB1 (it : Buf (Elt F) (tLoc d)) (fw : Buf (Elt F) (wLoc d)) (hit : ∀ y, (it y).toNat < 100000) (qw : PosShare TreeShare) (f0 : Buf (Elt F) (oLoc d)) : sProp 𝕄 :=
  iprop(Transfers.Flight countersEmb (V d (cV L) (jV L)) (SemLoc.dma cc0_scratch11.sem) (default : HIx 1) 524288 (outD1 d L it fw hit (5 * 9 + 0) (by omega))
      ∗ semVal (cG1 d (cV L) (jV L)) 0
      ∗ bigSep (Finset.univ.erase (⟨9, by omega⟩ : Fin 10)) (blocks d L it fw f0 0 (by omega) 10)
      ∗ (wLoc d ↦{qw.left} fw) ∗ ((V d (cV L) (jV L)).loc cc0_scratch0 ↦{(fullShare : PosShare TreeShare).left} fiK d L it))

theorem gatD_congr2 (it : Buf (Elt F) (tLoc d)) (fw : Buf (Elt F) (wLoc d)) (hit : ∀ y, (it y).toNat < 100000) (qw qs : PosShare TreeShare) {off off' : Fin 2 → ℕ}
    (h : ∀ a, off a + S1x128.size a ≤ S50x128.size a) (h' : ∀ a, off' a + S1x128.size a ≤ S50x128.size a) (e : off = off') :
    gatD2 d L it fw hit qw qs off h = gatD2 d L it fw hit qw qs off' h' := by subst e; rfl

/-- Slot 2's copy-out, as the run leaves it in flight, delivers the block at the array the call computes and the row buffer whole. -/
theorem out_join2 (it : Buf (Elt F) (tLoc d)) (fw : Buf (Elt F) (wLoc d)) (hit : ∀ y, (it y).toNat < 100000) (f0 : Buf (Elt F) (oLoc d))
    (j : ℕ) (hj : j < 50) (off : Fin 2 → ℕ) (h : ∀ a, off a + S128x128.size a ≤ S204800x128.size a) (e : off = oOffC L j)
    (pay : S128x128.Idx → Elt F .f32) (hpay : pay = gatOff d L it fw hit (rowOffC j) (hrowC j hj)) :
    iprop(((b2V).view.loc (V d (cV L) (jV L)) ↦[Finset.univ \ (b2V).view.set]{fullShare} gatOff d L it fw hit (rowOffC j) (hrowC j hj))
        ∗ ((oBlkO off h).view.loc (V d (cV L) (jV L)) ↦[(oBlkO off h).view.set]{fullShare} (oBlkO off h).view.writes (Elt F) f0 [⟨Rect.whole S128x128, pay⟩])
        ∗ ((b2V).view.loc (V d (cV L) (jV L)) ↦[(b2V).view.set]{fullShare} gatOff d L it fw hit (rowOffC j) (hrowC j hj)))
      ⊢ outD2 d L it fw hit j hj := by
  iintro ⟨Hr, Hblk, Hb⟩
  isplitl [Hblk]
  · iapply (Entails.of_eq (blk_written d L it fw hit f0 j hj off h e pay hpay)) $$ Hblk
  · iapply (pointsTo_split_subset (q := fullShare) (f := gatOff d L it fw hit (rowOffC j) (hrowC j hj)) (S := Finset.univ) (Finset.subset_univ (b2V).view.set)).2
    isplitl [Hb] <;> iassumption

/-- Slot 2 once the loop is over: its last copy-out is in flight, its gather semaphore is at zero. -/
def slotB2 (it : Buf (Elt F) (tLoc d)) (fw : Buf (Elt F) (wLoc d)) (hit : ∀ y, (it y).toNat < 100000) (qw : PosShare TreeShare) (f0 : Buf (Elt F) (oLoc d)) : sProp 𝕄 :=
  iprop(Transfers.Flight countersEmb (V d (cV L) (jV L)) (SemLoc.dma cc0_scratch12.sem) (default : HIx 1) 524288 (outD2 d L it fw hit (5 * 9 + 1) (by omega))
      ∗ semVal (cG2 d (cV L) (jV L)) 0
      ∗ bigSep (Finset.univ.erase (⟨9, by omega⟩ : Fin 10)) (blocks d L it fw f0 1 (by omega) 10)
      ∗ (wLoc d ↦{qw.right.left} fw) ∗ ((V d (cV L) (jV L)).loc cc0_scratch0 ↦{(fullShare : PosShare TreeShare).right.left} fiK d L it))

theorem gatD_congr3 (it : Buf (Elt F) (tLoc d)) (fw : Buf (Elt F) (wLoc d)) (hit : ∀ y, (it y).toNat < 100000) (qw qs : PosShare TreeShare) {off off' : Fin 2 → ℕ}
    (h : ∀ a, off a + S1x128.size a ≤ S50x128.size a) (h' : ∀ a, off' a + S1x128.size a ≤ S50x128.size a) (e : off = off') :
    gatD3 d L it fw hit qw qs off h = gatD3 d L it fw hit qw qs off' h' := by subst e; rfl

/-- Slot 3's copy-out, as the run leaves it in flight, delivers the block at the array the call computes and the row buffer whole. -/
theorem out_join3 (it : Buf (Elt F) (tLoc d)) (fw : Buf (Elt F) (wLoc d)) (hit : ∀ y, (it y).toNat < 100000) (f0 : Buf (Elt F) (oLoc d))
    (j : ℕ) (hj : j < 50) (off : Fin 2 → ℕ) (h : ∀ a, off a + S128x128.size a ≤ S204800x128.size a) (e : off = oOffC L j)
    (pay : S128x128.Idx → Elt F .f32) (hpay : pay = gatOff d L it fw hit (rowOffC j) (hrowC j hj)) :
    iprop(((b3V).view.loc (V d (cV L) (jV L)) ↦[Finset.univ \ (b3V).view.set]{fullShare} gatOff d L it fw hit (rowOffC j) (hrowC j hj))
        ∗ ((oBlkO off h).view.loc (V d (cV L) (jV L)) ↦[(oBlkO off h).view.set]{fullShare} (oBlkO off h).view.writes (Elt F) f0 [⟨Rect.whole S128x128, pay⟩])
        ∗ ((b3V).view.loc (V d (cV L) (jV L)) ↦[(b3V).view.set]{fullShare} gatOff d L it fw hit (rowOffC j) (hrowC j hj)))
      ⊢ outD3 d L it fw hit j hj := by
  iintro ⟨Hr, Hblk, Hb⟩
  isplitl [Hblk]
  · iapply (Entails.of_eq (blk_written d L it fw hit f0 j hj off h e pay hpay)) $$ Hblk
  · iapply (pointsTo_split_subset (q := fullShare) (f := gatOff d L it fw hit (rowOffC j) (hrowC j hj)) (S := Finset.univ) (Finset.subset_univ (b3V).view.set)).2
    isplitl [Hb] <;> iassumption

/-- Slot 3 once the loop is over: its last copy-out is in flight, its gather semaphore is at zero. -/
def slotB3 (it : Buf (Elt F) (tLoc d)) (fw : Buf (Elt F) (wLoc d)) (hit : ∀ y, (it y).toNat < 100000) (qw : PosShare TreeShare) (f0 : Buf (Elt F) (oLoc d)) : sProp 𝕄 :=
  iprop(Transfers.Flight countersEmb (V d (cV L) (jV L)) (SemLoc.dma cc0_scratch13.sem) (default : HIx 1) 524288 (outD3 d L it fw hit (5 * 9 + 2) (by omega))
      ∗ semVal (cG3 d (cV L) (jV L)) 0
      ∗ bigSep (Finset.univ.erase (⟨9, by omega⟩ : Fin 10)) (blocks d L it fw f0 2 (by omega) 10)
      ∗ (wLoc d ↦{qw.right.right.left} fw) ∗ ((V d (cV L) (jV L)).loc cc0_scratch0 ↦{(fullShare : PosShare TreeShare).right.right.left} fiK d L it))

theorem gatD_congr4 (it : Buf (Elt F) (tLoc d)) (fw : Buf (Elt F) (wLoc d)) (hit : ∀ y, (it y).toNat < 100000) (qw qs : PosShare TreeShare) {off off' : Fin 2 → ℕ}
    (h : ∀ a, off a + S1x128.size a ≤ S50x128.size a) (h' : ∀ a, off' a + S1x128.size a ≤ S50x128.size a) (e : off = off') :
    gatD4 d L it fw hit qw qs off h = gatD4 d L it fw hit qw qs off' h' := by subst e; rfl

/-- Slot 4's copy-out, as the run leaves it in flight, delivers the block at the array the call computes and the row buffer whole. -/
theorem out_join4 (it : Buf (Elt F) (tLoc d)) (fw : Buf (Elt F) (wLoc d)) (hit : ∀ y, (it y).toNat < 100000) (f0 : Buf (Elt F) (oLoc d))
    (j : ℕ) (hj : j < 50) (off : Fin 2 → ℕ) (h : ∀ a, off a + S128x128.size a ≤ S204800x128.size a) (e : off = oOffC L j)
    (pay : S128x128.Idx → Elt F .f32) (hpay : pay = gatOff d L it fw hit (rowOffC j) (hrowC j hj)) :
    iprop(((b4V).view.loc (V d (cV L) (jV L)) ↦[Finset.univ \ (b4V).view.set]{fullShare} gatOff d L it fw hit (rowOffC j) (hrowC j hj))
        ∗ ((oBlkO off h).view.loc (V d (cV L) (jV L)) ↦[(oBlkO off h).view.set]{fullShare} (oBlkO off h).view.writes (Elt F) f0 [⟨Rect.whole S128x128, pay⟩])
        ∗ ((b4V).view.loc (V d (cV L) (jV L)) ↦[(b4V).view.set]{fullShare} gatOff d L it fw hit (rowOffC j) (hrowC j hj)))
      ⊢ outD4 d L it fw hit j hj := by
  iintro ⟨Hr, Hblk, Hb⟩
  isplitl [Hblk]
  · iapply (Entails.of_eq (blk_written d L it fw hit f0 j hj off h e pay hpay)) $$ Hblk
  · iapply (pointsTo_split_subset (q := fullShare) (f := gatOff d L it fw hit (rowOffC j) (hrowC j hj)) (S := Finset.univ) (Finset.subset_univ (b4V).view.set)).2
    isplitl [Hb] <;> iassumption

/-- Slot 4 once the loop is over: its last copy-out is in flight, its gather semaphore is at zero. -/
def slotB4 (it : Buf (Elt F) (tLoc d)) (fw : Buf (Elt F) (wLoc d)) (hit : ∀ y, (it y).toNat < 100000) (qw : PosShare TreeShare) (f0 : Buf (Elt F) (oLoc d)) : sProp 𝕄 :=
  iprop(Transfers.Flight countersEmb (V d (cV L) (jV L)) (SemLoc.dma cc0_scratch14.sem) (default : HIx 1) 524288 (outD4 d L it fw hit (5 * 9 + 3) (by omega))
      ∗ semVal (cG4 d (cV L) (jV L)) 0
      ∗ bigSep (Finset.univ.erase (⟨9, by omega⟩ : Fin 10)) (blocks d L it fw f0 3 (by omega) 10)
      ∗ (wLoc d ↦{qw.right.right.right.left} fw) ∗ ((V d (cV L) (jV L)).loc cc0_scratch0 ↦{(fullShare : PosShare TreeShare).right.right.right.left} fiK d L it))

theorem gatD_congr5 (it : Buf (Elt F) (tLoc d)) (fw : Buf (Elt F) (wLoc d)) (hit : ∀ y, (it y).toNat < 100000) (qw qs : PosShare TreeShare) {off off' : Fin 2 → ℕ}
    (h : ∀ a, off a + S1x128.size a ≤ S50x128.size a) (h' : ∀ a, off' a + S1x128.size a ≤ S50x128.size a) (e : off = off') :
    gatD5 d L it fw hit qw qs off h = gatD5 d L it fw hit qw qs off' h' := by subst e; rfl

/-- Slot 5's copy-out, as the run leaves it in flight, delivers the block at the array the call computes and the row buffer whole. -/
theorem out_join5 (it : Buf (Elt F) (tLoc d)) (fw : Buf (Elt F) (wLoc d)) (hit : ∀ y, (it y).toNat < 100000) (f0 : Buf (Elt F) (oLoc d))
    (j : ℕ) (hj : j < 50) (off : Fin 2 → ℕ) (h : ∀ a, off a + S128x128.size a ≤ S204800x128.size a) (e : off = oOffC L j)
    (pay : S128x128.Idx → Elt F .f32) (hpay : pay = gatOff d L it fw hit (rowOffC j) (hrowC j hj)) :
    iprop(((b5V).view.loc (V d (cV L) (jV L)) ↦[Finset.univ \ (b5V).view.set]{fullShare} gatOff d L it fw hit (rowOffC j) (hrowC j hj))
        ∗ ((oBlkO off h).view.loc (V d (cV L) (jV L)) ↦[(oBlkO off h).view.set]{fullShare} (oBlkO off h).view.writes (Elt F) f0 [⟨Rect.whole S128x128, pay⟩])
        ∗ ((b5V).view.loc (V d (cV L) (jV L)) ↦[(b5V).view.set]{fullShare} gatOff d L it fw hit (rowOffC j) (hrowC j hj)))
      ⊢ outD5 d L it fw hit j hj := by
  iintro ⟨Hr, Hblk, Hb⟩
  isplitl [Hblk]
  · iapply (Entails.of_eq (blk_written d L it fw hit f0 j hj off h e pay hpay)) $$ Hblk
  · iapply (pointsTo_split_subset (q := fullShare) (f := gatOff d L it fw hit (rowOffC j) (hrowC j hj)) (S := Finset.univ) (Finset.subset_univ (b5V).view.set)).2
    isplitl [Hb] <;> iassumption

/-- Slot 5 once the loop is over: its last copy-out is in flight, its gather semaphore is at zero. -/
def slotB5 (it : Buf (Elt F) (tLoc d)) (fw : Buf (Elt F) (wLoc d)) (hit : ∀ y, (it y).toNat < 100000) (qw : PosShare TreeShare) (f0 : Buf (Elt F) (oLoc d)) : sProp 𝕄 :=
  iprop(Transfers.Flight countersEmb (V d (cV L) (jV L)) (SemLoc.dma cc0_scratch15.sem) (default : HIx 1) 524288 (outD5 d L it fw hit (5 * 9 + 4) (by omega))
      ∗ semVal (cG5 d (cV L) (jV L)) 0
      ∗ bigSep (Finset.univ.erase (⟨9, by omega⟩ : Fin 10)) (blocks d L it fw f0 4 (by omega) 10)
      ∗ (wLoc d ↦{qw.right.right.right.right} fw) ∗ ((V d (cV L) (jV L)).loc cc0_scratch0 ↦{(fullShare : PosShare TreeShare).right.right.right.right} fiK d L it))

/-- Before trip `k`: every slot's gather of its row for the trip is in flight and the rows of earlier trips are written; after the
    last trip every slot's last copy-out is in flight instead. -/
def inv (it : Buf (Elt F) (tLoc d)) (fw : Buf (Elt F) (wLoc d)) (hit : ∀ y, (it y).toNat < 100000) (qw : PosShare TreeShare) (f0 : Buf (Elt F) (oLoc d))
    (O : CellTallies nD τ sig (HIx 1)) (W : Waits sig (HIx 1)) (k : ℕ) (_ : PUnit) : sProp 𝕄 :=
  iprop(Transfers.MayWaits (V d (cV L) (jV L)) (default : HIx 1) O
    ∗ (if hk : k < 10 then iprop(slotA1 d L it fw hit qw f0 k hk ∗ slotA2 d L it fw hit qw f0 k hk ∗ slotA3 d L it fw hit qw f0 k hk ∗ slotA4 d L it fw hit qw f0 k hk ∗ slotA5 d L it fw hit qw f0 k hk)
        else iprop(slotB1 d L it fw hit qw f0 ∗ slotB2 d L it fw hit qw f0 ∗ slotB3 d L it fw hit qw f0 ∗ slotB4 d L it fw hit qw f0 ∗ slotB5 d L it fw hit qw f0))
    ∗ ∃ W', ⌜∀ p ∈ W', p ∈ W ∨ p.2 = none⌝ ∗ owes (V d (cV L) (jV L)) O W')

theorem blocks_erase_congr (it : Buf (Elt F) (tLoc d)) (fw : Buf (Elt F) (wLoc d)) (f0 : Buf (Elt F) (oLoc d)) (r : ℕ) (hr : r < 5) (k : ℕ) (hk10 : k < 10) :
    bigSep (Finset.univ.erase (⟨k, hk10⟩ : Fin 10)) (blocks d L it fw f0 r hr k)
      = bigSep (Finset.univ.erase (⟨k, hk10⟩ : Fin 10)) (blocks d L it fw f0 r hr (k + 1)) :=
  bigSep_congr fun kk hkk => by
    have hne : kk.val ≠ k := fun h => (Finset.mem_erase.mp hkk).1 (Fin.ext h)
    unfold blocks
    by_cases h : kk.val < k
    · rw [if_pos h, if_pos (by omega)]
    · rw [if_neg h, if_neg (by omega)]

/-- Once a slot's last block holds the table rows, all its blocks do. -/
theorem blocks_close (it : Buf (Elt F) (tLoc d)) (fw : Buf (Elt F) (wLoc d)) (f0 : Buf (Elt F) (oLoc d)) (r : ℕ) (hr : r < 5) :
    iprop((oLoc d ↦[oSetC L (5 * 9 + r) (by omega)]{fullShare} GK d it fw) ∗ bigSep (Finset.univ.erase (⟨9, by omega⟩ : Fin 10)) (blocks d L it fw f0 r hr 10))
      ⊢ bigSep Finset.univ (blocks d L it fw f0 r hr 10) := by
  have e2 : blocks d L it fw f0 r hr 10 (⟨9, by omega⟩ : Fin 10) = (oLoc d ↦[oSetC L (5 * 9 + r) (by omega)]{fullShare} GK d it fw) := by
    unfold blocks; rw [if_pos (Nat.lt_succ_self 9)]
  have h3 := Transfers.bigSep_univ_in (⟨9, by omega⟩ : Fin 10) (blocks d L it fw f0 r hr 10)
  rw [e2] at h3
  exact h3

/-- A tile's blocks of result rows, slot by slot, before trip `k` (all at their initial contents for `k = 0`, all at the table rows for `k = 10`). -/
abbrev oBlksPts (it : Buf (Elt F) (tLoc d)) (fw : Buf (Elt F) (wLoc d)) (f0 : Buf (Elt F) (oLoc d)) (k : ℕ) : sProp 𝕄 :=
  iprop(bigSep Finset.univ (blocks d L it fw f0 0 (by omega) k) ∗ bigSep Finset.univ (blocks d L it fw f0 1 (by omega) k) ∗ bigSep Finset.univ (blocks d L it fw f0 2 (by omega) k) ∗ bigSep Finset.univ (blocks d L it fw f0 3 (by omega) k) ∗ bigSep Finset.univ (blocks d L it fw f0 4 (by omega) k))

omit [FloatOps F] in
theorem ret_bind' {E : Type → Type} {α β : Type} (a : α) (k : α → Prog E β) : (Prog.ret a).bind k = k a := rfl

set_option maxHeartbeats 8000000 in
/-- One trip that is not the last: each slot's gather lands and is copied out to its block; once the copy-out is done the slot's
    gather of its next row is issued. -/
theorem region_lt (it : Buf (Elt F) (tLoc d)) (fw : Buf (Elt F) (wLoc d)) (hit : ∀ y, (it y).toNat < 100000) (qw : PosShare TreeShare) (f0 : Buf (Elt F) (oLoc d))
    (O : CellTallies nD τ sig (HIx 1)) (W : Waits sig (HIx 1)) (v2 c0 : BitVec 32) (k : Fin k0_t1_loop.trips) (hk : k.val < 9) (acc : PUnit) :
    inv d L it fw hit qw f0 O W k.val acc
      ⊢ wp frame (wpE (defs₀ (F := F)) 𝒱₀ (V d (cV L) (jV L)) none) Set.univ
          (k0_t1_body L tV (Memref.isWhole_whole _) wV (Memref.isWhole_whole _) oV (Memref.isWhole_whole _)
            sV (Memref.isWhole_whole _) b1V (Memref.isWhole_whole _) b2V (Memref.isWhole_whole _) b3V (Memref.isWhole_whole _) b4V (Memref.isWhole_whole _) b5V (Memref.isWhole_whole _)
            cc0_scratch6 cc0_scratch7 cc0_scratch8 cc0_scratch9 cc0_scratch10 cc0_scratch11 cc0_scratch12 cc0_scratch13 cc0_scratch14 cc0_scratch15 cc0_scoped0 v2 c0 k acc)
          (inv d L it fw hit qw f0 O W (k.val + 1)) := by
  have hk10 : k.val < 10 := by omega
  have k0_h1 : k0_cond1 k = 1#1 := (cond1_iff k).mpr hk
  have k0_h2 : k0_cond2 k = 1#1 := (cond2_iff k).mpr hk
  have k0_h3 : k0_cond3 k = 1#1 := (cond3_iff k).mpr hk
  have k0_h4 : k0_cond4 k = 1#1 := (cond4_iff k).mpr hk
  have k0_h5 : k0_cond5 k = 1#1 := (cond5_iff k).mpr hk
  have hN1 : ∀ h : S100000x128.Gathers 0 S128x128, ∑ j, ((b1V).slice (S128x128.rowRect h.axis' j) (S128x128.stride_rowRect h.axis' j)).view.dmaCredit
      = (b1V).view.dmaCredit := by decide
  have hN2 : ∀ h : S100000x128.Gathers 0 S128x128, ∑ j, ((b2V).slice (S128x128.rowRect h.axis' j) (S128x128.stride_rowRect h.axis' j)).view.dmaCredit
      = (b2V).view.dmaCredit := by decide
  have hN3 : ∀ h : S100000x128.Gathers 0 S128x128, ∑ j, ((b3V).slice (S128x128.rowRect h.axis' j) (S128x128.stride_rowRect h.axis' j)).view.dmaCredit
      = (b3V).view.dmaCredit := by decide
  have hN4 : ∀ h : S100000x128.Gathers 0 S128x128, ∑ j, ((b4V).slice (S128x128.rowRect h.axis' j) (S128x128.stride_rowRect h.axis' j)).view.dmaCredit
      = (b4V).view.dmaCredit := by decide
  have hN5 : ∀ h : S100000x128.Gathers 0 S128x128, ∑ j, ((b5V).slice (S128x128.rowRect h.axis' j) (S128x128.stride_rowRect h.axis' j)).view.dmaCredit
      = (b5V).view.dmaCredit := by decide
  unfold inv
  rw [dif_pos hk10, dif_pos (show k.val + 1 < 10 by omega)]
  unfold k0_t1_body
  simp only [k0_part1_eq_skeleton, k0_part2_eq_skeleton]; unfold k0_part1_skel k0_part2_skel
  unfold slotA1 slotA2 slotA3 slotA4 slotA5
  iintro ⟨#Hmw, ⟨⟨HF1, HS1, HBk1⟩, ⟨HF2, HS2, HBk2⟩, ⟨HF3, HS3, HBk3⟩, ⟨HF4, HS4, HBk4⟩, ⟨HF5, HS5, HBk5⟩⟩, %W', %hW', HO⟩
  sl_exec
  -- slot 1: the gather of row 5·k + 0 has landed
  iapply (Transfers.wp_waitLocalO countersEmb 𝒱₀ (V d (cV L) (jV L)) none (default : HIx 1) (rfl : (b1V).view.dmaCredit = _)) $$ [HF1 HO]
  · isplitl [HF1]; · iexact HF1
    isplitl [HO]; · iexact HO
    iapply (Transfers.MayWaits.elim (SemLoc.dma cc0_scratch6.sem)) $$ Hmw
  iintro ⟨⟨HB1, HW1, HSt1⟩, HG1, HO⟩
  ihave HB1 := (Entails.of_eq (show ((V d (cV L) (jV L)).loc cc0_scratch1 ↦{fullShare} gatOff d L it fw hit (rowOffC (5 * k.val + 0)) (hrowC (5 * k.val + 0) (by omega)) : sProp 𝕄)
      = ((b1V).view.loc (V d (cV L) (jV L)) ↦{fullShare} gatOff d L it fw hit (rowOffC (5 * k.val + 0)) (hrowC (5 * k.val + 0) (by omega))) from rfl)) $$ HB1
  ihave HBk := (Transfers.bigSep_univ_out (⟨k.val, hk10⟩ : Fin 10) (blocks d L it fw f0 0 _ k.val)) $$ HBk1
  icases HBk with ⟨Hblk1, HBk1⟩
  ihave Hblk1 := (Entails.of_eq (show (blocks d L it fw f0 0 _ k.val ⟨k.val, hk10⟩ : sProp 𝕄)
      = ((oBlkO (k0_off2 L k 0#32) (k0_off2_inb L k 0)).view.loc (V d (cV L) (jV L)) ↦[(oBlkO (k0_off2 L k 0#32) (k0_off2_inb L k 0)).view.set]{fullShare} f0) by
    unfold blocks
    rw [if_neg (Nat.lt_irrefl _), oSet_congr (off := k0_off2 L k 0#32) (k0_off2_inb L k 0) (hoC L (5 * k.val + 0) (by omega)) (off2_eq1 L k)])) $$ Hblk1
  sl_exec
  -- slot 2: the gather of row 5·k + 1 has landed
  iapply (Transfers.wp_waitLocalO countersEmb 𝒱₀ (V d (cV L) (jV L)) none (default : HIx 1) (rfl : (b2V).view.dmaCredit = _)) $$ [HF2 HO]
  · isplitl [HF2]; · iexact HF2
    isplitl [HO]; · iexact HO
    iapply (Transfers.MayWaits.elim (SemLoc.dma cc0_scratch7.sem)) $$ Hmw
  iintro ⟨⟨HB2, HW2, HSt2⟩, HG2, HO⟩
  ihave HB2 := (Entails.of_eq (show ((V d (cV L) (jV L)).loc cc0_scratch2 ↦{fullShare} gatOff d L it fw hit (rowOffC (5 * k.val + 1)) (hrowC (5 * k.val + 1) (by omega)) : sProp 𝕄)
      = ((b2V).view.loc (V d (cV L) (jV L)) ↦{fullShare} gatOff d L it fw hit (rowOffC (5 * k.val + 1)) (hrowC (5 * k.val + 1) (by omega))) from rfl)) $$ HB2
  ihave HBk := (Transfers.bigSep_univ_out (⟨k.val, hk10⟩ : Fin 10) (blocks d L it fw f0 1 _ k.val)) $$ HBk2
  icases HBk with ⟨Hblk2, HBk2⟩
  ihave Hblk2 := (Entails.of_eq (show (blocks d L it fw f0 1 _ k.val ⟨k.val, hk10⟩ : sProp 𝕄)
      = ((oBlkO (k0_off2 L k 1#32) (k0_off2_inb L k 1)).view.loc (V d (cV L) (jV L)) ↦[(oBlkO (k0_off2 L k 1#32) (k0_off2_inb L k 1)).view.set]{fullShare} f0) by
    unfold blocks
    rw [if_neg (Nat.lt_irrefl _), oSet_congr (off := k0_off2 L k 1#32) (k0_off2_inb L k 1) (hoC L (5 * k.val + 1) (by omega)) (off2_eq2 L k)])) $$ Hblk2
  sl_exec
  -- slot 3: the gather of row 5·k + 2 has landed
  iapply (Transfers.wp_waitLocalO countersEmb 𝒱₀ (V d (cV L) (jV L)) none (default : HIx 1) (rfl : (b3V).view.dmaCredit = _)) $$ [HF3 HO]
  · isplitl [HF3]; · iexact HF3
    isplitl [HO]; · iexact HO
    iapply (Transfers.MayWaits.elim (SemLoc.dma cc0_scratch8.sem)) $$ Hmw
  iintro ⟨⟨HB3, HW3, HSt3⟩, HG3, HO⟩
  ihave HB3 := (Entails.of_eq (show ((V d (cV L) (jV L)).loc cc0_scratch3 ↦{fullShare} gatOff d L it fw hit (rowOffC (5 * k.val + 2)) (hrowC (5 * k.val + 2) (by omega)) : sProp 𝕄)
      = ((b3V).view.loc (V d (cV L) (jV L)) ↦{fullShare} gatOff d L it fw hit (rowOffC (5 * k.val + 2)) (hrowC (5 * k.val + 2) (by omega))) from rfl)) $$ HB3
  ihave HBk := (Transfers.bigSep_univ_out (⟨k.val, hk10⟩ : Fin 10) (blocks d L it fw f0 2 _ k.val)) $$ HBk3
  icases HBk with ⟨Hblk3, HBk3⟩
  ihave Hblk3 := (Entails.of_eq (show (blocks d L it fw f0 2 _ k.val ⟨k.val, hk10⟩ : sProp 𝕄)
      = ((oBlkO (k0_off2 L k 2#32) (k0_off2_inb L k 2)).view.loc (V d (cV L) (jV L)) ↦[(oBlkO (k0_off2 L k 2#32) (k0_off2_inb L k 2)).view.set]{fullShare} f0) by
    unfold blocks
    rw [if_neg (Nat.lt_irrefl _), oSet_congr (off := k0_off2 L k 2#32) (k0_off2_inb L k 2) (hoC L (5 * k.val + 2) (by omega)) (off2_eq3 L k)])) $$ Hblk3
  sl_exec
  -- slot 4: the gather of row 5·k + 3 has landed
  iapply (Transfers.wp_waitLocalO countersEmb 𝒱₀ (V d (cV L) (jV L)) none (default : HIx 1) (rfl : (b4V).view.dmaCredit = _)) $$ [HF4 HO]
  · isplitl [HF4]; · iexact HF4
    isplitl [HO]; · iexact HO
    iapply (Transfers.MayWaits.elim (SemLoc.dma cc0_scratch9.sem)) $$ Hmw
  iintro ⟨⟨HB4, HW4, HSt4⟩, HG4, HO⟩
  ihave HB4 := (Entails.of_eq (show ((V d (cV L) (jV L)).loc cc0_scratch4 ↦{fullShare} gatOff d L it fw hit (rowOffC (5 * k.val + 3)) (hrowC (5 * k.val + 3) (by omega)) : sProp 𝕄)
      = ((b4V).view.loc (V d (cV L) (jV L)) ↦{fullShare} gatOff d L it fw hit (rowOffC (5 * k.val + 3)) (hrowC (5 * k.val + 3) (by omega))) from rfl)) $$ HB4
  ihave HBk := (Transfers.bigSep_univ_out (⟨k.val, hk10⟩ : Fin 10) (blocks d L it fw f0 3 _ k.val)) $$ HBk4
  icases HBk with ⟨Hblk4, HBk4⟩
  ihave Hblk4 := (Entails.of_eq (show (blocks d L it fw f0 3 _ k.val ⟨k.val, hk10⟩ : sProp 𝕄)
      = ((oBlkO (k0_off2 L k 3#32) (k0_off2_inb L k 3)).view.loc (V d (cV L) (jV L)) ↦[(oBlkO (k0_off2 L k 3#32) (k0_off2_inb L k 3)).view.set]{fullShare} f0) by
    unfold blocks
    rw [if_neg (Nat.lt_irrefl _), oSet_congr (off := k0_off2 L k 3#32) (k0_off2_inb L k 3) (hoC L (5 * k.val + 3) (by omega)) (off2_eq4 L k)])) $$ Hblk4
  sl_exec
  -- slot 5: the gather of row 5·k + 4 has landed
  iapply (Transfers.wp_waitLocalO countersEmb 𝒱₀ (V d (cV L) (jV L)) none (default : HIx 1) (rfl : (b5V).view.dmaCredit = _)) $$ [HF5 HO]
  · isplitl [HF5]; · iexact HF5
    isplitl [HO]; · iexact HO
    iapply (Transfers.MayWaits.elim (SemLoc.dma cc0_scratch10.sem)) $$ Hmw
  iintro ⟨⟨HB5, HW5, HSt5⟩, HG5, HO⟩
  ihave HB5 := (Entails.of_eq (show ((V d (cV L) (jV L)).loc cc0_scratch5 ↦{fullShare} gatOff d L it fw hit (rowOffC (5 * k.val + 4)) (hrowC (5 * k.val + 4) (by omega)) : sProp 𝕄)
      = ((b5V).view.loc (V d (cV L) (jV L)) ↦{fullShare} gatOff d L it fw hit (rowOffC (5 * k.val + 4)) (hrowC (5 * k.val + 4) (by omega))) from rfl)) $$ HB5
  ihave HBk := (Transfers.bigSep_univ_out (⟨k.val, hk10⟩ : Fin 10) (blocks d L it fw f0 4 _ k.val)) $$ HBk5
  icases HBk with ⟨Hblk5, HBk5⟩
  ihave Hblk5 := (Entails.of_eq (show (blocks d L it fw f0 4 _ k.val ⟨k.val, hk10⟩ : sProp 𝕄)
      = ((oBlkO (k0_off2 L k 4#32) (k0_off2_inb L k 4)).view.loc (V d (cV L) (jV L)) ↦[(oBlkO (k0_off2 L k 4#32) (k0_off2_inb L k 4)).view.set]{fullShare} f0) by
    unfold blocks
    rw [if_neg (Nat.lt_irrefl _), oSet_congr (off := k0_off2 L k 4#32) (k0_off2_inb L k 4) (hoC L (5 * k.val + 4) (by omega)) (off2_eq5 L k)])) $$ Hblk5
  sl_exec

  -- slot 1: issue the gather of row (k0_off4 k)
  ihave Hws := (pointsTo_split_subset (q := qw.left) (f := fw) (S := Finset.univ) (Finset.subset_univ (wAllK).view.set)).1 $$ HW1
  icases Hws with ⟨Hws, Hwr⟩
  ihave Hss := (pointsTo_split_subset (q := (fullShare : PosShare TreeShare).left) (f := fiK d L it) (S := Finset.univ) (Finset.subset_univ (rowK (k0_off4 k) (k0_off4_inb k k0_h1)).view.set)).1 $$ HSt1
  icases Hss with ⟨Hss, Hsr⟩
  ihave HB' := (Entails.of_eq (show ((V d (cV L) (jV L)).loc cc0_scratch1 ↦{fullShare} (gatOff d L it fw hit (rowOffC (5 * k.val + 0)) (hrowC (5 * k.val + 0) (by omega))) : sProp 𝕄)
      = (b1V).view.loc (V d (cV L) (jV L)) ↦[(b1V).view.set]{fullShare} (gatOff d L it fw hit (rowOffC (5 * k.val + 0)) (hrowC (5 * k.val + 0) (by omega))) by rw [show (b1V).view.set = Finset.univ from View.set_whole _])) $$ HB1
  iapply (SparseCore.wp_indirectGatherLocal countersEmb 𝒱₀ (V d (cV L) (jV L)) none (hg := gathers_S100000x128_S128x128) (default : HIx 1)
      (b1V).view.dmaCredit (hN1 _) (by decide) (hinOff d L it hit (k0_off4 k) (k0_off4_inb k k0_h1))) $$ [Hws HB' Hss HG1]
  · isplitl [Hws]; · iexact Hws
    isplitl [HB']; · iexact HB'
    isplitl [Hss]; · iexact Hss
    iexact HG1
  iintro Hfl
  ihave Hfl := (Transfers.Flight_frame countersEmb (V d (cV L) (jV L)) (R := (iprop((wLoc d ↦[Finset.univ \ (wAllK).view.set]{qw.left} fw) ∗ ((V d (cV L) (jV L)).loc cc0_scratch0 ↦[Finset.univ \ (rowK (k0_off4 k) (k0_off4_inb k k0_h1)).view.set]{(fullShare : PosShare TreeShare).left} fiK d L it)) : sProp 𝕄))) $$ [Hwr Hsr Hfl]
  · isplitl [Hwr Hsr]; · isplitl [Hwr] <;> iassumption
    iexact Hfl
  ihave HF1 := (Transfers.Flight_mono countersEmb (V d (cV L) (jV L)) (gat_join1 d L it fw hit (qw.left) ((fullShare : PosShare TreeShare).left) (k0_off4 k) (k0_off4_inb k k0_h1) (gatOff d L it fw hit (rowOffC (5 * k.val + 0)) (hrowC (5 * k.val + 0) (by omega))))) $$ Hfl
  sl_exec
  -- slot 2: issue the gather of row (k0_off6 k)
  ihave Hws := (pointsTo_split_subset (q := qw.right.left) (f := fw) (S := Finset.univ) (Finset.subset_univ (wAllK).view.set)).1 $$ HW2
  icases Hws with ⟨Hws, Hwr⟩
  ihave Hss := (pointsTo_split_subset (q := (fullShare : PosShare TreeShare).right.left) (f := fiK d L it) (S := Finset.univ) (Finset.subset_univ (rowK (k0_off6 k) (k0_off6_inb k k0_h2)).view.set)).1 $$ HSt2
  icases Hss with ⟨Hss, Hsr⟩
  ihave HB' := (Entails.of_eq (show ((V d (cV L) (jV L)).loc cc0_scratch2 ↦{fullShare} (gatOff d L it fw hit (rowOffC (5 * k.val + 1)) (hrowC (5 * k.val + 1) (by omega))) : sProp 𝕄)
      = (b2V).view.loc (V d (cV L) (jV L)) ↦[(b2V).view.set]{fullShare} (gatOff d L it fw hit (rowOffC (5 * k.val + 1)) (hrowC (5 * k.val + 1) (by omega))) by rw [show (b2V).view.set = Finset.univ from View.set_whole _])) $$ HB2
  iapply (SparseCore.wp_indirectGatherLocal countersEmb 𝒱₀ (V d (cV L) (jV L)) none (hg := gathers_S100000x128_S128x128) (default : HIx 1)
      (b2V).view.dmaCredit (hN2 _) (by decide) (hinOff d L it hit (k0_off6 k) (k0_off6_inb k k0_h2))) $$ [Hws HB' Hss HG2]
  · isplitl [Hws]; · iexact Hws
    isplitl [HB']; · iexact HB'
    isplitl [Hss]; · iexact Hss
    iexact HG2
  iintro Hfl
  ihave Hfl := (Transfers.Flight_frame countersEmb (V d (cV L) (jV L)) (R := (iprop((wLoc d ↦[Finset.univ \ (wAllK).view.set]{qw.right.left} fw) ∗ ((V d (cV L) (jV L)).loc cc0_scratch0 ↦[Finset.univ \ (rowK (k0_off6 k) (k0_off6_inb k k0_h2)).view.set]{(fullShare : PosShare TreeShare).right.left} fiK d L it)) : sProp 𝕄))) $$ [Hwr Hsr Hfl]
  · isplitl [Hwr Hsr]; · isplitl [Hwr] <;> iassumption
    iexact Hfl
  ihave HF2 := (Transfers.Flight_mono countersEmb (V d (cV L) (jV L)) (gat_join2 d L it fw hit (qw.right.left) ((fullShare : PosShare TreeShare).right.left) (k0_off6 k) (k0_off6_inb k k0_h2) (gatOff d L it fw hit (rowOffC (5 * k.val + 1)) (hrowC (5 * k.val + 1) (by omega))))) $$ Hfl
  sl_exec
  -- slot 3: issue the gather of row (k0_off8 k)
  ihave Hws := (pointsTo_split_subset (q := qw.right.right.left) (f := fw) (S := Finset.univ) (Finset.subset_univ (wAllK).view.set)).1 $$ HW3
  icases Hws with ⟨Hws, Hwr⟩
  ihave Hss := (pointsTo_split_subset (q := (fullShare : PosShare TreeShare).right.right.left) (f := fiK d L it) (S := Finset.univ) (Finset.subset_univ (rowK (k0_off8 k) (k0_off8_inb k k0_h3)).view.set)).1 $$ HSt3
  icases Hss with ⟨Hss, Hsr⟩
  ihave HB' := (Entails.of_eq (show ((V d (cV L) (jV L)).loc cc0_scratch3 ↦{fullShare} (gatOff d L it fw hit (rowOffC (5 * k.val + 2)) (hrowC (5 * k.val + 2) (by omega))) : sProp 𝕄)
      = (b3V).view.loc (V d (cV L) (jV L)) ↦[(b3V).view.set]{fullShare} (gatOff d L it fw hit (rowOffC (5 * k.val + 2)) (hrowC (5 * k.val + 2) (by omega))) by rw [show (b3V).view.set = Finset.univ from View.set_whole _])) $$ HB3
  iapply (SparseCore.wp_indirectGatherLocal countersEmb 𝒱₀ (V d (cV L) (jV L)) none (hg := gathers_S100000x128_S128x128) (default : HIx 1)
      (b3V).view.dmaCredit (hN3 _) (by decide) (hinOff d L it hit (k0_off8 k) (k0_off8_inb k k0_h3))) $$ [Hws HB' Hss HG3]
  · isplitl [Hws]; · iexact Hws
    isplitl [HB']; · iexact HB'
    isplitl [Hss]; · iexact Hss
    iexact HG3
  iintro Hfl
  ihave Hfl := (Transfers.Flight_frame countersEmb (V d (cV L) (jV L)) (R := (iprop((wLoc d ↦[Finset.univ \ (wAllK).view.set]{qw.right.right.left} fw) ∗ ((V d (cV L) (jV L)).loc cc0_scratch0 ↦[Finset.univ \ (rowK (k0_off8 k) (k0_off8_inb k k0_h3)).view.set]{(fullShare : PosShare TreeShare).right.right.left} fiK d L it)) : sProp 𝕄))) $$ [Hwr Hsr Hfl]
  · isplitl [Hwr Hsr]; · isplitl [Hwr] <;> iassumption
    iexact Hfl
  ihave HF3 := (Transfers.Flight_mono countersEmb (V d (cV L) (jV L)) (gat_join3 d L it fw hit (qw.right.right.left) ((fullShare : PosShare TreeShare).right.right.left) (k0_off8 k) (k0_off8_inb k k0_h3) (gatOff d L it fw hit (rowOffC (5 * k.val + 2)) (hrowC (5 * k.val + 2) (by omega))))) $$ Hfl
  sl_exec
  -- slot 4: issue the gather of row (k0_off10 k)
  ihave Hws := (pointsTo_split_subset (q := qw.right.right.right.left) (f := fw) (S := Finset.univ) (Finset.subset_univ (wAllK).view.set)).1 $$ HW4
  icases Hws with ⟨Hws, Hwr⟩
  ihave Hss := (pointsTo_split_subset (q := (fullShare : PosShare TreeShare).right.right.right.left) (f := fiK d L it) (S := Finset.univ) (Finset.subset_univ (rowK (k0_off10 k) (k0_off10_inb k k0_h4)).view.set)).1 $$ HSt4
  icases Hss with ⟨Hss, Hsr⟩
  ihave HB' := (Entails.of_eq (show ((V d (cV L) (jV L)).loc cc0_scratch4 ↦{fullShare} (gatOff d L it fw hit (rowOffC (5 * k.val + 3)) (hrowC (5 * k.val + 3) (by omega))) : sProp 𝕄)
      = (b4V).view.loc (V d (cV L) (jV L)) ↦[(b4V).view.set]{fullShare} (gatOff d L it fw hit (rowOffC (5 * k.val + 3)) (hrowC (5 * k.val + 3) (by omega))) by rw [show (b4V).view.set = Finset.univ from View.set_whole _])) $$ HB4
  iapply (SparseCore.wp_indirectGatherLocal countersEmb 𝒱₀ (V d (cV L) (jV L)) none (hg := gathers_S100000x128_S128x128) (default : HIx 1)
      (b4V).view.dmaCredit (hN4 _) (by decide) (hinOff d L it hit (k0_off10 k) (k0_off10_inb k k0_h4))) $$ [Hws HB' Hss HG4]
  · isplitl [Hws]; · iexact Hws
    isplitl [HB']; · iexact HB'
    isplitl [Hss]; · iexact Hss
    iexact HG4
  iintro Hfl
  ihave Hfl := (Transfers.Flight_frame countersEmb (V d (cV L) (jV L)) (R := (iprop((wLoc d ↦[Finset.univ \ (wAllK).view.set]{qw.right.right.right.left} fw) ∗ ((V d (cV L) (jV L)).loc cc0_scratch0 ↦[Finset.univ \ (rowK (k0_off10 k) (k0_off10_inb k k0_h4)).view.set]{(fullShare : PosShare TreeShare).right.right.right.left} fiK d L it)) : sProp 𝕄))) $$ [Hwr Hsr Hfl]
  · isplitl [Hwr Hsr]; · isplitl [Hwr] <;> iassumption
    iexact Hfl
  ihave HF4 := (Transfers.Flight_mono countersEmb (V d (cV L) (jV L)) (gat_join4 d L it fw hit (qw.right.right.right.left) ((fullShare : PosShare TreeShare).right.right.right.left) (k0_off10 k) (k0_off10_inb k k0_h4) (gatOff d L it fw hit (rowOffC (5 * k.val + 3)) (hrowC (5 * k.val + 3) (by omega))))) $$ Hfl
  sl_exec
  -- slot 5: issue the gather of row (k0_off12 k)
  ihave Hws := (pointsTo_split_subset (q := qw.right.right.right.right) (f := fw) (S := Finset.univ) (Finset.subset_univ (wAllK).view.set)).1 $$ HW5
  icases Hws with ⟨Hws, Hwr⟩
  ihave Hss := (pointsTo_split_subset (q := (fullShare : PosShare TreeShare).right.right.right.right) (f := fiK d L it) (S := Finset.univ) (Finset.subset_univ (rowK (k0_off12 k) (k0_off12_inb k k0_h5)).view.set)).1 $$ HSt5
  icases Hss with ⟨Hss, Hsr⟩
  ihave HB' := (Entails.of_eq (show ((V d (cV L) (jV L)).loc cc0_scratch5 ↦{fullShare} (gatOff d L it fw hit (rowOffC (5 * k.val + 4)) (hrowC (5 * k.val + 4) (by omega))) : sProp 𝕄)
      = (b5V).view.loc (V d (cV L) (jV L)) ↦[(b5V).view.set]{fullShare} (gatOff d L it fw hit (rowOffC (5 * k.val + 4)) (hrowC (5 * k.val + 4) (by omega))) by rw [show (b5V).view.set = Finset.univ from View.set_whole _])) $$ HB5
  iapply (SparseCore.wp_indirectGatherLocal countersEmb 𝒱₀ (V d (cV L) (jV L)) none (hg := gathers_S100000x128_S128x128) (default : HIx 1)
      (b5V).view.dmaCredit (hN5 _) (by decide) (hinOff d L it hit (k0_off12 k) (k0_off12_inb k k0_h5))) $$ [Hws HB' Hss HG5]
  · isplitl [Hws]; · iexact Hws
    isplitl [HB']; · iexact HB'
    isplitl [Hss]; · iexact Hss
    iexact HG5
  iintro Hfl
  ihave Hfl := (Transfers.Flight_frame countersEmb (V d (cV L) (jV L)) (R := (iprop((wLoc d ↦[Finset.univ \ (wAllK).view.set]{qw.right.right.right.right} fw) ∗ ((V d (cV L) (jV L)).loc cc0_scratch0 ↦[Finset.univ \ (rowK (k0_off12 k) (k0_off12_inb k k0_h5)).view.set]{(fullShare : PosShare TreeShare).right.right.right.right} fiK d L it)) : sProp 𝕄))) $$ [Hwr Hsr Hfl]
  · isplitl [Hwr Hsr]; · isplitl [Hwr] <;> iassumption
    iexact Hfl
  ihave HF5 := (Transfers.Flight_mono countersEmb (V d (cV L) (jV L)) (gat_join5 d L it fw hit (qw.right.right.right.right) ((fullShare : PosShare TreeShare).right.right.right.right) (k0_off12 k) (k0_off12_inb k k0_h5) (gatOff d L it fw hit (rowOffC (5 * k.val + 4)) (hrowC (5 * k.val + 4) (by omega))))) $$ Hfl
  sl_exec

  sl_step
  isplitr; · iexact Hmw
  isplitl [HF1 HS1 HBk1 Hblk1 HF2 HS2 HBk2 Hblk2 HF3 HS3 HBk3 Hblk3 HF4 HS4 HBk4 Hblk4 HF5 HS5 HBk5 Hblk5]
  · isplitl [HF1 HS1 HBk1 Hblk1]
    · -- slot 1
      isplitl [HF1]
      · iapply (Entails.of_eq (congrArg (Transfers.Flight countersEmb (V d (cV L) (jV L)) (SemLoc.dma cc0_scratch6.sem) (default : HIx 1) (b1V).view.dmaCredit)
          (gatD_congr1 d L it fw hit _ _ (k0_off4_inb k k0_h1) (hrowC (5 * (k.val + 1) + 0) (by omega)) (rowoff_eq1 k)))) $$ HF1
      isplitl [HS1]; · iexact HS1
      iapply (blocks_step d L it fw f0 0 _ k.val hk10)
      isplitl [Hblk1]
      · iapply (Entails.of_eq (blk_written d L it fw hit f0 (5 * k.val + 0) _ (k0_off2 L k 0#32) (k0_off2_inb L k 0) (off2_eq1 L k) (region_lt.sl.dma0 d L it fw hit k hk) rfl)) $$ Hblk1
      · iexact HBk1
    isplitl [HF2 HS2 HBk2 Hblk2]
    · -- slot 2
      isplitl [HF2]
      · iapply (Entails.of_eq (congrArg (Transfers.Flight countersEmb (V d (cV L) (jV L)) (SemLoc.dma cc0_scratch7.sem) (default : HIx 1) (b2V).view.dmaCredit)
          (gatD_congr2 d L it fw hit _ _ (k0_off6_inb k k0_h2) (hrowC (5 * (k.val + 1) + 1) (by omega)) (rowoff_eq2 k)))) $$ HF2
      isplitl [HS2]; · iexact HS2
      iapply (blocks_step d L it fw f0 1 _ k.val hk10)
      isplitl [Hblk2]
      · iapply (Entails.of_eq (blk_written d L it fw hit f0 (5 * k.val + 1) _ (k0_off2 L k 1#32) (k0_off2_inb L k 1) (off2_eq2 L k) (region_lt.sl.dma0_1 d L it fw hit k hk) rfl)) $$ Hblk2
      · iexact HBk2
    isplitl [HF3 HS3 HBk3 Hblk3]
    · -- slot 3
      isplitl [HF3]
      · iapply (Entails.of_eq (congrArg (Transfers.Flight countersEmb (V d (cV L) (jV L)) (SemLoc.dma cc0_scratch8.sem) (default : HIx 1) (b3V).view.dmaCredit)
          (gatD_congr3 d L it fw hit _ _ (k0_off8_inb k k0_h3) (hrowC (5 * (k.val + 1) + 2) (by omega)) (rowoff_eq3 k)))) $$ HF3
      isplitl [HS3]; · iexact HS3
      iapply (blocks_step d L it fw f0 2 _ k.val hk10)
      isplitl [Hblk3]
      · iapply (Entails.of_eq (blk_written d L it fw hit f0 (5 * k.val + 2) _ (k0_off2 L k 2#32) (k0_off2_inb L k 2) (off2_eq3 L k) (region_lt.sl.dma0_2 d L it fw hit k hk) rfl)) $$ Hblk3
      · iexact HBk3
    isplitl [HF4 HS4 HBk4 Hblk4]
    · -- slot 4
      isplitl [HF4]
      · iapply (Entails.of_eq (congrArg (Transfers.Flight countersEmb (V d (cV L) (jV L)) (SemLoc.dma cc0_scratch9.sem) (default : HIx 1) (b4V).view.dmaCredit)
          (gatD_congr4 d L it fw hit _ _ (k0_off10_inb k k0_h4) (hrowC (5 * (k.val + 1) + 3) (by omega)) (rowoff_eq4 k)))) $$ HF4
      isplitl [HS4]; · iexact HS4
      iapply (blocks_step d L it fw f0 3 _ k.val hk10)
      isplitl [Hblk4]
      · iapply (Entails.of_eq (blk_written d L it fw hit f0 (5 * k.val + 3) _ (k0_off2 L k 3#32) (k0_off2_inb L k 3) (off2_eq4 L k) (region_lt.sl.dma0_3 d L it fw hit k hk) rfl)) $$ Hblk4
      · iexact HBk4
    -- slot 5
    isplitl [HF5]
    · iapply (Entails.of_eq (congrArg (Transfers.Flight countersEmb (V d (cV L) (jV L)) (SemLoc.dma cc0_scratch10.sem) (default : HIx 1) (b5V).view.dmaCredit)
        (gatD_congr5 d L it fw hit _ _ (k0_off12_inb k k0_h5) (hrowC (5 * (k.val + 1) + 4) (by omega)) (rowoff_eq5 k)))) $$ HF5
    isplitl [HS5]; · iexact HS5
    iapply (blocks_step d L it fw f0 4 _ k.val hk10)
    isplitl [Hblk5]
    · iapply (Entails.of_eq (blk_written d L it fw hit f0 (5 * k.val + 4) _ (k0_off2 L k 4#32) (k0_off2_inb L k 4) (off2_eq5 L k) (region_lt.sl.dma0_4 d L it fw hit k hk) rfl)) $$ Hblk5
    · iexact HBk5

  iexists _; isplitr
  swap; · iexact HO
  ipureintro
  repeat (first | exact hW' | apply waits_insert)

set_option maxHeartbeats 8000000 in
/-- The last trip: each slot's gather lands and is copied out; nothing more is issued, so the copy-outs stay in flight. -/
theorem region_last (it : Buf (Elt F) (tLoc d)) (fw : Buf (Elt F) (wLoc d)) (hit : ∀ y, (it y).toNat < 100000) (qw : PosShare TreeShare) (f0 : Buf (Elt F) (oLoc d))
    (O : CellTallies nD τ sig (HIx 1)) (W : Waits sig (HIx 1)) (v2 c0 : BitVec 32) (k : Fin k0_t1_loop.trips) (hk : k.val = 9) (acc : PUnit) :
    inv d L it fw hit qw f0 O W k.val acc
      ⊢ wp frame (wpE (defs₀ (F := F)) 𝒱₀ (V d (cV L) (jV L)) none) Set.univ
          (k0_t1_body L tV (Memref.isWhole_whole _) wV (Memref.isWhole_whole _) oV (Memref.isWhole_whole _)
            sV (Memref.isWhole_whole _) b1V (Memref.isWhole_whole _) b2V (Memref.isWhole_whole _) b3V (Memref.isWhole_whole _) b4V (Memref.isWhole_whole _) b5V (Memref.isWhole_whole _)
            cc0_scratch6 cc0_scratch7 cc0_scratch8 cc0_scratch9 cc0_scratch10 cc0_scratch11 cc0_scratch12 cc0_scratch13 cc0_scratch14 cc0_scratch15 cc0_scoped0 v2 c0 k acc)
          (inv d L it fw hit qw f0 O W (k.val + 1)) := by
  obtain ⟨kv, h9⟩ := k
  have hk' : kv = 9 := hk
  subst hk'
  dsimp only
  have hk10 : (9 : ℕ) < 10 := by omega
  have k0_h1 : ¬ k0_cond1 ⟨9, h9⟩ = 1#1 := fun h => absurd ((cond1_iff ⟨9, h9⟩).mp h) (Nat.lt_irrefl 9)
  have k0_h2 : ¬ k0_cond2 ⟨9, h9⟩ = 1#1 := fun h => absurd ((cond2_iff ⟨9, h9⟩).mp h) (Nat.lt_irrefl 9)
  have k0_h3 : ¬ k0_cond3 ⟨9, h9⟩ = 1#1 := fun h => absurd ((cond3_iff ⟨9, h9⟩).mp h) (Nat.lt_irrefl 9)
  have k0_h4 : ¬ k0_cond4 ⟨9, h9⟩ = 1#1 := fun h => absurd ((cond4_iff ⟨9, h9⟩).mp h) (Nat.lt_irrefl 9)
  have k0_h5 : ¬ k0_cond5 ⟨9, h9⟩ = 1#1 := fun h => absurd ((cond5_iff ⟨9, h9⟩).mp h) (Nat.lt_irrefl 9)
  unfold inv
  rw [dif_pos hk10, dif_neg (show ¬ (9 + 1 < 10) by omega)]
  unfold k0_t1_body
  simp only [k0_part1_eq_skeleton, k0_part2_eq_skeleton]; unfold k0_part1_skel k0_part2_skel
  unfold slotA1 slotA2 slotA3 slotA4 slotA5 slotB1 slotB2 slotB3 slotB4 slotB5
  iintro ⟨#Hmw, ⟨⟨HF1, HS1, HBk1⟩, ⟨HF2, HS2, HBk2⟩, ⟨HF3, HS3, HBk3⟩, ⟨HF4, HS4, HBk4⟩, ⟨HF5, HS5, HBk5⟩⟩, %W', %hW', HO⟩
  sl_exec
  -- slot 1: the gather of row 5·k + 0 has landed
  iapply (Transfers.wp_waitLocalO countersEmb 𝒱₀ (V d (cV L) (jV L)) none (default : HIx 1) (rfl : (b1V).view.dmaCredit = _)) $$ [HF1 HO]
  · isplitl [HF1]; · iexact HF1
    isplitl [HO]; · iexact HO
    iapply (Transfers.MayWaits.elim (SemLoc.dma cc0_scratch6.sem)) $$ Hmw
  iintro ⟨⟨HB1, HW1, HSt1⟩, HG1, HO⟩
  ihave HB1 := (Entails.of_eq (show ((V d (cV L) (jV L)).loc cc0_scratch1 ↦{fullShare} gatOff d L it fw hit (rowOffC (5 * 9 + 0)) (hrowC (5 * 9 + 0) (by omega)) : sProp 𝕄)
      = ((b1V).view.loc (V d (cV L) (jV L)) ↦{fullShare} gatOff d L it fw hit (rowOffC (5 * 9 + 0)) (hrowC (5 * 9 + 0) (by omega))) from rfl)) $$ HB1
  ihave HBk := (Transfers.bigSep_univ_out (⟨9, hk10⟩ : Fin 10) (blocks d L it fw f0 0 _ 9)) $$ HBk1
  icases HBk with ⟨Hblk1, HBk1⟩
  ihave Hblk1 := (Entails.of_eq (show (blocks d L it fw f0 0 _ 9 ⟨9, hk10⟩ : sProp 𝕄)
      = ((oBlkO (k0_off2 L ⟨9, h9⟩ 0#32) (k0_off2_inb L ⟨9, h9⟩ 0)).view.loc (V d (cV L) (jV L)) ↦[(oBlkO (k0_off2 L ⟨9, h9⟩ 0#32) (k0_off2_inb L ⟨9, h9⟩ 0)).view.set]{fullShare} f0) by
    unfold blocks
    rw [if_neg (Nat.lt_irrefl _), oSet_congr (off := k0_off2 L ⟨9, h9⟩ 0#32) (k0_off2_inb L ⟨9, h9⟩ 0) (hoC L (5 * 9 + 0) (by omega)) (off2_eq1 L ⟨9, h9⟩)])) $$ Hblk1
  sl_exec
  -- slot 2: the gather of row 5·k + 1 has landed
  iapply (Transfers.wp_waitLocalO countersEmb 𝒱₀ (V d (cV L) (jV L)) none (default : HIx 1) (rfl : (b2V).view.dmaCredit = _)) $$ [HF2 HO]
  · isplitl [HF2]; · iexact HF2
    isplitl [HO]; · iexact HO
    iapply (Transfers.MayWaits.elim (SemLoc.dma cc0_scratch7.sem)) $$ Hmw
  iintro ⟨⟨HB2, HW2, HSt2⟩, HG2, HO⟩
  ihave HB2 := (Entails.of_eq (show ((V d (cV L) (jV L)).loc cc0_scratch2 ↦{fullShare} gatOff d L it fw hit (rowOffC (5 * 9 + 1)) (hrowC (5 * 9 + 1) (by omega)) : sProp 𝕄)
      = ((b2V).view.loc (V d (cV L) (jV L)) ↦{fullShare} gatOff d L it fw hit (rowOffC (5 * 9 + 1)) (hrowC (5 * 9 + 1) (by omega))) from rfl)) $$ HB2
  ihave HBk := (Transfers.bigSep_univ_out (⟨9, hk10⟩ : Fin 10) (blocks d L it fw f0 1 _ 9)) $$ HBk2
  icases HBk with ⟨Hblk2, HBk2⟩
  ihave Hblk2 := (Entails.of_eq (show (blocks d L it fw f0 1 _ 9 ⟨9, hk10⟩ : sProp 𝕄)
      = ((oBlkO (k0_off2 L ⟨9, h9⟩ 1#32) (k0_off2_inb L ⟨9, h9⟩ 1)).view.loc (V d (cV L) (jV L)) ↦[(oBlkO (k0_off2 L ⟨9, h9⟩ 1#32) (k0_off2_inb L ⟨9, h9⟩ 1)).view.set]{fullShare} f0) by
    unfold blocks
    rw [if_neg (Nat.lt_irrefl _), oSet_congr (off := k0_off2 L ⟨9, h9⟩ 1#32) (k0_off2_inb L ⟨9, h9⟩ 1) (hoC L (5 * 9 + 1) (by omega)) (off2_eq2 L ⟨9, h9⟩)])) $$ Hblk2
  sl_exec
  -- slot 3: the gather of row 5·k + 2 has landed
  iapply (Transfers.wp_waitLocalO countersEmb 𝒱₀ (V d (cV L) (jV L)) none (default : HIx 1) (rfl : (b3V).view.dmaCredit = _)) $$ [HF3 HO]
  · isplitl [HF3]; · iexact HF3
    isplitl [HO]; · iexact HO
    iapply (Transfers.MayWaits.elim (SemLoc.dma cc0_scratch8.sem)) $$ Hmw
  iintro ⟨⟨HB3, HW3, HSt3⟩, HG3, HO⟩
  ihave HB3 := (Entails.of_eq (show ((V d (cV L) (jV L)).loc cc0_scratch3 ↦{fullShare} gatOff d L it fw hit (rowOffC (5 * 9 + 2)) (hrowC (5 * 9 + 2) (by omega)) : sProp 𝕄)
      = ((b3V).view.loc (V d (cV L) (jV L)) ↦{fullShare} gatOff d L it fw hit (rowOffC (5 * 9 + 2)) (hrowC (5 * 9 + 2) (by omega))) from rfl)) $$ HB3
  ihave HBk := (Transfers.bigSep_univ_out (⟨9, hk10⟩ : Fin 10) (blocks d L it fw f0 2 _ 9)) $$ HBk3
  icases HBk with ⟨Hblk3, HBk3⟩
  ihave Hblk3 := (Entails.of_eq (show (blocks d L it fw f0 2 _ 9 ⟨9, hk10⟩ : sProp 𝕄)
      = ((oBlkO (k0_off2 L ⟨9, h9⟩ 2#32) (k0_off2_inb L ⟨9, h9⟩ 2)).view.loc (V d (cV L) (jV L)) ↦[(oBlkO (k0_off2 L ⟨9, h9⟩ 2#32) (k0_off2_inb L ⟨9, h9⟩ 2)).view.set]{fullShare} f0) by
    unfold blocks
    rw [if_neg (Nat.lt_irrefl _), oSet_congr (off := k0_off2 L ⟨9, h9⟩ 2#32) (k0_off2_inb L ⟨9, h9⟩ 2) (hoC L (5 * 9 + 2) (by omega)) (off2_eq3 L ⟨9, h9⟩)])) $$ Hblk3
  sl_exec
  -- slot 4: the gather of row 5·k + 3 has landed
  iapply (Transfers.wp_waitLocalO countersEmb 𝒱₀ (V d (cV L) (jV L)) none (default : HIx 1) (rfl : (b4V).view.dmaCredit = _)) $$ [HF4 HO]
  · isplitl [HF4]; · iexact HF4
    isplitl [HO]; · iexact HO
    iapply (Transfers.MayWaits.elim (SemLoc.dma cc0_scratch9.sem)) $$ Hmw
  iintro ⟨⟨HB4, HW4, HSt4⟩, HG4, HO⟩
  ihave HB4 := (Entails.of_eq (show ((V d (cV L) (jV L)).loc cc0_scratch4 ↦{fullShare} gatOff d L it fw hit (rowOffC (5 * 9 + 3)) (hrowC (5 * 9 + 3) (by omega)) : sProp 𝕄)
      = ((b4V).view.loc (V d (cV L) (jV L)) ↦{fullShare} gatOff d L it fw hit (rowOffC (5 * 9 + 3)) (hrowC (5 * 9 + 3) (by omega))) from rfl)) $$ HB4
  ihave HBk := (Transfers.bigSep_univ_out (⟨9, hk10⟩ : Fin 10) (blocks d L it fw f0 3 _ 9)) $$ HBk4
  icases HBk with ⟨Hblk4, HBk4⟩
  ihave Hblk4 := (Entails.of_eq (show (blocks d L it fw f0 3 _ 9 ⟨9, hk10⟩ : sProp 𝕄)
      = ((oBlkO (k0_off2 L ⟨9, h9⟩ 3#32) (k0_off2_inb L ⟨9, h9⟩ 3)).view.loc (V d (cV L) (jV L)) ↦[(oBlkO (k0_off2 L ⟨9, h9⟩ 3#32) (k0_off2_inb L ⟨9, h9⟩ 3)).view.set]{fullShare} f0) by
    unfold blocks
    rw [if_neg (Nat.lt_irrefl _), oSet_congr (off := k0_off2 L ⟨9, h9⟩ 3#32) (k0_off2_inb L ⟨9, h9⟩ 3) (hoC L (5 * 9 + 3) (by omega)) (off2_eq4 L ⟨9, h9⟩)])) $$ Hblk4
  sl_exec
  -- slot 5: the gather of row 5·k + 4 has landed
  iapply (Transfers.wp_waitLocalO countersEmb 𝒱₀ (V d (cV L) (jV L)) none (default : HIx 1) (rfl : (b5V).view.dmaCredit = _)) $$ [HF5 HO]
  · isplitl [HF5]; · iexact HF5
    isplitl [HO]; · iexact HO
    iapply (Transfers.MayWaits.elim (SemLoc.dma cc0_scratch10.sem)) $$ Hmw
  iintro ⟨⟨HB5, HW5, HSt5⟩, HG5, HO⟩
  ihave HB5 := (Entails.of_eq (show ((V d (cV L) (jV L)).loc cc0_scratch5 ↦{fullShare} gatOff d L it fw hit (rowOffC (5 * 9 + 4)) (hrowC (5 * 9 + 4) (by omega)) : sProp 𝕄)
      = ((b5V).view.loc (V d (cV L) (jV L)) ↦{fullShare} gatOff d L it fw hit (rowOffC (5 * 9 + 4)) (hrowC (5 * 9 + 4) (by omega))) from rfl)) $$ HB5
  ihave HBk := (Transfers.bigSep_univ_out (⟨9, hk10⟩ : Fin 10) (blocks d L it fw f0 4 _ 9)) $$ HBk5
  icases HBk with ⟨Hblk5, HBk5⟩
  ihave Hblk5 := (Entails.of_eq (show (blocks d L it fw f0 4 _ 9 ⟨9, hk10⟩ : sProp 𝕄)
      = ((oBlkO (k0_off2 L ⟨9, h9⟩ 4#32) (k0_off2_inb L ⟨9, h9⟩ 4)).view.loc (V d (cV L) (jV L)) ↦[(oBlkO (k0_off2 L ⟨9, h9⟩ 4#32) (k0_off2_inb L ⟨9, h9⟩ 4)).view.set]{fullShare} f0) by
    unfold blocks
    rw [if_neg (Nat.lt_irrefl _), oSet_congr (off := k0_off2 L ⟨9, h9⟩ 4#32) (k0_off2_inb L ⟨9, h9⟩ 4) (hoC L (5 * 9 + 4) (by omega)) (off2_eq5 L ⟨9, h9⟩)])) $$ Hblk5
  sl_exec

  sl_step
  isplitr; · iexact Hmw
  isplitl [HS1 HB1 HG1 HBk1 HW1 HSt1 HS2 HB2 HG2 HBk2 HW2 HSt2 HS3 HB3 HG3 HBk3 HW3 HSt3 HS4 HB4 HG4 HBk4 HW4 HSt4 HS5 HB5 HG5 HBk5 HW5 HSt5]
  · isplitl [HS1 HB1 HG1 HBk1 HW1 HSt1]
    · -- slot 1
      isplitl [HS1 HB1]
      · ihave Hfl := (Transfers.Flight_frame countersEmb (V d (cV L) (jV L)) (R := (((b1V).view.loc (V d (cV L) (jV L)) ↦[Finset.univ \ (b1V).view.set]{fullShare} gatOff d L it fw hit (rowOffC (5 * 9 + 0)) (hrowC (5 * 9 + 0) (by omega))) : sProp 𝕄))) $$ [HB1 HS1]
        · isplitl [HB1] <;> iassumption
        iapply (Transfers.Flight_mono countersEmb (V d (cV L) (jV L)) (out_join1 d L it fw hit f0 (5 * 9 + 0) (by omega) (k0_off2 L ⟨9, h9⟩ 0#32) (k0_off2_inb L ⟨9, h9⟩ 0) (off2_eq1 L ⟨9, h9⟩) (region_last.sl.dma0 d L it fw hit h9) rfl)) $$ Hfl
      isplitl [HG1]; · iexact HG1
      isplitl [HBk1]; · iapply (Entails.of_eq (blocks_erase_congr d L it fw f0 0 _ 9 _)) $$ HBk1
      isplitl [HW1]; · iexact HW1
      iexact HSt1
    isplitl [HS2 HB2 HG2 HBk2 HW2 HSt2]
    · -- slot 2
      isplitl [HS2 HB2]
      · ihave Hfl := (Transfers.Flight_frame countersEmb (V d (cV L) (jV L)) (R := (((b2V).view.loc (V d (cV L) (jV L)) ↦[Finset.univ \ (b2V).view.set]{fullShare} gatOff d L it fw hit (rowOffC (5 * 9 + 1)) (hrowC (5 * 9 + 1) (by omega))) : sProp 𝕄))) $$ [HB2 HS2]
        · isplitl [HB2] <;> iassumption
        iapply (Transfers.Flight_mono countersEmb (V d (cV L) (jV L)) (out_join2 d L it fw hit f0 (5 * 9 + 1) (by omega) (k0_off2 L ⟨9, h9⟩ 1#32) (k0_off2_inb L ⟨9, h9⟩ 1) (off2_eq2 L ⟨9, h9⟩) (region_last.sl.dma0_1 d L it fw hit h9) rfl)) $$ Hfl
      isplitl [HG2]; · iexact HG2
      isplitl [HBk2]; · iapply (Entails.of_eq (blocks_erase_congr d L it fw f0 1 _ 9 _)) $$ HBk2
      isplitl [HW2]; · iexact HW2
      iexact HSt2
    isplitl [HS3 HB3 HG3 HBk3 HW3 HSt3]
    · -- slot 3
      isplitl [HS3 HB3]
      · ihave Hfl := (Transfers.Flight_frame countersEmb (V d (cV L) (jV L)) (R := (((b3V).view.loc (V d (cV L) (jV L)) ↦[Finset.univ \ (b3V).view.set]{fullShare} gatOff d L it fw hit (rowOffC (5 * 9 + 2)) (hrowC (5 * 9 + 2) (by omega))) : sProp 𝕄))) $$ [HB3 HS3]
        · isplitl [HB3] <;> iassumption
        iapply (Transfers.Flight_mono countersEmb (V d (cV L) (jV L)) (out_join3 d L it fw hit f0 (5 * 9 + 2) (by omega) (k0_off2 L ⟨9, h9⟩ 2#32) (k0_off2_inb L ⟨9, h9⟩ 2) (off2_eq3 L ⟨9, h9⟩) (region_last.sl.dma0_2 d L it fw hit h9) rfl)) $$ Hfl
      isplitl [HG3]; · iexact HG3
      isplitl [HBk3]; · iapply (Entails.of_eq (blocks_erase_congr d L it fw f0 2 _ 9 _)) $$ HBk3
      isplitl [HW3]; · iexact HW3
      iexact HSt3
    isplitl [HS4 HB4 HG4 HBk4 HW4 HSt4]
    · -- slot 4
      isplitl [HS4 HB4]
      · ihave Hfl := (Transfers.Flight_frame countersEmb (V d (cV L) (jV L)) (R := (((b4V).view.loc (V d (cV L) (jV L)) ↦[Finset.univ \ (b4V).view.set]{fullShare} gatOff d L it fw hit (rowOffC (5 * 9 + 3)) (hrowC (5 * 9 + 3) (by omega))) : sProp 𝕄))) $$ [HB4 HS4]
        · isplitl [HB4] <;> iassumption
        iapply (Transfers.Flight_mono countersEmb (V d (cV L) (jV L)) (out_join4 d L it fw hit f0 (5 * 9 + 3) (by omega) (k0_off2 L ⟨9, h9⟩ 3#32) (k0_off2_inb L ⟨9, h9⟩ 3) (off2_eq4 L ⟨9, h9⟩) (region_last.sl.dma0_3 d L it fw hit h9) rfl)) $$ Hfl
      isplitl [HG4]; · iexact HG4
      isplitl [HBk4]; · iapply (Entails.of_eq (blocks_erase_congr d L it fw f0 3 _ 9 _)) $$ HBk4
      isplitl [HW4]; · iexact HW4
      iexact HSt4
    -- slot 5
    isplitl [HS5 HB5]
    · ihave Hfl := (Transfers.Flight_frame countersEmb (V d (cV L) (jV L)) (R := (((b5V).view.loc (V d (cV L) (jV L)) ↦[Finset.univ \ (b5V).view.set]{fullShare} gatOff d L it fw hit (rowOffC (5 * 9 + 4)) (hrowC (5 * 9 + 4) (by omega))) : sProp 𝕄))) $$ [HB5 HS5]
      · isplitl [HB5] <;> iassumption
      iapply (Transfers.Flight_mono countersEmb (V d (cV L) (jV L)) (out_join5 d L it fw hit f0 (5 * 9 + 4) (by omega) (k0_off2 L ⟨9, h9⟩ 4#32) (k0_off2_inb L ⟨9, h9⟩ 4) (off2_eq5 L ⟨9, h9⟩) (region_last.sl.dma0_4 d L it fw hit h9) rfl)) $$ Hfl
    isplitl [HG5]; · iexact HG5
    isplitl [HBk5]; · iapply (Entails.of_eq (blocks_erase_congr d L it fw f0 4 _ 9 _)) $$ HBk5
    isplitl [HW5]; · iexact HW5
    iexact HSt5

  iexists _; isplitr
  swap; · iexact HO
  ipureintro
  repeat (first | exact hW' | apply waits_insert)

set_option maxHeartbeats 8000000 in
/-- The task on vector subcore `(L 0, L 1)`: the fetch of the tile's columns of the transposed ids; five gathers issued, one per row
    buffer; the loop (`inv`); the last five copy-outs awaited. What it is handed comes back, the tile's blocks of result rows at the table rows
    their tokens name. -/
theorem tile_body (hF : (K (F := F)).Facts) (it : Buf (Elt F) (tLoc d)) (fw : Buf (Elt F) (wLoc d)) (hit : ∀ y, (it y).toNat < 100000) (qw : PosShare TreeShare)
    (f0 : Buf (Elt F) (oLoc d)) (O : CellTallies nD τ sig (HIx 1)) (W : Waits sig (HIx 1)) (hO : ∀ g, O g none = 0) :
    iprop(levAts (K (F := F)).L (K (F := F)).lev ∗ emp
        ∗ (tBlkPts d L it ∗ wPts d qw fw ∗ oBlksPts d L it fw f0 0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tV (Memref.isWhole_whole _) wV (Memref.isWhole_whole _) oV (Memref.isWhole_whole _)
            sV (Memref.isWhole_whole _) b1V (Memref.isWhole_whole _) b2V (Memref.isWhole_whole _) b3V (Memref.isWhole_whole _) b4V (Memref.isWhole_whole _) b5V (Memref.isWhole_whole _)
            cc0_scratch6 cc0_scratch7 cc0_scratch8 cc0_scratch9 cc0_scratch10 cc0_scratch11 cc0_scratch12 cc0_scratch13 cc0_scratch14 cc0_scratch15 cc0_scoped0)
          fun _ => iprop((tBlkPts d L it ∗ wPts d qw fw ∗ oBlksPts d L it fw f0 10)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have htr : k0_t1_loop.trips = 10 := by decide
  simp only [cc0_k_eq_skeleton]; unfold cc0_k_skel
  simp only [k0_part3_eq_skeleton]; unfold k0_part3_skel
  rw [(K (F := F)).scopedBufs_V hF d (cV L) (jV L), SparseCore.Cfg.scopedSems0_V (Val := Elt F) d (cV L) (jV L), ownSems0_V, ownBufs_V]
  iintro ⟨#Hlv, -, ⟨Ht, Hw, ⟨HBk1, HBk2, HBk3, HBk4, HBk5⟩⟩, ⟨⟨%fs, Hs⟩, ⟨%f1, HB1⟩, ⟨%f2, HB2⟩, ⟨%f3, HB3⟩, ⟨%f4, HB4⟩, ⟨%f5, HB5⟩, Hbufs⟩, ⟨HG1, HG2, HG3, HG4, HG5, HS1, HS2, HS3, HS4, HS5, HX, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Ht' := (Entails.of_eq (show (tLoc d ↦[(tBlkK L).view.set]{fullShare} it : sProp 𝕄) = ((tBlkK L).view.loc (V d (cV L) (jV L)) ↦[(tBlkK L).view.set]{fullShare} it) from rfl)) $$ Ht
  ihave Hs' := (Entails.of_eq (show ((V d (cV L) (jV L)).loc cc0_scratch0 ↦{fullShare} fs : sProp 𝕄) = ((sV).view.loc (V d (cV L) (jV L)) ↦{fullShare} fs) from rfl)) $$ Hs
  sl_exec
  -- the scratch holds the fetched ids; its read shares and the table's, one per slot
  have e0 : View.write (Elt F) (sV).view fs (tile_body.sl.dma0 d L it) Finset.univ = fiK d L it := by
    rw [View.write_whole_univ]; rfl
  rw [e0]
  ihave Hq := (pointsTo_share (f := fiK d L it) (PosShare.mem_left_op_right (fullShare : PosShare TreeShare))).1 $$ Hs'
  icases Hq with ⟨HSt1, Hq⟩
  ihave Hq := (pointsTo_share (f := fiK d L it) (PosShare.mem_left_op_right (fullShare : PosShare TreeShare).right)).1 $$ Hq
  icases Hq with ⟨HSt2, Hq⟩
  ihave Hq := (pointsTo_share (f := fiK d L it) (PosShare.mem_left_op_right (fullShare : PosShare TreeShare).right.right)).1 $$ Hq
  icases Hq with ⟨HSt3, Hq⟩
  ihave Hq := (pointsTo_share (f := fiK d L it) (PosShare.mem_left_op_right (fullShare : PosShare TreeShare).right.right.right)).1 $$ Hq
  icases Hq with ⟨HSt4, HSt5⟩

  ihave Hq := (pointsTo_share (f := fw) (PosShare.mem_left_op_right qw)).1 $$ Hw
  icases Hq with ⟨HW1, Hq⟩
  ihave Hq := (pointsTo_share (f := fw) (PosShare.mem_left_op_right qw.right)).1 $$ Hq
  icases Hq with ⟨HW2, Hq⟩
  ihave Hq := (pointsTo_share (f := fw) (PosShare.mem_left_op_right qw.right.right)).1 $$ Hq
  icases Hq with ⟨HW3, Hq⟩
  ihave Hq := (pointsTo_share (f := fw) (PosShare.mem_left_op_right qw.right.right.right)).1 $$ Hq
  icases Hq with ⟨HW4, HW5⟩

  have hN1 : ∀ h : S100000x128.Gathers 0 S128x128, ∑ j, ((b1V).slice (S128x128.rowRect h.axis' j) (S128x128.stride_rowRect h.axis' j)).view.dmaCredit
      = (b1V).view.dmaCredit := by decide
  have hN2 : ∀ h : S100000x128.Gathers 0 S128x128, ∑ j, ((b2V).slice (S128x128.rowRect h.axis' j) (S128x128.stride_rowRect h.axis' j)).view.dmaCredit
      = (b2V).view.dmaCredit := by decide
  have hN3 : ∀ h : S100000x128.Gathers 0 S128x128, ∑ j, ((b3V).slice (S128x128.rowRect h.axis' j) (S128x128.stride_rowRect h.axis' j)).view.dmaCredit
      = (b3V).view.dmaCredit := by decide
  have hN4 : ∀ h : S100000x128.Gathers 0 S128x128, ∑ j, ((b4V).slice (S128x128.rowRect h.axis' j) (S128x128.stride_rowRect h.axis' j)).view.dmaCredit
      = (b4V).view.dmaCredit := by decide
  have hN5 : ∀ h : S100000x128.Gathers 0 S128x128, ∑ j, ((b5V).slice (S128x128.rowRect h.axis' j) (S128x128.stride_rowRect h.axis' j)).view.dmaCredit
      = (b5V).view.dmaCredit := by decide
  -- slot 1: issue the gather of row ![0, 0]
  ihave Hws := (pointsTo_split_subset (q := qw.left) (f := fw) (S := Finset.univ) (Finset.subset_univ (wAllK).view.set)).1 $$ HW1
  icases Hws with ⟨Hws, Hwr⟩
  ihave Hss := (pointsTo_split_subset (q := (fullShare : PosShare TreeShare).left) (f := fiK d L it) (S := Finset.univ) (Finset.subset_univ (rowK ![0, 0] inb_S50x128_S1x128_0_0).view.set)).1 $$ HSt1
  icases Hss with ⟨Hss, Hsr⟩
  ihave HB' := (Entails.of_eq (show ((V d (cV L) (jV L)).loc cc0_scratch1 ↦{fullShare} f1 : sProp 𝕄)
      = (b1V).view.loc (V d (cV L) (jV L)) ↦[(b1V).view.set]{fullShare} f1 by rw [show (b1V).view.set = Finset.univ from View.set_whole _])) $$ HB1
  iapply (SparseCore.wp_indirectGatherLocal countersEmb 𝒱₀ (V d (cV L) (jV L)) none (hg := gathers_S100000x128_S128x128) (default : HIx 1)
      (b1V).view.dmaCredit (hN1 _) (by decide) (hinOff d L it hit ![0, 0] inb_S50x128_S1x128_0_0)) $$ [Hws HB' Hss HG1]
  · isplitl [Hws]; · iexact Hws
    isplitl [HB']; · iexact HB'
    isplitl [Hss]; · iexact Hss
    iexact HG1
  iintro Hfl
  ihave Hfl := (Transfers.Flight_frame countersEmb (V d (cV L) (jV L)) (R := (iprop((wLoc d ↦[Finset.univ \ (wAllK).view.set]{qw.left} fw) ∗ ((V d (cV L) (jV L)).loc cc0_scratch0 ↦[Finset.univ \ (rowK ![0, 0] inb_S50x128_S1x128_0_0).view.set]{(fullShare : PosShare TreeShare).left} fiK d L it)) : sProp 𝕄))) $$ [Hwr Hsr Hfl]
  · isplitl [Hwr Hsr]; · isplitl [Hwr] <;> iassumption
    iexact Hfl
  ihave HF1 := (Transfers.Flight_mono countersEmb (V d (cV L) (jV L)) (gat_join1 d L it fw hit (qw.left) ((fullShare : PosShare TreeShare).left) ![0, 0] inb_S50x128_S1x128_0_0 f1)) $$ Hfl
  sl_exec
  -- slot 2: issue the gather of row ![1, 0]
  ihave Hws := (pointsTo_split_subset (q := qw.right.left) (f := fw) (S := Finset.univ) (Finset.subset_univ (wAllK).view.set)).1 $$ HW2
  icases Hws with ⟨Hws, Hwr⟩
  ihave Hss := (pointsTo_split_subset (q := (fullShare : PosShare TreeShare).right.left) (f := fiK d L it) (S := Finset.univ) (Finset.subset_univ (rowK ![1, 0] inb_S50x128_S1x128_1_0).view.set)).1 $$ HSt2
  icases Hss with ⟨Hss, Hsr⟩
  ihave HB' := (Entails.of_eq (show ((V d (cV L) (jV L)).loc cc0_scratch2 ↦{fullShare} f2 : sProp 𝕄)
      = (b2V).view.loc (V d (cV L) (jV L)) ↦[(b2V).view.set]{fullShare} f2 by rw [show (b2V).view.set = Finset.univ from View.set_whole _])) $$ HB2
  iapply (SparseCore.wp_indirectGatherLocal countersEmb 𝒱₀ (V d (cV L) (jV L)) none (hg := gathers_S100000x128_S128x128) (default : HIx 1)
      (b2V).view.dmaCredit (hN2 _) (by decide) (hinOff d L it hit ![1, 0] inb_S50x128_S1x128_1_0)) $$ [Hws HB' Hss HG2]
  · isplitl [Hws]; · iexact Hws
    isplitl [HB']; · iexact HB'
    isplitl [Hss]; · iexact Hss
    iexact HG2
  iintro Hfl
  ihave Hfl := (Transfers.Flight_frame countersEmb (V d (cV L) (jV L)) (R := (iprop((wLoc d ↦[Finset.univ \ (wAllK).view.set]{qw.right.left} fw) ∗ ((V d (cV L) (jV L)).loc cc0_scratch0 ↦[Finset.univ \ (rowK ![1, 0] inb_S50x128_S1x128_1_0).view.set]{(fullShare : PosShare TreeShare).right.left} fiK d L it)) : sProp 𝕄))) $$ [Hwr Hsr Hfl]
  · isplitl [Hwr Hsr]; · isplitl [Hwr] <;> iassumption
    iexact Hfl
  ihave HF2 := (Transfers.Flight_mono countersEmb (V d (cV L) (jV L)) (gat_join2 d L it fw hit (qw.right.left) ((fullShare : PosShare TreeShare).right.left) ![1, 0] inb_S50x128_S1x128_1_0 f2)) $$ Hfl
  sl_exec
  -- slot 3: issue the gather of row ![2, 0]
  ihave Hws := (pointsTo_split_subset (q := qw.right.right.left) (f := fw) (S := Finset.univ) (Finset.subset_univ (wAllK).view.set)).1 $$ HW3
  icases Hws with ⟨Hws, Hwr⟩
  ihave Hss := (pointsTo_split_subset (q := (fullShare : PosShare TreeShare).right.right.left) (f := fiK d L it) (S := Finset.univ) (Finset.subset_univ (rowK ![2, 0] inb_S50x128_S1x128_2_0).view.set)).1 $$ HSt3
  icases Hss with ⟨Hss, Hsr⟩
  ihave HB' := (Entails.of_eq (show ((V d (cV L) (jV L)).loc cc0_scratch3 ↦{fullShare} f3 : sProp 𝕄)
      = (b3V).view.loc (V d (cV L) (jV L)) ↦[(b3V).view.set]{fullShare} f3 by rw [show (b3V).view.set = Finset.univ from View.set_whole _])) $$ HB3
  iapply (SparseCore.wp_indirectGatherLocal countersEmb 𝒱₀ (V d (cV L) (jV L)) none (hg := gathers_S100000x128_S128x128) (default : HIx 1)
      (b3V).view.dmaCredit (hN3 _) (by decide) (hinOff d L it hit ![2, 0] inb_S50x128_S1x128_2_0)) $$ [Hws HB' Hss HG3]
  · isplitl [Hws]; · iexact Hws
    isplitl [HB']; · iexact HB'
    isplitl [Hss]; · iexact Hss
    iexact HG3
  iintro Hfl
  ihave Hfl := (Transfers.Flight_frame countersEmb (V d (cV L) (jV L)) (R := (iprop((wLoc d ↦[Finset.univ \ (wAllK).view.set]{qw.right.right.left} fw) ∗ ((V d (cV L) (jV L)).loc cc0_scratch0 ↦[Finset.univ \ (rowK ![2, 0] inb_S50x128_S1x128_2_0).view.set]{(fullShare : PosShare TreeShare).right.right.left} fiK d L it)) : sProp 𝕄))) $$ [Hwr Hsr Hfl]
  · isplitl [Hwr Hsr]; · isplitl [Hwr] <;> iassumption
    iexact Hfl
  ihave HF3 := (Transfers.Flight_mono countersEmb (V d (cV L) (jV L)) (gat_join3 d L it fw hit (qw.right.right.left) ((fullShare : PosShare TreeShare).right.right.left) ![2, 0] inb_S50x128_S1x128_2_0 f3)) $$ Hfl
  sl_exec
  -- slot 4: issue the gather of row ![3, 0]
  ihave Hws := (pointsTo_split_subset (q := qw.right.right.right.left) (f := fw) (S := Finset.univ) (Finset.subset_univ (wAllK).view.set)).1 $$ HW4
  icases Hws with ⟨Hws, Hwr⟩
  ihave Hss := (pointsTo_split_subset (q := (fullShare : PosShare TreeShare).right.right.right.left) (f := fiK d L it) (S := Finset.univ) (Finset.subset_univ (rowK ![3, 0] inb_S50x128_S1x128_3_0).view.set)).1 $$ HSt4
  icases Hss with ⟨Hss, Hsr⟩
  ihave HB' := (Entails.of_eq (show ((V d (cV L) (jV L)).loc cc0_scratch4 ↦{fullShare} f4 : sProp 𝕄)
      = (b4V).view.loc (V d (cV L) (jV L)) ↦[(b4V).view.set]{fullShare} f4 by rw [show (b4V).view.set = Finset.univ from View.set_whole _])) $$ HB4
  iapply (SparseCore.wp_indirectGatherLocal countersEmb 𝒱₀ (V d (cV L) (jV L)) none (hg := gathers_S100000x128_S128x128) (default : HIx 1)
      (b4V).view.dmaCredit (hN4 _) (by decide) (hinOff d L it hit ![3, 0] inb_S50x128_S1x128_3_0)) $$ [Hws HB' Hss HG4]
  · isplitl [Hws]; · iexact Hws
    isplitl [HB']; · iexact HB'
    isplitl [Hss]; · iexact Hss
    iexact HG4
  iintro Hfl
  ihave Hfl := (Transfers.Flight_frame countersEmb (V d (cV L) (jV L)) (R := (iprop((wLoc d ↦[Finset.univ \ (wAllK).view.set]{qw.right.right.right.left} fw) ∗ ((V d (cV L) (jV L)).loc cc0_scratch0 ↦[Finset.univ \ (rowK ![3, 0] inb_S50x128_S1x128_3_0).view.set]{(fullShare : PosShare TreeShare).right.right.right.left} fiK d L it)) : sProp 𝕄))) $$ [Hwr Hsr Hfl]
  · isplitl [Hwr Hsr]; · isplitl [Hwr] <;> iassumption
    iexact Hfl
  ihave HF4 := (Transfers.Flight_mono countersEmb (V d (cV L) (jV L)) (gat_join4 d L it fw hit (qw.right.right.right.left) ((fullShare : PosShare TreeShare).right.right.right.left) ![3, 0] inb_S50x128_S1x128_3_0 f4)) $$ Hfl
  sl_exec
  -- slot 5: issue the gather of row ![4, 0]
  ihave Hws := (pointsTo_split_subset (q := qw.right.right.right.right) (f := fw) (S := Finset.univ) (Finset.subset_univ (wAllK).view.set)).1 $$ HW5
  icases Hws with ⟨Hws, Hwr⟩
  ihave Hss := (pointsTo_split_subset (q := (fullShare : PosShare TreeShare).right.right.right.right) (f := fiK d L it) (S := Finset.univ) (Finset.subset_univ (rowK ![4, 0] inb_S50x128_S1x128_4_0).view.set)).1 $$ HSt5
  icases Hss with ⟨Hss, Hsr⟩
  ihave HB' := (Entails.of_eq (show ((V d (cV L) (jV L)).loc cc0_scratch5 ↦{fullShare} f5 : sProp 𝕄)
      = (b5V).view.loc (V d (cV L) (jV L)) ↦[(b5V).view.set]{fullShare} f5 by rw [show (b5V).view.set = Finset.univ from View.set_whole _])) $$ HB5
  iapply (SparseCore.wp_indirectGatherLocal countersEmb 𝒱₀ (V d (cV L) (jV L)) none (hg := gathers_S100000x128_S128x128) (default : HIx 1)
      (b5V).view.dmaCredit (hN5 _) (by decide) (hinOff d L it hit ![4, 0] inb_S50x128_S1x128_4_0)) $$ [Hws HB' Hss HG5]
  · isplitl [Hws]; · iexact Hws
    isplitl [HB']; · iexact HB'
    isplitl [Hss]; · iexact Hss
    iexact HG5
  iintro Hfl
  ihave Hfl := (Transfers.Flight_frame countersEmb (V d (cV L) (jV L)) (R := (iprop((wLoc d ↦[Finset.univ \ (wAllK).view.set]{qw.right.right.right.right} fw) ∗ ((V d (cV L) (jV L)).loc cc0_scratch0 ↦[Finset.univ \ (rowK ![4, 0] inb_S50x128_S1x128_4_0).view.set]{(fullShare : PosShare TreeShare).right.right.right.right} fiK d L it)) : sProp 𝕄))) $$ [Hwr Hsr Hfl]
  · isplitl [Hwr Hsr]; · isplitl [Hwr] <;> iassumption
    iexact Hfl
  ihave HF5 := (Transfers.Flight_mono countersEmb (V d (cV L) (jV L)) (gat_join5 d L it fw hit (qw.right.right.right.right) ((fullShare : PosShare TreeShare).right.right.right.right) ![4, 0] inb_S50x128_S1x128_4_0 f5)) $$ Hfl
  sl_exec

  sl_for (inv d L it fw hit qw f0 O W) $$ [Hmw HF1 HS1 HBk1 HF2 HS2 HBk2 HF3 HS3 HBk3 HF4 HS4 HBk4 HF5 HS5 HBk5 HO]
  case region =>
    intro k acc
    by_cases hk : k.val < 9
    · exact region_lt d L it fw hit qw f0 O W _ _ k hk acc
    · exact region_last d L it fw hit qw f0 O W _ _ k (by have := Nat.lt_of_lt_of_le k.isLt trips_le; omega) acc
  · unfold inv
    rw [dif_pos (show (0 : ℕ) < 10 by omega)]
    unfold slotA1 slotA2 slotA3 slotA4 slotA5
    isplitr; · iexact Hmw
    isplitl [HF1 HS1 HBk1 HF2 HS2 HBk2 HF3 HS3 HBk3 HF4 HS4 HBk4 HF5 HS5 HBk5]
    · isplitl [HF1 HS1 HBk1]
      · isplitl [HF1]; · iexact HF1
        isplitl [HS1]; · iexact HS1
        iexact HBk1
      isplitl [HF2 HS2 HBk2]
      · isplitl [HF2]; · iexact HF2
        isplitl [HS2]; · iexact HS2
        iexact HBk2
      isplitl [HF3 HS3 HBk3]
      · isplitl [HF3]; · iexact HF3
        isplitl [HS3]; · iexact HS3
        iexact HBk3
      isplitl [HF4 HS4 HBk4]
      · isplitl [HF4]; · iexact HF4
        isplitl [HS4]; · iexact HS4
        iexact HBk4
      isplitl [HF5]; · iexact HF5
      isplitl [HS5]; · iexact HS5
      iexact HBk5
    iexists _; isplitr
    swap; · iexact HO
    ipureintro
    repeat (first | exact (fun p hp => Or.inl hp) | apply waits_insert)
  iintro %_ HI
  unfold inv
  rw [dif_neg (show ¬ k0_t1_loop.trips < 10 by omega)]
  unfold slotB1 slotB2 slotB3 slotB4 slotB5
  icases HI with ⟨-, ⟨⟨HFo1, HG1, HBk1, HW1, HSt1⟩, ⟨HFo2, HG2, HBk2, HW2, HSt2⟩, ⟨HFo3, HG3, HBk3, HW3, HSt3⟩, ⟨HFo4, HG4, HBk4, HW4, HSt4⟩, ⟨HFo5, HG5, HBk5, HW5, HSt5⟩⟩, %W', %hW', HO⟩
  -- slot 1: its last copy-out has landed
  iapply (Transfers.wp_waitLocalO countersEmb 𝒱₀ (V d (cV L) (jV L)) none (default : HIx 1) (N := 524288) rfl) $$ [HFo1 HO]
  · isplitl [HFo1]; · iexact HFo1
    isplitl [HO]; · iexact HO
    iapply (Transfers.MayWaits.elim (SemLoc.dma cc0_scratch11.sem)) $$ Hmw
  iintro ⟨⟨Hblk1, HB1⟩, HS1, HO⟩
  rw [ret_bind']
  -- slot 2: its last copy-out has landed
  iapply (Transfers.wp_waitLocalO countersEmb 𝒱₀ (V d (cV L) (jV L)) none (default : HIx 1) (N := 524288) rfl) $$ [HFo2 HO]
  · isplitl [HFo2]; · iexact HFo2
    isplitl [HO]; · iexact HO
    iapply (Transfers.MayWaits.elim (SemLoc.dma cc0_scratch12.sem)) $$ Hmw
  iintro ⟨⟨Hblk2, HB2⟩, HS2, HO⟩
  rw [ret_bind']
  -- slot 3: its last copy-out has landed
  iapply (Transfers.wp_waitLocalO countersEmb 𝒱₀ (V d (cV L) (jV L)) none (default : HIx 1) (N := 524288) rfl) $$ [HFo3 HO]
  · isplitl [HFo3]; · iexact HFo3
    isplitl [HO]; · iexact HO
    iapply (Transfers.MayWaits.elim (SemLoc.dma cc0_scratch13.sem)) $$ Hmw
  iintro ⟨⟨Hblk3, HB3⟩, HS3, HO⟩
  rw [ret_bind']
  -- slot 4: its last copy-out has landed
  iapply (Transfers.wp_waitLocalO countersEmb 𝒱₀ (V d (cV L) (jV L)) none (default : HIx 1) (N := 524288) rfl) $$ [HFo4 HO]
  · isplitl [HFo4]; · iexact HFo4
    isplitl [HO]; · iexact HO
    iapply (Transfers.MayWaits.elim (SemLoc.dma cc0_scratch14.sem)) $$ Hmw
  iintro ⟨⟨Hblk4, HB4⟩, HS4, HO⟩
  rw [ret_bind']
  -- slot 5: its last copy-out has landed
  iapply (Transfers.wp_waitLocalO countersEmb 𝒱₀ (V d (cV L) (jV L)) none (default : HIx 1) (N := 524288) rfl) $$ [HFo5 HO]
  · isplitl [HFo5]; · iexact HFo5
    isplitl [HO]; · iexact HO
    iapply (Transfers.MayWaits.elim (SemLoc.dma cc0_scratch15.sem)) $$ Hmw
  iintro ⟨⟨Hblk5, HB5⟩, HS5, HO⟩
  rw [ret_bind']

  sl_step
  -- the read shares, whole again
  ihave Hq := (pointsTo_share (f := fw) (PosShare.mem_left_op_right qw.right.right.right)).2 $$ [HW4 HW5]
  · isplitl [HW4] <;> iassumption
  ihave Hq := (pointsTo_share (f := fw) (PosShare.mem_left_op_right qw.right.right)).2 $$ [HW3 Hq]
  · isplitl [HW3] <;> iassumption
  ihave Hq := (pointsTo_share (f := fw) (PosShare.mem_left_op_right qw.right)).2 $$ [HW2 Hq]
  · isplitl [HW2] <;> iassumption
  ihave Hw := (pointsTo_share (f := fw) (PosShare.mem_left_op_right qw)).2 $$ [HW1 Hq]
  · isplitl [HW1] <;> iassumption

  ihave Hq := (pointsTo_share (f := fiK d L it) (PosShare.mem_left_op_right (fullShare : PosShare TreeShare).right.right.right)).2 $$ [HSt4 HSt5]
  · isplitl [HSt4] <;> iassumption
  ihave Hq := (pointsTo_share (f := fiK d L it) (PosShare.mem_left_op_right (fullShare : PosShare TreeShare).right.right)).2 $$ [HSt3 Hq]
  · isplitl [HSt3] <;> iassumption
  ihave Hq := (pointsTo_share (f := fiK d L it) (PosShare.mem_left_op_right (fullShare : PosShare TreeShare).right)).2 $$ [HSt2 Hq]
  · isplitl [HSt2] <;> iassumption
  ihave Hs := (pointsTo_share (f := fiK d L it) (PosShare.mem_left_op_right (fullShare : PosShare TreeShare))).2 $$ [HSt1 Hq]
  · isplitl [HSt1] <;> iassumption

  isplitl [Ht' Hw Hblk1 HBk1 Hblk2 HBk2 Hblk3 HBk3 Hblk4 HBk4 Hblk5 HBk5]
  · isplitl [Ht']; · iexact Ht'
    isplitl [Hw]; · iexact Hw
    isplitl [Hblk1 HBk1]
    · iapply (blocks_close d L it fw f0 0 _)
      isplitl [Hblk1] <;> iassumption
    isplitl [Hblk2 HBk2]
    · iapply (blocks_close d L it fw f0 1 _)
      isplitl [Hblk2] <;> iassumption
    isplitl [Hblk3 HBk3]
    · iapply (blocks_close d L it fw f0 2 _)
      isplitl [Hblk3] <;> iassumption
    isplitl [Hblk4 HBk4]
    · iapply (blocks_close d L it fw f0 3 _)
      isplitl [Hblk4] <;> iassumption
    iapply (blocks_close d L it fw f0 4 _)
    isplitl [Hblk5] <;> iassumption
  isplitl [Hs HB1 HB2 HB3 HB4 HB5 Hbufs]
  · isplitl [Hs]; · iexists _; iexact Hs
    isplitl [HB1]; · iexists _; iexact HB1
    isplitl [HB2]; · iexists _; iexact HB2
    isplitl [HB3]; · iexists _; iexact HB3
    isplitl [HB4]; · iexists _; iexact HB4
    isplitl [HB5]; · iexists _; iexact HB5
    iexact Hbufs
  isplitl [HG1 HG2 HG3 HG4 HG5 HS1 HS2 HS3 HS4 HS5 HX Hsems]
  · isplitl [HG1]; · iexact HG1
    isplitl [HG2]; · iexact HG2
    isplitl [HG3]; · iexact HG3
    isplitl [HG4]; · iexact HG4
    isplitl [HG5]; · iexact HG5
    isplitl [HS1]; · iexact HS1
    isplitl [HS2]; · iexact HS2
    isplitl [HS3]; · iexact HS3
    isplitl [HS4]; · iexact HS4
    isplitl [HS5]; · iexact HS5
    isplitl [HX]; · iexact HX
    iexact Hsems
  iexists _; isplitr
  swap; · iexact HO
  ipureintro
  repeat (first | exact hW' | apply waits_insert)

end Tile

end Cert.Proof.KI

end
-- ==== Proof.KISplit.lean ====
/-
  The launch's dealing of the three arrays among the 32 tiles, and the join back.

  Tile (c, i) has number w = 2 · i + c. The transposed ids [50, 4096] are cut along their columns into 32 parts of
  128 columns, part w the tile's; the table is dealt by share, one read token per tile cut off the full share, the
  remainder kept; the result [204800, 128] is cut along its rows into 1600 blocks of 128 rows, block 32 · j + w being
  sequence position j's block of tile w, and a tile holds its 50 blocks grouped by j = 5 · kk + r. Every cut is a
  partition (pairwise disjoint, covering), so the whole array is the separating conjunction of its pieces, re-indexed
  along (c, i) ↦ 2 · i + c and (c, i, r, kk) ↦ 32 · (5 · kk + r) + 2 · i + c; the join is the same equalities read
  backwards, every piece then holding one whole-array function.
-/
import proofs.«206436_g50972671869147_cont_8to1c4_798_20_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v0_scv : Memref Cert.KernelIdeal.sig Kind.scVector Space.hbm Cert.KernelIdeal.S50x4096 EltTy.i32)
local notation "oV" => (Memref.whole Cert.KernelIdeal.main_v1_scv : Memref Cert.KernelIdeal.sig Kind.scVector Space.hbm Cert.KernelIdeal.S204800x128 EltTy.f32)

/-! ## Tiles and their numbers -/

/-- The tile at core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- A tile's number is below 32. -/
theorem tileNo_lt (L : grid0.Coords) : 2 * (L 1).val + (L 0).val < 32 := by
  have h1 : (L 1).val < 16 := (L 1).isLt
  have h0 : (L 0).val < 2 := (L 0).isLt
  omega

/-- The tile's number, `2 · (L 1) + (L 0)`. -/
abbrev tileW (L : grid0.Coords) : Fin 32 := ⟨2 * (L 1).val + (L 0).val, tileNo_lt L⟩

/-- Tile `L`'s read share of the table: token number `2 · (L 1) + (L 0)` of the 32 cut off the full share. -/
def wq (L : grid0.Coords) : PosShare TreeShare := Transfers.shareTok fullShare 32 (tileW L)

/-- The tiles are numbered one to one by `0 … 31`. -/
def tileEquiv : Fin (grid0.bound 0) × Fin (grid0.bound 1) ≃ Fin 32 where
  toFun p := tileW (coordsV p.1 p.2)
  invFun w := (⟨w.val % 2, by show w.val % 2 < 2; omega⟩, ⟨w.val / 2, by show w.val / 2 < 16; omega⟩)
  left_inv p := by
    have h0 : p.1.val < 2 := p.1.isLt
    have h1 : p.2.val < 16 := p.2.isLt
    refine Prod.ext (Fin.ext ?_) (Fin.ext ?_)
    · show (2 * p.2.val + p.1.val) % 2 = p.1.val
      omega
    · show (2 * p.2.val + p.1.val) / 2 = p.2.val
      omega
  right_inv w := by
    refine Fin.ext ?_
    show 2 * (w.val / 2) + w.val % 2 = w.val
    omega

/-- A sequence position's block number for a tile is below 1600. -/
theorem blockNo_lt (L : grid0.Coords) (j : ℕ) (hj : j < 50) : 32 * j + (2 * (L 1).val + (L 0).val) < 1600 := by
  have := tileNo_lt L
  omega

/-- Sequence position `j`'s block of tile `L`, among the 1600 blocks of 128 result rows: `32 · j + w`. -/
abbrev blockNo (L : grid0.Coords) (j : ℕ) (hj : j < 50) : Fin 1600 := ⟨32 * j + (2 * (L 1).val + (L 0).val), blockNo_lt L j hj⟩

theorem pos_lt (r : Fin 5) (kk : Fin 10) : 5 * kk.val + r.val < 50 := by
  have := r.isLt
  have := kk.isLt
  omega

/-- The blocks are numbered one to one by tile, slot and trip. -/
def blockEquiv : (Fin (grid0.bound 0) × Fin (grid0.bound 1)) × (Fin 5 × Fin 10) ≃ Fin 1600 where
  toFun p := blockNo (coordsV p.1.1 p.1.2) (5 * p.2.2.val + p.2.1.val) (pos_lt p.2.1 p.2.2)
  invFun q := ((⟨q.val % 32 % 2, by show q.val % 32 % 2 < 2; omega⟩, ⟨q.val % 32 / 2, by show q.val % 32 / 2 < 16; omega⟩),
    (⟨q.val / 32 % 5, by omega⟩, ⟨q.val / 32 / 5, by have := q.isLt; omega⟩))
  left_inv p := by
    have h0 : p.1.1.val < 2 := p.1.1.isLt
    have h1 : p.1.2.val < 16 := p.1.2.isLt
    have h2 := p.2.1.isLt
    have h3 := p.2.2.isLt
    refine Prod.ext (Prod.ext (Fin.ext ?_) (Fin.ext ?_)) (Prod.ext (Fin.ext ?_) (Fin.ext ?_))
    · show (32 * (5 * p.2.2.val + p.2.1.val) + (2 * p.1.2.val + p.1.1.val)) % 32 % 2 = p.1.1.val
      omega
    · show (32 * (5 * p.2.2.val + p.2.1.val) + (2 * p.1.2.val + p.1.1.val)) % 32 / 2 = p.1.2.val
      omega
    · show (32 * (5 * p.2.2.val + p.2.1.val) + (2 * p.1.2.val + p.1.1.val)) / 32 % 5 = p.2.1.val
      omega
    · show (32 * (5 * p.2.2.val + p.2.1.val) + (2 * p.1.2.val + p.1.1.val)) / 32 / 5 = p.2.2.val
      omega
  right_inv q := by
    refine Fin.ext ?_
    show 32 * (5 * (q.val / 32 / 5) + q.val / 32 % 5) + (2 * (q.val % 32 / 2) + q.val % 32 % 2) = q.val
    omega

/-! ## The cuts as rectangles -/

theorem tdiv : 32 ∣ S50x4096.size 1 := ⟨128, rfl⟩
theorem odiv : 1600 ∣ S204800x128.size 0 := ⟨128, rfl⟩

/-- Part `w` of the transposed ids' columns, and block `p` of the result's rows. -/
abbrev tPart (w : Fin 32) : Rect S50x4096 := Rect.part (s := S50x4096) (a₀ := 1) tdiv w
abbrev oPart (p : Fin 1600) : Rect S204800x128 := Rect.part (s := S204800x128) (a₀ := 0) odiv p
abbrev tSetW (w : Fin 32) : Finset S50x4096.Idx := ((tV).view.slice (tPart w)).set
abbrev oSetP (p : Fin 1600) : Finset S204800x128.Idx := ((oV).view.slice (oPart p)).set

/-- The columns a tile fetches are its part. -/
theorem tRect_eq (L : grid0.Coords) :
    Rect.unit (s := S50x4096) (k0_off1 L) S50x128.size (k0_off1_inb L) = tPart (tileW L) := by
  unfold tPart Rect.part Rect.block
  congr 1 <;> funext a
  · rw [k0_off1_eq]
    match a with
    | 0 => simp [Shape.partIx, Shape.partSize]
    | 1 =>
      simp [Shape.partIx, Shape.partSize]
      omega
  · match a with
    | 0 => simp [Shape.partSize]
    | 1 => simp [Shape.partSize]

/-- A tile's block of result rows for a sequence position is its block among the 1600. -/
theorem oRect_eq (L : grid0.Coords) (j : ℕ) (hj : j < 50) :
    Rect.unit (s := S204800x128) (oOffC L j) S128x128.size (hoC L j hj) = oPart (blockNo L j hj) := by
  unfold oPart Rect.part Rect.block
  congr 1 <;> funext a
  · match a with
    | 0 =>
      simp [Shape.partIx, Shape.partSize, oOffC]
      omega
    | 1 => simp [Shape.partIx, Shape.partSize, oOffC]
  · match a with
    | 0 => simp [Shape.partSize]
    | 1 => simp [Shape.partSize]

theorem set_tBlkK (L : grid0.Coords) : (tBlkK L).view.set = tSetW (tileW L) := by
  show ((tV).view.slice (Rect.unit (s := S50x4096) (k0_off1 L) S50x128.size (k0_off1_inb L))).set = ((tV).view.slice (tPart (tileW L))).set
  rw [tRect_eq]

theorem oSetC_eq (L : grid0.Coords) (j : ℕ) (hj : j < 50) : oSetC L j hj = oSetP (blockNo L j hj) := by
  show ((oV).view.slice (Rect.unit (s := S204800x128) (oOffC L j) S128x128.size (hoC L j hj))).set = ((oV).view.slice (oPart (blockNo L j hj))).set
  rw [oRect_eq]

theorem tSetW_eq (w : Fin 32) : tSetW w = (tPart w).set := by
  show ((View.whole (main_v0_scv : Ref sig .scVector)).slice (tPart w)).set = _
  rw [View.set_slice]; exact Finset.map_refl
theorem oSetP_eq (p : Fin 1600) : oSetP p = (oPart p).set := by
  show ((View.whole (main_v1_scv : Ref sig .scVector)).slice (oPart p)).set = _
  rw [View.set_slice]; exact Finset.map_refl

theorem tParts_disjoint : ∀ i ∈ (Finset.univ : Finset (Fin 32)), ∀ j ∈ (Finset.univ : Finset (Fin 32)), i ≠ j → Disjoint (tSetW i) (tSetW j) :=
  fun i _ j _ h => by rw [tSetW_eq, tSetW_eq]; exact Rect.part_disjoint tdiv h
theorem oParts_disjoint : ∀ i ∈ (Finset.univ : Finset (Fin 1600)), ∀ j ∈ (Finset.univ : Finset (Fin 1600)), i ≠ j → Disjoint (oSetP i) (oSetP j) :=
  fun i _ j _ h => by rw [oSetP_eq, oSetP_eq]; exact Rect.part_disjoint odiv h
theorem tParts_cover : (Finset.univ : Finset (Fin 32)).biUnion tSetW = Finset.univ :=
  (Finset.biUnion_congr rfl fun i _ => tSetW_eq i).trans (Rect.biUnion_part tdiv)
theorem oParts_cover : (Finset.univ : Finset (Fin 1600)).biUnion oSetP = Finset.univ :=
  (Finset.biUnion_congr rfl fun i _ => oSetP_eq i).trans (Rect.biUnion_part odiv)

/-! ## Re-indexing a conjunction over the tiles, and over the blocks -/

/-- A conjunction over the 32 tile numbers, by core and subcore. -/
theorem bigSep_tiles (Φ : Fin 32 → sProp 𝕄) :
    bigSep Finset.univ Φ
      = bigSep Finset.univ fun c : Fin (grid0.bound 0) => bigSep Finset.univ fun i : Fin (grid0.bound 1) => Φ (tileW (coordsV c i)) := by
  rw [bigSep_univ_equiv tileEquiv Φ, bigSep_univ_prod]
  rfl

/-- A conjunction over the five slots, written out. -/
theorem bigSep_five (Ψ : Fin 5 → sProp 𝕄) : bigSep Finset.univ Ψ = iprop(Ψ 0 ∗ Ψ 1 ∗ Ψ 2 ∗ Ψ 3 ∗ Ψ 4) := by
  rw [show (Finset.univ : Finset (Fin 5)) = {0, 1, 2, 3, 4} by decide, SparseCore.bigSep_insert' (by decide),
    SparseCore.bigSep_insert' (by decide), SparseCore.bigSep_insert' (by decide), SparseCore.bigSep_insert' (by decide), bigSep_singleton]

/-- A conjunction over the 1600 block numbers, by core, subcore, slot and trip. -/
theorem bigSep_blocks (Φ : Fin 1600 → sProp 𝕄) :
    bigSep Finset.univ Φ
      = bigSep Finset.univ fun c : Fin (grid0.bound 0) => bigSep Finset.univ fun i : Fin (grid0.bound 1) =>
          bigSep Finset.univ fun r : Fin 5 => bigSep Finset.univ fun kk : Fin 10 =>
            Φ (blockNo (coordsV c i) (5 * kk.val + r.val) (pos_lt r kk)) := by
  rw [bigSep_univ_equiv blockEquiv Φ, bigSep_univ_prod, bigSep_univ_prod]
  refine bigSep_congr fun c _ => bigSep_congr fun i _ => ?_
  rw [bigSep_univ_prod]
  rfl

/-- A conjunction, over two indices, of three-fold conjunctions is the three-fold conjunction of the conjunctions. -/
theorem bigSep2_sep3 {α β : Type} [Fintype α] [Fintype β] (A B C : α → β → sProp 𝕄) :
    (bigSep Finset.univ fun a => bigSep Finset.univ fun b => iprop(A a b ∗ B a b ∗ C a b))
      = iprop((bigSep Finset.univ fun a => bigSep Finset.univ fun b => A a b)
          ∗ (bigSep Finset.univ fun a => bigSep Finset.univ fun b => B a b)
          ∗ (bigSep Finset.univ fun a => bigSep Finset.univ fun b => C a b)) := by
  rw [show (fun a => bigSep Finset.univ fun b => iprop(A a b ∗ B a b ∗ C a b))
      = fun a => iprop((bigSep Finset.univ fun b => A a b) ∗ (bigSep Finset.univ fun b => B a b) ∗ (bigSep Finset.univ fun b => C a b))
      from funext fun a => by rw [bigSep_sep', bigSep_sep'],
    bigSep_sep', bigSep_sep']

/-! ## The three arrays dealt -/

section Deal

variable [FloatOps F]
variable (d : Dev nD)

/-- The transposed ids, whole, are the tiles' column parts. -/
theorem tPts_tiles (it : Buf (Elt F) (tLoc d)) :
    (tLoc d ↦{fullShare} it : sProp 𝕄)
      = bigSep Finset.univ fun c : Fin (grid0.bound 0) => bigSep Finset.univ fun i : Fin (grid0.bound 1) => tBlkPts d (coordsV c i) it := by
  rw [show (tLoc d ↦{fullShare} it : sProp 𝕄) = bigSep Finset.univ fun w : Fin 32 => tLoc d ↦[tSetW w]{fullShare} it by
    rw [← pointsTo_biUnion Finset.univ (ℓ := tLoc d) tSetW tParts_disjoint, tParts_cover]; try rfl]
  rw [bigSep_tiles (F := F) fun w => tLoc d ↦[tSetW w]{fullShare} it]
  refine bigSep_congr fun c _ => bigSep_congr fun i _ => ?_
  show (tLoc d ↦[tSetW (tileW (coordsV c i))]{fullShare} it : sProp 𝕄) = tLoc d ↦[(tBlkK (coordsV c i)).view.set]{fullShare} it
  rw [set_tBlkK]

/-- The table at the full share is the remainder after 32 read tokens and the tiles' tokens. -/
theorem wPts_tiles (fw : Buf (Elt F) (wLoc d)) :
    (wLoc d ↦{fullShare} fw : sProp 𝕄)
      = iprop((wLoc d ↦{Transfers.shareDrop fullShare 32} fw)
          ∗ bigSep Finset.univ fun c : Fin (grid0.bound 0) => bigSep Finset.univ fun i : Fin (grid0.bound 1) => wPts d (wq (coordsV c i)) fw) := by
  have h : (wLoc d ↦{fullShare} fw : sProp 𝕄)
      ⊣⊢ iprop((wLoc d ↦{Transfers.shareDrop fullShare 32} fw)
        ∗ bigSep Finset.univ fun w : Fin 32 => wLoc d ↦{Transfers.shareTok fullShare 32 w} fw) :=
    Transfers.pointsTo_toks fullShare 32
  rw [BI.equiv_iff.mp ⟨h.1, h.2⟩, bigSep_tiles (F := F) fun w => wLoc d ↦{Transfers.shareTok fullShare 32 w} fw]
  rfl

/-- The result array, whole at one function `g`, is the tiles' blocks, slot by slot, each at `g`. -/
theorem oPts_tiles (g : Buf (Elt F) (oLoc d)) :
    (oLoc d ↦{fullShare} g : sProp 𝕄)
      = bigSep Finset.univ fun c : Fin (grid0.bound 0) => bigSep Finset.univ fun i : Fin (grid0.bound 1) =>
          bigSep Finset.univ fun r : Fin 5 => bigSep Finset.univ fun kk : Fin 10 =>
            oLoc d ↦[oSetC (coordsV c i) (5 * kk.val + r.val) (pos_lt r kk)]{fullShare} g := by
  rw [show (oLoc d ↦{fullShare} g : sProp 𝕄) = bigSep Finset.univ fun p : Fin 1600 => oLoc d ↦[oSetP p]{fullShare} g by
    rw [← pointsTo_biUnion Finset.univ (ℓ := oLoc d) oSetP oParts_disjoint, oParts_cover]; try rfl]
  rw [bigSep_blocks (F := F) fun p => oLoc d ↦[oSetP p]{fullShare} g]
  refine bigSep_congr fun c _ => bigSep_congr fun i _ => bigSep_congr fun r _ => bigSep_congr fun kk _ => ?_
  rw [oSetC_eq]

/-- A tile's blocks before trip `k`, when all of them hold one function `g` (every block below the trip and `g` the
    computed rows, or none below it and `g` the initial contents). -/
theorem oBlksPts_const (L : grid0.Coords) (it : Buf (Elt F) (tLoc d)) (fw : Buf (Elt F) (wLoc d)) (f0 g : Buf (Elt F) (oLoc d)) (k : ℕ)
    (hg : ∀ kk : Fin 10, (if kk.val < k then GK d it fw else f0) = g) :
    oBlksPts d L it fw f0 k
      = bigSep Finset.univ fun r : Fin 5 => bigSep Finset.univ fun kk : Fin 10 =>
          oLoc d ↦[oSetC L (5 * kk.val + r.val) (pos_lt r kk)]{fullShare} g := by
  rw [bigSep_five]
  have e : ∀ (r : ℕ) (hr : r < 5), blocks d L it fw f0 r hr k
      = fun kk : Fin 10 => (oLoc d ↦[oSetC L (5 * kk.val + r) (by have := kk.isLt; omega)]{fullShare} g : sProp 𝕄) :=
    fun r hr => funext fun kk => by unfold blocks; rw [hg kk]
  show iprop(bigSep Finset.univ (blocks d L it fw f0 0 _ k) ∗ bigSep Finset.univ (blocks d L it fw f0 1 _ k)
    ∗ bigSep Finset.univ (blocks d L it fw f0 2 _ k) ∗ bigSep Finset.univ (blocks d L it fw f0 3 _ k)
    ∗ bigSep Finset.univ (blocks d L it fw f0 4 _ k)) = _
  rw [e 0, e 1, e 2, e 3, e 4]
  rfl

end Deal

/-! ## The launch's split and join -/

section Launch

variable [FloatOps F]

/-- What the launch hands tile `L`: its columns of the transposed ids, its read share of the table, its blocks of
    result rows at their initial contents. -/
abbrev goRes (d : Dev nD) (L : grid0.Coords) (it : Buf (Elt F) (tLoc d)) (fw : Buf (Elt F) (wLoc d)) (f0 : Buf (Elt F) (oLoc d)) : sProp 𝕄 :=
  iprop(tBlkPts d L it ∗ wPts d (wq L) fw ∗ oBlksPts d L it fw f0 0)

/-- What tile `L` hands back: the same, its blocks of result rows at the computed rows. -/
abbrev tdRes (d : Dev nD) (L : grid0.Coords) (it : Buf (Elt F) (tLoc d)) (fw : Buf (Elt F) (wLoc d)) (f0 : Buf (Elt F) (oLoc d)) : sProp 𝕄 :=
  iprop(tBlkPts d L it ∗ wPts d (wq L) fw ∗ oBlksPts d L it fw f0 10)

/-- The three arrays, whole, are dealt among the tiles; the table's remaining share stays behind. -/
theorem arrays_split (d : Dev nD) (it : Buf (Elt F) (tLoc d)) (fw : Buf (Elt F) (wLoc d)) (f0 : Buf (Elt F) (oLoc d)) :
    iprop((tLoc d ↦{fullShare} it) ∗ (wLoc d ↦{fullShare} fw) ∗ (oLoc d ↦{fullShare} f0))
      ⊢ (iprop((wLoc d ↦{Transfers.shareDrop fullShare 32} fw)
          ∗ bigSep Finset.univ fun c : Fin (grid0.bound 0) => bigSep Finset.univ fun i : Fin (grid0.bound 1) =>
              goRes d (coordsV c i) it fw f0) : sProp 𝕄) := by
  have eo : (oLoc d ↦{fullShare} f0 : sProp 𝕄)
      = bigSep Finset.univ fun c : Fin (grid0.bound 0) => bigSep Finset.univ fun i : Fin (grid0.bound 1) =>
          oBlksPts d (coordsV c i) it fw f0 0 := by
    rw [oPts_tiles d f0]
    exact bigSep_congr fun c _ => bigSep_congr fun i _ =>
      (oBlksPts_const d (coordsV c i) it fw f0 f0 0 fun kk => if_neg (Nat.not_lt_zero _)).symm
  rw [show (bigSep Finset.univ fun c : Fin (grid0.bound 0) => bigSep Finset.univ fun i : Fin (grid0.bound 1) =>
        goRes d (coordsV c i) it fw f0)
      = iprop((bigSep Finset.univ fun c : Fin (grid0.bound 0) => bigSep Finset.univ fun i : Fin (grid0.bound 1) => tBlkPts d (coordsV c i) it)
          ∗ (bigSep Finset.univ fun c : Fin (grid0.bound 0) => bigSep Finset.univ fun i : Fin (grid0.bound 1) => wPts d (wq (coordsV c i)) fw)
          ∗ (bigSep Finset.univ fun c : Fin (grid0.bound 0) => bigSep Finset.univ fun i : Fin (grid0.bound 1) => oBlksPts d (coordsV c i) it fw f0 0))
      from bigSep2_sep3 _ _ _]
  rw [← tPts_tiles d it, ← eo, wPts_tiles d fw]
  iintro ⟨Ht, ⟨Hd, Hw⟩, Ho⟩
  isplitl [Hd]; · iexact Hd
  isplitl [Ht]; · iexact Ht
  isplitl [Hw]; · iexact Hw
  iexact Ho

/-- What the tiles hand back, with the table's remaining share, is the three arrays whole: the transposed ids and the
    table as they were, the result at the computed rows. -/
theorem arrays_join (d : Dev nD) (it : Buf (Elt F) (tLoc d)) (fw : Buf (Elt F) (wLoc d)) (f0 : Buf (Elt F) (oLoc d)) :
    iprop((wLoc d ↦{Transfers.shareDrop fullShare 32} fw)
        ∗ bigSep Finset.univ fun c : Fin (grid0.bound 0) => bigSep Finset.univ fun i : Fin (grid0.bound 1) =>
            tdRes d (coordsV c i) it fw f0)
      ⊢ (iprop((tLoc d ↦{fullShare} it) ∗ (wLoc d ↦{fullShare} fw) ∗ (oLoc d ↦{fullShare} GK d it fw)) : sProp 𝕄) := by
  have eo : (oLoc d ↦{fullShare} GK d it fw : sProp 𝕄)
      = bigSep Finset.univ fun c : Fin (grid0.bound 0) => bigSep Finset.univ fun i : Fin (grid0.bound 1) =>
          oBlksPts d (coordsV c i) it fw f0 10 := by
    rw [oPts_tiles d (GK d it fw)]
    exact bigSep_congr fun c _ => bigSep_congr fun i _ =>
      (oBlksPts_const d (coordsV c i) it fw f0 (GK d it fw) 10 fun kk => if_pos kk.isLt).symm
  rw [show (bigSep Finset.univ fun c : Fin (grid0.bound 0) => bigSep Finset.univ fun i : Fin (grid0.bound 1) =>
        tdRes d (coordsV c i) it fw f0)
      = iprop((bigSep Finset.univ fun c : Fin (grid0.bound 0) => bigSep Finset.univ fun i : Fin (grid0.bound 1) => tBlkPts d (coordsV c i) it)
          ∗ (bigSep Finset.univ fun c : Fin (grid0.bound 0) => bigSep Finset.univ fun i : Fin (grid0.bound 1) => wPts d (wq (coordsV c i)) fw)
          ∗ (bigSep Finset.univ fun c : Fin (grid0.bound 0) => bigSep Finset.univ fun i : Fin (grid0.bound 1) => oBlksPts d (coordsV c i) it fw f0 10))
      from bigSep2_sep3 _ _ _]
  rw [← tPts_tiles d it, ← eo, wPts_tiles d fw]
  iintro ⟨Hd, Ht, Hw, Ho⟩
  isplitl [Ht]; · iexact Ht
  isplitl [Hd Hw]
  · isplitl [Hd]; · iexact Hd
    iexact Hw
  iexact Ho

end Launch

end Cert.Proof.KI

end
-- ==== Proof.KILaunch.lean ====
/-
  The launch of `Cert.KernelIdeal`'s SparseCore kernel and the program's run. @main on the TensorCore transposes the token ids,
  starts the two SparseCores and waits for them, then re-lays the [204800, 128] array of gathered rows out as
  [4096, 50, 128]. The call hands each of the 32 tiles its columns of the transposed ids, a read share of the table
  and its blocks of result rows, and takes them back with the blocks at the table rows (the tile's task); joined, the
  array is `Cert.Spec.rows2d` of the transposed ids and the table, and the two re-layouts make it `Cert.Spec.lookup`.
  The run ends with the result at that function of the argument arrays and the arguments unchanged.
-/
import proofs.«206436_g50972671869147_cont_8to1c4_798_20_alg».proof.Proof.KITile
import proofs.«206436_g50972671869147_cont_8to1c4_798_20_alg».proof.Proof.KISplit
import proofs.«206436_g50972671869147_cont_8to1c4_798_20_alg».proof.Proof.FinalValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

local notation "tV" => (Memref.whole Cert.KernelIdeal.main_v0_scv : Memref Cert.KernelIdeal.sig Kind.scVector Space.hbm Cert.KernelIdeal.S50x4096 EltTy.i32)
local notation "wV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S50x128 EltTy.i32)
local notation "b1V" => (Memref.whole Cert.KernelIdeal.cc0_scratch1 : Memref Cert.KernelIdeal.sig Kind.scVector Space.vmem Cert.KernelIdeal.S128x128 EltTy.f32)
local notation "b2V" => (Memref.whole Cert.KernelIdeal.cc0_scratch2 : Memref Cert.KernelIdeal.sig Kind.scVector Space.vmem Cert.KernelIdeal.S128x128 EltTy.f32)
local notation "b3V" => (Memref.whole Cert.KernelIdeal.cc0_scratch3 : Memref Cert.KernelIdeal.sig Kind.scVector Space.vmem Cert.KernelIdeal.S128x128 EltTy.f32)
local notation "b4V" => (Memref.whole Cert.KernelIdeal.cc0_scratch4 : Memref Cert.KernelIdeal.sig Kind.scVector Space.vmem Cert.KernelIdeal.S128x128 EltTy.f32)
local notation "b5V" => (Memref.whole Cert.KernelIdeal.cc0_scratch5 : Memref Cert.KernelIdeal.sig Kind.scVector Space.vmem Cert.KernelIdeal.S128x128 EltTy.f32)

variable (m : (ℓ : Loc nD τ sig) → Buf (Elt F) ℓ) (ρ : Dev nD → PrngReg)

variable [FloatOps F]

/-! ## What the arrays hold when the call starts -/

/-- The transposed token ids (what @main's first operation leaves in its result array), the table, and the result array's launch contents. -/
abbrev itD (d : Dev nD) : Buf (Elt F) (tLoc d) := transpose S50x4096 [1, 0] (m (aLoc d)) transposes_S4096x50_S50x4096_1_0
abbrev fwD (d : Dev nD) : Buf (Elt F) (wLoc d) := m (wLoc d)
abbrev f0D (d : Dev nD) : Buf (Elt F) (oLoc d) := m (oLoc d)

/-- What the proof asks of the launch memory: every token id names a row of the table. -/
def PreOK : Prop := ∀ d : Dev nD, Cert.Spec.InRange (m (aLoc d))

theorem hitD (hpre : PreOK m) (d : Dev nD) : ∀ y, (itD m d y).toNat < 100000 :=
  Cert.FinalValue.inRange_transpose (m (aLoc d)) transposes_S4096x50_S50x4096_1_0 (hpre d)

/-! ## What the handshakes carry -/

/-- The tile that task `i` of SparseCore `c` runs on. -/
abbrev Lc (c : Fin ((K (F := F)).nCore 0)) (i : Fin ((K (F := F)).nSub 0)) : grid0.Coords := coordsV (Fin.cast rfl c) (Fin.cast rfl i)

instance blocks_storable (d : Dev nD) (L : grid0.Coords) (it : Buf (Elt F) (tLoc d)) (fw : Buf (Elt F) (wLoc d)) (f0 : Buf (Elt F) (oLoc d)) (r : ℕ) (hr : r < 5) (k : ℕ) (kk : Fin 10) :
    BI.Storable (upEmb : UEmb _ 𝕄) (blocks d L it fw f0 r hr k kk) := by unfold blocks; infer_instance

/-- The one call: each tile takes its columns of the transposed ids, its read share of the table and its blocks of result rows, and brings
    them back, the blocks at the table rows; a SparseCore takes and brings back its sixteen tiles' lots. -/
def P : (K (F := F)).Pay (nD := nD) (Val := Elt F) (Name := ℕ) (U := UU) where
  st := fun q d c => match q with
    | 0 => bigSep Finset.univ fun i : Fin ((K (F := F)).nSub 0) => goRes d (Lc c i) (itD m d) (fwD m d) (f0D m d)
  dn := fun q d c => match q with
    | 0 => bigSep Finset.univ fun i : Fin ((K (F := F)).nSub 0) => tdRes d (Lc c i) (itD m d) (fwD m d) (f0D m d)
  go := fun q d c i => match q with | 0 => goRes d (Lc c i) (itD m d) (fwD m d) (f0D m d)
  td := fun q d c i => match q with | 0 => tdRes d (Lc c i) (itD m d) (fwD m d) (f0D m d)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goRes d (Lc c i) (itD m d) (fwD m d) (f0D m d)))
  dn q d c := match q with
    | 0 => (inferInstance : BI.Storable (upEmb : UEmb _ 𝕄) (bigSep Finset.univ fun i : Fin ((K (F := F)).nSub 0) => tdRes d (Lc c i) (itD m d) (fwD m d) (f0D m d)))
  go q d c i := match q with
    | 0 => (inferInstance : BI.Storable (upEmb : UEmb _ 𝕄) (goRes d (Lc c i) (itD m d) (fwD m d) (f0D m d)))
  td q d c i := match q with
    | 0 => (inferInstance : BI.Storable (upEmb : UEmb _ 𝕄) (tdRes d (Lc c i) (itD m d) (fwD m d) (f0D m d)))

/-! ## The obligation -/

theorem defs₀_vector (c : Fin τ.nSC) (s : Fin τ.nSub) :
    defs₀ (F := F) (.scVector c s) 0 ()
      = SparseCore.onTile hcore0 hsub0 (fun c s => cc0_k (coordsV c s)
          tV (Memref.isWhole_whole _) wV (Memref.isWhole_whole _) oV (Memref.isWhole_whole _)
            sV (Memref.isWhole_whole _) b1V (Memref.isWhole_whole _) b2V (Memref.isWhole_whole _) b3V (Memref.isWhole_whole _) b4V (Memref.isWhole_whole _) b5V (Memref.isWhole_whole _)
            cc0_scratch6 cc0_scratch7 cc0_scratch8 cc0_scratch9 cc0_scratch10 cc0_scratch11 cc0_scratch12 cc0_scratch13 cc0_scratch14 cc0_scratch15 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (itD m d) (fwD m d) (hitD m hpre d) (wq (coordsV ⟨_, hci.1⟩ ⟨_, hci.2⟩)) (f0D m d) O W hO).trans
    (wp_mono frame _ _ fun _ => obl_post)

theorem P_st (d : Dev nD) (c : Fin ((K (F := F)).nCore 0)) :
    (P m).st 0 d c = bigSep Finset.univ fun i : Fin ((K (F := F)).nSub 0) => (P m).go 0 d c i := rfl
theorem P_dn (d : Dev nD) (c : Fin ((K (F := F)).nCore 0)) :
    (P m).dn 0 d c = bigSep Finset.univ fun i : Fin ((K (F := F)).nSub 0) => (P m).td 0 d c i := rfl

set_option maxHeartbeats 1000000 in
theorem vecSplit : (K (F := F)).VecSplit' (P m) 0 := by
  intro d c
  rw [P_st m d c, P_dn m d c]
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev w' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev r2' : DevRef τ sig := Proc.devRef .tc (main_v2 : Ref sig .tc)
abbrev r3' : DevRef τ sig := Proc.devRef .tc (main_v3 : Ref sig .tc)
abbrev r2Loc (d : Dev nD) : Loc nD τ sig := (SparseCore.T d).loc main_v2
abbrev r3Loc (d : Dev nD) : Loc nD τ sig := (SparseCore.T d).loc main_v3

/-- @main's three host operations: the transpose of the ids, and the two re-layouts of the gathered rows. -/
abbrev opT0 : HloOp τ sig (Elt F) := StableHlo.unary main_arg0 main_v0 ((transpose S50x4096 [1, 0] · transposes_S4096x50_S50x4096_1_0) : (⟨S4096x50, .i32⟩ : BufTy).Contents (Elt F) → (⟨S50x4096, .i32⟩ : BufTy).Contents (Elt F))
abbrev opRs : HloOp τ sig (Elt F) := StableHlo.reshape main_v1 main_v2 rfl shapeCasts_S204800x128_S50x4096x128
abbrev opT1 : HloOp τ sig (Elt F) := StableHlo.unary main_v2 main_v3 ((transpose S4096x50x128 [1, 0, 2] · transposes_S50x4096x128_S4096x50x128_1_0_2) : (⟨S50x4096x128, .f32⟩ : BufTy).Contents (Elt F) → (⟨S4096x50x128, .f32⟩ : BufTy).Contents (Elt F))

/-- The TensorCore's arrays, all unscoped. -/
abbrev S6 : Finset (DevRef τ sig) := {a', w', t', o', r2', r3'}

omit [FloatOps F] in
theorem held_S6 (d : Dev nD) (W : Valuation τ sig (Elt F)) :
    (held (T d) S6 W : sProp 𝕄) = iprop((aLoc d ↦{fullShare} W a') ∗ (wLoc d ↦{fullShare} W w') ∗ (tLoc d ↦{fullShare} W t') ∗ (oLoc d ↦{fullShare} W o')
      ∗ (r2Loc d ↦{fullShare} W r2') ∗ r3Loc d ↦{fullShare} W r3') := by
  unfold held S6
  rw [SparseCore.bigSep_insert' (by decide), SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (wLoc d ↦{fullShare} W main_arg1) ∗ (tLoc d ↦{fullShare} W main_v0) ∗ (oLoc d ↦{fullShare} W main_v1)
      ∗ (r2Loc d ↦{fullShare} W main_v2) ∗ r3Loc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide), SparseCore.bigSep_insert' (by decide),
    SparseCore.bigSep_insert' (by decide), bigSep_singleton]

/-- The launch valuation; after the transpose; after the call (the gathered rows in place); after the reshape; at the end. -/
def V0 (d : Dev nD) : Valuation τ sig (Elt F) := fun b => m (d, b)
abbrev V1 (d : Dev nD) : Valuation τ sig (Elt F) := (opT0 (F := F)).result (V0 m d)
def V2 (d : Dev nD) : Valuation τ sig (Elt F) := Function.update (V1 m d) o' (GK d (itD m d) (fwD m d))
abbrev V3 (d : Dev nD) : Valuation τ sig (Elt F) := (opRs (F := F)).result (V2 m d)
abbrev V4 (d : Dev nD) : Valuation τ sig (Elt F) := (opT1 (F := F)).result (V3 m d)

theorem unscoped_held (d : Dev nD) : (unscopedBufs d (fun b => m ((SparseCore.T d).loc b)) : sProp 𝕄) = held (T d) S6 (V0 m d) := by
  rw [unscopedBufs_eq, held_S6]; rfl

theorem V1_t (d : Dev nD) : V1 m d t' = itD m d := StableHlo.unary_result _ _ _ _ _ _
theorem V1_ne (d : Dev nD) (b : DevRef τ sig) (h : b ∉ ({t'} : Finset (DevRef τ sig))) : V1 m d b = V0 m d b := (opT0 (F := F)).result_of_not_mem (V0 m d) h
theorem V2_o (d : Dev nD) : V2 m d o' = GK d (itD m d) (fwD m d) := Function.update_self _ _ _
theorem V2_ne (d : Dev nD) (b : DevRef τ sig) (h : b ≠ o') : V2 m d b = V1 m d b := Function.update_of_ne h _ _
theorem V3_ne (d : Dev nD) (b : DevRef τ sig) (h : b ∉ ({r2'} : Finset (DevRef τ sig))) : V3 m d b = V2 m d b := (opRs (F := F)).result_of_not_mem (V2 m d) h
theorem V4_ne (d : Dev nD) (b : DevRef τ sig) (h : b ∉ ({r3'} : Finset (DevRef τ sig))) : V4 m d b = V3 m d b := (opT1 (F := F)).result_of_not_mem (V3 m d) h

/-- The result array at the end: the two re-layouts of the gathered rows are the embedding lookup. -/
theorem V4_r3 (d : Dev nD) : V4 m d r3' = Cert.Spec.lookup (m (aLoc d)) (m (wLoc d)) := by
  show (opT1 (F := F)).result ((opRs (F := F)).result (V2 m d)) r3' = _
  rw [StableHlo.unary_result, StableHlo.reshape_result, V2_o]
  exact Cert.FinalValue.final_eq (m (aLoc d)) (m (wLoc d)) _ _ _

theorem held_V1 (d : Dev nD) :
    (held (T d) S6 (V1 m d) : sProp 𝕄) = iprop((aLoc d ↦{fullShare} m (aLoc d)) ∗ (wLoc d ↦{fullShare} fwD m d) ∗ (tLoc d ↦{fullShare} itD m d) ∗ (oLoc d ↦{fullShare} f0D m d)
      ∗ (r2Loc d ↦{fullShare} m (r2Loc d)) ∗ r3Loc d ↦{fullShare} m (r3Loc d)) := by
  rw [held_S6, V1_t, V1_ne m d a' (by decide), V1_ne m d w' (by decide), V1_ne m d o' (by decide), V1_ne m d r2' (by decide), V1_ne m d r3' (by decide)]
  rfl

theorem held_V2 (d : Dev nD) :
    (held (T d) S6 (V2 m d) : sProp 𝕄) = iprop((aLoc d ↦{fullShare} m (aLoc d)) ∗ (wLoc d ↦{fullShare} fwD m d) ∗ (tLoc d ↦{fullShare} itD m d) ∗ (oLoc d ↦{fullShare} GK d (itD m d) (fwD m d))
      ∗ (r2Loc d ↦{fullShare} m (r2Loc d)) ∗ r3Loc d ↦{fullShare} m (r3Loc d)) := by
  rw [held_S6, V2_o, V2_ne m d a' (by decide), V2_ne m d w' (by decide), V2_ne m d t' (by decide), V2_ne m d r2' (by decide), V2_ne m d r3' (by decide),
    V1_t, V1_ne m d a' (by decide), V1_ne m d w' (by decide), V1_ne m d r2' (by decide), V1_ne m d r3' (by decide)]
  rfl

theorem V4_a (d : Dev nD) : V4 m d a' = m (aLoc d) := by
  rw [V4_ne m d a' (by decide), V3_ne m d a' (by decide), V2_ne m d a' (by decide), V1_ne m d a' (by decide)]; rfl
theorem V4_w (d : Dev nD) : V4 m d w' = m (wLoc d) := by
  rw [V4_ne m d w' (by decide), V3_ne m d w' (by decide), V2_ne m d w' (by decide), V1_ne m d w' (by decide)]; rfl

theorem hT0 : (opT0 (F := F)).bufs ⊆ S6 := show ({a', t'} : Finset (DevRef τ sig)) ⊆ S6 by decide
theorem hRs : (opRs (F := F)).bufs ⊆ S6 := show ({o', r2'} : Finset (DevRef τ sig)) ⊆ S6 by decide
theorem hT1 : (opT1 (F := F)).bufs ⊆ S6 := show ({r2', r3'} : Finset (DevRef τ sig)) ⊆ S6 by decide

theorem st0_eq (d : Dev nD) : (bigSep Finset.univ fun c : Fin ((K (F := F)).nCore 0) => (P m).st 0 d c)
    = bigSep Finset.univ fun c : Fin (grid0.bound 0) => bigSep Finset.univ fun i : Fin (grid0.bound 1) => goRes d (coordsV c i) (itD m d) (fwD m d) (f0D m d) := rfl
theorem dn0_eq (d : Dev nD) : (bigSep Finset.univ fun c : Fin ((K (F := F)).nCore 0) => (P m).dn 0 d c)
    = bigSep Finset.univ fun c : Fin (grid0.bound 0) => bigSep Finset.univ fun i : Fin (grid0.bound 1) => tdRes d (coordsV c i) (itD m d) (fwD m d) (f0D m d) := rfl

/-- What @main leaves the claim: the arguments at their launch contents, the result at the embedding lookup of them. -/
abbrev FIN (d : Dev nD) : sProp 𝕄 :=
  iprop((r3Loc d ↦{fullShare} (Cert.Spec.lookup (m (aLoc d)) (m (wLoc d)) : Buf (Elt F) (r3Loc d))) ∗ (aLoc d ↦{fullShare} m (aLoc d)) ∗ (wLoc d ↦{fullShare} m (wLoc d)))

/-- @main on device `d`'s TensorCore: the transpose of the ids; the call, the three arrays dealt to the tiles and joined back; the two
    re-layouts; the arguments kept and the result named. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the transpose of the ids
  iapply (wp_hlo_within 𝒱 (SparseCore.T d) none Set.univ (op := opT0) (S := S6) hT0 (V := V0 m d)) $$ [Hb Hheld]
  · isplitl [Hb]; · iexact Hb
    iexact Hheld
  iintro ⟨Hb, Hheld⟩
  rw [wp_ret]; imodintro
  ihave Hh := (Entails.of_eq (held_V1 m d)) $$ Hheld
  icases Hh with ⟨Ha, Hw, Ht, Ho, Hr2, Hr3⟩
  -- the call: the arrays dealt to the 32 tiles, and joined back
  ihave Hd := (arrays_split d (itD m d) (fwD m d) (f0D m d)) $$ [Ht Hw Ho]
  · isplitl [Ht]; · iexact Ht
    isplitl [Hw] <;> iassumption
  icases Hd with ⟨Hwrem, Hgo⟩
  iapply ((K (F := F)).wp_run (D (F := F)) 𝒱 (EH := EH) (P := P m) κ d 0) $$ [Hst Hgo Hb Ha Hwrem Hr2 Hr3]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hj := (arrays_join d (itD m d) (fwD m d) (f0D m d)) $$ [Hwrem Hdn']
  · isplitl [Hwrem] <;> iassumption
  icases Hj with ⟨Ht, Hw, Ho⟩
  -- the two re-layouts
  iapply (wp_hlo_within 𝒱 (SparseCore.T d) none Set.univ (op := opRs) (S := S6) hRs (V := V2 m d)) $$ [Hb Ha Hw Ht Ho Hr2 Hr3]
  · isplitl [Hb]; · iexact Hb
    rw [held_V2]
    isplitl [Ha]; · iexact Ha
    isplitl [Hw]; · iexact Hw
    isplitl [Ht]; · iexact Ht
    isplitl [Ho]; · iexact Ho
    isplitl [Hr2] <;> iassumption
  iintro ⟨Hb, Hheld⟩
  rw [wp_ret]; imodintro
  iapply (wp_hlo_within 𝒱 (SparseCore.T d) none Set.univ (op := opT1) (S := S6) hT1 (V := V3 m d)) $$ [Hb Hheld]
  · isplitl [Hb]; · iexact Hb
    iexact Hheld
  iintro ⟨Hb, Hheld⟩
  ihave Hh := (Entails.of_eq (held_S6 (F := F) d (V4 m d))) $$ Hheld
  icases Hh with ⟨Ha, Hw, -, -, -, Hr3⟩
  rw [V4_a, V4_w, V4_r3]
  rw [wp_ret]; imodintro; imodintro
  isplitl [Hst]; · iexact Hst
  isplitl [Hr3]; · iexact Hr3
  isplitl [Ha] <;> iassumption

def fq (d : Dev nD) (s' : Phys nD τ sig (Elt F)) : Prop :=
  s'.mem.mem (r3Loc d) = Cert.Spec.lookup (m (aLoc d)) (m (wLoc d)) ∧ s'.mem.mem (aLoc d) = m (aLoc d) ∧ s'.mem.mem (wLoc d) = m (wLoc d)

set_option maxRecDepth 16384 in
theorem hfin (d : Dev nD) (s' : Phys nD τ sig (Elt F)) : iprop(FIN m d ∗ SI s') ⊢ (⌜fq m d s'⌝ : sProp 𝕄) := by
  iintro ⟨⟨Hr, Ha, Hw⟩, HSI⟩
  ihave H := (persistent_entails_right (SI_pointsTo_agree (st := s') (ℓ := r3Loc d) (I := Finset.univ) (q := fullShare) (f := (Cert.Spec.lookup (m (aLoc d)) (m (wLoc d)) : Buf (Elt F) (r3Loc d))))) $$ [HSI Hr]
  · isplitl [HSI] <;> iassumption
  icases H with ⟨%h0, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := wLoc d) (I := Finset.univ) (q := fullShare) (f := m (wLoc d))) $$ [HSI Hw]
  · isplitl [HSI] <;> iassumption
  icases H with %h2
  ipureintro
  exact ⟨funext fun i => h0 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (r3Loc c) = Cert.Spec.lookup (m (aLoc c)) (m (wLoc c)) ∧ r.2.mem (aLoc c) = m (aLoc c) ∧ r.2.mem (wLoc c) = m (wLoc c)

/-- Every weakly fair execution of the program's threads terminates, nothing faulting, the result at the embedding lookup of the argument
    arrays and the arguments unchanged — when every token id names a row of the table. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KBDefs.lean ====
/-
  The vocabulary of the kernel's frame and value proof for `Cert.Kernel`: the program as the launch theorem sees it,
  the arrays and scratch buffers as a tile addresses them, and the pure contents the proof speaks of — what the index
  scratch holds once the tile's columns of the transposed ids are fetched, the table rows one offset list names, the
  offsets of the tile's blocks of result rows.
-/
import proofs.«206436_g50972671869147_cont_8to1c4_798_20_alg».proof.Defs
import proofs.«206436_g50972671869147_cont_8to1c4_798_20_alg».proof.Proof.Spec
import Idealize.ShloMosaic.Lib.SparseCore.Launch
import Idealize.ShloMosaic.Lib.SparseCore.Ops
import Idealize.ShloMosaic.Lib.SparseCore.Stream
import Idealize.ShloMosaic.Lib.SparseCore.Scatter
import Idealize.ShloMosaic.Lib.StableHlo.Run
import Idealize.ShloMosaic.Lib.Pipeline.Kit
import Idealize.ShloMosaic.Lib.Tactic
import proofs.«206436_g50972671869147_cont_8to1c4_798_20_alg».proof.Proof.Gen.Kernel
import proofs.«206436_g50972671869147_cont_8to1c4_798_20_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch, as the tiles address them -/

abbrev aLoc (d : Dev nD) : Loc nD τ sig := (SparseCore.T d).loc main_arg0
abbrev wLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

local notation "tV" => (Memref.whole Cert.Kernel.main_v0_scv : Memref Cert.Kernel.sig Kind.scVector Space.hbm Cert.Kernel.S50x4096 EltTy.i32)
local notation "wV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S204800x128 EltTy.f32)
local notation "sV" => (Memref.whole Cert.Kernel.cc0_scratch0 : Memref Cert.Kernel.sig Kind.scVector Space.vmem Cert.Kernel.S50x128 EltTy.i32)
local notation "b1V" => (Memref.whole Cert.Kernel.cc0_scratch1 : Memref Cert.Kernel.sig Kind.scVector Space.vmem Cert.Kernel.S128x128 EltTy.f32)
local notation "b2V" => (Memref.whole Cert.Kernel.cc0_scratch2 : Memref Cert.Kernel.sig Kind.scVector Space.vmem Cert.Kernel.S128x128 EltTy.f32)
local notation "b3V" => (Memref.whole Cert.Kernel.cc0_scratch3 : Memref Cert.Kernel.sig Kind.scVector Space.vmem Cert.Kernel.S128x128 EltTy.f32)
local notation "b4V" => (Memref.whole Cert.Kernel.cc0_scratch4 : Memref Cert.Kernel.sig Kind.scVector Space.vmem Cert.Kernel.S128x128 EltTy.f32)
local notation "b5V" => (Memref.whole Cert.Kernel.cc0_scratch5 : Memref Cert.Kernel.sig Kind.scVector Space.vmem Cert.Kernel.S128x128 EltTy.f32)

/-! ## One tile's task -/

section Tile

variable [FloatOps F]
variable (d : Dev nD) (L : grid0.Coords)

abbrev cV (L : grid0.Coords) : Fin τ.nSC := (L 0).castLE hcore0
abbrev jV (L : grid0.Coords) : Fin τ.nSub := (L 1).castLE hsub0

/-- The tile's 128 columns of the transposed ids, the whole table, as the task addresses them. -/
abbrev tBlkK (L : grid0.Coords) : Memref sig .scVector .hbm S50x128 .i32 :=
  (tV).slice (Rect.unit (s := S50x4096) (k0_off1 L) S50x128.size (k0_off1_inb L)) (fun _ => rfl)
abbrev wAllK : Memref sig .scVector .hbm S100000x128 .f32 :=
  (wV).slice (Rect.unit (s := S100000x128) ![0, 0] S100000x128.size inb_S100000x128_S100000x128_0_0) (fun _ => rfl)

abbrev cG1 (d : Dev nD) (c : Fin τ.nSC) (i : Fin τ.nSub) : GSem nD τ sig := (V d c i, .dma cc0_scratch6.sem)
abbrev cG2 (d : Dev nD) (c : Fin τ.nSC) (i : Fin τ.nSub) : GSem nD τ sig := (V d c i, .dma cc0_scratch7.sem)
abbrev cG3 (d : Dev nD) (c : Fin τ.nSC) (i : Fin τ.nSub) : GSem nD τ sig := (V d c i, .dma cc0_scratch8.sem)
abbrev cG4 (d : Dev nD) (c : Fin τ.nSC) (i : Fin τ.nSub) : GSem nD τ sig := (V d c i, .dma cc0_scratch9.sem)
abbrev cG5 (d : Dev nD) (c : Fin τ.nSC) (i : Fin τ.nSub) : GSem nD τ sig := (V d c i, .dma cc0_scratch10.sem)
abbrev cS1 (d : Dev nD) (c : Fin τ.nSC) (i : Fin τ.nSub) : GSem nD τ sig := (V d c i, .dma cc0_scratch11.sem)
abbrev cS2 (d : Dev nD) (c : Fin τ.nSC) (i : Fin τ.nSub) : GSem nD τ sig := (V d c i, .dma cc0_scratch12.sem)
abbrev cS3 (d : Dev nD) (c : Fin τ.nSC) (i : Fin τ.nSub) : GSem nD τ sig := (V d c i, .dma cc0_scratch13.sem)
abbrev cS4 (d : Dev nD) (c : Fin τ.nSC) (i : Fin τ.nSub) : GSem nD τ sig := (V d c i, .dma cc0_scratch14.sem)
abbrev cS5 (d : Dev nD) (c : Fin τ.nSC) (i : Fin τ.nSub) : GSem nD τ sig := (V d c i, .dma cc0_scratch15.sem)
abbrev cX (d : Dev nD) (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cG1 d (cV L) (jV L)) 0 ∗ semVal (cG2 d (cV L) (jV L)) 0 ∗ semVal (cG3 d (cV L) (jV L)) 0 ∗ semVal (cG4 d (cV L) (jV L)) 0 ∗ semVal (cG5 d (cV L) (jV L)) 0 ∗ semVal (cS1 d (cV L) (jV L)) 0 ∗ semVal (cS2 d (cV L) (jV L)) 0 ∗ semVal (cS3 d (cV L) (jV L)) 0 ∗ semVal (cS4 d (cV L) (jV L)) 0 ∗ semVal (cS5 d (cV L) (jV L)) 0 ∗ semVal (cX d (cV L) (jV L)) 0
          ∗ bigSep ((((((((((((ownCells (V d (cV L) (jV L))).erase (cG1 d (cV L) (jV L))).erase (cG2 d (cV L) (jV L))).erase (cG3 d (cV L) (jV L))).erase (cG4 d (cV L) (jV L))).erase (cG5 d (cV L) (jV L))).erase (cS1 d (cV L) (jV L))).erase (cS2 d (cV L) (jV L))).erase (cS3 d (cV L) (jV L))).erase (cS4 d (cV L) (jV L))).erase (cS5 d (cV L) (jV L))).erase (cX d (cV L) (jV L))) fun g => semVal g 0) := by
  unfold SparseCore.Cfg.ownSems0
  rw [SparseCore.bigSep_erase' ((mem_ownCells (g := (cG1 d (cV L) (jV L)))).mpr ⟨rfl, by show (SemLoc.dma cc0_scratch6.sem : SemLoc sig).isScoped .scVector = true; decide⟩),
    SparseCore.bigSep_erase' (Finset.mem_erase.mpr ⟨by simp [cG1, cG2]; decide, (mem_ownCells (g := (cG2 d (cV L) (jV L)))).mpr ⟨rfl, by show (SemLoc.dma cc0_scratch7.sem : SemLoc sig).isScoped .scVector = true; decide⟩⟩),
    SparseCore.bigSep_erase' (Finset.mem_erase.mpr ⟨by simp [cG2, cG3]; decide, Finset.mem_erase.mpr ⟨by simp [cG1, cG3]; decide, (mem_ownCells (g := (cG3 d (cV L) (jV L)))).mpr ⟨rfl, by show (SemLoc.dma cc0_scratch8.sem : SemLoc sig).isScoped .scVector = true; decide⟩⟩⟩),
    SparseCore.bigSep_erase' (Finset.mem_erase.mpr ⟨by simp [cG3, cG4]; decide, Finset.mem_erase.mpr ⟨by simp [cG2, cG4]; decide, Finset.mem_erase.mpr ⟨by simp [cG1, cG4]; decide, (mem_ownCells (g := (cG4 d (cV L) (jV L)))).mpr ⟨rfl, by show (SemLoc.dma cc0_scratch9.sem : SemLoc sig).isScoped .scVector = true; decide⟩⟩⟩⟩),
    SparseCore.bigSep_erase' (Finset.mem_erase.mpr ⟨by simp [cG4, cG5]; decide, Finset.mem_erase.mpr ⟨by simp [cG3, cG5]; decide, Finset.mem_erase.mpr ⟨by simp [cG2, cG5]; decide, Finset.mem_erase.mpr ⟨by simp [cG1, cG5]; decide, (mem_ownCells (g := (cG5 d (cV L) (jV L)))).mpr ⟨rfl, by show (SemLoc.dma cc0_scratch10.sem : SemLoc sig).isScoped .scVector = true; decide⟩⟩⟩⟩⟩),
    SparseCore.bigSep_erase' (Finset.mem_erase.mpr ⟨by simp [cG5, cS1]; decide, Finset.mem_erase.mpr ⟨by simp [cG4, cS1]; decide, Finset.mem_erase.mpr ⟨by simp [cG3, cS1]; decide, Finset.mem_erase.mpr ⟨by simp [cG2, cS1]; decide, Finset.mem_erase.mpr ⟨by simp [cG1, cS1]; decide, (mem_ownCells (g := (cS1 d (cV L) (jV L)))).mpr ⟨rfl, by show (SemLoc.dma cc0_scratch11.sem : SemLoc sig).isScoped .scVector = true; decide⟩⟩⟩⟩⟩⟩),
    SparseCore.bigSep_erase' (Finset.mem_erase.mpr ⟨by simp [cS1, cS2]; decide, Finset.mem_erase.mpr ⟨by simp [cG5, cS2]; decide, Finset.mem_erase.mpr ⟨by simp [cG4, cS2]; decide, Finset.mem_erase.mpr ⟨by simp [cG3, cS2]; decide, Finset.mem_erase.mpr ⟨by simp [cG2, cS2]; decide, Finset.mem_erase.mpr ⟨by simp [cG1, cS2]; decide, (mem_ownCells (g := (cS2 d (cV L) (jV L)))).mpr ⟨rfl, by show (SemLoc.dma cc0_scratch12.sem : SemLoc sig).isScoped .scVector = true; decide⟩⟩⟩⟩⟩⟩⟩),
    SparseCore.bigSep_erase' (Finset.mem_erase.mpr ⟨by simp [cS2, cS3]; decide, Finset.mem_erase.mpr ⟨by simp [cS1, cS3]; decide, Finset.mem_erase.mpr ⟨by simp [cG5, cS3]; decide, Finset.mem_erase.mpr ⟨by simp [cG4, cS3]; decide, Finset.mem_erase.mpr ⟨by simp [cG3, cS3]; decide, Finset.mem_erase.mpr ⟨by simp [cG2, cS3]; decide, Finset.mem_erase.mpr ⟨by simp [cG1, cS3]; decide, (mem_ownCells (g := (cS3 d (cV L) (jV L)))).mpr ⟨rfl, by show (SemLoc.dma cc0_scratch13.sem : SemLoc sig).isScoped .scVector = true; decide⟩⟩⟩⟩⟩⟩⟩⟩),
    SparseCore.bigSep_erase' (Finset.mem_erase.mpr ⟨by simp [cS3, cS4]; decide, Finset.mem_erase.mpr ⟨by simp [cS2, cS4]; decide, Finset.mem_erase.mpr ⟨by simp [cS1, cS4]; decide, Finset.mem_erase.mpr ⟨by simp [cG5, cS4]; decide, Finset.mem_erase.mpr ⟨by simp [cG4, cS4]; decide, Finset.mem_erase.mpr ⟨by simp [cG3, cS4]; decide, Finset.mem_erase.mpr ⟨by simp [cG2, cS4]; decide, Finset.mem_erase.mpr ⟨by simp [cG1, cS4]; decide, (mem_ownCells (g := (cS4 d (cV L) (jV L)))).mpr ⟨rfl, by show (SemLoc.dma cc0_scratch14.sem : SemLoc sig).isScoped .scVector = true; decide⟩⟩⟩⟩⟩⟩⟩⟩⟩),
    SparseCore.bigSep_erase' (Finset.mem_erase.mpr ⟨by simp [cS4, cS5]; decide, Finset.mem_erase.mpr ⟨by simp [cS3, cS5]; decide, Finset.mem_erase.mpr ⟨by simp [cS2, cS5]; decide, Finset.mem_erase.mpr ⟨by simp [cS1, cS5]; decide, Finset.mem_erase.mpr ⟨by simp [cG5, cS5]; decide, Finset.mem_erase.mpr ⟨by simp [cG4, cS5]; decide, Finset.mem_erase.mpr ⟨by simp [cG3, cS5]; decide, Finset.mem_erase.mpr ⟨by simp [cG2, cS5]; decide, Finset.mem_erase.mpr ⟨by simp [cG1, cS5]; decide, (mem_ownCells (g := (cS5 d (cV L) (jV L)))).mpr ⟨rfl, by show (SemLoc.dma cc0_scratch15.sem : SemLoc sig).isScoped .scVector = true; decide⟩⟩⟩⟩⟩⟩⟩⟩⟩⟩),
    SparseCore.bigSep_erase' (Finset.mem_erase.mpr ⟨by simp [cS5, cX]; decide, Finset.mem_erase.mpr ⟨by simp [cS4, cX]; decide, Finset.mem_erase.mpr ⟨by simp [cS3, cX]; decide, Finset.mem_erase.mpr ⟨by simp [cS2, cX]; decide, Finset.mem_erase.mpr ⟨by simp [cS1, cX]; decide, Finset.mem_erase.mpr ⟨by simp [cG5, cX]; decide, Finset.mem_erase.mpr ⟨by simp [cG4, cX]; decide, Finset.mem_erase.mpr ⟨by simp [cG3, cX]; decide, Finset.mem_erase.mpr ⟨by simp [cG2, cX]; decide, Finset.mem_erase.mpr ⟨by simp [cG1, cX]; decide, (mem_ownCells (g := (cX d (cV L) (jV L)))).mpr ⟨rfl, by show (SemLoc.dma cc0_scoped0.sem : SemLoc sig).isScoped .scVector = true; decide⟩⟩⟩⟩⟩⟩⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩)]

abbrev tBlkPts (d : Dev nD) (L : grid0.Coords) (it : Buf (Elt F) (tLoc d)) : sProp 𝕄 := tLoc d ↦[(tBlkK L).view.set]{fullShare} it
abbrev wPts (d : Dev nD) (q : PosShare TreeShare) (fw : Buf (Elt F) (wLoc d)) : sProp 𝕄 := wLoc d ↦{q} fw

/-- Row `off 0` of the index scratch as a 128-entry offset list, as the task slices it. -/
abbrev rowK (off : Fin 2 → Nat) (h : ∀ a, off a + S1x128.size a ≤ S50x128.size a) : Memref sig .scVector .vmem S128 .i32 :=
  ((sV).slice (Rect.unit (s := S50x128) off S1x128.size h) (fun _ => rfl)).squeeze S128 squeezes_S1x128_S128

/-- What the index scratch holds once the tile's columns of the transposed ids are fetched. -/
abbrev fiK (d : Dev nD) (L : grid0.Coords) (it : Buf (Elt F) (tLoc d)) : Buf (Elt F) ((V d (cV L) (jV L)).loc cc0_scratch0) :=
  (tBlkK L).view.read (Elt F) it

/-- Every id the scratch holds names a row of the table, when every id of the array does. -/
theorem hinOff (it : Buf (Elt F) (tLoc d)) (hit : ∀ y, (it y).toNat < 100000) (off : Fin 2 → Nat) (h : ∀ a, off a + S1x128.size a ≤ S50x128.size a) :
    ∀ x, ((rowK off h).view.read (Elt F) (fiK d L it) x).toNat < S100000x128.size gathers_S100000x128_S128x128.axis := by
  intro x
  rw [show ∀ j, (rowK off h).view.read (Elt F) (fiK d L it) j = fiK d L it ((rowK off h).view.emb j) from fun j => (View.read_apply _ _).trans (cast_eq _ _)]
  unfold fiK
  rw [show ∀ j, (tBlkK L).view.read (Elt F) it j = it ((tBlkK L).view.emb j) from fun j => (View.read_apply _ _).trans (cast_eq _ _)]
  exact hit _

/-- The rows of the table one offset list names, laid out as a [128, 128] block. -/
abbrev gatOff (it : Buf (Elt F) (tLoc d)) (fw : Buf (Elt F) (wLoc d)) (hit : ∀ y, (it y).toNat < 100000) (off : Fin 2 → Nat) (h : ∀ a, off a + S1x128.size a ≤ S50x128.size a) :
    S128x128.Idx → Elt F .f32 :=
  SparseCore.gatherPayload gathers_S100000x128_S128x128 ((wAllK).view.read (Elt F) fw)
    (SparseCore.rows ((rowK off h).view.read (Elt F) (fiK d L it)) rfl (hinOff d L it hit off h))

/-- The offsets of row `j` of the index scratch, and of the tile's block of result rows for sequence position `j`. -/
abbrev rowOffC (j : ℕ) : Fin 2 → ℕ := ![j, 0]
theorem hrowC (j : ℕ) (hj : j < 50) : ∀ a, rowOffC j a + S1x128.size a ≤ S50x128.size a := by
  intro a
  match a with
  | ⟨0, _⟩ => show j + 1 ≤ 50; omega
  | ⟨1, _⟩ => show 0 + 128 ≤ 128; omega
abbrev oOffC (L : grid0.Coords) (j : ℕ) : Fin 2 → ℕ := ![4096 * j + 256 * (L 1).val + 128 * (L 0).val, 0]
theorem hoC (L : grid0.Coords) (j : ℕ) (hj : j < 50) : ∀ a, oOffC L j a + S128x128.size a ≤ S204800x128.size a := by
  intro a
  have h1 : (L 1).val < 16 := (L 1).isLt
  have h0 : (L 0).val < 2 := (L 0).isLt
  match a with
  | ⟨0, _⟩ => show 4096 * j + 256 * (L 1).val + 128 * (L 0).val + 128 ≤ 204800; omega
  | ⟨1, _⟩ => show 0 + 128 ≤ 128; omega
abbrev oBlkO (off : Fin 2 → ℕ) (h : ∀ a, off a + S128x128.size a ≤ S204800x128.size a) : Memref sig .scVector .hbm S128x128 .f32 :=
  (oV).slice (Rect.unit (s := S204800x128) off S128x128.size h) (fun _ => rfl)
abbrev oSetC (L : grid0.Coords) (j : ℕ) (hj : j < 50) : Finset S204800x128.Idx := (oBlkO (oOffC L j) (hoC L j hj)).view.set

omit [FloatOps F] in
theorem oSet_congr {off off' : Fin 2 → ℕ} (h : ∀ a, off a + S128x128.size a ≤ S204800x128.size a) (h' : ∀ a, off' a + S128x128.size a ≤ S204800x128.size a) (e : off = off') :
    (oBlkO off h).view.set = (oBlkO off' h').view.set := by subst e; rfl

theorem gatOff_congr (it : Buf (Elt F) (tLoc d)) (fw : Buf (Elt F) (wLoc d)) (hit : ∀ y, (it y).toNat < 100000) {off off' : Fin 2 → ℕ}
    (h : ∀ a, off a + S1x128.size a ≤ S50x128.size a) (h' : ∀ a, off' a + S1x128.size a ≤ S50x128.size a) (e : off = off') :
    gatOff d L it fw hit off h = gatOff d L it fw hit off' h' := by subst e; rfl

/-- Slot 1's gather, delivered: its row buffer holds the table rows the list names, and the slot's read shares of the table and of the index scratch are back. -/
abbrev gatD1 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) : sProp 𝕄 :=
  iprop(((V d (cV L) (jV L)).loc cc0_scratch1 ↦{fullShare} gatOff d L it fw hit off h) ∗ (wLoc d ↦{qw} fw) ∗ ((V d (cV L) (jV L)).loc cc0_scratch0 ↦{qs} fiK d L it))

theorem gat_join1 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) (fb : Buf (Elt F) ((V d (cV L) (jV L)).loc cc0_scratch1)) :
    iprop(((wLoc d ↦[Finset.univ \ (wAllK).view.set]{qw} fw) ∗ ((V d (cV L) (jV L)).loc cc0_scratch0 ↦[Finset.univ \ (rowK off h).view.set]{qs} fiK d L it))
        ∗ ((b1V).view.loc (V d (cV L) (jV L)) ↦[(b1V).view.set]{fullShare} View.write (Elt F) (b1V).view fb (gatOff d L it fw hit off h) Finset.univ)
        ∗ ((wAllK).view.loc (V d (cV L) (jV L)) ↦[(wAllK).view.set]{qw} fw)
        ∗ ((rowK off h).view.loc (V d (cV L) (jV L)) ↦[(rowK off h).view.set]{qs} fiK d L it))
      ⊢ gatD1 d L it fw hit qw qs off h := by
  have hbs : (b1V).view.set = Finset.univ := View.set_whole _
  iintro ⟨⟨Hwr, Hsr⟩, Hd, Hws, Hss⟩
  isplitl [Hd]
  · iapply (Entails.of_eq (show ((b1V).view.loc (V d (cV L) (jV L)) ↦[(b1V).view.set]{fullShare} View.write (Elt F) (b1V).view fb (gatOff d L it fw hit off h) Finset.univ : sProp 𝕄)
      = ((V d (cV L) (jV L)).loc cc0_scratch1 ↦{fullShare} gatOff d L it fw hit off h) by rw [hbs, View.write_whole_univ])) $$ Hd
  isplitl [Hws Hwr]
  · iapply (pointsTo_split_subset (q := qw) (f := fw) (S := Finset.univ) (Finset.subset_univ (wAllK).view.set)).2
    isplitl [Hws] <;> iassumption
  · iapply (pointsTo_split_subset (q := qs) (f := fiK d L it) (S := Finset.univ) (Finset.subset_univ (rowK off h).view.set)).2
    isplitl [Hss] <;> iassumption

/-- Slot 2's gather, delivered: its row buffer holds the table rows the list names, and the slot's read shares of the table and of the index scratch are back. -/
abbrev gatD2 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) : sProp 𝕄 :=
  iprop(((V d (cV L) (jV L)).loc cc0_scratch2 ↦{fullShare} gatOff d L it fw hit off h) ∗ (wLoc d ↦{qw} fw) ∗ ((V d (cV L) (jV L)).loc cc0_scratch0 ↦{qs} fiK d L it))

theorem gat_join2 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) (fb : Buf (Elt F) ((V d (cV L) (jV L)).loc cc0_scratch2)) :
    iprop(((wLoc d ↦[Finset.univ \ (wAllK).view.set]{qw} fw) ∗ ((V d (cV L) (jV L)).loc cc0_scratch0 ↦[Finset.univ \ (rowK off h).view.set]{qs} fiK d L it))
        ∗ ((b2V).view.loc (V d (cV L) (jV L)) ↦[(b2V).view.set]{fullShare} View.write (Elt F) (b2V).view fb (gatOff d L it fw hit off h) Finset.univ)
        ∗ ((wAllK).view.loc (V d (cV L) (jV L)) ↦[(wAllK).view.set]{qw} fw)
        ∗ ((rowK off h).view.loc (V d (cV L) (jV L)) ↦[(rowK off h).view.set]{qs} fiK d L it))
      ⊢ gatD2 d L it fw hit qw qs off h := by
  have hbs : (b2V).view.set = Finset.univ := View.set_whole _
  iintro ⟨⟨Hwr, Hsr⟩, Hd, Hws, Hss⟩
  isplitl [Hd]
  · iapply (Entails.of_eq (show ((b2V).view.loc (V d (cV L) (jV L)) ↦[(b2V).view.set]{fullShare} View.write (Elt F) (b2V).view fb (gatOff d L it fw hit off h) Finset.univ : sProp 𝕄)
      = ((V d (cV L) (jV L)).loc cc0_scratch2 ↦{fullShare} gatOff d L it fw hit off h) by rw [hbs, View.write_whole_univ])) $$ Hd
  isplitl [Hws Hwr]
  · iapply (pointsTo_split_subset (q := qw) (f := fw) (S := Finset.univ) (Finset.subset_univ (wAllK).view.set)).2
    isplitl [Hws] <;> iassumption
  · iapply (pointsTo_split_subset (q := qs) (f := fiK d L it) (S := Finset.univ) (Finset.subset_univ (rowK off h).view.set)).2
    isplitl [Hss] <;> iassumption

/-- Slot 3's gather, delivered: its row buffer holds the table rows the list names, and the slot's read shares of the table and of the index scratch are back. -/
abbrev gatD3 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) : sProp 𝕄 :=
  iprop(((V d (cV L) (jV L)).loc cc0_scratch3 ↦{fullShare} gatOff d L it fw hit off h) ∗ (wLoc d ↦{qw} fw) ∗ ((V d (cV L) (jV L)).loc cc0_scratch0 ↦{qs} fiK d L it))

theorem gat_join3 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) (fb : Buf (Elt F) ((V d (cV L) (jV L)).loc cc0_scratch3)) :
    iprop(((wLoc d ↦[Finset.univ \ (wAllK).view.set]{qw} fw) ∗ ((V d (cV L) (jV L)).loc cc0_scratch0 ↦[Finset.univ \ (rowK off h).view.set]{qs} fiK d L it))
        ∗ ((b3V).view.loc (V d (cV L) (jV L)) ↦[(b3V).view.set]{fullShare} View.write (Elt F) (b3V).view fb (gatOff d L it fw hit off h) Finset.univ)
        ∗ ((wAllK).view.loc (V d (cV L) (jV L)) ↦[(wAllK).view.set]{qw} fw)
        ∗ ((rowK off h).view.loc (V d (cV L) (jV L)) ↦[(rowK off h).view.set]{qs} fiK d L it))
      ⊢ gatD3 d L it fw hit qw qs off h := by
  have hbs : (b3V).view.set = Finset.univ := View.set_whole _
  iintro ⟨⟨Hwr, Hsr⟩, Hd, Hws, Hss⟩
  isplitl [Hd]
  · iapply (Entails.of_eq (show ((b3V).view.loc (V d (cV L) (jV L)) ↦[(b3V).view.set]{fullShare} View.write (Elt F) (b3V).view fb (gatOff d L it fw hit off h) Finset.univ : sProp 𝕄)
      = ((V d (cV L) (jV L)).loc cc0_scratch3 ↦{fullShare} gatOff d L it fw hit off h) by rw [hbs, View.write_whole_univ])) $$ Hd
  isplitl [Hws Hwr]
  · iapply (pointsTo_split_subset (q := qw) (f := fw) (S := Finset.univ) (Finset.subset_univ (wAllK).view.set)).2
    isplitl [Hws] <;> iassumption
  · iapply (pointsTo_split_subset (q := qs) (f := fiK d L it) (S := Finset.univ) (Finset.subset_univ (rowK off h).view.set)).2
    isplitl [Hss] <;> iassumption

/-- Slot 4's gather, delivered: its row buffer holds the table rows the list names, and the slot's read shares of the table and of the index scratch are back. -/
abbrev gatD4 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) : sProp 𝕄 :=
  iprop(((V d (cV L) (jV L)).loc cc0_scratch4 ↦{fullShare} gatOff d L it fw hit off h) ∗ (wLoc d ↦{qw} fw) ∗ ((V d (cV L) (jV L)).loc cc0_scratch0 ↦{qs} fiK d L it))

theorem gat_join4 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) (fb : Buf (Elt F) ((V d (cV L) (jV L)).loc cc0_scratch4)) :
    iprop(((wLoc d ↦[Finset.univ \ (wAllK).view.set]{qw} fw) ∗ ((V d (cV L) (jV L)).loc cc0_scratch0 ↦[Finset.univ \ (rowK off h).view.set]{qs} fiK d L it))
        ∗ ((b4V).view.loc (V d (cV L) (jV L)) ↦[(b4V).view.set]{fullShare} View.write (Elt F) (b4V).view fb (gatOff d L it fw hit off h) Finset.univ)
        ∗ ((wAllK).view.loc (V d (cV L) (jV L)) ↦[(wAllK).view.set]{qw} fw)
        ∗ ((rowK off h).view.loc (V d (cV L) (jV L)) ↦[(rowK off h).view.set]{qs} fiK d L it))
      ⊢ gatD4 d L it fw hit qw qs off h := by
  have hbs : (b4V).view.set = Finset.univ := View.set_whole _
  iintro ⟨⟨Hwr, Hsr⟩, Hd, Hws, Hss⟩
  isplitl [Hd]
  · iapply (Entails.of_eq (show ((b4V).view.loc (V d (cV L) (jV L)) ↦[(b4V).view.set]{fullShare} View.write (Elt F) (b4V).view fb (gatOff d L it fw hit off h) Finset.univ : sProp 𝕄)
      = ((V d (cV L) (jV L)).loc cc0_scratch4 ↦{fullShare} gatOff d L it fw hit off h) by rw [hbs, View.write_whole_univ])) $$ Hd
  isplitl [Hws Hwr]
  · iapply (pointsTo_split_subset (q := qw) (f := fw) (S := Finset.univ) (Finset.subset_univ (wAllK).view.set)).2
    isplitl [Hws] <;> iassumption
  · iapply (pointsTo_split_subset (q := qs) (f := fiK d L it) (S := Finset.univ) (Finset.subset_univ (rowK off h).view.set)).2
    isplitl [Hss] <;> iassumption

/-- Slot 5's gather, delivered: its row buffer holds the table rows the list names, and the slot's read shares of the table and of the index scratch are back. -/
abbrev gatD5 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) : sProp 𝕄 :=
  iprop(((V d (cV L) (jV L)).loc cc0_scratch5 ↦{fullShare} gatOff d L it fw hit off h) ∗ (wLoc d ↦{qw} fw) ∗ ((V d (cV L) (jV L)).loc cc0_scratch0 ↦{qs} fiK d L it))

theorem gat_join5 (it : Buf (Elt F) (tLoc d)) (fw : Buf (Elt F) (wLoc d)) (hit : ∀ y, (it y).toNat < 100000) (qw qs : PosShare TreeShare)
    (off : Fin 2 → ℕ) (h : ∀ a, off a + S1x128.size a ≤ S50x128.size a) (fb : Buf (Elt F) ((V d (cV L) (jV L)).loc cc0_scratch5)) :
    iprop(((wLoc d ↦[Finset.univ \ (wAllK).view.set]{qw} fw) ∗ ((V d (cV L) (jV L)).loc cc0_scratch0 ↦[Finset.univ \ (rowK off h).view.set]{qs} fiK d L it))
        ∗ ((b5V).view.loc (V d (cV L) (jV L)) ↦[(b5V).view.set]{fullShare} View.write (Elt F) (b5V).view fb (gatOff d L it fw hit off h) Finset.univ)
        ∗ ((wAllK).view.loc (V d (cV L) (jV L)) ↦[(wAllK).view.set]{qw} fw)
        ∗ ((rowK off h).view.loc (V d (cV L) (jV L)) ↦[(rowK off h).view.set]{qs} fiK d L it))
      ⊢ gatD5 d L it fw hit qw qs off h := by
  have hbs : (b5V).view.set = Finset.univ := View.set_whole _
  iintro ⟨⟨Hwr, Hsr⟩, Hd, Hws, Hss⟩
  isplitl [Hd]
  · iapply (Entails.of_eq (show ((b5V).view.loc (V d (cV L) (jV L)) ↦[(b5V).view.set]{fullShare} View.write (Elt F) (b5V).view fb (gatOff d L it fw hit off h) Finset.univ : sProp 𝕄)
      = ((V d (cV L) (jV L)).loc cc0_scratch5 ↦{fullShare} gatOff d L it fw hit off h) by rw [hbs, View.write_whole_univ])) $$ Hd
  isplitl [Hws Hwr]
  · iapply (pointsTo_split_subset (q := qw) (f := fw) (S := Finset.univ) (Finset.subset_univ (wAllK).view.set)).2
    isplitl [Hws] <;> iassumption
  · iapply (pointsTo_split_subset (q := qs) (f := fiK d L it) (S := Finset.univ) (Finset.subset_univ (rowK off h).view.set)).2
    isplitl [Hss] <;> iassumption

end Tile

end Cert.Proof.KB

end
-- ==== Proof.KBValue.lean ====
/-
  What one gathered block holds, as the specification's rows.

  The offset list for sequence position j is row j of the tile's index scratch; its entry c is the transposed ids'
  entry (j, 256 · L₁ + 128 · L₀ + c), the tile (L₀, L₁) having fetched those 128 columns. The gather delivers, at
  (c, l) of the block, entry l of the table row that word names. The tile's block of result rows for position j
  starts at row 4096 · j + 256 · L₁ + 128 · L₀ of the rows array; since 256 · L₁ + 128 · L₀ + c < 4096, row
  4096 · j + 256 · L₁ + 128 · L₀ + c splits back into j and that column, and the specification's rows array holds
  there the table row of the same word — the word read as a row number, because it is below 100000.
-/
import proofs.«206436_g50972671869147_cont_8to1c4_798_20_alg».proof.Proof.KBDefs
import proofs.«206436_g50972671869147_cont_8to1c4_798_20_alg».proof.Proof.Spec
import proofs.«206436_g50972671869147_cont_8to1c4_798_20_alg».proof.Proof.FinalValue

noncomputable section

namespace Cert.Proof.KB

open Cert.Kernel Cert.Kernel.Gen

open Idealize.ShloMosaic Idealize.ShloMosaic.ValueIdx

variable {F : FTy → Type} [FloatOps F]

/-- Two rank-2 indices with equal coordinates are equal. -/
theorem idx2_ext {n0 n1 : Nat} (p q : (⟨2, ![n0, n1]⟩ : Shape).Idx) (h0 : (p 0).val = (q 0).val)
    (h1 : (p 1).val = (q 1).val) : p = q := by
  funext a
  refine Fin.ext ?_
  match a with
  | ⟨0, _⟩ => exact h0
  | ⟨1, _⟩ => exact h1

/-- Entry `z` of a one-row slice re-read as a list is entry `(0, z)` of the slice. -/
theorem squeeze_row (h : S128.numel = S1x128.numel) (z : Fin 128) :
    Shape.reshapeEquiv h (ix1 z) = ix2 (0 : Fin 1) z :=
  Shape.reshapeEquiv_eq_of_rowMajor h (by
    rw [Shape.rowMajor_val_two, Shape.rowMajor_val_one]
    show 0 * 128 + z.val = z.val
    omega)

/-- The list's entry at row-major position `k` is its entry `k`. -/
theorem rowMajor_symm_list (k : Fin S128.numel) (hk : k.val < 128) : S128.rowMajor.symm k = ix1 ⟨k.val, hk⟩ :=
  (Equiv.symm_apply_eq _).2 (Fin.ext (by rw [Shape.rowMajor_val_one]))

/-- A tile's columns stay inside the transposed ids' 4096. -/
theorem tile_col_lt (L : grid0.Coords) (z : Fin 128) : 256 * (L 1).val + 128 * (L 0).val + z.val < 4096 := by
  have h1 : (L 1).val < 16 := (L 1).isLt
  have h0 : (L 0).val < 2 := (L 0).isLt
  have := z.isLt
  omega

section Tile

variable (d : Dev nD) (L : grid0.Coords)

/-- Entry `z` of the offset list for sequence position `j`: the transposed ids at `(j, 256 · L₁ + 128 · L₀ + z)`. -/
theorem list_word (it : Buf (Elt F) (tLoc d)) (j : ℕ) (hj : j < 50) (z : Fin 128) :
    (rowK (rowOffC j) (hrowC j hj)).view.read (Elt F) (fiK d L it) (ix1 z)
      = it (ix2 (n0 := 50) (n1 := 4096) ⟨j, hj⟩ ⟨256 * (L 1).val + 128 * (L 0).val + z.val, tile_col_lt L z⟩) := by
  rw [show ∀ y, (rowK (rowOffC j) (hrowC j hj)).view.read (Elt F) (fiK d L it) y
      = fiK d L it ((rowK (rowOffC j) (hrowC j hj)).view.emb y) from fun y => (View.read_apply _ _).trans (cast_eq _ _)]
  unfold fiK
  rw [show ∀ y, (tBlkK L).view.read (Elt F) it y = it ((tBlkK L).view.emb y) from
    fun y => (View.read_apply _ _).trans (cast_eq _ _)]
  refine congrArg it (idx2_ext (n0 := 50) (n1 := 4096) _ _ ?_ ?_)
  · show (k0_off1 L) 0 + 1 * (rowOffC j 0 + 1 * ((Shape.reshapeEquiv _ (ix1 z) : S1x128.Idx) 0).val) = j
    rw [squeeze_row, k0_off1_eq]
    show 0 + 1 * (j + 1 * 0) = j
    omega
  · show (k0_off1 L) 1 + 1 * (rowOffC j 1 + 1 * ((Shape.reshapeEquiv _ (ix1 z) : S1x128.Idx) 1).val)
      = 256 * (L 1).val + 128 * (L 0).val + z.val
    rw [squeeze_row, k0_off1_eq]
    show 256 * (L 1).val + 128 * (L 0).val + 1 * (0 + 1 * z.val) = 256 * (L 1).val + 128 * (L 0).val + z.val
    omega

/-- The gathered block at `(c, l)`: entry `l` of the table row named by the list's entry `c`. -/
theorem gat_left (it : Buf (Elt F) (tLoc d)) (fw : Buf (Elt F) (wLoc d)) (hit : ∀ y, (it y).toNat < 100000) (j : ℕ)
    (hj : j < 50) (x : S128x128.Idx) :
    gatOff d L it fw hit (rowOffC j) (hrowC j hj) x
      = fw (ix2 (n0 := 100000) (n1 := 128)
          ⟨(it (ix2 (n0 := 50) (n1 := 4096) ⟨j, hj⟩ ⟨256 * (L 1).val + 128 * (L 0).val + (x 0).val, tile_col_lt L (x 0)⟩)).toNat,
            hit _⟩ (x 1)) := by
  show (wAllK).view.read (Elt F) fw (gathers_S100000x128_S128x128.idx _ x) = _
  rw [show ∀ y, (wAllK).view.read (Elt F) fw y = fw ((wAllK).view.emb y) from
    fun y => (View.read_apply _ _).trans (cast_eq _ _)]
  refine congrArg fw (idx2_ext (n0 := 100000) (n1 := 128) _ _ ?_ ?_)
  · show 0 + 1 * ((rowK (rowOffC j) (hrowC j hj)).view.read (Elt F) (fiK d L it)
        (S128.rowMajor.symm (Fin.cast _ (x 0)))).toNat = _
    rw [rowMajor_symm_list (Fin.cast _ (x 0)) (x 0).isLt]
    show 0 + 1 * ((rowK (rowOffC j) (hrowC j hj)).view.read (Elt F) (fiK d L it) (ix1 (x 0))).toNat = _
    rw [list_word d L it j hj (x 0)]
    exact (Nat.zero_add _).trans (Nat.one_mul _)
  · show 0 + 1 * (x 1).val = (x 1).val
    omega

/-- The specification's rows array at the same place of the tile's block of result rows: the same entry. -/
theorem gat_right (it : Buf (Elt F) (tLoc d)) (fw : Buf (Elt F) (wLoc d)) (hit : ∀ y, (it y).toNat < 100000) (j : ℕ)
    (hj : j < 50) (x : S128x128.Idx) :
    Cert.Spec.rows2d it fw ((oBlkO (oOffC L j) (hoC L j hj)).view.emb x)
      = fw (ix2 (n0 := 100000) (n1 := 128)
          ⟨(it (ix2 (n0 := 50) (n1 := 4096) ⟨j, hj⟩ ⟨256 * (L 1).val + 128 * (L 0).val + (x 0).val, tile_col_lt L (x 0)⟩)).toNat,
            hit _⟩ (x 1)) := by
  have hc := tile_col_lt L (x 0)
  have hrow : (⟨j, hj⟩ : Fin 50).val * 4096 + (⟨256 * (L 1).val + 128 * (L 0).val + (x 0).val, hc⟩ : Fin 4096).val < 204800 := by
    show j * 4096 + (256 * (L 1).val + 128 * (L 0).val + (x 0).val) < 204800
    omega
  have hi : (oBlkO (oOffC L j) (hoC L j hj)).view.emb x
      = ix2 (n0 := 204800) (n1 := 128)
          ⟨(⟨j, hj⟩ : Fin 50).val * 4096 + (⟨256 * (L 1).val + 128 * (L 0).val + (x 0).val, hc⟩ : Fin 4096).val, hrow⟩ (x 1) :=
    idx2_ext (n0 := 204800) (n1 := 128) _ _
      (by
        show 4096 * j + 256 * (L 1).val + 128 * (L 0).val + 1 * (x 0).val
          = j * 4096 + (256 * (L 1).val + 128 * (L 0).val + (x 0).val)
        omega)
      (by
        show 0 + 1 * (x 1).val = (x 1).val
        omega)
  rw [hi, Cert.FinalValue.rows2d_apply it fw ⟨j, hj⟩ ⟨256 * (L 1).val + 128 * (L 0).val + (x 0).val, hc⟩ (x 1) hrow]
  exact congrArg (fun q => fw (ix2 (n0 := 100000) (n1 := 128) q (x 1))) (Fin.ext (Cert.Spec.row_of_lt _ (hit _)))

/-- THE GATHERED BLOCK IS THE SPECIFICATION'S: what the gather for sequence position `j` delivers at `x` is what the
    specification's rows array holds where the tile's block of result rows for `j` puts `x`. -/
theorem gat_value (d : Dev nD) (L : grid0.Coords) (it : Buf (Elt F) (tLoc d)) (fw : Buf (Elt F) (wLoc d))
    (hit : ∀ y, (it y).toNat < 100000) (j : ℕ) (hj : j < 50) (x : S128x128.Idx) :
    gatOff d L it fw hit (rowOffC j) (hrowC j hj) x
      = Cert.Spec.rows2d it fw ((oBlkO (oOffC L j) (hoC L j hj)).view.emb x) :=
  (gat_left d L it fw hit j hj x).trans (gat_right d L it fw hit j hj x).symm

end Tile

end Cert.Proof.KB

end
-- ==== Proof.KBTile.lean ====
/-
  One tile's task of `Cert.Kernel`'s SparseCore kernel, run once at a symbolic tile. The tile fetches its 128 columns of the
  transposed token ids into its index scratch; then, for each of the 50 sequence positions j, it gathers the 128 table rows
  that row j of the scratch names into one of five row buffers and copies that buffer out to rows 4096·j + 128·w … of the
  result (w the tile's number). Five gathers are in flight at a time, one per row buffer, each on a semaphore of its own, and
  a buffer's copy-out is awaited before the buffer is gathered into again; so no buffer is read or written while a transfer
  on it is pending. The loop's invariant says, before trip k: for each buffer the gather of row 5·k + r is in flight and the
  blocks of the positions below 5·k hold their table rows. The value is carried in the invariant: a finished block holds
  the one whole-array function `Cert.Spec.rows2d` of the transposed ids and the table, restricted to the block.
-/
import proofs.«206436_g50972671869147_cont_8to1c4_798_20_alg».proof.Proof.KBDefs
import proofs.«206436_g50972671869147_cont_8to1c4_798_20_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_v0_scv : Memref Cert.Kernel.sig Kind.scVector Space.hbm Cert.Kernel.S50x4096 EltTy.i32)
local notation "wV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S204800x128 EltTy.f32)
local notation "sV" => (Memref.whole Cert.Kernel.cc0_scratch0 : Memref Cert.Kernel.sig Kind.scVector Space.vmem Cert.Kernel.S50x128 EltTy.i32)
local notation "b1V" => (Memref.whole Cert.Kernel.cc0_scratch1 : Memref Cert.Kernel.sig Kind.scVector Space.vmem Cert.Kernel.S128x128 EltTy.f32)
local notation "b2V" => (Memref.whole Cert.Kernel.cc0_scratch2 : Memref Cert.Kernel.sig Kind.scVector Space.vmem Cert.Kernel.S128x128 EltTy.f32)
local notation "b3V" => (Memref.whole Cert.Kernel.cc0_scratch3 : Memref Cert.Kernel.sig Kind.scVector Space.vmem Cert.Kernel.S128x128 EltTy.f32)
local notation "b4V" => (Memref.whole Cert.Kernel.cc0_scratch4 : Memref Cert.Kernel.sig Kind.scVector Space.vmem Cert.Kernel.S128x128 EltTy.f32)
local notation "b5V" => (Memref.whole Cert.Kernel.cc0_scratch5 : Memref Cert.Kernel.sig Kind.scVector Space.vmem Cert.Kernel.S128x128 EltTy.f32)

section Tile

variable [FloatOps F]
variable (d : Dev nD) (L : grid0.Coords)

/-! ## The loop's invariant -/

/-- The whole [204800, 128] array of table rows the call computes, as one function of the transposed ids and the table. -/
abbrev GK (it : Buf (Elt F) (tLoc d)) (fw : Buf (Elt F) (wLoc d)) : Buf (Elt F) (oLoc d) := Cert.Spec.rows2d it fw

theorem cond1_iff : ∀ k : Fin k0_t1_loop.trips, k0_cond1 k = 1#1 ↔ k.val < 9 := by decide +kernel
theorem cond2_iff : ∀ k : Fin k0_t1_loop.trips, k0_cond2 k = 1#1 ↔ k.val < 9 := by decide +kernel
theorem cond3_iff : ∀ k : Fin k0_t1_loop.trips, k0_cond3 k = 1#1 ↔ k.val < 9 := by decide +kernel
theorem cond4_iff : ∀ k : Fin k0_t1_loop.trips, k0_cond4 k = 1#1 ↔ k.val < 9 := by decide +kernel
theorem cond5_iff : ∀ k : Fin k0_t1_loop.trips, k0_cond5 k = 1#1 ↔ k.val < 9 := by decide +kernel
theorem trips_le : k0_t1_loop.trips ≤ 10 := k0_t1_abs.2.1

omit [FloatOps F] in
theorem off2_eq1 (k : Fin k0_t1_loop.trips) : k0_off2 L k 0#32 = oOffC L (5 * k.val + 0) := by
  refine (k0_off2_eq L k 0).trans ?_
  have e : 20480 * k.val + 4096 * (0 : Fin 5).val + 256 * (L 1).val + 128 * (L 0).val = 4096 * (5 * k.val + 0) + 256 * (L 1).val + 128 * (L 0).val := by
    show 20480 * k.val + 4096 * 0 + 256 * (L 1).val + 128 * (L 0).val = _; omega
  rw [e]
omit [FloatOps F] in
theorem rowoff_eq1 (k : Fin k0_t1_loop.trips) : k0_off4 k = rowOffC (5 * (k.val + 1) + 0) := by
  refine (k0_off4_eq k).trans ?_
  have e : 5 * k.val + 5 = 5 * (k.val + 1) + 0 := by omega
  rw [e]
omit [FloatOps F] in
theorem off2_eq2 (k : Fin k0_t1_loop.trips) : k0_off2 L k 1#32 = oOffC L (5 * k.val + 1) := by
  refine (k0_off2_eq L k 1).trans ?_
  have e : 20480 * k.val + 4096 * (1 : Fin 5).val + 256 * (L 1).val + 128 * (L 0).val = 4096 * (5 * k.val + 1) + 256 * (L 1).val + 128 * (L 0).val := by
    show 20480 * k.val + 4096 * 1 + 256 * (L 1).val + 128 * (L 0).val = _; omega
  rw [e]
omit [FloatOps F] in
theorem rowoff_eq2 (k : Fin k0_t1_loop.trips) : k0_off6 k = rowOffC (5 * (k.val + 1) + 1) := by
  refine (k0_off6_eq k).trans ?_
  have e : 5 * k.val + 6 = 5 * (k.val + 1) + 1 := by omega
  rw [e]
omit [FloatOps F] in
theorem off2_eq3 (k : Fin k0_t1_loop.trips) : k0_off2 L k 2#32 = oOffC L (5 * k.val + 2) := by
  refine (k0_off2_eq L k 2).trans ?_
  have e : 20480 * k.val + 4096 * (2 : Fin 5).val + 256 * (L 1).val + 128 * (L 0).val = 4096 * (5 * k.val + 2) + 256 * (L 1).val + 128 * (L 0).val := by
    show 20480 * k.val + 4096 * 2 + 256 * (L 1).val + 128 * (L 0).val = _; omega
  rw [e]
omit [FloatOps F] in
theorem rowoff_eq3 (k : Fin k0_t1_loop.trips) : k0_off8 k = rowOffC (5 * (k.val + 1) + 2) := by
  refine (k0_off8_eq k).trans ?_
  have e : 5 * k.val + 7 = 5 * (k.val + 1) + 2 := by omega
  rw [e]
omit [FloatOps F] in
theorem off2_eq4 (k : Fin k0_t1_loop.trips) : k0_off2 L k 3#32 = oOffC L (5 * k.val + 3) := by
  refine (k0_off2_eq L k 3).trans ?_
  have e : 20480 * k.val + 4096 * (3 : Fin 5).val + 256 * (L 1).val + 128 * (L 0).val = 4096 * (5 * k.val + 3) + 256 * (L 1).val + 128 * (L 0).val := by
    show 20480 * k.val + 4096 * 3 + 256 * (L 1).val + 128 * (L 0).val = _; omega
  rw [e]
omit [FloatOps F] in
theorem rowoff_eq4 (k : Fin k0_t1_loop.trips) : k0_off10 k = rowOffC (5 * (k.val + 1) + 3) := by
  refine (k0_off10_eq k).trans ?_
  have e : 5 * k.val + 8 = 5 * (k.val + 1) + 3 := by omega
  rw [e]
omit [FloatOps F] in
theorem off2_eq5 (k : Fin k0_t1_loop.trips) : k0_off2 L k 4#32 = oOffC L (5 * k.val + 4) := by
  refine (k0_off2_eq L k 4).trans ?_
  have e : 20480 * k.val + 4096 * (4 : Fin 5).val + 256 * (L 1).val + 128 * (L 0).val = 4096 * (5 * k.val + 4) + 256 * (L 1).val + 128 * (L 0).val := by
    show 20480 * k.val + 4096 * 4 + 256 * (L 1).val + 128 * (L 0).val = _; omega
  rw [e]
omit [FloatOps F] in
theorem rowoff_eq5 (k : Fin k0_t1_loop.trips) : k0_off12 k = rowOffC (5 * (k.val + 1) + 4) := by
  refine (k0_off12_eq k).trans ?_
  have e : 5 * k.val + 9 = 5 * (k.val + 1) + 4 := by omega
  rw [e]

/-- Slot `r`'s blocks of result rows (sequence positions 5·kk + r): those below trip `k` hold the table rows, the others what they held at the start. -/
def blocks (it : Buf (Elt F) (tLoc d)) (fw : Buf (Elt F) (wLoc d)) (f0 : Buf (Elt F) (oLoc d)) (r : ℕ) (hr : r < 5) (k : ℕ) (kk : Fin 10) : sProp 𝕄 :=
  oLoc d ↦[oSetC L (5 * kk.val + r) (by have := kk.isLt; omega)]{fullShare} (if kk.val < k then GK d it fw else f0)

/-- Slot 1's copy-out, delivered: the block of result rows holds the table rows, the row buffer is back. -/
abbrev outD1 (it : Buf (Elt F) (tLoc d)) (fw : Buf (Elt F) (wLoc d)) (hit : ∀ y, (it y).toNat < 100000) (j : ℕ) (hj : j < 50) : sProp 𝕄 :=
  iprop((oLoc d ↦[oSetC L j hj]{fullShare} GK d it fw) ∗ ((V d (cV L) (jV L)).loc cc0_scratch1 ↦{fullShare} gatOff d L it fw hit (rowOffC j) (hrowC j hj)))

/-- Slot 1 before trip `k < 10`: its gather of row 5·k + 0 is in flight, its copy-out semaphore is at zero. -/
def slotA1 (it : Buf (Elt F) (tLoc d)) (fw : Buf (Elt F) (wLoc d)) (hit : ∀ y, (it y).toNat < 100000) (qw : PosShare TreeShare) (f0 : Buf (Elt F) (oLoc d)) (k : ℕ) (hk : k < 10) : sProp 𝕄 :=
  iprop(Transfers.Flight countersEmb (V d (cV L) (jV L)) (SemLoc.dma cc0_scratch6.sem) (default : HIx 1) (b1V).view.dmaCredit
        (gatD1 d L it fw hit (qw.left) ((fullShare : PosShare TreeShare).left) (rowOffC (5 * k + 0)) (hrowC (5 * k + 0) (by omega)))
      ∗ semVal (cS1 d (cV L) (jV L)) 0
      ∗ bigSep Finset.univ (blocks d L it fw f0 0 (by omega) k))

/-- Slot 2's copy-out, delivered: the block of result rows holds the table rows, the row buffer is back. -/
abbrev outD2 (it : Buf (Elt F) (tLoc d)) (fw : Buf (Elt F) (wLoc d)) (hit : ∀ y, (it y).toNat < 100000) (j : ℕ) (hj : j < 50) : sProp 𝕄 :=
  iprop((oLoc d ↦[oSetC L j hj]{fullShare} GK d it fw) ∗ ((V d (cV L) (jV L)).loc cc0_scratch2 ↦{fullShare} gatOff d L it fw hit (rowOffC j) (hrowC j hj)))

/-- Slot 2 before trip `k < 10`: its gather of row 5·k + 1 is in flight, its copy-out semaphore is at zero. -/
def slotA2 (it : Buf (Elt F) (tLoc d)) (fw : Buf (Elt F) (wLoc d)) (hit : ∀ y, (it y).toNat < 100000) (qw : PosShare TreeShare) (f0 : Buf (Elt F) (oLoc d)) (k : ℕ) (hk : k < 10) : sProp 𝕄 :=
  iprop(Transfers.Flight countersEmb (V d (cV L) (jV L)) (SemLoc.dma cc0_scratch7.sem) (default : HIx 1) (b2V).view.dmaCredit
        (gatD2 d L it fw hit (qw.right.left) ((fullShare : PosShare TreeShare).right.left) (rowOffC (5 * k + 1)) (hrowC (5 * k + 1) (by omega)))
      ∗ semVal (cS2 d (cV L) (jV L)) 0
      ∗ bigSep Finset.univ (blocks d L it fw f0 1 (by omega) k))

/-- Slot 3's copy-out, delivered: the block of result rows holds the table rows, the row buffer is back. -/
abbrev outD3 (it : Buf (Elt F) (tLoc d)) (fw : Buf (Elt F) (wLoc d)) (hit : ∀ y, (it y).toNat < 100000) (j : ℕ) (hj : j < 50) : sProp 𝕄 :=
  iprop((oLoc d ↦[oSetC L j hj]{fullShare} GK d it fw) ∗ ((V d (cV L) (jV L)).loc cc0_scratch3 ↦{fullShare} gatOff d L it fw hit (rowOffC j) (hrowC j hj)))

/-- Slot 3 before trip `k < 10`: its gather of row 5·k + 2 is in flight, its copy-out semaphore is at zero. -/
def slotA3 (it : Buf (Elt F) (tLoc d)) (fw : Buf (Elt F) (wLoc d)) (hit : ∀ y, (it y).toNat < 100000) (qw : PosShare TreeShare) (f0 : Buf (Elt F) (oLoc d)) (k : ℕ) (hk : k < 10) : sProp 𝕄 :=
  iprop(Transfers.Flight countersEmb (V d (cV L) (jV L)) (SemLoc.dma cc0_scratch8.sem) (default : HIx 1) (b3V).view.dmaCredit
        (gatD3 d L it fw hit (qw.right.right.left) ((fullShare : PosShare TreeShare).right.right.left) (rowOffC (5 * k + 2)) (hrowC (5 * k + 2) (by omega)))
      ∗ semVal (cS3 d (cV L) (jV L)) 0
      ∗ bigSep Finset.univ (blocks d L it fw f0 2 (by omega) k))

/-- Slot 4's copy-out, delivered: the block of result rows holds the table rows, the row buffer is back. -/
abbrev outD4 (it : Buf (Elt F) (tLoc d)) (fw : Buf (Elt F) (wLoc d)) (hit : ∀ y, (it y).toNat < 100000) (j : ℕ) (hj : j < 50) : sProp 𝕄 :=
  iprop((oLoc d ↦[oSetC L j hj]{fullShare} GK d it fw) ∗ ((V d (cV L) (jV L)).loc cc0_scratch4 ↦{fullShare} gatOff d L it fw hit (rowOffC j) (hrowC j hj)))

/-- Slot 4 before trip `k < 10`: its gather of row 5·k + 3 is in flight, its copy-out semaphore is at zero. -/
def slotA4 (it : Buf (Elt F) (tLoc d)) (fw : Buf (Elt F) (wLoc d)) (hit : ∀ y, (it y).toNat < 100000) (qw : PosShare TreeShare) (f0 : Buf (Elt F) (oLoc d)) (k : ℕ) (hk : k < 10) : sProp 𝕄 :=
  iprop(Transfers.Flight countersEmb (V d (cV L) (jV L)) (SemLoc.dma cc0_scratch9.sem) (default : HIx 1) (b4V).view.dmaCredit
        (gatD4 d L it fw hit (qw.right.right.right.left) ((fullShare : PosShare TreeShare).right.right.right.left) (rowOffC (5 * k + 3)) (hrowC (5 * k + 3) (by omega)))
      ∗ semVal (cS4 d (cV L) (jV L)) 0
      ∗ bigSep Finset.univ (blocks d L it fw f0 3 (by omega) k))

/-- Slot 5's copy-out, delivered: the block of result rows holds the table rows, the row buffer is back. -/
abbrev outD5 (it : Buf (Elt F) (tLoc d)) (fw : Buf (Elt F) (wLoc d)) (hit : ∀ y, (it y).toNat < 100000) (j : ℕ) (hj : j < 50) : sProp 𝕄 :=
  iprop((oLoc d ↦[oSetC L j hj]{fullShare} GK d it fw) ∗ ((V d (cV L) (jV L)).loc cc0_scratch5 ↦{fullShare} gatOff d L it fw hit (rowOffC j) (hrowC j hj)))

/-- Slot 5 before trip `k < 10`: its gather of row 5·k + 4 is in flight, its copy-out semaphore is at zero. -/
def slotA5 (it : Buf (Elt F) (tLoc d)) (fw : Buf (Elt F) (wLoc d)) (hit : ∀ y, (it y).toNat < 100000) (qw : PosShare TreeShare) (f0 : Buf (Elt F) (oLoc d)) (k : ℕ) (hk : k < 10) : sProp 𝕄 :=
  iprop(Transfers.Flight countersEmb (V d (cV L) (jV L)) (SemLoc.dma cc0_scratch10.sem) (default : HIx 1) (b5V).view.dmaCredit
        (gatD5 d L it fw hit (qw.right.right.right.right) ((fullShare : PosShare TreeShare).right.right.right.right) (rowOffC (5 * k + 4)) (hrowC (5 * k + 4) (by omega)))
      ∗ semVal (cS5 d (cV L) (jV L)) 0
      ∗ bigSep Finset.univ (blocks d L it fw f0 4 (by omega) k))

/-! ## Small lemmas the run cites -/

omit [FloatOps F] in
/-- One whole-shape write through a view leaves, on the view's elements, any contents that the payload is the view's read of. -/
theorem writes_whole_eq_on {sig' : RefSig} {κ : Kind} {sp : Space} {s : Shape} {e : EltTy} {Val : EltTy → Type} (v : View sig' κ sp s e)
    (f G : v.ty.Contents Val) (w : s.Idx → Val e) (h : ∀ x, w x = v.read Val G x) :
    ∀ i ∈ v.set, v.writes Val f [⟨Rect.whole s, w⟩] i = G i := by
  intro i hi
  obtain ⟨y, -, rfl⟩ := Finset.mem_map.mp hi
  have h1 := View.read_writes_cons_emb v f (Rect.whole s) w [] y
  rw [Rect.emb_whole_apply, h y, View.read_apply, View.read_apply] at h1
  exact eq_of_heq (((cast_heq _ _).symm.trans (heq_of_eq h1)).trans (cast_heq _ _))

/-- A block of result rows after the copy-out of the rows gathered for its sequence position holds, element by element, the array the call computes. -/
theorem blk_written (it : Buf (Elt F) (tLoc d)) (fw : Buf (Elt F) (wLoc d)) (hit : ∀ y, (it y).toNat < 100000) (f0 : Buf (Elt F) (oLoc d))
    (j : ℕ) (hj : j < 50) (off : Fin 2 → ℕ) (h : ∀ a, off a + S128x128.size a ≤ S204800x128.size a) (e : off = oOffC L j)
    (pay : S128x128.Idx → Elt F .f32) (hpay : pay = gatOff d L it fw hit (rowOffC j) (hrowC j hj)) :
    (((oBlkO off h).view.loc (V d (cV L) (jV L)) ↦[(oBlkO off h).view.set]{fullShare} (oBlkO off h).view.writes (Elt F) f0 [⟨Rect.whole S128x128, pay⟩]) : sProp 𝕄)
      = (oLoc d ↦[oSetC L j hj]{fullShare} GK d it fw) := by
  subst e hpay
  exact pointsTo_congr (writes_whole_eq_on (oBlkO (oOffC L j) h).view f0 (GK d it fw) _
    (fun x => (gat_value d L it fw hit j hj x).trans ((View.read_apply _ _).trans (cast_eq _ _)).symm))

/-- Once a slot's block for trip `k` holds the table rows, its blocks are as the invariant says before trip `k + 1`. -/
theorem blocks_step (it : Buf (Elt F) (tLoc d)) (fw : Buf (Elt F) (wLoc d)) (f0 : Buf (Elt F) (oLoc d)) (r : ℕ) (hr : r < 5) (k : ℕ) (hk10 : k < 10) :
    iprop((oLoc d ↦[oSetC L (5 * k + r) (by omega)]{fullShare} GK d it fw) ∗ bigSep (Finset.univ.erase (⟨k, hk10⟩ : Fin 10)) (blocks d L it fw f0 r hr k))
      ⊢ bigSep Finset.univ (blocks d L it fw f0 r hr (k + 1)) := by
  have e : bigSep (Finset.univ.erase (⟨k, hk10⟩ : Fin 10)) (blocks d L it fw f0 r hr k)
      = bigSep (Finset.univ.erase (⟨k, hk10⟩ : Fin 10)) (blocks d L it fw f0 r hr (k + 1)) :=
    bigSep_congr fun kk hkk => by
      have hne : kk.val ≠ k := fun h => (Finset.mem_erase.mp hkk).1 (Fin.ext h)
      unfold blocks
      by_cases h : kk.val < k
      · rw [if_pos h, if_pos (by omega)]
      · rw [if_neg h, if_neg (by omega)]
  have e2 : blocks d L it fw f0 r hr (k + 1) (⟨k, hk10⟩ : Fin 10) = (oLoc d ↦[oSetC L (5 * k + r) (by omega)]{fullShare} GK d it fw) := by
    unfold blocks; rw [if_pos (Nat.lt_succ_self k)]
  have h3 := Transfers.bigSep_univ_in (⟨k, hk10⟩ : Fin 10) (blocks d L it fw f0 r hr (k + 1))
  rw [e2] at h3
  rw [e]
  exact h3

omit [FloatOps F] in
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

theorem gatD_congr1 (it : Buf (Elt F) (tLoc d)) (fw : Buf (Elt F) (wLoc d)) (hit : ∀ y, (it y).toNat < 100000) (qw qs : PosShare TreeShare) {off off' : Fin 2 → ℕ}
    (h : ∀ a, off a + S1x128.size a ≤ S50x128.size a) (h' : ∀ a, off' a + S1x128.size a ≤ S50x128.size a) (e : off = off') :
    gatD1 d L it fw hit qw qs off h = gatD1 d L it fw hit qw qs off' h' := by subst e; rfl

/-- Slot 1's copy-out, as the run leaves it in flight, delivers the block at the array the call computes and the row buffer whole. -/
theorem out_join1 (it : Buf (Elt F) (tLoc d)) (fw : Buf (Elt F) (wLoc d)) (hit : ∀ y, (it y).toNat < 100000) (f0 : Buf (Elt F) (oLoc d))
    (j : ℕ) (hj : j < 50) (off : Fin 2 → ℕ) (h : ∀ a, off a + S128x128.size a ≤ S204800x128.size a) (e : off = oOffC L j)
    (pay : S128x128.Idx → Elt F .f32) (hpay : pay = gatOff d L it fw hit (rowOffC j) (hrowC j hj)) :
    iprop(((b1V).view.loc (V d (cV L) (jV L)) ↦[Finset.univ \ (b1V).view.set]{fullShare} gatOff d L it fw hit (rowOffC j) (hrowC j hj))
        ∗ ((oBlkO off h).view.loc (V d (cV L) (jV L)) ↦[(oBlkO off h).view.set]{fullShare} (oBlkO off h).view.writes (Elt F) f0 [⟨Rect.whole S128x128, pay⟩])
        ∗ ((b1V).view.loc (V d (cV L) (jV L)) ↦[(b1V).view.set]{fullShare} gatOff d L it fw hit (rowOffC j) (hrowC j hj)))
      ⊢ outD1 d L it fw hit j hj := by
  iintro ⟨Hr, Hblk, Hb⟩
  isplitl [Hblk]
  · iapply (Entails.of_eq (blk_written d L it fw hit f0 j hj off h e pay hpay)) $$ Hblk
  · iapply (pointsTo_split_subset (q := fullShare) (f := gatOff d L it fw hit (rowOffC j) (hrowC j hj)) (S := Finset.univ) (Finset.subset_univ (b1V).view.set)).2
    isplitl [Hb] <;> iassumption

/-- Slot 1 once the loop is over: its last copy-out is in flight, its gather semaphore is at zero. -/
def slotB1 (it : Buf (Elt F) (tLoc d)) (fw : Buf (Elt F) (wLoc d)) (hit : ∀ y, (it y).toNat < 100000) (qw : PosShare TreeShare) (f0 : Buf (Elt F) (oLoc d)) : sProp 𝕄 :=
  iprop(Transfers.Flight countersEmb (V d (cV L) (jV L)) (SemLoc.dma cc0_scratch11.sem) (default : HIx 1) 524288 (outD1 d L it fw hit (5 * 9 + 0) (by omega))
      ∗ semVal (cG1 d (cV L) (jV L)) 0
      ∗ bigSep (Finset.univ.erase (⟨9, by omega⟩ : Fin 10)) (blocks d L it fw f0 0 (by omega) 10)
      ∗ (wLoc d ↦{qw.left} fw) ∗ ((V d (cV L) (jV L)).loc cc0_scratch0 ↦{(fullShare : PosShare TreeShare).left} fiK d L it))

theorem gatD_congr2 (it : Buf (Elt F) (tLoc d)) (fw : Buf (Elt F) (wLoc d)) (hit : ∀ y, (it y).toNat < 100000) (qw qs : PosShare TreeShare) {off off' : Fin 2 → ℕ}
    (h : ∀ a, off a + S1x128.size a ≤ S50x128.size a) (h' : ∀ a, off' a + S1x128.size a ≤ S50x128.size a) (e : off = off') :
    gatD2 d L it fw hit qw qs off h = gatD2 d L it fw hit qw qs off' h' := by subst e; rfl

/-- Slot 2's copy-out, as the run leaves it in flight, delivers the block at the array the call computes and the row buffer whole. -/
theorem out_join2 (it : Buf (Elt F) (tLoc d)) (fw : Buf (Elt F) (wLoc d)) (hit : ∀ y, (it y).toNat < 100000) (f0 : Buf (Elt F) (oLoc d))
    (j : ℕ) (hj : j < 50) (off : Fin 2 → ℕ) (h : ∀ a, off a + S128x128.size a ≤ S204800x128.size a) (e : off = oOffC L j)
    (pay : S128x128.Idx → Elt F .f32) (hpay : pay = gatOff d L it fw hit (rowOffC j) (hrowC j hj)) :
    iprop(((b2V).view.loc (V d (cV L) (jV L)) ↦[Finset.univ \ (b2V).view.set]{fullShare} gatOff d L it fw hit (rowOffC j) (hrowC j hj))
        ∗ ((oBlkO off h).view.loc (V d (cV L) (jV L)) ↦[(oBlkO off h).view.set]{fullShare} (oBlkO off h).view.writes (Elt F) f0 [⟨Rect.whole S128x128, pay⟩])
        ∗ ((b2V).view.loc (V d (cV L) (jV L)) ↦[(b2V).view.set]{fullShare} gatOff d L it fw hit (rowOffC j) (hrowC j hj)))
      ⊢ outD2 d L it fw hit j hj := by
  iintro ⟨Hr, Hblk, Hb⟩
  isplitl [Hblk]
  · iapply (Entails.of_eq (blk_written d L it fw hit f0 j hj off h e pay hpay)) $$ Hblk
  · iapply (pointsTo_split_subset (q := fullShare) (f := gatOff d L it fw hit (rowOffC j) (hrowC j hj)) (S := Finset.univ) (Finset.subset_univ (b2V).view.set)).2
    isplitl [Hb] <;> iassumption

/-- Slot 2 once the loop is over: its last copy-out is in flight, its gather semaphore is at zero. -/
def slotB2 (it : Buf (Elt F) (tLoc d)) (fw : Buf (Elt F) (wLoc d)) (hit : ∀ y, (it y).toNat < 100000) (qw : PosShare TreeShare) (f0 : Buf (Elt F) (oLoc d)) : sProp 𝕄 :=
  iprop(Transfers.Flight countersEmb (V d (cV L) (jV L)) (SemLoc.dma cc0_scratch12.sem) (default : HIx 1) 524288 (outD2 d L it fw hit (5 * 9 + 1) (by omega))
      ∗ semVal (cG2 d (cV L) (jV L)) 0
      ∗ bigSep (Finset.univ.erase (⟨9, by omega⟩ : Fin 10)) (blocks d L it fw f0 1 (by omega) 10)
      ∗ (wLoc d ↦{qw.right.left} fw) ∗ ((V d (cV L) (jV L)).loc cc0_scratch0 ↦{(fullShare : PosShare TreeShare).right.left} fiK d L it))

theorem gatD_congr3 (it : Buf (Elt F) (tLoc d)) (fw : Buf (Elt F) (wLoc d)) (hit : ∀ y, (it y).toNat < 100000) (qw qs : PosShare TreeShare) {off off' : Fin 2 → ℕ}
    (h : ∀ a, off a + S1x128.size a ≤ S50x128.size a) (h' : ∀ a, off' a + S1x128.size a ≤ S50x128.size a) (e : off = off') :
    gatD3 d L it fw hit qw qs off h = gatD3 d L it fw hit qw qs off' h' := by subst e; rfl

/-- Slot 3's copy-out, as the run leaves it in flight, delivers the block at the array the call computes and the row buffer whole. -/
theorem out_join3 (it : Buf (Elt F) (tLoc d)) (fw : Buf (Elt F) (wLoc d)) (hit : ∀ y, (it y).toNat < 100000) (f0 : Buf (Elt F) (oLoc d))
    (j : ℕ) (hj : j < 50) (off : Fin 2 → ℕ) (h : ∀ a, off a + S128x128.size a ≤ S204800x128.size a) (e : off = oOffC L j)
    (pay : S128x128.Idx → Elt F .f32) (hpay : pay = gatOff d L it fw hit (rowOffC j) (hrowC j hj)) :
    iprop(((b3V).view.loc (V d (cV L) (jV L)) ↦[Finset.univ \ (b3V).view.set]{fullShare} gatOff d L it fw hit (rowOffC j) (hrowC j hj))
        ∗ ((oBlkO off h).view.loc (V d (cV L) (jV L)) ↦[(oBlkO off h).view.set]{fullShare} (oBlkO off h).view.writes (Elt F) f0 [⟨Rect.whole S128x128, pay⟩])
        ∗ ((b3V).view.loc (V d (cV L) (jV L)) ↦[(b3V).view.set]{fullShare} gatOff d L it fw hit (rowOffC j) (hrowC j hj)))
      ⊢ outD3 d L it fw hit j hj := by
  iintro ⟨Hr, Hblk, Hb⟩
  isplitl [Hblk]
  · iapply (Entails.of_eq (blk_written d L it fw hit f0 j hj off h e pay hpay)) $$ Hblk
  · iapply (pointsTo_split_subset (q := fullShare) (f := gatOff d L it fw hit (rowOffC j) (hrowC j hj)) (S := Finset.univ) (Finset.subset_univ (b3V).view.set)).2
    isplitl [Hb] <;> iassumption

/-- Slot 3 once the loop is over: its last copy-out is in flight, its gather semaphore is at zero. -/
def slotB3 (it : Buf (Elt F) (tLoc d)) (fw : Buf (Elt F) (wLoc d)) (hit : ∀ y, (it y).toNat < 100000) (qw : PosShare TreeShare) (f0 : Buf (Elt F) (oLoc d)) : sProp 𝕄 :=
  iprop(Transfers.Flight countersEmb (V d (cV L) (jV L)) (SemLoc.dma cc0_scratch13.sem) (default : HIx 1) 524288 (outD3 d L it fw hit (5 * 9 + 2) (by omega))
      ∗ semVal (cG3 d (cV L) (jV L)) 0
      ∗ bigSep (Finset.univ.erase (⟨9, by omega⟩ : Fin 10)) (blocks d L it fw f0 2 (by omega) 10)
      ∗ (wLoc d ↦{qw.right.right.left} fw) ∗ ((V d (cV L) (jV L)).loc cc0_scratch0 ↦{(fullShare : PosShare TreeShare).right.right.left} fiK d L it))

theorem gatD_congr4 (it : Buf (Elt F) (tLoc d)) (fw : Buf (Elt F) (wLoc d)) (hit : ∀ y, (it y).toNat < 100000) (qw qs : PosShare TreeShare) {off off' : Fin 2 → ℕ}
    (h : ∀ a, off a + S1x128.size a ≤ S50x128.size a) (h' : ∀ a, off' a + S1x128.size a ≤ S50x128.size a) (e : off = off') :
    gatD4 d L it fw hit qw qs off h = gatD4 d L it fw hit qw qs off' h' := by subst e; rfl

/-- Slot 4's copy-out, as the run leaves it in flight, delivers the block at the array the call computes and the row buffer whole. -/
theorem out_join4 (it : Buf (Elt F) (tLoc d)) (fw : Buf (Elt F) (wLoc d)) (hit : ∀ y, (it y).toNat < 100000) (f0 : Buf (Elt F) (oLoc d))
    (j : ℕ) (hj : j < 50) (off : Fin 2 → ℕ) (h : ∀ a, off a + S128x128.size a ≤ S204800x128.size a) (e : off = oOffC L j)
    (pay : S128x128.Idx → Elt F .f32) (hpay : pay = gatOff d L it fw hit (rowOffC j) (hrowC j hj)) :
    iprop(((b4V).view.loc (V d (cV L) (jV L)) ↦[Finset.univ \ (b4V).view.set]{fullShare} gatOff d L it fw hit (rowOffC j) (hrowC j hj))
        ∗ ((oBlkO off h).view.loc (V d (cV L) (jV L)) ↦[(oBlkO off h).view.set]{fullShare} (oBlkO off h).view.writes (Elt F) f0 [⟨Rect.whole S128x128, pay⟩])
        ∗ ((b4V).view.loc (V d (cV L) (jV L)) ↦[(b4V).view.set]{fullShare} gatOff d L it fw hit (rowOffC j) (hrowC j hj)))
      ⊢ outD4 d L it fw hit j hj := by
  iintro ⟨Hr, Hblk, Hb⟩
  isplitl [Hblk]
  · iapply (Entails.of_eq (blk_written d L it fw hit f0 j hj off h e pay hpay)) $$ Hblk
  · iapply (pointsTo_split_subset (q := fullShare) (f := gatOff d L it fw hit (rowOffC j) (hrowC j hj)) (S := Finset.univ) (Finset.subset_univ (b4V).view.set)).2
    isplitl [Hb] <;> iassumption

/-- Slot 4 once the loop is over: its last copy-out is in flight, its gather semaphore is at zero. -/
def slotB4 (it : Buf (Elt F) (tLoc d)) (fw : Buf (Elt F) (wLoc d)) (hit : ∀ y, (it y).toNat < 100000) (qw : PosShare TreeShare) (f0 : Buf (Elt F) (oLoc d)) : sProp 𝕄 :=
  iprop(Transfers.Flight countersEmb (V d (cV L) (jV L)) (SemLoc.dma cc0_scratch14.sem) (default : HIx 1) 524288 (outD4 d L it fw hit (5 * 9 + 3) (by omega))
      ∗ semVal (cG4 d (cV L) (jV L)) 0
      ∗ bigSep (Finset.univ.erase (⟨9, by omega⟩ : Fin 10)) (blocks d L it fw f0 3 (by omega) 10)
      ∗ (wLoc d ↦{qw.right.right.right.left} fw) ∗ ((V d (cV L) (jV L)).loc cc0_scratch0 ↦{(fullShare : PosShare TreeShare).right.right.right.left} fiK d L it))

theorem gatD_congr5 (it : Buf (Elt F) (tLoc d)) (fw : Buf (Elt F) (wLoc d)) (hit : ∀ y, (it y).toNat < 100000) (qw qs : PosShare TreeShare) {off off' : Fin 2 → ℕ}
    (h : ∀ a, off a + S1x128.size a ≤ S50x128.size a) (h' : ∀ a, off' a + S1x128.size a ≤ S50x128.size a) (e : off = off') :
    gatD5 d L it fw hit qw qs off h = gatD5 d L it fw hit qw qs off' h' := by subst e; rfl

/-- Slot 5's copy-out, as the run leaves it in flight, delivers the block at the array the call computes and the row buffer whole. -/
theorem out_join5 (it : Buf (Elt F) (tLoc d)) (fw : Buf (Elt F) (wLoc d)) (hit : ∀ y, (it y).toNat < 100000) (f0 : Buf (Elt F) (oLoc d))
    (j : ℕ) (hj : j < 50) (off : Fin 2 → ℕ) (h : ∀ a, off a + S128x128.size a ≤ S204800x128.size a) (e : off = oOffC L j)
    (pay : S128x128.Idx → Elt F .f32) (hpay : pay = gatOff d L it fw hit (rowOffC j) (hrowC j hj)) :
    iprop(((b5V).view.loc (V d (cV L) (jV L)) ↦[Finset.univ \ (b5V).view.set]{fullShare} gatOff d L it fw hit (rowOffC j) (hrowC j hj))
        ∗ ((oBlkO off h).view.loc (V d (cV L) (jV L)) ↦[(oBlkO off h).view.set]{fullShare} (oBlkO off h).view.writes (Elt F) f0 [⟨Rect.whole S128x128, pay⟩])
        ∗ ((b5V).view.loc (V d (cV L) (jV L)) ↦[(b5V).view.set]{fullShare} gatOff d L it fw hit (rowOffC j) (hrowC j hj)))
      ⊢ outD5 d L it fw hit j hj := by
  iintro ⟨Hr, Hblk, Hb⟩
  isplitl [Hblk]
  · iapply (Entails.of_eq (blk_written d L it fw hit f0 j hj off h e pay hpay)) $$ Hblk
  · iapply (pointsTo_split_subset (q := fullShare) (f := gatOff d L it fw hit (rowOffC j) (hrowC j hj)) (S := Finset.univ) (Finset.subset_univ (b5V).view.set)).2
    isplitl [Hb] <;> iassumption

/-- Slot 5 once the loop is over: its last copy-out is in flight, its gather semaphore is at zero. -/
def slotB5 (it : Buf (Elt F) (tLoc d)) (fw : Buf (Elt F) (wLoc d)) (hit : ∀ y, (it y).toNat < 100000) (qw : PosShare TreeShare) (f0 : Buf (Elt F) (oLoc d)) : sProp 𝕄 :=
  iprop(Transfers.Flight countersEmb (V d (cV L) (jV L)) (SemLoc.dma cc0_scratch15.sem) (default : HIx 1) 524288 (outD5 d L it fw hit (5 * 9 + 4) (by omega))
      ∗ semVal (cG5 d (cV L) (jV L)) 0
      ∗ bigSep (Finset.univ.erase (⟨9, by omega⟩ : Fin 10)) (blocks d L it fw f0 4 (by omega) 10)
      ∗ (wLoc d ↦{qw.right.right.right.right} fw) ∗ ((V d (cV L) (jV L)).loc cc0_scratch0 ↦{(fullShare : PosShare TreeShare).right.right.right.right} fiK d L it))

/-- Before trip `k`: every slot's gather of its row for the trip is in flight and the rows of earlier trips are written; after the
    last trip every slot's last copy-out is in flight instead. -/
def inv (it : Buf (Elt F) (tLoc d)) (fw : Buf (Elt F) (wLoc d)) (hit : ∀ y, (it y).toNat < 100000) (qw : PosShare TreeShare) (f0 : Buf (Elt F) (oLoc d))
    (O : CellTallies nD τ sig (HIx 1)) (W : Waits sig (HIx 1)) (k : ℕ) (_ : PUnit) : sProp 𝕄 :=
  iprop(Transfers.MayWaits (V d (cV L) (jV L)) (default : HIx 1) O
    ∗ (if hk : k < 10 then iprop(slotA1 d L it fw hit qw f0 k hk ∗ slotA2 d L it fw hit qw f0 k hk ∗ slotA3 d L it fw hit qw f0 k hk ∗ slotA4 d L it fw hit qw f0 k hk ∗ slotA5 d L it fw hit qw f0 k hk)
        else iprop(slotB1 d L it fw hit qw f0 ∗ slotB2 d L it fw hit qw f0 ∗ slotB3 d L it fw hit qw f0 ∗ slotB4 d L it fw hit qw f0 ∗ slotB5 d L it fw hit qw f0))
    ∗ ∃ W', ⌜∀ p ∈ W', p ∈ W ∨ p.2 = none⌝ ∗ owes (V d (cV L) (jV L)) O W')

theorem blocks_erase_congr (it : Buf (Elt F) (tLoc d)) (fw : Buf (Elt F) (wLoc d)) (f0 : Buf (Elt F) (oLoc d)) (r : ℕ) (hr : r < 5) (k : ℕ) (hk10 : k < 10) :
    bigSep (Finset.univ.erase (⟨k, hk10⟩ : Fin 10)) (blocks d L it fw f0 r hr k)
      = bigSep (Finset.univ.erase (⟨k, hk10⟩ : Fin 10)) (blocks d L it fw f0 r hr (k + 1)) :=
  bigSep_congr fun kk hkk => by
    have hne : kk.val ≠ k := fun h => (Finset.mem_erase.mp hkk).1 (Fin.ext h)
    unfold blocks
    by_cases h : kk.val < k
    · rw [if_pos h, if_pos (by omega)]
    · rw [if_neg h, if_neg (by omega)]

/-- Once a slot's last block holds the table rows, all its blocks do. -/
theorem blocks_close (it : Buf (Elt F) (tLoc d)) (fw : Buf (Elt F) (wLoc d)) (f0 : Buf (Elt F) (oLoc d)) (r : ℕ) (hr : r < 5) :
    iprop((oLoc d ↦[oSetC L (5 * 9 + r) (by omega)]{fullShare} GK d it fw) ∗ bigSep (Finset.univ.erase (⟨9, by omega⟩ : Fin 10)) (blocks d L it fw f0 r hr 10))
      ⊢ bigSep Finset.univ (blocks d L it fw f0 r hr 10) := by
  have e2 : blocks d L it fw f0 r hr 10 (⟨9, by omega⟩ : Fin 10) = (oLoc d ↦[oSetC L (5 * 9 + r) (by omega)]{fullShare} GK d it fw) := by
    unfold blocks; rw [if_pos (Nat.lt_succ_self 9)]
  have h3 := Transfers.bigSep_univ_in (⟨9, by omega⟩ : Fin 10) (blocks d L it fw f0 r hr 10)
  rw [e2] at h3
  exact h3

/-- A tile's blocks of result rows, slot by slot, before trip `k` (all at their initial contents for `k = 0`, all at the table rows for `k = 10`). -/
abbrev oBlksPts (it : Buf (Elt F) (tLoc d)) (fw : Buf (Elt F) (wLoc d)) (f0 : Buf (Elt F) (oLoc d)) (k : ℕ) : sProp 𝕄 :=
  iprop(bigSep Finset.univ (blocks d L it fw f0 0 (by omega) k) ∗ bigSep Finset.univ (blocks d L it fw f0 1 (by omega) k) ∗ bigSep Finset.univ (blocks d L it fw f0 2 (by omega) k) ∗ bigSep Finset.univ (blocks d L it fw f0 3 (by omega) k) ∗ bigSep Finset.univ (blocks d L it fw f0 4 (by omega) k))

omit [FloatOps F] in
theorem ret_bind' {E : Type → Type} {α β : Type} (a : α) (k : α → Prog E β) : (Prog.ret a).bind k = k a := rfl

set_option maxHeartbeats 8000000 in
/-- One trip that is not the last: each slot's gather lands and is copied out to its block; once the copy-out is done the slot's
    gather of its next row is issued. -/
theorem region_lt (it : Buf (Elt F) (tLoc d)) (fw : Buf (Elt F) (wLoc d)) (hit : ∀ y, (it y).toNat < 100000) (qw : PosShare TreeShare) (f0 : Buf (Elt F) (oLoc d))
    (O : CellTallies nD τ sig (HIx 1)) (W : Waits sig (HIx 1)) (v2 c0 : BitVec 32) (k : Fin k0_t1_loop.trips) (hk : k.val < 9) (acc : PUnit) :
    inv d L it fw hit qw f0 O W k.val acc
      ⊢ wp frame (wpE (defs₀ (F := F)) 𝒱₀ (V d (cV L) (jV L)) none) Set.univ
          (k0_t1_body L tV (Memref.isWhole_whole _) wV (Memref.isWhole_whole _) oV (Memref.isWhole_whole _)
            sV (Memref.isWhole_whole _) b1V (Memref.isWhole_whole _) b2V (Memref.isWhole_whole _) b3V (Memref.isWhole_whole _) b4V (Memref.isWhole_whole _) b5V (Memref.isWhole_whole _)
            cc0_scratch6 cc0_scratch7 cc0_scratch8 cc0_scratch9 cc0_scratch10 cc0_scratch11 cc0_scratch12 cc0_scratch13 cc0_scratch14 cc0_scratch15 cc0_scoped0 v2 c0 k acc)
          (inv d L it fw hit qw f0 O W (k.val + 1)) := by
  have hk10 : k.val < 10 := by omega
  have k0_h1 : k0_cond1 k = 1#1 := (cond1_iff k).mpr hk
  have k0_h2 : k0_cond2 k = 1#1 := (cond2_iff k).mpr hk
  have k0_h3 : k0_cond3 k = 1#1 := (cond3_iff k).mpr hk
  have k0_h4 : k0_cond4 k = 1#1 := (cond4_iff k).mpr hk
  have k0_h5 : k0_cond5 k = 1#1 := (cond5_iff k).mpr hk
  have hN1 : ∀ h : S100000x128.Gathers 0 S128x128, ∑ j, ((b1V).slice (S128x128.rowRect h.axis' j) (S128x128.stride_rowRect h.axis' j)).view.dmaCredit
      = (b1V).view.dmaCredit := by decide
  have hN2 : ∀ h : S100000x128.Gathers 0 S128x128, ∑ j, ((b2V).slice (S128x128.rowRect h.axis' j) (S128x128.stride_rowRect h.axis' j)).view.dmaCredit
      = (b2V).view.dmaCredit := by decide
  have hN3 : ∀ h : S100000x128.Gathers 0 S128x128, ∑ j, ((b3V).slice (S128x128.rowRect h.axis' j) (S128x128.stride_rowRect h.axis' j)).view.dmaCredit
      = (b3V).view.dmaCredit := by decide
  have hN4 : ∀ h : S100000x128.Gathers 0 S128x128, ∑ j, ((b4V).slice (S128x128.rowRect h.axis' j) (S128x128.stride_rowRect h.axis' j)).view.dmaCredit
      = (b4V).view.dmaCredit := by decide
  have hN5 : ∀ h : S100000x128.Gathers 0 S128x128, ∑ j, ((b5V).slice (S128x128.rowRect h.axis' j) (S128x128.stride_rowRect h.axis' j)).view.dmaCredit
      = (b5V).view.dmaCredit := by decide
  unfold inv
  rw [dif_pos hk10, dif_pos (show k.val + 1 < 10 by omega)]
  unfold k0_t1_body
  simp only [k0_part1_eq_skeleton, k0_part2_eq_skeleton]; unfold k0_part1_skel k0_part2_skel
  unfold slotA1 slotA2 slotA3 slotA4 slotA5
  iintro ⟨#Hmw, ⟨⟨HF1, HS1, HBk1⟩, ⟨HF2, HS2, HBk2⟩, ⟨HF3, HS3, HBk3⟩, ⟨HF4, HS4, HBk4⟩, ⟨HF5, HS5, HBk5⟩⟩, %W', %hW', HO⟩
  sl_exec
  -- slot 1: the gather of row 5·k + 0 has landed
  iapply (Transfers.wp_waitLocalO countersEmb 𝒱₀ (V d (cV L) (jV L)) none (default : HIx 1) (rfl : (b1V).view.dmaCredit = _)) $$ [HF1 HO]
  · isplitl [HF1]; · iexact HF1
    isplitl [HO]; · iexact HO
    iapply (Transfers.MayWaits.elim (SemLoc.dma cc0_scratch6.sem)) $$ Hmw
  iintro ⟨⟨HB1, HW1, HSt1⟩, HG1, HO⟩
  ihave HB1 := (Entails.of_eq (show ((V d (cV L) (jV L)).loc cc0_scratch1 ↦{fullShare} gatOff d L it fw hit (rowOffC (5 * k.val + 0)) (hrowC (5 * k.val + 0) (by omega)) : sProp 𝕄)
      = ((b1V).view.loc (V d (cV L) (jV L)) ↦{fullShare} gatOff d L it fw hit (rowOffC (5 * k.val + 0)) (hrowC (5 * k.val + 0) (by omega))) from rfl)) $$ HB1
  ihave HBk := (Transfers.bigSep_univ_out (⟨k.val, hk10⟩ : Fin 10) (blocks d L it fw f0 0 _ k.val)) $$ HBk1
  icases HBk with ⟨Hblk1, HBk1⟩
  ihave Hblk1 := (Entails.of_eq (show (blocks d L it fw f0 0 _ k.val ⟨k.val, hk10⟩ : sProp 𝕄)
      = ((oBlkO (k0_off2 L k 0#32) (k0_off2_inb L k 0)).view.loc (V d (cV L) (jV L)) ↦[(oBlkO (k0_off2 L k 0#32) (k0_off2_inb L k 0)).view.set]{fullShare} f0) by
    unfold blocks
    rw [if_neg (Nat.lt_irrefl _), oSet_congr (off := k0_off2 L k 0#32) (k0_off2_inb L k 0) (hoC L (5 * k.val + 0) (by omega)) (off2_eq1 L k)])) $$ Hblk1
  sl_exec
  -- slot 2: the gather of row 5·k + 1 has landed
  iapply (Transfers.wp_waitLocalO countersEmb 𝒱₀ (V d (cV L) (jV L)) none (default : HIx 1) (rfl : (b2V).view.dmaCredit = _)) $$ [HF2 HO]
  · isplitl [HF2]; · iexact HF2
    isplitl [HO]; · iexact HO
    iapply (Transfers.MayWaits.elim (SemLoc.dma cc0_scratch7.sem)) $$ Hmw
  iintro ⟨⟨HB2, HW2, HSt2⟩, HG2, HO⟩
  ihave HB2 := (Entails.of_eq (show ((V d (cV L) (jV L)).loc cc0_scratch2 ↦{fullShare} gatOff d L it fw hit (rowOffC (5 * k.val + 1)) (hrowC (5 * k.val + 1) (by omega)) : sProp 𝕄)
      = ((b2V).view.loc (V d (cV L) (jV L)) ↦{fullShare} gatOff d L it fw hit (rowOffC (5 * k.val + 1)) (hrowC (5 * k.val + 1) (by omega))) from rfl)) $$ HB2
  ihave HBk := (Transfers.bigSep_univ_out (⟨k.val, hk10⟩ : Fin 10) (blocks d L it fw f0 1 _ k.val)) $$ HBk2
  icases HBk with ⟨Hblk2, HBk2⟩
  ihave Hblk2 := (Entails.of_eq (show (blocks d L it fw f0 1 _ k.val ⟨k.val, hk10⟩ : sProp 𝕄)
      = ((oBlkO (k0_off2 L k 1#32) (k0_off2_inb L k 1)).view.loc (V d (cV L) (jV L)) ↦[(oBlkO (k0_off2 L k 1#32) (k0_off2_inb L k 1)).view.set]{fullShare} f0) by
    unfold blocks
    rw [if_neg (Nat.lt_irrefl _), oSet_congr (off := k0_off2 L k 1#32) (k0_off2_inb L k 1) (hoC L (5 * k.val + 1) (by omega)) (off2_eq2 L k)])) $$ Hblk2
  sl_exec
  -- slot 3: the gather of row 5·k + 2 has landed
  iapply (Transfers.wp_waitLocalO countersEmb 𝒱₀ (V d (cV L) (jV L)) none (default : HIx 1) (rfl : (b3V).view.dmaCredit = _)) $$ [HF3 HO]
  · isplitl [HF3]; · iexact HF3
    isplitl [HO]; · iexact HO
    iapply (Transfers.MayWaits.elim (SemLoc.dma cc0_scratch8.sem)) $$ Hmw
  iintro ⟨⟨HB3, HW3, HSt3⟩, HG3, HO⟩
  ihave HB3 := (Entails.of_eq (show ((V d (cV L) (jV L)).loc cc0_scratch3 ↦{fullShare} gatOff d L it fw hit (rowOffC (5 * k.val + 2)) (hrowC (5 * k.val + 2) (by omega)) : sProp 𝕄)
      = ((b3V).view.loc (V d (cV L) (jV L)) ↦{fullShare} gatOff d L it fw hit (rowOffC (5 * k.val + 2)) (hrowC (5 * k.val + 2) (by omega))) from rfl)) $$ HB3
  ihave HBk := (Transfers.bigSep_univ_out (⟨k.val, hk10⟩ : Fin 10) (blocks d L it fw f0 2 _ k.val)) $$ HBk3
  icases HBk with ⟨Hblk3, HBk3⟩
  ihave Hblk3 := (Entails.of_eq (show (blocks d L it fw f0 2 _ k.val ⟨k.val, hk10⟩ : sProp 𝕄)
      = ((oBlkO (k0_off2 L k 2#32) (k0_off2_inb L k 2)).view.loc (V d (cV L) (jV L)) ↦[(oBlkO (k0_off2 L k 2#32) (k0_off2_inb L k 2)).view.set]{fullShare} f0) by
    unfold blocks
    rw [if_neg (Nat.lt_irrefl _), oSet_congr (off := k0_off2 L k 2#32) (k0_off2_inb L k 2) (hoC L (5 * k.val + 2) (by omega)) (off2_eq3 L k)])) $$ Hblk3
  sl_exec
  -- slot 4: the gather of row 5·k + 3 has landed
  iapply (Transfers.wp_waitLocalO countersEmb 𝒱₀ (V d (cV L) (jV L)) none (default : HIx 1) (rfl : (b4V).view.dmaCredit = _)) $$ [HF4 HO]
  · isplitl [HF4]; · iexact HF4
    isplitl [HO]; · iexact HO
    iapply (Transfers.MayWaits.elim (SemLoc.dma cc0_scratch9.sem)) $$ Hmw
  iintro ⟨⟨HB4, HW4, HSt4⟩, HG4, HO⟩
  ihave HB4 := (Entails.of_eq (show ((V d (cV L) (jV L)).loc cc0_scratch4 ↦{fullShare} gatOff d L it fw hit (rowOffC (5 * k.val + 3)) (hrowC (5 * k.val + 3) (by omega)) : sProp 𝕄)
      = ((b4V).view.loc (V d (cV L) (jV L)) ↦{fullShare} gatOff d L it fw hit (rowOffC (5 * k.val + 3)) (hrowC (5 * k.val + 3) (by omega))) from rfl)) $$ HB4
  ihave HBk := (Transfers.bigSep_univ_out (⟨k.val, hk10⟩ : Fin 10) (blocks d L it fw f0 3 _ k.val)) $$ HBk4
  icases HBk with ⟨Hblk4, HBk4⟩
  ihave Hblk4 := (Entails.of_eq (show (blocks d L it fw f0 3 _ k.val ⟨k.val, hk10⟩ : sProp 𝕄)
      = ((oBlkO (k0_off2 L k 3#32) (k0_off2_inb L k 3)).view.loc (V d (cV L) (jV L)) ↦[(oBlkO (k0_off2 L k 3#32) (k0_off2_inb L k 3)).view.set]{fullShare} f0) by
    unfold blocks
    rw [if_neg (Nat.lt_irrefl _), oSet_congr (off := k0_off2 L k 3#32) (k0_off2_inb L k 3) (hoC L (5 * k.val + 3) (by omega)) (off2_eq4 L k)])) $$ Hblk4
  sl_exec
  -- slot 5: the gather of row 5·k + 4 has landed
  iapply (Transfers.wp_waitLocalO countersEmb 𝒱₀ (V d (cV L) (jV L)) none (default : HIx 1) (rfl : (b5V).view.dmaCredit = _)) $$ [HF5 HO]
  · isplitl [HF5]; · iexact HF5
    isplitl [HO]; · iexact HO
    iapply (Transfers.MayWaits.elim (SemLoc.dma cc0_scratch10.sem)) $$ Hmw
  iintro ⟨⟨HB5, HW5, HSt5⟩, HG5, HO⟩
  ihave HB5 := (Entails.of_eq (show ((V d (cV L) (jV L)).loc cc0_scratch5 ↦{fullShare} gatOff d L it fw hit (rowOffC (5 * k.val + 4)) (hrowC (5 * k.val + 4) (by omega)) : sProp 𝕄)
      = ((b5V).view.loc (V d (cV L) (jV L)) ↦{fullShare} gatOff d L it fw hit (rowOffC (5 * k.val + 4)) (hrowC (5 * k.val + 4) (by omega))) from rfl)) $$ HB5
  ihave HBk := (Transfers.bigSep_univ_out (⟨k.val, hk10⟩ : Fin 10) (blocks d L it fw f0 4 _ k.val)) $$ HBk5
  icases HBk with ⟨Hblk5, HBk5⟩
  ihave Hblk5 := (Entails.of_eq (show (blocks d L it fw f0 4 _ k.val ⟨k.val, hk10⟩ : sProp 𝕄)
      = ((oBlkO (k0_off2 L k 4#32) (k0_off2_inb L k 4)).view.loc (V d (cV L) (jV L)) ↦[(oBlkO (k0_off2 L k 4#32) (k0_off2_inb L k 4)).view.set]{fullShare} f0) by
    unfold blocks
    rw [if_neg (Nat.lt_irrefl _), oSet_congr (off := k0_off2 L k 4#32) (k0_off2_inb L k 4) (hoC L (5 * k.val + 4) (by omega)) (off2_eq5 L k)])) $$ Hblk5
  sl_exec

  -- slot 1: issue the gather of row (k0_off4 k)
  ihave Hws := (pointsTo_split_subset (q := qw.left) (f := fw) (S := Finset.univ) (Finset.subset_univ (wAllK).view.set)).1 $$ HW1
  icases Hws with ⟨Hws, Hwr⟩
  ihave Hss := (pointsTo_split_subset (q := (fullShare : PosShare TreeShare).left) (f := fiK d L it) (S := Finset.univ) (Finset.subset_univ (rowK (k0_off4 k) (k0_off4_inb k k0_h1)).view.set)).1 $$ HSt1
  icases Hss with ⟨Hss, Hsr⟩
  ihave HB' := (Entails.of_eq (show ((V d (cV L) (jV L)).loc cc0_scratch1 ↦{fullShare} (gatOff d L it fw hit (rowOffC (5 * k.val + 0)) (hrowC (5 * k.val + 0) (by omega))) : sProp 𝕄)
      = (b1V).view.loc (V d (cV L) (jV L)) ↦[(b1V).view.set]{fullShare} (gatOff d L it fw hit (rowOffC (5 * k.val + 0)) (hrowC (5 * k.val + 0) (by omega))) by rw [show (b1V).view.set = Finset.univ from View.set_whole _])) $$ HB1
  iapply (SparseCore.wp_indirectGatherLocal countersEmb 𝒱₀ (V d (cV L) (jV L)) none (hg := gathers_S100000x128_S128x128) (default : HIx 1)
      (b1V).view.dmaCredit (hN1 _) (by decide) (hinOff d L it hit (k0_off4 k) (k0_off4_inb k k0_h1))) $$ [Hws HB' Hss HG1]
  · isplitl [Hws]; · iexact Hws
    isplitl [HB']; · iexact HB'
    isplitl [Hss]; · iexact Hss
    iexact HG1
  iintro Hfl
  ihave Hfl := (Transfers.Flight_frame countersEmb (V d (cV L) (jV L)) (R := (iprop((wLoc d ↦[Finset.univ \ (wAllK).view.set]{qw.left} fw) ∗ ((V d (cV L) (jV L)).loc cc0_scratch0 ↦[Finset.univ \ (rowK (k0_off4 k) (k0_off4_inb k k0_h1)).view.set]{(fullShare : PosShare TreeShare).left} fiK d L it)) : sProp 𝕄))) $$ [Hwr Hsr Hfl]
  · isplitl [Hwr Hsr]; · isplitl [Hwr] <;> iassumption
    iexact Hfl
  ihave HF1 := (Transfers.Flight_mono countersEmb (V d (cV L) (jV L)) (gat_join1 d L it fw hit (qw.left) ((fullShare : PosShare TreeShare).left) (k0_off4 k) (k0_off4_inb k k0_h1) (gatOff d L it fw hit (rowOffC (5 * k.val + 0)) (hrowC (5 * k.val + 0) (by omega))))) $$ Hfl
  sl_exec
  -- slot 2: issue the gather of row (k0_off6 k)
  ihave Hws := (pointsTo_split_subset (q := qw.right.left) (f := fw) (S := Finset.univ) (Finset.subset_univ (wAllK).view.set)).1 $$ HW2
  icases Hws with ⟨Hws, Hwr⟩
  ihave Hss := (pointsTo_split_subset (q := (fullShare : PosShare TreeShare).right.left) (f := fiK d L it) (S := Finset.univ) (Finset.subset_univ (rowK (k0_off6 k) (k0_off6_inb k k0_h2)).view.set)).1 $$ HSt2
  icases Hss with ⟨Hss, Hsr⟩
  ihave HB' := (Entails.of_eq (show ((V d (cV L) (jV L)).loc cc0_scratch2 ↦{fullShare} (gatOff d L it fw hit (rowOffC (5 * k.val + 1)) (hrowC (5 * k.val + 1) (by omega))) : sProp 𝕄)
      = (b2V).view.loc (V d (cV L) (jV L)) ↦[(b2V).view.set]{fullShare} (gatOff d L it fw hit (rowOffC (5 * k.val + 1)) (hrowC (5 * k.val + 1) (by omega))) by rw [show (b2V).view.set = Finset.univ from View.set_whole _])) $$ HB2
  iapply (SparseCore.wp_indirectGatherLocal countersEmb 𝒱₀ (V d (cV L) (jV L)) none (hg := gathers_S100000x128_S128x128) (default : HIx 1)
      (b2V).view.dmaCredit (hN2 _) (by decide) (hinOff d L it hit (k0_off6 k) (k0_off6_inb k k0_h2))) $$ [Hws HB' Hss HG2]
  · isplitl [Hws]; · iexact Hws
    isplitl [HB']; · iexact HB'
    isplitl [Hss]; · iexact Hss
    iexact HG2
  iintro Hfl
  ihave Hfl := (Transfers.Flight_frame countersEmb (V d (cV L) (jV L)) (R := (iprop((wLoc d ↦[Finset.univ \ (wAllK).view.set]{qw.right.left} fw) ∗ ((V d (cV L) (jV L)).loc cc0_scratch0 ↦[Finset.univ \ (rowK (k0_off6 k) (k0_off6_inb k k0_h2)).view.set]{(fullShare : PosShare TreeShare).right.left} fiK d L it)) : sProp 𝕄))) $$ [Hwr Hsr Hfl]
  · isplitl [Hwr Hsr]; · isplitl [Hwr] <;> iassumption
    iexact Hfl
  ihave HF2 := (Transfers.Flight_mono countersEmb (V d (cV L) (jV L)) (gat_join2 d L it fw hit (qw.right.left) ((fullShare : PosShare TreeShare).right.left) (k0_off6 k) (k0_off6_inb k k0_h2) (gatOff d L it fw hit (rowOffC (5 * k.val + 1)) (hrowC (5 * k.val + 1) (by omega))))) $$ Hfl
  sl_exec
  -- slot 3: issue the gather of row (k0_off8 k)
  ihave Hws := (pointsTo_split_subset (q := qw.right.right.left) (f := fw) (S := Finset.univ) (Finset.subset_univ (wAllK).view.set)).1 $$ HW3
  icases Hws with ⟨Hws, Hwr⟩
  ihave Hss := (pointsTo_split_subset (q := (fullShare : PosShare TreeShare).right.right.left) (f := fiK d L it) (S := Finset.univ) (Finset.subset_univ (rowK (k0_off8 k) (k0_off8_inb k k0_h3)).view.set)).1 $$ HSt3
  icases Hss with ⟨Hss, Hsr⟩
  ihave HB' := (Entails.of_eq (show ((V d (cV L) (jV L)).loc cc0_scratch3 ↦{fullShare} (gatOff d L it fw hit (rowOffC (5 * k.val + 2)) (hrowC (5 * k.val + 2) (by omega))) : sProp 𝕄)
      = (b3V).view.loc (V d (cV L) (jV L)) ↦[(b3V).view.set]{fullShare} (gatOff d L it fw hit (rowOffC (5 * k.val + 2)) (hrowC (5 * k.val + 2) (by omega))) by rw [show (b3V).view.set = Finset.univ from View.set_whole _])) $$ HB3
  iapply (SparseCore.wp_indirectGatherLocal countersEmb 𝒱₀ (V d (cV L) (jV L)) none (hg := gathers_S100000x128_S128x128) (default : HIx 1)
      (b3V).view.dmaCredit (hN3 _) (by decide) (hinOff d L it hit (k0_off8 k) (k0_off8_inb k k0_h3))) $$ [Hws HB' Hss HG3]
  · isplitl [Hws]; · iexact Hws
    isplitl [HB']; · iexact HB'
    isplitl [Hss]; · iexact Hss
    iexact HG3
  iintro Hfl
  ihave Hfl := (Transfers.Flight_frame countersEmb (V d (cV L) (jV L)) (R := (iprop((wLoc d ↦[Finset.univ \ (wAllK).view.set]{qw.right.right.left} fw) ∗ ((V d (cV L) (jV L)).loc cc0_scratch0 ↦[Finset.univ \ (rowK (k0_off8 k) (k0_off8_inb k k0_h3)).view.set]{(fullShare : PosShare TreeShare).right.right.left} fiK d L it)) : sProp 𝕄))) $$ [Hwr Hsr Hfl]
  · isplitl [Hwr Hsr]; · isplitl [Hwr] <;> iassumption
    iexact Hfl
  ihave HF3 := (Transfers.Flight_mono countersEmb (V d (cV L) (jV L)) (gat_join3 d L it fw hit (qw.right.right.left) ((fullShare : PosShare TreeShare).right.right.left) (k0_off8 k) (k0_off8_inb k k0_h3) (gatOff d L it fw hit (rowOffC (5 * k.val + 2)) (hrowC (5 * k.val + 2) (by omega))))) $$ Hfl
  sl_exec
  -- slot 4: issue the gather of row (k0_off10 k)
  ihave Hws := (pointsTo_split_subset (q := qw.right.right.right.left) (f := fw) (S := Finset.univ) (Finset.subset_univ (wAllK).view.set)).1 $$ HW4
  icases Hws with ⟨Hws, Hwr⟩
  ihave Hss := (pointsTo_split_subset (q := (fullShare : PosShare TreeShare).right.right.right.left) (f := fiK d L it) (S := Finset.univ) (Finset.subset_univ (rowK (k0_off10 k) (k0_off10_inb k k0_h4)).view.set)).1 $$ HSt4
  icases Hss with ⟨Hss, Hsr⟩
  ihave HB' := (Entails.of_eq (show ((V d (cV L) (jV L)).loc cc0_scratch4 ↦{fullShare} (gatOff d L it fw hit (rowOffC (5 * k.val + 3)) (hrowC (5 * k.val + 3) (by omega))) : sProp 𝕄)
      = (b4V).view.loc (V d (cV L) (jV L)) ↦[(b4V).view.set]{fullShare} (gatOff d L it fw hit (rowOffC (5 * k.val + 3)) (hrowC (5 * k.val + 3) (by omega))) by rw [show (b4V).view.set = Finset.univ from View.set_whole _])) $$ HB4
  iapply (SparseCore.wp_indirectGatherLocal countersEmb 𝒱₀ (V d (cV L) (jV L)) none (hg := gathers_S100000x128_S128x128) (default : HIx 1)
      (b4V).view.dmaCredit (hN4 _) (by decide) (hinOff d L it hit (k0_off10 k) (k0_off10_inb k k0_h4))) $$ [Hws HB' Hss HG4]
  · isplitl [Hws]; · iexact Hws
    isplitl [HB']; · iexact HB'
    isplitl [Hss]; · iexact Hss
    iexact HG4
  iintro Hfl
  ihave Hfl := (Transfers.Flight_frame countersEmb (V d (cV L) (jV L)) (R := (iprop((wLoc d ↦[Finset.univ \ (wAllK).view.set]{qw.right.right.right.left} fw) ∗ ((V d (cV L) (jV L)).loc cc0_scratch0 ↦[Finset.univ \ (rowK (k0_off10 k) (k0_off10_inb k k0_h4)).view.set]{(fullShare : PosShare TreeShare).right.right.right.left} fiK d L it)) : sProp 𝕄))) $$ [Hwr Hsr Hfl]
  · isplitl [Hwr Hsr]; · isplitl [Hwr] <;> iassumption
    iexact Hfl
  ihave HF4 := (Transfers.Flight_mono countersEmb (V d (cV L) (jV L)) (gat_join4 d L it fw hit (qw.right.right.right.left) ((fullShare : PosShare TreeShare).right.right.right.left) (k0_off10 k) (k0_off10_inb k k0_h4) (gatOff d L it fw hit (rowOffC (5 * k.val + 3)) (hrowC (5 * k.val + 3) (by omega))))) $$ Hfl
  sl_exec
  -- slot 5: issue the gather of row (k0_off12 k)
  ihave Hws := (pointsTo_split_subset (q := qw.right.right.right.right) (f := fw) (S := Finset.univ) (Finset.subset_univ (wAllK).view.set)).1 $$ HW5
  icases Hws with ⟨Hws, Hwr⟩
  ihave Hss := (pointsTo_split_subset (q := (fullShare : PosShare TreeShare).right.right.right.right) (f := fiK d L it) (S := Finset.univ) (Finset.subset_univ (rowK (k0_off12 k) (k0_off12_inb k k0_h5)).view.set)).1 $$ HSt5
  icases Hss with ⟨Hss, Hsr⟩
  ihave HB' := (Entails.of_eq (show ((V d (cV L) (jV L)).loc cc0_scratch5 ↦{fullShare} (gatOff d L it fw hit (rowOffC (5 * k.val + 4)) (hrowC (5 * k.val + 4) (by omega))) : sProp 𝕄)
      = (b5V).view.loc (V d (cV L) (jV L)) ↦[(b5V).view.set]{fullShare} (gatOff d L it fw hit (rowOffC (5 * k.val + 4)) (hrowC (5 * k.val + 4) (by omega))) by rw [show (b5V).view.set = Finset.univ from View.set_whole _])) $$ HB5
  iapply (SparseCore.wp_indirectGatherLocal countersEmb 𝒱₀ (V d (cV L) (jV L)) none (hg := gathers_S100000x128_S128x128) (default : HIx 1)
      (b5V).view.dmaCredit (hN5 _) (by decide) (hinOff d L it hit (k0_off12 k) (k0_off12_inb k k0_h5))) $$ [Hws HB' Hss HG5]
  · isplitl [Hws]; · iexact Hws
    isplitl [HB']; · iexact HB'
    isplitl [Hss]; · iexact Hss
    iexact HG5
  iintro Hfl
  ihave Hfl := (Transfers.Flight_frame countersEmb (V d (cV L) (jV L)) (R := (iprop((wLoc d ↦[Finset.univ \ (wAllK).view.set]{qw.right.right.right.right} fw) ∗ ((V d (cV L) (jV L)).loc cc0_scratch0 ↦[Finset.univ \ (rowK (k0_off12 k) (k0_off12_inb k k0_h5)).view.set]{(fullShare : PosShare TreeShare).right.right.right.right} fiK d L it)) : sProp 𝕄))) $$ [Hwr Hsr Hfl]
  · isplitl [Hwr Hsr]; · isplitl [Hwr] <;> iassumption
    iexact Hfl
  ihave HF5 := (Transfers.Flight_mono countersEmb (V d (cV L) (jV L)) (gat_join5 d L it fw hit (qw.right.right.right.right) ((fullShare : PosShare TreeShare).right.right.right.right) (k0_off12 k) (k0_off12_inb k k0_h5) (gatOff d L it fw hit (rowOffC (5 * k.val + 4)) (hrowC (5 * k.val + 4) (by omega))))) $$ Hfl
  sl_exec

  sl_step
  isplitr; · iexact Hmw
  isplitl [HF1 HS1 HBk1 Hblk1 HF2 HS2 HBk2 Hblk2 HF3 HS3 HBk3 Hblk3 HF4 HS4 HBk4 Hblk4 HF5 HS5 HBk5 Hblk5]
  · isplitl [HF1 HS1 HBk1 Hblk1]
    · -- slot 1
      isplitl [HF1]
      · iapply (Entails.of_eq (congrArg (Transfers.Flight countersEmb (V d (cV L) (jV L)) (SemLoc.dma cc0_scratch6.sem) (default : HIx 1) (b1V).view.dmaCredit)
          (gatD_congr1 d L it fw hit _ _ (k0_off4_inb k k0_h1) (hrowC (5 * (k.val + 1) + 0) (by omega)) (rowoff_eq1 k)))) $$ HF1
      isplitl [HS1]; · iexact HS1
      iapply (blocks_step d L it fw f0 0 _ k.val hk10)
      isplitl [Hblk1]
      · iapply (Entails.of_eq (blk_written d L it fw hit f0 (5 * k.val + 0) _ (k0_off2 L k 0#32) (k0_off2_inb L k 0) (off2_eq1 L k) (region_lt.sl.dma0 d L it fw hit k hk) rfl)) $$ Hblk1
      · iexact HBk1
    isplitl [HF2 HS2 HBk2 Hblk2]
    · -- slot 2
      isplitl [HF2]
      · iapply (Entails.of_eq (congrArg (Transfers.Flight countersEmb (V d (cV L) (jV L)) (SemLoc.dma cc0_scratch7.sem) (default : HIx 1) (b2V).view.dmaCredit)
          (gatD_congr2 d L it fw hit _ _ (k0_off6_inb k k0_h2) (hrowC (5 * (k.val + 1) + 1) (by omega)) (rowoff_eq2 k)))) $$ HF2
      isplitl [HS2]; · iexact HS2
      iapply (blocks_step d L it fw f0 1 _ k.val hk10)
      isplitl [Hblk2]
      · iapply (Entails.of_eq (blk_written d L it fw hit f0 (5 * k.val + 1) _ (k0_off2 L k 1#32) (k0_off2_inb L k 1) (off2_eq2 L k) (region_lt.sl.dma0_1 d L it fw hit k hk) rfl)) $$ Hblk2
      · iexact HBk2
    isplitl [HF3 HS3 HBk3 Hblk3]
    · -- slot 3
      isplitl [HF3]
      · iapply (Entails.of_eq (congrArg (Transfers.Flight countersEmb (V d (cV L) (jV L)) (SemLoc.dma cc0_scratch8.sem) (default : HIx 1) (b3V).view.dmaCredit)
          (gatD_congr3 d L it fw hit _ _ (k0_off8_inb k k0_h3) (hrowC (5 * (k.val + 1) + 2) (by omega)) (rowoff_eq3 k)))) $$ HF3
      isplitl [HS3]; · iexact HS3
      iapply (blocks_step d L it fw f0 2 _ k.val hk10)
      isplitl [Hblk3]
      · iapply (Entails.of_eq (blk_written d L it fw hit f0 (5 * k.val + 2) _ (k0_off2 L k 2#32) (k0_off2_inb L k 2) (off2_eq3 L k) (region_lt.sl.dma0_2 d L it fw hit k hk) rfl)) $$ Hblk3
      · iexact HBk3
    isplitl [HF4 HS4 HBk4 Hblk4]
    · -- slot 4
      isplitl [HF4]
      · iapply (Entails.of_eq (congrArg (Transfers.Flight countersEmb (V d (cV L) (jV L)) (SemLoc.dma cc0_scratch9.sem) (default : HIx 1) (b4V).view.dmaCredit)
          (gatD_congr4 d L it fw hit _ _ (k0_off10_inb k k0_h4) (hrowC (5 * (k.val + 1) + 3) (by omega)) (rowoff_eq4 k)))) $$ HF4
      isplitl [HS4]; · iexact HS4
      iapply (blocks_step d L it fw f0 3 _ k.val hk10)
      isplitl [Hblk4]
      · iapply (Entails.of_eq (blk_written d L it fw hit f0 (5 * k.val + 3) _ (k0_off2 L k 3#32) (k0_off2_inb L k 3) (off2_eq4 L k) (region_lt.sl.dma0_3 d L it fw hit k hk) rfl)) $$ Hblk4
      · iexact HBk4
    -- slot 5
    isplitl [HF5]
    · iapply (Entails.of_eq (congrArg (Transfers.Flight countersEmb (V d (cV L) (jV L)) (SemLoc.dma cc0_scratch10.sem) (default : HIx 1) (b5V).view.dmaCredit)
        (gatD_congr5 d L it fw hit _ _ (k0_off12_inb k k0_h5) (hrowC (5 * (k.val + 1) + 4) (by omega)) (rowoff_eq5 k)))) $$ HF5
    isplitl [HS5]; · iexact HS5
    iapply (blocks_step d L it fw f0 4 _ k.val hk10)
    isplitl [Hblk5]
    · iapply (Entails.of_eq (blk_written d L it fw hit f0 (5 * k.val + 4) _ (k0_off2 L k 4#32) (k0_off2_inb L k 4) (off2_eq5 L k) (region_lt.sl.dma0_4 d L it fw hit k hk) rfl)) $$ Hblk5
    · iexact HBk5

  iexists _; isplitr
  swap; · iexact HO
  ipureintro
  repeat (first | exact hW' | apply waits_insert)

set_option maxHeartbeats 8000000 in
/-- The last trip: each slot's gather lands and is copied out; nothing more is issued, so the copy-outs stay in flight. -/
theorem region_last (it : Buf (Elt F) (tLoc d)) (fw : Buf (Elt F) (wLoc d)) (hit : ∀ y, (it y).toNat < 100000) (qw : PosShare TreeShare) (f0 : Buf (Elt F) (oLoc d))
    (O : CellTallies nD τ sig (HIx 1)) (W : Waits sig (HIx 1)) (v2 c0 : BitVec 32) (k : Fin k0_t1_loop.trips) (hk : k.val = 9) (acc : PUnit) :
    inv d L it fw hit qw f0 O W k.val acc
      ⊢ wp frame (wpE (defs₀ (F := F)) 𝒱₀ (V d (cV L) (jV L)) none) Set.univ
          (k0_t1_body L tV (Memref.isWhole_whole _) wV (Memref.isWhole_whole _) oV (Memref.isWhole_whole _)
            sV (Memref.isWhole_whole _) b1V (Memref.isWhole_whole _) b2V (Memref.isWhole_whole _) b3V (Memref.isWhole_whole _) b4V (Memref.isWhole_whole _) b5V (Memref.isWhole_whole _)
            cc0_scratch6 cc0_scratch7 cc0_scratch8 cc0_scratch9 cc0_scratch10 cc0_scratch11 cc0_scratch12 cc0_scratch13 cc0_scratch14 cc0_scratch15 cc0_scoped0 v2 c0 k acc)
          (inv d L it fw hit qw f0 O W (k.val + 1)) := by
  obtain ⟨kv, h9⟩ := k
  have hk' : kv = 9 := hk
  subst hk'
  dsimp only
  have hk10 : (9 : ℕ) < 10 := by omega
  have k0_h1 : ¬ k0_cond1 ⟨9, h9⟩ = 1#1 := fun h => absurd ((cond1_iff ⟨9, h9⟩).mp h) (Nat.lt_irrefl 9)
  have k0_h2 : ¬ k0_cond2 ⟨9, h9⟩ = 1#1 := fun h => absurd ((cond2_iff ⟨9, h9⟩).mp h) (Nat.lt_irrefl 9)
  have k0_h3 : ¬ k0_cond3 ⟨9, h9⟩ = 1#1 := fun h => absurd ((cond3_iff ⟨9, h9⟩).mp h) (Nat.lt_irrefl 9)
  have k0_h4 : ¬ k0_cond4 ⟨9, h9⟩ = 1#1 := fun h => absurd ((cond4_iff ⟨9, h9⟩).mp h) (Nat.lt_irrefl 9)
  have k0_h5 : ¬ k0_cond5 ⟨9, h9⟩ = 1#1 := fun h => absurd ((cond5_iff ⟨9, h9⟩).mp h) (Nat.lt_irrefl 9)
  unfold inv
  rw [dif_pos hk10, dif_neg (show ¬ (9 + 1 < 10) by omega)]
  unfold k0_t1_body
  simp only [k0_part1_eq_skeleton, k0_part2_eq_skeleton]; unfold k0_part1_skel k0_part2_skel
  unfold slotA1 slotA2 slotA3 slotA4 slotA5 slotB1 slotB2 slotB3 slotB4 slotB5
  iintro ⟨#Hmw, ⟨⟨HF1, HS1, HBk1⟩, ⟨HF2, HS2, HBk2⟩, ⟨HF3, HS3, HBk3⟩, ⟨HF4, HS4, HBk4⟩, ⟨HF5, HS5, HBk5⟩⟩, %W', %hW', HO⟩
  sl_exec
  -- slot 1: the gather of row 5·k + 0 has landed
  iapply (Transfers.wp_waitLocalO countersEmb 𝒱₀ (V d (cV L) (jV L)) none (default : HIx 1) (rfl : (b1V).view.dmaCredit = _)) $$ [HF1 HO]
  · isplitl [HF1]; · iexact HF1
    isplitl [HO]; · iexact HO
    iapply (Transfers.MayWaits.elim (SemLoc.dma cc0_scratch6.sem)) $$ Hmw
  iintro ⟨⟨HB1, HW1, HSt1⟩, HG1, HO⟩
  ihave HB1 := (Entails.of_eq (show ((V d (cV L) (jV L)).loc cc0_scratch1 ↦{fullShare} gatOff d L it fw hit (rowOffC (5 * 9 + 0)) (hrowC (5 * 9 + 0) (by omega)) : sProp 𝕄)
      = ((b1V).view.loc (V d (cV L) (jV L)) ↦{fullShare} gatOff d L it fw hit (rowOffC (5 * 9 + 0)) (hrowC (5 * 9 + 0) (by omega))) from rfl)) $$ HB1
  ihave HBk := (Transfers.bigSep_univ_out (⟨9, hk10⟩ : Fin 10) (blocks d L it fw f0 0 _ 9)) $$ HBk1
  icases HBk with ⟨Hblk1, HBk1⟩
  ihave Hblk1 := (Entails.of_eq (show (blocks d L it fw f0 0 _ 9 ⟨9, hk10⟩ : sProp 𝕄)
      = ((oBlkO (k0_off2 L ⟨9, h9⟩ 0#32) (k0_off2_inb L ⟨9, h9⟩ 0)).view.loc (V d (cV L) (jV L)) ↦[(oBlkO (k0_off2 L ⟨9, h9⟩ 0#32) (k0_off2_inb L ⟨9, h9⟩ 0)).view.set]{fullShare} f0) by
    unfold blocks
    rw [if_neg (Nat.lt_irrefl _), oSet_congr (off := k0_off2 L ⟨9, h9⟩ 0#32) (k0_off2_inb L ⟨9, h9⟩ 0) (hoC L (5 * 9 + 0) (by omega)) (off2_eq1 L ⟨9, h9⟩)])) $$ Hblk1
  sl_exec
  -- slot 2: the gather of row 5·k + 1 has landed
  iapply (Transfers.wp_waitLocalO countersEmb 𝒱₀ (V d (cV L) (jV L)) none (default : HIx 1) (rfl : (b2V).view.dmaCredit = _)) $$ [HF2 HO]
  · isplitl [HF2]; · iexact HF2
    isplitl [HO]; · iexact HO
    iapply (Transfers.MayWaits.elim (SemLoc.dma cc0_scratch7.sem)) $$ Hmw
  iintro ⟨⟨HB2, HW2, HSt2⟩, HG2, HO⟩
  ihave HB2 := (Entails.of_eq (show ((V d (cV L) (jV L)).loc cc0_scratch2 ↦{fullShare} gatOff d L it fw hit (rowOffC (5 * 9 + 1)) (hrowC (5 * 9 + 1) (by omega)) : sProp 𝕄)
      = ((b2V).view.loc (V d (cV L) (jV L)) ↦{fullShare} gatOff d L it fw hit (rowOffC (5 * 9 + 1)) (hrowC (5 * 9 + 1) (by omega))) from rfl)) $$ HB2
  ihave HBk := (Transfers.bigSep_univ_out (⟨9, hk10⟩ : Fin 10) (blocks d L it fw f0 1 _ 9)) $$ HBk2
  icases HBk with ⟨Hblk2, HBk2⟩
  ihave Hblk2 := (Entails.of_eq (show (blocks d L it fw f0 1 _ 9 ⟨9, hk10⟩ : sProp 𝕄)
      = ((oBlkO (k0_off2 L ⟨9, h9⟩ 1#32) (k0_off2_inb L ⟨9, h9⟩ 1)).view.loc (V d (cV L) (jV L)) ↦[(oBlkO (k0_off2 L ⟨9, h9⟩ 1#32) (k0_off2_inb L ⟨9, h9⟩ 1)).view.set]{fullShare} f0) by
    unfold blocks
    rw [if_neg (Nat.lt_irrefl _), oSet_congr (off := k0_off2 L ⟨9, h9⟩ 1#32) (k0_off2_inb L ⟨9, h9⟩ 1) (hoC L (5 * 9 + 1) (by omega)) (off2_eq2 L ⟨9, h9⟩)])) $$ Hblk2
  sl_exec
  -- slot 3: the gather of row 5·k + 2 has landed
  iapply (Transfers.wp_waitLocalO countersEmb 𝒱₀ (V d (cV L) (jV L)) none (default : HIx 1) (rfl : (b3V).view.dmaCredit = _)) $$ [HF3 HO]
  · isplitl [HF3]; · iexact HF3
    isplitl [HO]; · iexact HO
    iapply (Transfers.MayWaits.elim (SemLoc.dma cc0_scratch8.sem)) $$ Hmw
  iintro ⟨⟨HB3, HW3, HSt3⟩, HG3, HO⟩
  ihave HB3 := (Entails.of_eq (show ((V d (cV L) (jV L)).loc cc0_scratch3 ↦{fullShare} gatOff d L it fw hit (rowOffC (5 * 9 + 2)) (hrowC (5 * 9 + 2) (by omega)) : sProp 𝕄)
      = ((b3V).view.loc (V d (cV L) (jV L)) ↦{fullShare} gatOff d L it fw hit (rowOffC (5 * 9 + 2)) (hrowC (5 * 9 + 2) (by omega))) from rfl)) $$ HB3
  ihave HBk := (Transfers.bigSep_univ_out (⟨9, hk10⟩ : Fin 10) (blocks d L it fw f0 2 _ 9)) $$ HBk3
  icases HBk with ⟨Hblk3, HBk3⟩
  ihave Hblk3 := (Entails.of_eq (show (blocks d L it fw f0 2 _ 9 ⟨9, hk10⟩ : sProp 𝕄)
      = ((oBlkO (k0_off2 L ⟨9, h9⟩ 2#32) (k0_off2_inb L ⟨9, h9⟩ 2)).view.loc (V d (cV L) (jV L)) ↦[(oBlkO (k0_off2 L ⟨9, h9⟩ 2#32) (k0_off2_inb L ⟨9, h9⟩ 2)).view.set]{fullShare} f0) by
    unfold blocks
    rw [if_neg (Nat.lt_irrefl _), oSet_congr (off := k0_off2 L ⟨9, h9⟩ 2#32) (k0_off2_inb L ⟨9, h9⟩ 2) (hoC L (5 * 9 + 2) (by omega)) (off2_eq3 L ⟨9, h9⟩)])) $$ Hblk3
  sl_exec
  -- slot 4: the gather of row 5·k + 3 has landed
  iapply (Transfers.wp_waitLocalO countersEmb 𝒱₀ (V d (cV L) (jV L)) none (default : HIx 1) (rfl : (b4V).view.dmaCredit = _)) $$ [HF4 HO]
  · isplitl [HF4]; · iexact HF4
    isplitl [HO]; · iexact HO
    iapply (Transfers.MayWaits.elim (SemLoc.dma cc0_scratch9.sem)) $$ Hmw
  iintro ⟨⟨HB4, HW4, HSt4⟩, HG4, HO⟩
  ihave HB4 := (Entails.of_eq (show ((V d (cV L) (jV L)).loc cc0_scratch4 ↦{fullShare} gatOff d L it fw hit (rowOffC (5 * 9 + 3)) (hrowC (5 * 9 + 3) (by omega)) : sProp 𝕄)
      = ((b4V).view.loc (V d (cV L) (jV L)) ↦{fullShare} gatOff d L it fw hit (rowOffC (5 * 9 + 3)) (hrowC (5 * 9 + 3) (by omega))) from rfl)) $$ HB4
  ihave HBk := (Transfers.bigSep_univ_out (⟨9, hk10⟩ : Fin 10) (blocks d L it fw f0 3 _ 9)) $$ HBk4
  icases HBk with ⟨Hblk4, HBk4⟩
  ihave Hblk4 := (Entails.of_eq (show (blocks d L it fw f0 3 _ 9 ⟨9, hk10⟩ : sProp 𝕄)
      = ((oBlkO (k0_off2 L ⟨9, h9⟩ 3#32) (k0_off2_inb L ⟨9, h9⟩ 3)).view.loc (V d (cV L) (jV L)) ↦[(oBlkO (k0_off2 L ⟨9, h9⟩ 3#32) (k0_off2_inb L ⟨9, h9⟩ 3)).view.set]{fullShare} f0) by
    unfold blocks
    rw [if_neg (Nat.lt_irrefl _), oSet_congr (off := k0_off2 L ⟨9, h9⟩ 3#32) (k0_off2_inb L ⟨9, h9⟩ 3) (hoC L (5 * 9 + 3) (by omega)) (off2_eq4 L ⟨9, h9⟩)])) $$ Hblk4
  sl_exec
  -- slot 5: the gather of row 5·k + 4 has landed
  iapply (Transfers.wp_waitLocalO countersEmb 𝒱₀ (V d (cV L) (jV L)) none (default : HIx 1) (rfl : (b5V).view.dmaCredit = _)) $$ [HF5 HO]
  · isplitl [HF5]; · iexact HF5
    isplitl [HO]; · iexact HO
    iapply (Transfers.MayWaits.elim (SemLoc.dma cc0_scratch10.sem)) $$ Hmw
  iintro ⟨⟨HB5, HW5, HSt5⟩, HG5, HO⟩
  ihave HB5 := (Entails.of_eq (show ((V d (cV L) (jV L)).loc cc0_scratch5 ↦{fullShare} gatOff d L it fw hit (rowOffC (5 * 9 + 4)) (hrowC (5 * 9 + 4) (by omega)) : sProp 𝕄)
      = ((b5V).view.loc (V d (cV L) (jV L)) ↦{fullShare} gatOff d L it fw hit (rowOffC (5 * 9 + 4)) (hrowC (5 * 9 + 4) (by omega))) from rfl)) $$ HB5
  ihave HBk := (Transfers.bigSep_univ_out (⟨9, hk10⟩ : Fin 10) (blocks d L it fw f0 4 _ 9)) $$ HBk5
  icases HBk with ⟨Hblk5, HBk5⟩
  ihave Hblk5 := (Entails.of_eq (show (blocks d L it fw f0 4 _ 9 ⟨9, hk10⟩ : sProp 𝕄)
      = ((oBlkO (k0_off2 L ⟨9, h9⟩ 4#32) (k0_off2_inb L ⟨9, h9⟩ 4)).view.loc (V d (cV L) (jV L)) ↦[(oBlkO (k0_off2 L ⟨9, h9⟩ 4#32) (k0_off2_inb L ⟨9, h9⟩ 4)).view.set]{fullShare} f0) by
    unfold blocks
    rw [if_neg (Nat.lt_irrefl _), oSet_congr (off := k0_off2 L ⟨9, h9⟩ 4#32) (k0_off2_inb L ⟨9, h9⟩ 4) (hoC L (5 * 9 + 4) (by omega)) (off2_eq5 L ⟨9, h9⟩)])) $$ Hblk5
  sl_exec

  sl_step
  isplitr; · iexact Hmw
  isplitl [HS1 HB1 HG1 HBk1 HW1 HSt1 HS2 HB2 HG2 HBk2 HW2 HSt2 HS3 HB3 HG3 HBk3 HW3 HSt3 HS4 HB4 HG4 HBk4 HW4 HSt4 HS5 HB5 HG5 HBk5 HW5 HSt5]
  · isplitl [HS1 HB1 HG1 HBk1 HW1 HSt1]
    · -- slot 1
      isplitl [HS1 HB1]
      · ihave Hfl := (Transfers.Flight_frame countersEmb (V d (cV L) (jV L)) (R := (((b1V).view.loc (V d (cV L) (jV L)) ↦[Finset.univ \ (b1V).view.set]{fullShare} gatOff d L it fw hit (rowOffC (5 * 9 + 0)) (hrowC (5 * 9 + 0) (by omega))) : sProp 𝕄))) $$ [HB1 HS1]
        · isplitl [HB1] <;> iassumption
        iapply (Transfers.Flight_mono countersEmb (V d (cV L) (jV L)) (out_join1 d L it fw hit f0 (5 * 9 + 0) (by omega) (k0_off2 L ⟨9, h9⟩ 0#32) (k0_off2_inb L ⟨9, h9⟩ 0) (off2_eq1 L ⟨9, h9⟩) (region_last.sl.dma0 d L it fw hit h9) rfl)) $$ Hfl
      isplitl [HG1]; · iexact HG1
      isplitl [HBk1]; · iapply (Entails.of_eq (blocks_erase_congr d L it fw f0 0 _ 9 _)) $$ HBk1
      isplitl [HW1]; · iexact HW1
      iexact HSt1
    isplitl [HS2 HB2 HG2 HBk2 HW2 HSt2]
    · -- slot 2
      isplitl [HS2 HB2]
      · ihave Hfl := (Transfers.Flight_frame countersEmb (V d (cV L) (jV L)) (R := (((b2V).view.loc (V d (cV L) (jV L)) ↦[Finset.univ \ (b2V).view.set]{fullShare} gatOff d L it fw hit (rowOffC (5 * 9 + 1)) (hrowC (5 * 9 + 1) (by omega))) : sProp 𝕄))) $$ [HB2 HS2]
        · isplitl [HB2] <;> iassumption
        iapply (Transfers.Flight_mono countersEmb (V d (cV L) (jV L)) (out_join2 d L it fw hit f0 (5 * 9 + 1) (by omega) (k0_off2 L ⟨9, h9⟩ 1#32) (k0_off2_inb L ⟨9, h9⟩ 1) (off2_eq2 L ⟨9, h9⟩) (region_last.sl.dma0_1 d L it fw hit h9) rfl)) $$ Hfl
      isplitl [HG2]; · iexact HG2
      isplitl [HBk2]; · iapply (Entails.of_eq (blocks_erase_congr d L it fw f0 1 _ 9 _)) $$ HBk2
      isplitl [HW2]; · iexact HW2
      iexact HSt2
    isplitl [HS3 HB3 HG3 HBk3 HW3 HSt3]
    · -- slot 3
      isplitl [HS3 HB3]
      · ihave Hfl := (Transfers.Flight_frame countersEmb (V d (cV L) (jV L)) (R := (((b3V).view.loc (V d (cV L) (jV L)) ↦[Finset.univ \ (b3V).view.set]{fullShare} gatOff d L it fw hit (rowOffC (5 * 9 + 2)) (hrowC (5 * 9 + 2) (by omega))) : sProp 𝕄))) $$ [HB3 HS3]
        · isplitl [HB3] <;> iassumption
        iapply (Transfers.Flight_mono countersEmb (V d (cV L) (jV L)) (out_join3 d L it fw hit f0 (5 * 9 + 2) (by omega) (k0_off2 L ⟨9, h9⟩ 2#32) (k0_off2_inb L ⟨9, h9⟩ 2) (off2_eq3 L ⟨9, h9⟩) (region_last.sl.dma0_2 d L it fw hit h9) rfl)) $$ Hfl
      isplitl [HG3]; · iexact HG3
      isplitl [HBk3]; · iapply (Entails.of_eq (blocks_erase_congr d L it fw f0 2 _ 9 _)) $$ HBk3
      isplitl [HW3]; · iexact HW3
      iexact HSt3
    isplitl [HS4 HB4 HG4 HBk4 HW4 HSt4]
    · -- slot 4
      isplitl [HS4 HB4]
      · ihave Hfl := (Transfers.Flight_frame countersEmb (V d (cV L) (jV L)) (R := (((b4V).view.loc (V d (cV L) (jV L)) ↦[Finset.univ \ (b4V).view.set]{fullShare} gatOff d L it fw hit (rowOffC (5 * 9 + 3)) (hrowC (5 * 9 + 3) (by omega))) : sProp 𝕄))) $$ [HB4 HS4]
        · isplitl [HB4] <;> iassumption
        iapply (Transfers.Flight_mono countersEmb (V d (cV L) (jV L)) (out_join4 d L it fw hit f0 (5 * 9 + 3) (by omega) (k0_off2 L ⟨9, h9⟩ 3#32) (k0_off2_inb L ⟨9, h9⟩ 3) (off2_eq4 L ⟨9, h9⟩) (region_last.sl.dma0_3 d L it fw hit h9) rfl)) $$ Hfl
      isplitl [HG4]; · iexact HG4
      isplitl [HBk4]; · iapply (Entails.of_eq (blocks_erase_congr d L it fw f0 3 _ 9 _)) $$ HBk4
      isplitl [HW4]; · iexact HW4
      iexact HSt4
    -- slot 5
    isplitl [HS5 HB5]
    · ihave Hfl := (Transfers.Flight_frame countersEmb (V d (cV L) (jV L)) (R := (((b5V).view.loc (V d (cV L) (jV L)) ↦[Finset.univ \ (b5V).view.set]{fullShare} gatOff d L it fw hit (rowOffC (5 * 9 + 4)) (hrowC (5 * 9 + 4) (by omega))) : sProp 𝕄))) $$ [HB5 HS5]
      · isplitl [HB5] <;> iassumption
      iapply (Transfers.Flight_mono countersEmb (V d (cV L) (jV L)) (out_join5 d L it fw hit f0 (5 * 9 + 4) (by omega) (k0_off2 L ⟨9, h9⟩ 4#32) (k0_off2_inb L ⟨9, h9⟩ 4) (off2_eq5 L ⟨9, h9⟩) (region_last.sl.dma0_4 d L it fw hit h9) rfl)) $$ Hfl
    isplitl [HG5]; · iexact HG5
    isplitl [HBk5]; · iapply (Entails.of_eq (blocks_erase_congr d L it fw f0 4 _ 9 _)) $$ HBk5
    isplitl [HW5]; · iexact HW5
    iexact HSt5

  iexists _; isplitr
  swap; · iexact HO
  ipureintro
  repeat (first | exact hW' | apply waits_insert)

set_option maxHeartbeats 8000000 in
/-- The task on vector subcore `(L 0, L 1)`: the fetch of the tile's columns of the transposed ids; five gathers issued, one per row
    buffer; the loop (`inv`); the last five copy-outs awaited. What it is handed comes back, the tile's blocks of result rows at the table rows
    their tokens name. -/
theorem tile_body (hF : (K (F := F)).Facts) (it : Buf (Elt F) (tLoc d)) (fw : Buf (Elt F) (wLoc d)) (hit : ∀ y, (it y).toNat < 100000) (qw : PosShare TreeShare)
    (f0 : Buf (Elt F) (oLoc d)) (O : CellTallies nD τ sig (HIx 1)) (W : Waits sig (HIx 1)) (hO : ∀ g, O g none = 0) :
    iprop(levAts (K (F := F)).L (K (F := F)).lev ∗ emp
        ∗ (tBlkPts d L it ∗ wPts d qw fw ∗ oBlksPts d L it fw f0 0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tV (Memref.isWhole_whole _) wV (Memref.isWhole_whole _) oV (Memref.isWhole_whole _)
            sV (Memref.isWhole_whole _) b1V (Memref.isWhole_whole _) b2V (Memref.isWhole_whole _) b3V (Memref.isWhole_whole _) b4V (Memref.isWhole_whole _) b5V (Memref.isWhole_whole _)
            cc0_scratch6 cc0_scratch7 cc0_scratch8 cc0_scratch9 cc0_scratch10 cc0_scratch11 cc0_scratch12 cc0_scratch13 cc0_scratch14 cc0_scratch15 cc0_scoped0)
          fun _ => iprop((tBlkPts d L it ∗ wPts d qw fw ∗ oBlksPts d L it fw f0 10)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have htr : k0_t1_loop.trips = 10 := by decide
  simp only [cc0_k_eq_skeleton]; unfold cc0_k_skel
  simp only [k0_part3_eq_skeleton]; unfold k0_part3_skel
  rw [(K (F := F)).scopedBufs_V hF d (cV L) (jV L), SparseCore.Cfg.scopedSems0_V (Val := Elt F) d (cV L) (jV L), ownSems0_V, ownBufs_V]
  iintro ⟨#Hlv, -, ⟨Ht, Hw, ⟨HBk1, HBk2, HBk3, HBk4, HBk5⟩⟩, ⟨⟨%fs, Hs⟩, ⟨%f1, HB1⟩, ⟨%f2, HB2⟩, ⟨%f3, HB3⟩, ⟨%f4, HB4⟩, ⟨%f5, HB5⟩, Hbufs⟩, ⟨HG1, HG2, HG3, HG4, HG5, HS1, HS2, HS3, HS4, HS5, HX, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Ht' := (Entails.of_eq (show (tLoc d ↦[(tBlkK L).view.set]{fullShare} it : sProp 𝕄) = ((tBlkK L).view.loc (V d (cV L) (jV L)) ↦[(tBlkK L).view.set]{fullShare} it) from rfl)) $$ Ht
  ihave Hs' := (Entails.of_eq (show ((V d (cV L) (jV L)).loc cc0_scratch0 ↦{fullShare} fs : sProp 𝕄) = ((sV).view.loc (V d (cV L) (jV L)) ↦{fullShare} fs) from rfl)) $$ Hs
  sl_exec
  -- the scratch holds the fetched ids; its read shares and the table's, one per slot
  have e0 : View.write (Elt F) (sV).view fs (tile_body.sl.dma0 d L it) Finset.univ = fiK d L it := by
    rw [View.write_whole_univ]; rfl
  rw [e0]
  ihave Hq := (pointsTo_share (f := fiK d L it) (PosShare.mem_left_op_right (fullShare : PosShare TreeShare))).1 $$ Hs'
  icases Hq with ⟨HSt1, Hq⟩
  ihave Hq := (pointsTo_share (f := fiK d L it) (PosShare.mem_left_op_right (fullShare : PosShare TreeShare).right)).1 $$ Hq
  icases Hq with ⟨HSt2, Hq⟩
  ihave Hq := (pointsTo_share (f := fiK d L it) (PosShare.mem_left_op_right (fullShare : PosShare TreeShare).right.right)).1 $$ Hq
  icases Hq with ⟨HSt3, Hq⟩
  ihave Hq := (pointsTo_share (f := fiK d L it) (PosShare.mem_left_op_right (fullShare : PosShare TreeShare).right.right.right)).1 $$ Hq
  icases Hq with ⟨HSt4, HSt5⟩

  ihave Hq := (pointsTo_share (f := fw) (PosShare.mem_left_op_right qw)).1 $$ Hw
  icases Hq with ⟨HW1, Hq⟩
  ihave Hq := (pointsTo_share (f := fw) (PosShare.mem_left_op_right qw.right)).1 $$ Hq
  icases Hq with ⟨HW2, Hq⟩
  ihave Hq := (pointsTo_share (f := fw) (PosShare.mem_left_op_right qw.right.right)).1 $$ Hq
  icases Hq with ⟨HW3, Hq⟩
  ihave Hq := (pointsTo_share (f := fw) (PosShare.mem_left_op_right qw.right.right.right)).1 $$ Hq
  icases Hq with ⟨HW4, HW5⟩

  have hN1 : ∀ h : S100000x128.Gathers 0 S128x128, ∑ j, ((b1V).slice (S128x128.rowRect h.axis' j) (S128x128.stride_rowRect h.axis' j)).view.dmaCredit
      = (b1V).view.dmaCredit := by decide
  have hN2 : ∀ h : S100000x128.Gathers 0 S128x128, ∑ j, ((b2V).slice (S128x128.rowRect h.axis' j) (S128x128.stride_rowRect h.axis' j)).view.dmaCredit
      = (b2V).view.dmaCredit := by decide
  have hN3 : ∀ h : S100000x128.Gathers 0 S128x128, ∑ j, ((b3V).slice (S128x128.rowRect h.axis' j) (S128x128.stride_rowRect h.axis' j)).view.dmaCredit
      = (b3V).view.dmaCredit := by decide
  have hN4 : ∀ h : S100000x128.Gathers 0 S128x128, ∑ j, ((b4V).slice (S128x128.rowRect h.axis' j) (S128x128.stride_rowRect h.axis' j)).view.dmaCredit
      = (b4V).view.dmaCredit := by decide
  have hN5 : ∀ h : S100000x128.Gathers 0 S128x128, ∑ j, ((b5V).slice (S128x128.rowRect h.axis' j) (S128x128.stride_rowRect h.axis' j)).view.dmaCredit
      = (b5V).view.dmaCredit := by decide
  -- slot 1: issue the gather of row ![0, 0]
  ihave Hws := (pointsTo_split_subset (q := qw.left) (f := fw) (S := Finset.univ) (Finset.subset_univ (wAllK).view.set)).1 $$ HW1
  icases Hws with ⟨Hws, Hwr⟩
  ihave Hss := (pointsTo_split_subset (q := (fullShare : PosShare TreeShare).left) (f := fiK d L it) (S := Finset.univ) (Finset.subset_univ (rowK ![0, 0] inb_S50x128_S1x128_0_0).view.set)).1 $$ HSt1
  icases Hss with ⟨Hss, Hsr⟩
  ihave HB' := (Entails.of_eq (show ((V d (cV L) (jV L)).loc cc0_scratch1 ↦{fullShare} f1 : sProp 𝕄)
      = (b1V).view.loc (V d (cV L) (jV L)) ↦[(b1V).view.set]{fullShare} f1 by rw [show (b1V).view.set = Finset.univ from View.set_whole _])) $$ HB1
  iapply (SparseCore.wp_indirectGatherLocal countersEmb 𝒱₀ (V d (cV L) (jV L)) none (hg := gathers_S100000x128_S128x128) (default : HIx 1)
      (b1V).view.dmaCredit (hN1 _) (by decide) (hinOff d L it hit ![0, 0] inb_S50x128_S1x128_0_0)) $$ [Hws HB' Hss HG1]
  · isplitl [Hws]; · iexact Hws
    isplitl [HB']; · iexact HB'
    isplitl [Hss]; · iexact Hss
    iexact HG1
  iintro Hfl
  ihave Hfl := (Transfers.Flight_frame countersEmb (V d (cV L) (jV L)) (R := (iprop((wLoc d ↦[Finset.univ \ (wAllK).view.set]{qw.left} fw) ∗ ((V d (cV L) (jV L)).loc cc0_scratch0 ↦[Finset.univ \ (rowK ![0, 0] inb_S50x128_S1x128_0_0).view.set]{(fullShare : PosShare TreeShare).left} fiK d L it)) : sProp 𝕄))) $$ [Hwr Hsr Hfl]
  · isplitl [Hwr Hsr]; · isplitl [Hwr] <;> iassumption
    iexact Hfl
  ihave HF1 := (Transfers.Flight_mono countersEmb (V d (cV L) (jV L)) (gat_join1 d L it fw hit (qw.left) ((fullShare : PosShare TreeShare).left) ![0, 0] inb_S50x128_S1x128_0_0 f1)) $$ Hfl
  sl_exec
  -- slot 2: issue the gather of row ![1, 0]
  ihave Hws := (pointsTo_split_subset (q := qw.right.left) (f := fw) (S := Finset.univ) (Finset.subset_univ (wAllK).view.set)).1 $$ HW2
  icases Hws with ⟨Hws, Hwr⟩
  ihave Hss := (pointsTo_split_subset (q := (fullShare : PosShare TreeShare).right.left) (f := fiK d L it) (S := Finset.univ) (Finset.subset_univ (rowK ![1, 0] inb_S50x128_S1x128_1_0).view.set)).1 $$ HSt2
  icases Hss with ⟨Hss, Hsr⟩
  ihave HB' := (Entails.of_eq (show ((V d (cV L) (jV L)).loc cc0_scratch2 ↦{fullShare} f2 : sProp 𝕄)
      = (b2V).view.loc (V d (cV L) (jV L)) ↦[(b2V).view.set]{fullShare} f2 by rw [show (b2V).view.set = Finset.univ from View.set_whole _])) $$ HB2
  iapply (SparseCore.wp_indirectGatherLocal countersEmb 𝒱₀ (V d (cV L) (jV L)) none (hg := gathers_S100000x128_S128x128) (default : HIx 1)
      (b2V).view.dmaCredit (hN2 _) (by decide) (hinOff d L it hit ![1, 0] inb_S50x128_S1x128_1_0)) $$ [Hws HB' Hss HG2]
  · isplitl [Hws]; · iexact Hws
    isplitl [HB']; · iexact HB'
    isplitl [Hss]; · iexact Hss
    iexact HG2
  iintro Hfl
  ihave Hfl := (Transfers.Flight_frame countersEmb (V d (cV L) (jV L)) (R := (iprop((wLoc d ↦[Finset.univ \ (wAllK).view.set]{qw.right.left} fw) ∗ ((V d (cV L) (jV L)).loc cc0_scratch0 ↦[Finset.univ \ (rowK ![1, 0] inb_S50x128_S1x128_1_0).view.set]{(fullShare : PosShare TreeShare).right.left} fiK d L it)) : sProp 𝕄))) $$ [Hwr Hsr Hfl]
  · isplitl [Hwr Hsr]; · isplitl [Hwr] <;> iassumption
    iexact Hfl
  ihave HF2 := (Transfers.Flight_mono countersEmb (V d (cV L) (jV L)) (gat_join2 d L it fw hit (qw.right.left) ((fullShare : PosShare TreeShare).right.left) ![1, 0] inb_S50x128_S1x128_1_0 f2)) $$ Hfl
  sl_exec
  -- slot 3: issue the gather of row ![2, 0]
  ihave Hws := (pointsTo_split_subset (q := qw.right.right.left) (f := fw) (S := Finset.univ) (Finset.subset_univ (wAllK).view.set)).1 $$ HW3
  icases Hws with ⟨Hws, Hwr⟩
  ihave Hss := (pointsTo_split_subset (q := (fullShare : PosShare TreeShare).right.right.left) (f := fiK d L it) (S := Finset.univ) (Finset.subset_univ (rowK ![2, 0] inb_S50x128_S1x128_2_0).view.set)).1 $$ HSt3
  icases Hss with ⟨Hss, Hsr⟩
  ihave HB' := (Entails.of_eq (show ((V d (cV L) (jV L)).loc cc0_scratch3 ↦{fullShare} f3 : sProp 𝕄)
      = (b3V).view.loc (V d (cV L) (jV L)) ↦[(b3V).view.set]{fullShare} f3 by rw [show (b3V).view.set = Finset.univ from View.set_whole _])) $$ HB3
  iapply (SparseCore.wp_indirectGatherLocal countersEmb 𝒱₀ (V d (cV L) (jV L)) none (hg := gathers_S100000x128_S128x128) (default : HIx 1)
      (b3V).view.dmaCredit (hN3 _) (by decide) (hinOff d L it hit ![2, 0] inb_S50x128_S1x128_2_0)) $$ [Hws HB' Hss HG3]
  · isplitl [Hws]; · iexact Hws
    isplitl [HB']; · iexact HB'
    isplitl [Hss]; · iexact Hss
    iexact HG3
  iintro Hfl
  ihave Hfl := (Transfers.Flight_frame countersEmb (V d (cV L) (jV L)) (R := (iprop((wLoc d ↦[Finset.univ \ (wAllK).view.set]{qw.right.right.left} fw) ∗ ((V d (cV L) (jV L)).loc cc0_scratch0 ↦[Finset.univ \ (rowK ![2, 0] inb_S50x128_S1x128_2_0).view.set]{(fullShare : PosShare TreeShare).right.right.left} fiK d L it)) : sProp 𝕄))) $$ [Hwr Hsr Hfl]
  · isplitl [Hwr Hsr]; · isplitl [Hwr] <;> iassumption
    iexact Hfl
  ihave HF3 := (Transfers.Flight_mono countersEmb (V d (cV L) (jV L)) (gat_join3 d L it fw hit (qw.right.right.left) ((fullShare : PosShare TreeShare).right.right.left) ![2, 0] inb_S50x128_S1x128_2_0 f3)) $$ Hfl
  sl_exec
  -- slot 4: issue the gather of row ![3, 0]
  ihave Hws := (pointsTo_split_subset (q := qw.right.right.right.left) (f := fw) (S := Finset.univ) (Finset.subset_univ (wAllK).view.set)).1 $$ HW4
  icases Hws with ⟨Hws, Hwr⟩
  ihave Hss := (pointsTo_split_subset (q := (fullShare : PosShare TreeShare).right.right.right.left) (f := fiK d L it) (S := Finset.univ) (Finset.subset_univ (rowK ![3, 0] inb_S50x128_S1x128_3_0).view.set)).1 $$ HSt4
  icases Hss with ⟨Hss, Hsr⟩
  ihave HB' := (Entails.of_eq (show ((V d (cV L) (jV L)).loc cc0_scratch4 ↦{fullShare} f4 : sProp 𝕄)
      = (b4V).view.loc (V d (cV L) (jV L)) ↦[(b4V).view.set]{fullShare} f4 by rw [show (b4V).view.set = Finset.univ from View.set_whole _])) $$ HB4
  iapply (SparseCore.wp_indirectGatherLocal countersEmb 𝒱₀ (V d (cV L) (jV L)) none (hg := gathers_S100000x128_S128x128) (default : HIx 1)
      (b4V).view.dmaCredit (hN4 _) (by decide) (hinOff d L it hit ![3, 0] inb_S50x128_S1x128_3_0)) $$ [Hws HB' Hss HG4]
  · isplitl [Hws]; · iexact Hws
    isplitl [HB']; · iexact HB'
    isplitl [Hss]; · iexact Hss
    iexact HG4
  iintro Hfl
  ihave Hfl := (Transfers.Flight_frame countersEmb (V d (cV L) (jV L)) (R := (iprop((wLoc d ↦[Finset.univ \ (wAllK).view.set]{qw.right.right.right.left} fw) ∗ ((V d (cV L) (jV L)).loc cc0_scratch0 ↦[Finset.univ \ (rowK ![3, 0] inb_S50x128_S1x128_3_0).view.set]{(fullShare : PosShare TreeShare).right.right.right.left} fiK d L it)) : sProp 𝕄))) $$ [Hwr Hsr Hfl]
  · isplitl [Hwr Hsr]; · isplitl [Hwr] <;> iassumption
    iexact Hfl
  ihave HF4 := (Transfers.Flight_mono countersEmb (V d (cV L) (jV L)) (gat_join4 d L it fw hit (qw.right.right.right.left) ((fullShare : PosShare TreeShare).right.right.right.left) ![3, 0] inb_S50x128_S1x128_3_0 f4)) $$ Hfl
  sl_exec
  -- slot 5: issue the gather of row ![4, 0]
  ihave Hws := (pointsTo_split_subset (q := qw.right.right.right.right) (f := fw) (S := Finset.univ) (Finset.subset_univ (wAllK).view.set)).1 $$ HW5
  icases Hws with ⟨Hws, Hwr⟩
  ihave Hss := (pointsTo_split_subset (q := (fullShare : PosShare TreeShare).right.right.right.right) (f := fiK d L it) (S := Finset.univ) (Finset.subset_univ (rowK ![4, 0] inb_S50x128_S1x128_4_0).view.set)).1 $$ HSt5
  icases Hss with ⟨Hss, Hsr⟩
  ihave HB' := (Entails.of_eq (show ((V d (cV L) (jV L)).loc cc0_scratch5 ↦{fullShare} f5 : sProp 𝕄)
      = (b5V).view.loc (V d (cV L) (jV L)) ↦[(b5V).view.set]{fullShare} f5 by rw [show (b5V).view.set = Finset.univ from View.set_whole _])) $$ HB5
  iapply (SparseCore.wp_indirectGatherLocal countersEmb 𝒱₀ (V d (cV L) (jV L)) none (hg := gathers_S100000x128_S128x128) (default : HIx 1)
      (b5V).view.dmaCredit (hN5 _) (by decide) (hinOff d L it hit ![4, 0] inb_S50x128_S1x128_4_0)) $$ [Hws HB' Hss HG5]
  · isplitl [Hws]; · iexact Hws
    isplitl [HB']; · iexact HB'
    isplitl [Hss]; · iexact Hss
    iexact HG5
  iintro Hfl
  ihave Hfl := (Transfers.Flight_frame countersEmb (V d (cV L) (jV L)) (R := (iprop((wLoc d ↦[Finset.univ \ (wAllK).view.set]{qw.right.right.right.right} fw) ∗ ((V d (cV L) (jV L)).loc cc0_scratch0 ↦[Finset.univ \ (rowK ![4, 0] inb_S50x128_S1x128_4_0).view.set]{(fullShare : PosShare TreeShare).right.right.right.right} fiK d L it)) : sProp 𝕄))) $$ [Hwr Hsr Hfl]
  · isplitl [Hwr Hsr]; · isplitl [Hwr] <;> iassumption
    iexact Hfl
  ihave HF5 := (Transfers.Flight_mono countersEmb (V d (cV L) (jV L)) (gat_join5 d L it fw hit (qw.right.right.right.right) ((fullShare : PosShare TreeShare).right.right.right.right) ![4, 0] inb_S50x128_S1x128_4_0 f5)) $$ Hfl
  sl_exec

  sl_for (inv d L it fw hit qw f0 O W) $$ [Hmw HF1 HS1 HBk1 HF2 HS2 HBk2 HF3 HS3 HBk3 HF4 HS4 HBk4 HF5 HS5 HBk5 HO]
  case region =>
    intro k acc
    by_cases hk : k.val < 9
    · exact region_lt d L it fw hit qw f0 O W _ _ k hk acc
    · exact region_last d L it fw hit qw f0 O W _ _ k (by have := Nat.lt_of_lt_of_le k.isLt trips_le; omega) acc
  · unfold inv
    rw [dif_pos (show (0 : ℕ) < 10 by omega)]
    unfold slotA1 slotA2 slotA3 slotA4 slotA5
    isplitr; · iexact Hmw
    isplitl [HF1 HS1 HBk1 HF2 HS2 HBk2 HF3 HS3 HBk3 HF4 HS4 HBk4 HF5 HS5 HBk5]
    · isplitl [HF1 HS1 HBk1]
      · isplitl [HF1]; · iexact HF1
        isplitl [HS1]; · iexact HS1
        iexact HBk1
      isplitl [HF2 HS2 HBk2]
      · isplitl [HF2]; · iexact HF2
        isplitl [HS2]; · iexact HS2
        iexact HBk2
      isplitl [HF3 HS3 HBk3]
      · isplitl [HF3]; · iexact HF3
        isplitl [HS3]; · iexact HS3
        iexact HBk3
      isplitl [HF4 HS4 HBk4]
      · isplitl [HF4]; · iexact HF4
        isplitl [HS4]; · iexact HS4
        iexact HBk4
      isplitl [HF5]; · iexact HF5
      isplitl [HS5]; · iexact HS5
      iexact HBk5
    iexists _; isplitr
    swap; · iexact HO
    ipureintro
    repeat (first | exact (fun p hp => Or.inl hp) | apply waits_insert)
  iintro %_ HI
  unfold inv
  rw [dif_neg (show ¬ k0_t1_loop.trips < 10 by omega)]
  unfold slotB1 slotB2 slotB3 slotB4 slotB5
  icases HI with ⟨-, ⟨⟨HFo1, HG1, HBk1, HW1, HSt1⟩, ⟨HFo2, HG2, HBk2, HW2, HSt2⟩, ⟨HFo3, HG3, HBk3, HW3, HSt3⟩, ⟨HFo4, HG4, HBk4, HW4, HSt4⟩, ⟨HFo5, HG5, HBk5, HW5, HSt5⟩⟩, %W', %hW', HO⟩
  -- slot 1: its last copy-out has landed
  iapply (Transfers.wp_waitLocalO countersEmb 𝒱₀ (V d (cV L) (jV L)) none (default : HIx 1) (N := 524288) rfl) $$ [HFo1 HO]
  · isplitl [HFo1]; · iexact HFo1
    isplitl [HO]; · iexact HO
    iapply (Transfers.MayWaits.elim (SemLoc.dma cc0_scratch11.sem)) $$ Hmw
  iintro ⟨⟨Hblk1, HB1⟩, HS1, HO⟩
  rw [ret_bind']
  -- slot 2: its last copy-out has landed
  iapply (Transfers.wp_waitLocalO countersEmb 𝒱₀ (V d (cV L) (jV L)) none (default : HIx 1) (N := 524288) rfl) $$ [HFo2 HO]
  · isplitl [HFo2]; · iexact HFo2
    isplitl [HO]; · iexact HO
    iapply (Transfers.MayWaits.elim (SemLoc.dma cc0_scratch12.sem)) $$ Hmw
  iintro ⟨⟨Hblk2, HB2⟩, HS2, HO⟩
  rw [ret_bind']
  -- slot 3: its last copy-out has landed
  iapply (Transfers.wp_waitLocalO countersEmb 𝒱₀ (V d (cV L) (jV L)) none (default : HIx 1) (N := 524288) rfl) $$ [HFo3 HO]
  · isplitl [HFo3]; · iexact HFo3
    isplitl [HO]; · iexact HO
    iapply (Transfers.MayWaits.elim (SemLoc.dma cc0_scratch13.sem)) $$ Hmw
  iintro ⟨⟨Hblk3, HB3⟩, HS3, HO⟩
  rw [ret_bind']
  -- slot 4: its last copy-out has landed
  iapply (Transfers.wp_waitLocalO countersEmb 𝒱₀ (V d (cV L) (jV L)) none (default : HIx 1) (N := 524288) rfl) $$ [HFo4 HO]
  · isplitl [HFo4]; · iexact HFo4
    isplitl [HO]; · iexact HO
    iapply (Transfers.MayWaits.elim (SemLoc.dma cc0_scratch14.sem)) $$ Hmw
  iintro ⟨⟨Hblk4, HB4⟩, HS4, HO⟩
  rw [ret_bind']
  -- slot 5: its last copy-out has landed
  iapply (Transfers.wp_waitLocalO countersEmb 𝒱₀ (V d (cV L) (jV L)) none (default : HIx 1) (N := 524288) rfl) $$ [HFo5 HO]
  · isplitl [HFo5]; · iexact HFo5
    isplitl [HO]; · iexact HO
    iapply (Transfers.MayWaits.elim (SemLoc.dma cc0_scratch15.sem)) $$ Hmw
  iintro ⟨⟨Hblk5, HB5⟩, HS5, HO⟩
  rw [ret_bind']

  sl_step
  -- the read shares, whole again
  ihave Hq := (pointsTo_share (f := fw) (PosShare.mem_left_op_right qw.right.right.right)).2 $$ [HW4 HW5]
  · isplitl [HW4] <;> iassumption
  ihave Hq := (pointsTo_share (f := fw) (PosShare.mem_left_op_right qw.right.right)).2 $$ [HW3 Hq]
  · isplitl [HW3] <;> iassumption
  ihave Hq := (pointsTo_share (f := fw) (PosShare.mem_left_op_right qw.right)).2 $$ [HW2 Hq]
  · isplitl [HW2] <;> iassumption
  ihave Hw := (pointsTo_share (f := fw) (PosShare.mem_left_op_right qw)).2 $$ [HW1 Hq]
  · isplitl [HW1] <;> iassumption

  ihave Hq := (pointsTo_share (f := fiK d L it) (PosShare.mem_left_op_right (fullShare : PosShare TreeShare).right.right.right)).2 $$ [HSt4 HSt5]
  · isplitl [HSt4] <;> iassumption
  ihave Hq := (pointsTo_share (f := fiK d L it) (PosShare.mem_left_op_right (fullShare : PosShare TreeShare).right.right)).2 $$ [HSt3 Hq]
  · isplitl [HSt3] <;> iassumption
  ihave Hq := (pointsTo_share (f := fiK d L it) (PosShare.mem_left_op_right (fullShare : PosShare TreeShare).right)).2 $$ [HSt2 Hq]
  · isplitl [HSt2] <;> iassumption
  ihave Hs := (pointsTo_share (f := fiK d L it) (PosShare.mem_left_op_right (fullShare : PosShare TreeShare))).2 $$ [HSt1 Hq]
  · isplitl [HSt1] <;> iassumption

  isplitl [Ht' Hw Hblk1 HBk1 Hblk2 HBk2 Hblk3 HBk3 Hblk4 HBk4 Hblk5 HBk5]
  · isplitl [Ht']; · iexact Ht'
    isplitl [Hw]; · iexact Hw
    isplitl [Hblk1 HBk1]
    · iapply (blocks_close d L it fw f0 0 _)
      isplitl [Hblk1] <;> iassumption
    isplitl [Hblk2 HBk2]
    · iapply (blocks_close d L it fw f0 1 _)
      isplitl [Hblk2] <;> iassumption
    isplitl [Hblk3 HBk3]
    · iapply (blocks_close d L it fw f0 2 _)
      isplitl [Hblk3] <;> iassumption
    isplitl [Hblk4 HBk4]
    · iapply (blocks_close d L it fw f0 3 _)
      isplitl [Hblk4] <;> iassumption
    iapply (blocks_close d L it fw f0 4 _)
    isplitl [Hblk5] <;> iassumption
  isplitl [Hs HB1 HB2 HB3 HB4 HB5 Hbufs]
  · isplitl [Hs]; · iexists _; iexact Hs
    isplitl [HB1]; · iexists _; iexact HB1
    isplitl [HB2]; · iexists _; iexact HB2
    isplitl [HB3]; · iexists _; iexact HB3
    isplitl [HB4]; · iexists _; iexact HB4
    isplitl [HB5]; · iexists _; iexact HB5
    iexact Hbufs
  isplitl [HG1 HG2 HG3 HG4 HG5 HS1 HS2 HS3 HS4 HS5 HX Hsems]
  · isplitl [HG1]; · iexact HG1
    isplitl [HG2]; · iexact HG2
    isplitl [HG3]; · iexact HG3
    isplitl [HG4]; · iexact HG4
    isplitl [HG5]; · iexact HG5
    isplitl [HS1]; · iexact HS1
    isplitl [HS2]; · iexact HS2
    isplitl [HS3]; · iexact HS3
    isplitl [HS4]; · iexact HS4
    isplitl [HS5]; · iexact HS5
    isplitl [HX]; · iexact HX
    iexact Hsems
  iexists _; isplitr
  swap; · iexact HO
  ipureintro
  repeat (first | exact hW' | apply waits_insert)

end Tile

end Cert.Proof.KB

end
-- ==== Proof.KBSplit.lean ====
/-
  The launch's dealing of the three arrays among the 32 tiles, and the join back.

  Tile (c, i) has number w = 2 · i + c. The transposed ids [50, 4096] are cut along their columns into 32 parts of
  128 columns, part w the tile's; the table is dealt by share, one read token per tile cut off the full share, the
  remainder kept; the result [204800, 128] is cut along its rows into 1600 blocks of 128 rows, block 32 · j + w being
  sequence position j's block of tile w, and a tile holds its 50 blocks grouped by j = 5 · kk + r. Every cut is a
  partition (pairwise disjoint, covering), so the whole array is the separating conjunction of its pieces, re-indexed
  along (c, i) ↦ 2 · i + c and (c, i, r, kk) ↦ 32 · (5 · kk + r) + 2 · i + c; the join is the same equalities read
  backwards, every piece then holding one whole-array function.
-/
import proofs.«206436_g50972671869147_cont_8to1c4_798_20_alg».proof.Proof.KBTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_v0_scv : Memref Cert.Kernel.sig Kind.scVector Space.hbm Cert.Kernel.S50x4096 EltTy.i32)
local notation "oV" => (Memref.whole Cert.Kernel.main_v1_scv : Memref Cert.Kernel.sig Kind.scVector Space.hbm Cert.Kernel.S204800x128 EltTy.f32)

/-! ## Tiles and their numbers -/

/-- The tile at core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- A tile's number is below 32. -/
theorem tileNo_lt (L : grid0.Coords) : 2 * (L 1).val + (L 0).val < 32 := by
  have h1 : (L 1).val < 16 := (L 1).isLt
  have h0 : (L 0).val < 2 := (L 0).isLt
  omega

/-- The tile's number, `2 · (L 1) + (L 0)`. -/
abbrev tileW (L : grid0.Coords) : Fin 32 := ⟨2 * (L 1).val + (L 0).val, tileNo_lt L⟩

/-- Tile `L`'s read share of the table: token number `2 · (L 1) + (L 0)` of the 32 cut off the full share. -/
def wq (L : grid0.Coords) : PosShare TreeShare := Transfers.shareTok fullShare 32 (tileW L)

/-- The tiles are numbered one to one by `0 … 31`. -/
def tileEquiv : Fin (grid0.bound 0) × Fin (grid0.bound 1) ≃ Fin 32 where
  toFun p := tileW (coordsV p.1 p.2)
  invFun w := (⟨w.val % 2, by show w.val % 2 < 2; omega⟩, ⟨w.val / 2, by show w.val / 2 < 16; omega⟩)
  left_inv p := by
    have h0 : p.1.val < 2 := p.1.isLt
    have h1 : p.2.val < 16 := p.2.isLt
    refine Prod.ext (Fin.ext ?_) (Fin.ext ?_)
    · show (2 * p.2.val + p.1.val) % 2 = p.1.val
      omega
    · show (2 * p.2.val + p.1.val) / 2 = p.2.val
      omega
  right_inv w := by
    refine Fin.ext ?_
    show 2 * (w.val / 2) + w.val % 2 = w.val
    omega

/-- A sequence position's block number for a tile is below 1600. -/
theorem blockNo_lt (L : grid0.Coords) (j : ℕ) (hj : j < 50) : 32 * j + (2 * (L 1).val + (L 0).val) < 1600 := by
  have := tileNo_lt L
  omega

/-- Sequence position `j`'s block of tile `L`, among the 1600 blocks of 128 result rows: `32 · j + w`. -/
abbrev blockNo (L : grid0.Coords) (j : ℕ) (hj : j < 50) : Fin 1600 := ⟨32 * j + (2 * (L 1).val + (L 0).val), blockNo_lt L j hj⟩

theorem pos_lt (r : Fin 5) (kk : Fin 10) : 5 * kk.val + r.val < 50 := by
  have := r.isLt
  have := kk.isLt
  omega

/-- The blocks are numbered one to one by tile, slot and trip. -/
def blockEquiv : (Fin (grid0.bound 0) × Fin (grid0.bound 1)) × (Fin 5 × Fin 10) ≃ Fin 1600 where
  toFun p := blockNo (coordsV p.1.1 p.1.2) (5 * p.2.2.val + p.2.1.val) (pos_lt p.2.1 p.2.2)
  invFun q := ((⟨q.val % 32 % 2, by show q.val % 32 % 2 < 2; omega⟩, ⟨q.val % 32 / 2, by show q.val % 32 / 2 < 16; omega⟩),
    (⟨q.val / 32 % 5, by omega⟩, ⟨q.val / 32 / 5, by have := q.isLt; omega⟩))
  left_inv p := by
    have h0 : p.1.1.val < 2 := p.1.1.isLt
    have h1 : p.1.2.val < 16 := p.1.2.isLt
    have h2 := p.2.1.isLt
    have h3 := p.2.2.isLt
    refine Prod.ext (Prod.ext (Fin.ext ?_) (Fin.ext ?_)) (Prod.ext (Fin.ext ?_) (Fin.ext ?_))
    · show (32 * (5 * p.2.2.val + p.2.1.val) + (2 * p.1.2.val + p.1.1.val)) % 32 % 2 = p.1.1.val
      omega
    · show (32 * (5 * p.2.2.val + p.2.1.val) + (2 * p.1.2.val + p.1.1.val)) % 32 / 2 = p.1.2.val
      omega
    · show (32 * (5 * p.2.2.val + p.2.1.val) + (2 * p.1.2.val + p.1.1.val)) / 32 % 5 = p.2.1.val
      omega
    · show (32 * (5 * p.2.2.val + p.2.1.val) + (2 * p.1.2.val + p.1.1.val)) / 32 / 5 = p.2.2.val
      omega
  right_inv q := by
    refine Fin.ext ?_
    show 32 * (5 * (q.val / 32 / 5) + q.val / 32 % 5) + (2 * (q.val % 32 / 2) + q.val % 32 % 2) = q.val
    omega

/-! ## The cuts as rectangles -/

theorem tdiv : 32 ∣ S50x4096.size 1 := ⟨128, rfl⟩
theorem odiv : 1600 ∣ S204800x128.size 0 := ⟨128, rfl⟩

/-- Part `w` of the transposed ids' columns, and block `p` of the result's rows. -/
abbrev tPart (w : Fin 32) : Rect S50x4096 := Rect.part (s := S50x4096) (a₀ := 1) tdiv w
abbrev oPart (p : Fin 1600) : Rect S204800x128 := Rect.part (s := S204800x128) (a₀ := 0) odiv p
abbrev tSetW (w : Fin 32) : Finset S50x4096.Idx := ((tV).view.slice (tPart w)).set
abbrev oSetP (p : Fin 1600) : Finset S204800x128.Idx := ((oV).view.slice (oPart p)).set

/-- The columns a tile fetches are its part. -/
theorem tRect_eq (L : grid0.Coords) :
    Rect.unit (s := S50x4096) (k0_off1 L) S50x128.size (k0_off1_inb L) = tPart (tileW L) := by
  unfold tPart Rect.part Rect.block
  congr 1 <;> funext a
  · rw [k0_off1_eq]
    match a with
    | 0 => simp [Shape.partIx, Shape.partSize]
    | 1 =>
      simp [Shape.partIx, Shape.partSize]
      omega
  · match a with
    | 0 => simp [Shape.partSize]
    | 1 => simp [Shape.partSize]

/-- A tile's block of result rows for a sequence position is its block among the 1600. -/
theorem oRect_eq (L : grid0.Coords) (j : ℕ) (hj : j < 50) :
    Rect.unit (s := S204800x128) (oOffC L j) S128x128.size (hoC L j hj) = oPart (blockNo L j hj) := by
  unfold oPart Rect.part Rect.block
  congr 1 <;> funext a
  · match a with
    | 0 =>
      simp [Shape.partIx, Shape.partSize, oOffC]
      omega
    | 1 => simp [Shape.partIx, Shape.partSize, oOffC]
  · match a with
    | 0 => simp [Shape.partSize]
    | 1 => simp [Shape.partSize]

theorem set_tBlkK (L : grid0.Coords) : (tBlkK L).view.set = tSetW (tileW L) := by
  show ((tV).view.slice (Rect.unit (s := S50x4096) (k0_off1 L) S50x128.size (k0_off1_inb L))).set = ((tV).view.slice (tPart (tileW L))).set
  rw [tRect_eq]

theorem oSetC_eq (L : grid0.Coords) (j : ℕ) (hj : j < 50) : oSetC L j hj = oSetP (blockNo L j hj) := by
  show ((oV).view.slice (Rect.unit (s := S204800x128) (oOffC L j) S128x128.size (hoC L j hj))).set = ((oV).view.slice (oPart (blockNo L j hj))).set
  rw [oRect_eq]

theorem tSetW_eq (w : Fin 32) : tSetW w = (tPart w).set := by
  show ((View.whole (main_v0_scv : Ref sig .scVector)).slice (tPart w)).set = _
  rw [View.set_slice]; exact Finset.map_refl
theorem oSetP_eq (p : Fin 1600) : oSetP p = (oPart p).set := by
  show ((View.whole (main_v1_scv : Ref sig .scVector)).slice (oPart p)).set = _
  rw [View.set_slice]; exact Finset.map_refl

theorem tParts_disjoint : ∀ i ∈ (Finset.univ : Finset (Fin 32)), ∀ j ∈ (Finset.univ : Finset (Fin 32)), i ≠ j → Disjoint (tSetW i) (tSetW j) :=
  fun i _ j _ h => by rw [tSetW_eq, tSetW_eq]; exact Rect.part_disjoint tdiv h
theorem oParts_disjoint : ∀ i ∈ (Finset.univ : Finset (Fin 1600)), ∀ j ∈ (Finset.univ : Finset (Fin 1600)), i ≠ j → Disjoint (oSetP i) (oSetP j) :=
  fun i _ j _ h => by rw [oSetP_eq, oSetP_eq]; exact Rect.part_disjoint odiv h
theorem tParts_cover : (Finset.univ : Finset (Fin 32)).biUnion tSetW = Finset.univ :=
  (Finset.biUnion_congr rfl fun i _ => tSetW_eq i).trans (Rect.biUnion_part tdiv)
theorem oParts_cover : (Finset.univ : Finset (Fin 1600)).biUnion oSetP = Finset.univ :=
  (Finset.biUnion_congr rfl fun i _ => oSetP_eq i).trans (Rect.biUnion_part odiv)

/-! ## Re-indexing a conjunction over the tiles, and over the blocks -/

/-- A conjunction over the 32 tile numbers, by core and subcore. -/
theorem bigSep_tiles (Φ : Fin 32 → sProp 𝕄) :
    bigSep Finset.univ Φ
      = bigSep Finset.univ fun c : Fin (grid0.bound 0) => bigSep Finset.univ fun i : Fin (grid0.bound 1) => Φ (tileW (coordsV c i)) := by
  rw [bigSep_univ_equiv tileEquiv Φ, bigSep_univ_prod]
  rfl

/-- A conjunction over the five slots, written out. -/
theorem bigSep_five (Ψ : Fin 5 → sProp 𝕄) : bigSep Finset.univ Ψ = iprop(Ψ 0 ∗ Ψ 1 ∗ Ψ 2 ∗ Ψ 3 ∗ Ψ 4) := by
  rw [show (Finset.univ : Finset (Fin 5)) = {0, 1, 2, 3, 4} by decide, SparseCore.bigSep_insert' (by decide),
    SparseCore.bigSep_insert' (by decide), SparseCore.bigSep_insert' (by decide), SparseCore.bigSep_insert' (by decide), bigSep_singleton]

/-- A conjunction over the 1600 block numbers, by core, subcore, slot and trip. -/
theorem bigSep_blocks (Φ : Fin 1600 → sProp 𝕄) :
    bigSep Finset.univ Φ
      = bigSep Finset.univ fun c : Fin (grid0.bound 0) => bigSep Finset.univ fun i : Fin (grid0.bound 1) =>
          bigSep Finset.univ fun r : Fin 5 => bigSep Finset.univ fun kk : Fin 10 =>
            Φ (blockNo (coordsV c i) (5 * kk.val + r.val) (pos_lt r kk)) := by
  rw [bigSep_univ_equiv blockEquiv Φ, bigSep_univ_prod, bigSep_univ_prod]
  refine bigSep_congr fun c _ => bigSep_congr fun i _ => ?_
  rw [bigSep_univ_prod]
  rfl

/-- A conjunction, over two indices, of three-fold conjunctions is the three-fold conjunction of the conjunctions. -/
theorem bigSep2_sep3 {α β : Type} [Fintype α] [Fintype β] (A B C : α → β → sProp 𝕄) :
    (bigSep Finset.univ fun a => bigSep Finset.univ fun b => iprop(A a b ∗ B a b ∗ C a b))
      = iprop((bigSep Finset.univ fun a => bigSep Finset.univ fun b => A a b)
          ∗ (bigSep Finset.univ fun a => bigSep Finset.univ fun b => B a b)
          ∗ (bigSep Finset.univ fun a => bigSep Finset.univ fun b => C a b)) := by
  rw [show (fun a => bigSep Finset.univ fun b => iprop(A a b ∗ B a b ∗ C a b))
      = fun a => iprop((bigSep Finset.univ fun b => A a b) ∗ (bigSep Finset.univ fun b => B a b) ∗ (bigSep Finset.univ fun b => C a b))
      from funext fun a => by rw [bigSep_sep', bigSep_sep'],
    bigSep_sep', bigSep_sep']

/-! ## The three arrays dealt -/

section Deal

variable [FloatOps F]
variable (d : Dev nD)

/-- The transposed ids, whole, are the tiles' column parts. -/
theorem tPts_tiles (it : Buf (Elt F) (tLoc d)) :
    (tLoc d ↦{fullShare} it : sProp 𝕄)
      = bigSep Finset.univ fun c : Fin (grid0.bound 0) => bigSep Finset.univ fun i : Fin (grid0.bound 1) => tBlkPts d (coordsV c i) it := by
  rw [show (tLoc d ↦{fullShare} it : sProp 𝕄) = bigSep Finset.univ fun w : Fin 32 => tLoc d ↦[tSetW w]{fullShare} it by
    rw [← pointsTo_biUnion Finset.univ (ℓ := tLoc d) tSetW tParts_disjoint, tParts_cover]; try rfl]
  rw [bigSep_tiles (F := F) fun w => tLoc d ↦[tSetW w]{fullShare} it]
  refine bigSep_congr fun c _ => bigSep_congr fun i _ => ?_
  show (tLoc d ↦[tSetW (tileW (coordsV c i))]{fullShare} it : sProp 𝕄) = tLoc d ↦[(tBlkK (coordsV c i)).view.set]{fullShare} it
  rw [set_tBlkK]

/-- The table at the full share is the remainder after 32 read tokens and the tiles' tokens. -/
theorem wPts_tiles (fw : Buf (Elt F) (wLoc d)) :
    (wLoc d ↦{fullShare} fw : sProp 𝕄)
      = iprop((wLoc d ↦{Transfers.shareDrop fullShare 32} fw)
          ∗ bigSep Finset.univ fun c : Fin (grid0.bound 0) => bigSep Finset.univ fun i : Fin (grid0.bound 1) => wPts d (wq (coordsV c i)) fw) := by
  have h : (wLoc d ↦{fullShare} fw : sProp 𝕄)
      ⊣⊢ iprop((wLoc d ↦{Transfers.shareDrop fullShare 32} fw)
        ∗ bigSep Finset.univ fun w : Fin 32 => wLoc d ↦{Transfers.shareTok fullShare 32 w} fw) :=
    Transfers.pointsTo_toks fullShare 32
  rw [BI.equiv_iff.mp ⟨h.1, h.2⟩, bigSep_tiles (F := F) fun w => wLoc d ↦{Transfers.shareTok fullShare 32 w} fw]
  rfl

/-- The result array, whole at one function `g`, is the tiles' blocks, slot by slot, each at `g`. -/
theorem oPts_tiles (g : Buf (Elt F) (oLoc d)) :
    (oLoc d ↦{fullShare} g : sProp 𝕄)
      = bigSep Finset.univ fun c : Fin (grid0.bound 0) => bigSep Finset.univ fun i : Fin (grid0.bound 1) =>
          bigSep Finset.univ fun r : Fin 5 => bigSep Finset.univ fun kk : Fin 10 =>
            oLoc d ↦[oSetC (coordsV c i) (5 * kk.val + r.val) (pos_lt r kk)]{fullShare} g := by
  rw [show (oLoc d ↦{fullShare} g : sProp 𝕄) = bigSep Finset.univ fun p : Fin 1600 => oLoc d ↦[oSetP p]{fullShare} g by
    rw [← pointsTo_biUnion Finset.univ (ℓ := oLoc d) oSetP oParts_disjoint, oParts_cover]; try rfl]
  rw [bigSep_blocks (F := F) fun p => oLoc d ↦[oSetP p]{fullShare} g]
  refine bigSep_congr fun c _ => bigSep_congr fun i _ => bigSep_congr fun r _ => bigSep_congr fun kk _ => ?_
  rw [oSetC_eq]

/-- A tile's blocks before trip `k`, when all of them hold one function `g` (every block below the trip and `g` the
    computed rows, or none below it and `g` the initial contents). -/
theorem oBlksPts_const (L : grid0.Coords) (it : Buf (Elt F) (tLoc d)) (fw : Buf (Elt F) (wLoc d)) (f0 g : Buf (Elt F) (oLoc d)) (k : ℕ)
    (hg : ∀ kk : Fin 10, (if kk.val < k then GK d it fw else f0) = g) :
    oBlksPts d L it fw f0 k
      = bigSep Finset.univ fun r : Fin 5 => bigSep Finset.univ fun kk : Fin 10 =>
          oLoc d ↦[oSetC L (5 * kk.val + r.val) (pos_lt r kk)]{fullShare} g := by
  rw [bigSep_five]
  have e : ∀ (r : ℕ) (hr : r < 5), blocks d L it fw f0 r hr k
      = fun kk : Fin 10 => (oLoc d ↦[oSetC L (5 * kk.val + r) (by have := kk.isLt; omega)]{fullShare} g : sProp 𝕄) :=
    fun r hr => funext fun kk => by unfold blocks; rw [hg kk]
  show iprop(bigSep Finset.univ (blocks d L it fw f0 0 _ k) ∗ bigSep Finset.univ (blocks d L it fw f0 1 _ k)
    ∗ bigSep Finset.univ (blocks d L it fw f0 2 _ k) ∗ bigSep Finset.univ (blocks d L it fw f0 3 _ k)
    ∗ bigSep Finset.univ (blocks d L it fw f0 4 _ k)) = _
  rw [e 0, e 1, e 2, e 3, e 4]
  rfl

end Deal

/-! ## The launch's split and join -/

section Launch

variable [FloatOps F]

/-- What the launch hands tile `L`: its columns of the transposed ids, its read share of the table, its blocks of
    result rows at their initial contents. -/
abbrev goRes (d : Dev nD) (L : grid0.Coords) (it : Buf (Elt F) (tLoc d)) (fw : Buf (Elt F) (wLoc d)) (f0 : Buf (Elt F) (oLoc d)) : sProp 𝕄 :=
  iprop(tBlkPts d L it ∗ wPts d (wq L) fw ∗ oBlksPts d L it fw f0 0)

/-- What tile `L` hands back: the same, its blocks of result rows at the computed rows. -/
abbrev tdRes (d : Dev nD) (L : grid0.Coords) (it : Buf (Elt F) (tLoc d)) (fw : Buf (Elt F) (wLoc d)) (f0 : Buf (Elt F) (oLoc d)) : sProp 𝕄 :=
  iprop(tBlkPts d L it ∗ wPts d (wq L) fw ∗ oBlksPts d L it fw f0 10)

/-- The three arrays, whole, are dealt among the tiles; the table's remaining share stays behind. -/
theorem arrays_split (d : Dev nD) (it : Buf (Elt F) (tLoc d)) (fw : Buf (Elt F) (wLoc d)) (f0 : Buf (Elt F) (oLoc d)) :
    iprop((tLoc d ↦{fullShare} it) ∗ (wLoc d ↦{fullShare} fw) ∗ (oLoc d ↦{fullShare} f0))
      ⊢ (iprop((wLoc d ↦{Transfers.shareDrop fullShare 32} fw)
          ∗ bigSep Finset.univ fun c : Fin (grid0.bound 0) => bigSep Finset.univ fun i : Fin (grid0.bound 1) =>
              goRes d (coordsV c i) it fw f0) : sProp 𝕄) := by
  have eo : (oLoc d ↦{fullShare} f0 : sProp 𝕄)
      = bigSep Finset.univ fun c : Fin (grid0.bound 0) => bigSep Finset.univ fun i : Fin (grid0.bound 1) =>
          oBlksPts d (coordsV c i) it fw f0 0 := by
    rw [oPts_tiles d f0]
    exact bigSep_congr fun c _ => bigSep_congr fun i _ =>
      (oBlksPts_const d (coordsV c i) it fw f0 f0 0 fun kk => if_neg (Nat.not_lt_zero _)).symm
  rw [show (bigSep Finset.univ fun c : Fin (grid0.bound 0) => bigSep Finset.univ fun i : Fin (grid0.bound 1) =>
        goRes d (coordsV c i) it fw f0)
      = iprop((bigSep Finset.univ fun c : Fin (grid0.bound 0) => bigSep Finset.univ fun i : Fin (grid0.bound 1) => tBlkPts d (coordsV c i) it)
          ∗ (bigSep Finset.univ fun c : Fin (grid0.bound 0) => bigSep Finset.univ fun i : Fin (grid0.bound 1) => wPts d (wq (coordsV c i)) fw)
          ∗ (bigSep Finset.univ fun c : Fin (grid0.bound 0) => bigSep Finset.univ fun i : Fin (grid0.bound 1) => oBlksPts d (coordsV c i) it fw f0 0))
      from bigSep2_sep3 _ _ _]
  rw [← tPts_tiles d it, ← eo, wPts_tiles d fw]
  iintro ⟨Ht, ⟨Hd, Hw⟩, Ho⟩
  isplitl [Hd]; · iexact Hd
  isplitl [Ht]; · iexact Ht
  isplitl [Hw]; · iexact Hw
  iexact Ho

/-- What the tiles hand back, with the table's remaining share, is the three arrays whole: the transposed ids and the
    table as they were, the result at the computed rows. -/
theorem arrays_join (d : Dev nD) (it : Buf (Elt F) (tLoc d)) (fw : Buf (Elt F) (wLoc d)) (f0 : Buf (Elt F) (oLoc d)) :
    iprop((wLoc d ↦{Transfers.shareDrop fullShare 32} fw)
        ∗ bigSep Finset.univ fun c : Fin (grid0.bound 0) => bigSep Finset.univ fun i : Fin (grid0.bound 1) =>
            tdRes d (coordsV c i) it fw f0)
      ⊢ (iprop((tLoc d ↦{fullShare} it) ∗ (wLoc d ↦{fullShare} fw) ∗ (oLoc d ↦{fullShare} GK d it fw)) : sProp 𝕄) := by
  have eo : (oLoc d ↦{fullShare} GK d it fw : sProp 𝕄)
      = bigSep Finset.univ fun c : Fin (grid0.bound 0) => bigSep Finset.univ fun i : Fin (grid0.bound 1) =>
          oBlksPts d (coordsV c i) it fw f0 10 := by
    rw [oPts_tiles d (GK d it fw)]
    exact bigSep_congr fun c _ => bigSep_congr fun i _ =>
      (oBlksPts_const d (coordsV c i) it fw f0 (GK d it fw) 10 fun kk => if_pos kk.isLt).symm
  rw [show (bigSep Finset.univ fun c : Fin (grid0.bound 0) => bigSep Finset.univ fun i : Fin (grid0.bound 1) =>
        tdRes d (coordsV c i) it fw f0)
      = iprop((bigSep Finset.univ fun c : Fin (grid0.bound 0) => bigSep Finset.univ fun i : Fin (grid0.bound 1) => tBlkPts d (coordsV c i) it)
          ∗ (bigSep Finset.univ fun c : Fin (grid0.bound 0) => bigSep Finset.univ fun i : Fin (grid0.bound 1) => wPts d (wq (coordsV c i)) fw)
          ∗ (bigSep Finset.univ fun c : Fin (grid0.bound 0) => bigSep Finset.univ fun i : Fin (grid0.bound 1) => oBlksPts d (coordsV c i) it fw f0 10))
      from bigSep2_sep3 _ _ _]
  rw [← tPts_tiles d it, ← eo, wPts_tiles d fw]
  iintro ⟨Hd, Ht, Hw, Ho⟩
  isplitl [Ht]; · iexact Ht
  isplitl [Hd Hw]
  · isplitl [Hd]; · iexact Hd
    iexact Hw
  iexact Ho

end Launch

end Cert.Proof.KB

end
-- ==== Proof.KBLaunch.lean ====
/-
  The launch of `Cert.Kernel`'s SparseCore kernel and the program's run. @main on the TensorCore transposes the token ids,
  starts the two SparseCores and waits for them, then re-lays the [204800, 128] array of gathered rows out as
  [4096, 50, 128]. The call hands each of the 32 tiles its columns of the transposed ids, a read share of the table
  and its blocks of result rows, and takes them back with the blocks at the table rows (the tile's task); joined, the
  array is `Cert.Spec.rows2d` of the transposed ids and the table, and the two re-layouts make it `Cert.Spec.lookup`.
  The run ends with the result at that function of the argument arrays and the arguments unchanged.
-/
import proofs.«206436_g50972671869147_cont_8to1c4_798_20_alg».proof.Proof.KBTile
import proofs.«206436_g50972671869147_cont_8to1c4_798_20_alg».proof.Proof.KBSplit
import proofs.«206436_g50972671869147_cont_8to1c4_798_20_alg».proof.Proof.FinalValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

local notation "tV" => (Memref.whole Cert.Kernel.main_v0_scv : Memref Cert.Kernel.sig Kind.scVector Space.hbm Cert.Kernel.S50x4096 EltTy.i32)
local notation "wV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S204800x128 EltTy.f32)
local notation "sV" => (Memref.whole Cert.Kernel.cc0_scratch0 : Memref Cert.Kernel.sig Kind.scVector Space.vmem Cert.Kernel.S50x128 EltTy.i32)
local notation "b1V" => (Memref.whole Cert.Kernel.cc0_scratch1 : Memref Cert.Kernel.sig Kind.scVector Space.vmem Cert.Kernel.S128x128 EltTy.f32)
local notation "b2V" => (Memref.whole Cert.Kernel.cc0_scratch2 : Memref Cert.Kernel.sig Kind.scVector Space.vmem Cert.Kernel.S128x128 EltTy.f32)
local notation "b3V" => (Memref.whole Cert.Kernel.cc0_scratch3 : Memref Cert.Kernel.sig Kind.scVector Space.vmem Cert.Kernel.S128x128 EltTy.f32)
local notation "b4V" => (Memref.whole Cert.Kernel.cc0_scratch4 : Memref Cert.Kernel.sig Kind.scVector Space.vmem Cert.Kernel.S128x128 EltTy.f32)
local notation "b5V" => (Memref.whole Cert.Kernel.cc0_scratch5 : Memref Cert.Kernel.sig Kind.scVector Space.vmem Cert.Kernel.S128x128 EltTy.f32)

variable (m : (ℓ : Loc nD τ sig) → Buf (Elt F) ℓ) (ρ : Dev nD → PrngReg)

variable [FloatOps F]

/-! ## What the arrays hold when the call starts -/

/-- The transposed token ids (what @main's first operation leaves in its result array), the table, and the result array's launch contents. -/
abbrev itD (d : Dev nD) : Buf (Elt F) (tLoc d) := transpose S50x4096 [1, 0] (m (aLoc d)) transposes_S4096x50_S50x4096_1_0
abbrev fwD (d : Dev nD) : Buf (Elt F) (wLoc d) := m (wLoc d)
abbrev f0D (d : Dev nD) : Buf (Elt F) (oLoc d) := m (oLoc d)

/-- What the proof asks of the launch memory: every token id names a row of the table. -/
def PreOK : Prop := ∀ d : Dev nD, Cert.Spec.InRange (m (aLoc d))

theorem hitD (hpre : PreOK m) (d : Dev nD) : ∀ y, (itD m d y).toNat < 100000 :=
  Cert.FinalValue.inRange_transpose (m (aLoc d)) transposes_S4096x50_S50x4096_1_0 (hpre d)

/-! ## What the handshakes carry -/

/-- The tile that task `i` of SparseCore `c` runs on. -/
abbrev Lc (c : Fin ((K (F := F)).nCore 0)) (i : Fin ((K (F := F)).nSub 0)) : grid0.Coords := coordsV (Fin.cast rfl c) (Fin.cast rfl i)

instance blocks_storable (d : Dev nD) (L : grid0.Coords) (it : Buf (Elt F) (tLoc d)) (fw : Buf (Elt F) (wLoc d)) (f0 : Buf (Elt F) (oLoc d)) (r : ℕ) (hr : r < 5) (k : ℕ) (kk : Fin 10) :
    BI.Storable (upEmb : UEmb _ 𝕄) (blocks d L it fw f0 r hr k kk) := by unfold blocks; infer_instance

/-- The one call: each tile takes its columns of the transposed ids, its read share of the table and its blocks of result rows, and brings
    them back, the blocks at the table rows; a SparseCore takes and brings back its sixteen tiles' lots. -/
def P : (K (F := F)).Pay (nD := nD) (Val := Elt F) (Name := ℕ) (U := UU) where
  st := fun q d c => match q with
    | 0 => bigSep Finset.univ fun i : Fin ((K (F := F)).nSub 0) => goRes d (Lc c i) (itD m d) (fwD m d) (f0D m d)
  dn := fun q d c => match q with
    | 0 => bigSep Finset.univ fun i : Fin ((K (F := F)).nSub 0) => tdRes d (Lc c i) (itD m d) (fwD m d) (f0D m d)
  go := fun q d c i => match q with | 0 => goRes d (Lc c i) (itD m d) (fwD m d) (f0D m d)
  td := fun q d c i => match q with | 0 => tdRes d (Lc c i) (itD m d) (fwD m d) (f0D m d)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goRes d (Lc c i) (itD m d) (fwD m d) (f0D m d)))
  dn q d c := match q with
    | 0 => (inferInstance : BI.Storable (upEmb : UEmb _ 𝕄) (bigSep Finset.univ fun i : Fin ((K (F := F)).nSub 0) => tdRes d (Lc c i) (itD m d) (fwD m d) (f0D m d)))
  go q d c i := match q with
    | 0 => (inferInstance : BI.Storable (upEmb : UEmb _ 𝕄) (goRes d (Lc c i) (itD m d) (fwD m d) (f0D m d)))
  td q d c i := match q with
    | 0 => (inferInstance : BI.Storable (upEmb : UEmb _ 𝕄) (tdRes d (Lc c i) (itD m d) (fwD m d) (f0D m d)))

/-! ## The obligation -/

theorem defs₀_vector (c : Fin τ.nSC) (s : Fin τ.nSub) :
    defs₀ (F := F) (.scVector c s) 0 ()
      = SparseCore.onTile hcore0 hsub0 (fun c s => cc0_k (coordsV c s)
          tV (Memref.isWhole_whole _) wV (Memref.isWhole_whole _) oV (Memref.isWhole_whole _)
            sV (Memref.isWhole_whole _) b1V (Memref.isWhole_whole _) b2V (Memref.isWhole_whole _) b3V (Memref.isWhole_whole _) b4V (Memref.isWhole_whole _) b5V (Memref.isWhole_whole _)
            cc0_scratch6 cc0_scratch7 cc0_scratch8 cc0_scratch9 cc0_scratch10 cc0_scratch11 cc0_scratch12 cc0_scratch13 cc0_scratch14 cc0_scratch15 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (itD m d) (fwD m d) (hitD m hpre d) (wq (coordsV ⟨_, hci.1⟩ ⟨_, hci.2⟩)) (f0D m d) O W hO).trans
    (wp_mono frame _ _ fun _ => obl_post)

theorem P_st (d : Dev nD) (c : Fin ((K (F := F)).nCore 0)) :
    (P m).st 0 d c = bigSep Finset.univ fun i : Fin ((K (F := F)).nSub 0) => (P m).go 0 d c i := rfl
theorem P_dn (d : Dev nD) (c : Fin ((K (F := F)).nCore 0)) :
    (P m).dn 0 d c = bigSep Finset.univ fun i : Fin ((K (F := F)).nSub 0) => (P m).td 0 d c i := rfl

set_option maxHeartbeats 1000000 in
theorem vecSplit : (K (F := F)).VecSplit' (P m) 0 := by
  intro d c
  rw [P_st m d c, P_dn m d c]
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev w' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev r2' : DevRef τ sig := Proc.devRef .tc (main_v2 : Ref sig .tc)
abbrev r3' : DevRef τ sig := Proc.devRef .tc (main_v3 : Ref sig .tc)
abbrev r2Loc (d : Dev nD) : Loc nD τ sig := (SparseCore.T d).loc main_v2
abbrev r3Loc (d : Dev nD) : Loc nD τ sig := (SparseCore.T d).loc main_v3

/-- @main's three host operations: the transpose of the ids, and the two re-layouts of the gathered rows. -/
abbrev opT0 : HloOp τ sig (Elt F) := StableHlo.unary main_arg0 main_v0 ((transpose S50x4096 [1, 0] · transposes_S4096x50_S50x4096_1_0) : (⟨S4096x50, .i32⟩ : BufTy).Contents (Elt F) → (⟨S50x4096, .i32⟩ : BufTy).Contents (Elt F))
abbrev opRs : HloOp τ sig (Elt F) := StableHlo.reshape main_v1 main_v2 rfl shapeCasts_S204800x128_S50x4096x128
abbrev opT1 : HloOp τ sig (Elt F) := StableHlo.unary main_v2 main_v3 ((transpose S4096x50x128 [1, 0, 2] · transposes_S50x4096x128_S4096x50x128_1_0_2) : (⟨S50x4096x128, .f32⟩ : BufTy).Contents (Elt F) → (⟨S4096x50x128, .f32⟩ : BufTy).Contents (Elt F))

/-- The TensorCore's arrays, all unscoped. -/
abbrev S6 : Finset (DevRef τ sig) := {a', w', t', o', r2', r3'}

omit [FloatOps F] in
theorem held_S6 (d : Dev nD) (W : Valuation τ sig (Elt F)) :
    (held (T d) S6 W : sProp 𝕄) = iprop((aLoc d ↦{fullShare} W a') ∗ (wLoc d ↦{fullShare} W w') ∗ (tLoc d ↦{fullShare} W t') ∗ (oLoc d ↦{fullShare} W o')
      ∗ (r2Loc d ↦{fullShare} W r2') ∗ r3Loc d ↦{fullShare} W r3') := by
  unfold held S6
  rw [SparseCore.bigSep_insert' (by decide), SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (wLoc d ↦{fullShare} W main_arg1) ∗ (tLoc d ↦{fullShare} W main_v0) ∗ (oLoc d ↦{fullShare} W main_v1)
      ∗ (r2Loc d ↦{fullShare} W main_v2) ∗ r3Loc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide), SparseCore.bigSep_insert' (by decide),
    SparseCore.bigSep_insert' (by decide), bigSep_singleton]

/-- The launch valuation; after the transpose; after the call (the gathered rows in place); after the reshape; at the end. -/
def V0 (d : Dev nD) : Valuation τ sig (Elt F) := fun b => m (d, b)
abbrev V1 (d : Dev nD) : Valuation τ sig (Elt F) := (opT0 (F := F)).result (V0 m d)
def V2 (d : Dev nD) : Valuation τ sig (Elt F) := Function.update (V1 m d) o' (GK d (itD m d) (fwD m d))
abbrev V3 (d : Dev nD) : Valuation τ sig (Elt F) := (opRs (F := F)).result (V2 m d)
abbrev V4 (d : Dev nD) : Valuation τ sig (Elt F) := (opT1 (F := F)).result (V3 m d)

theorem unscoped_held (d : Dev nD) : (unscopedBufs d (fun b => m ((SparseCore.T d).loc b)) : sProp 𝕄) = held (T d) S6 (V0 m d) := by
  rw [unscopedBufs_eq, held_S6]; rfl

theorem V1_t (d : Dev nD) : V1 m d t' = itD m d := StableHlo.unary_result _ _ _ _ _ _
theorem V1_ne (d : Dev nD) (b : DevRef τ sig) (h : b ∉ ({t'} : Finset (DevRef τ sig))) : V1 m d b = V0 m d b := (opT0 (F := F)).result_of_not_mem (V0 m d) h
theorem V2_o (d : Dev nD) : V2 m d o' = GK d (itD m d) (fwD m d) := Function.update_self _ _ _
theorem V2_ne (d : Dev nD) (b : DevRef τ sig) (h : b ≠ o') : V2 m d b = V1 m d b := Function.update_of_ne h _ _
theorem V3_ne (d : Dev nD) (b : DevRef τ sig) (h : b ∉ ({r2'} : Finset (DevRef τ sig))) : V3 m d b = V2 m d b := (opRs (F := F)).result_of_not_mem (V2 m d) h
theorem V4_ne (d : Dev nD) (b : DevRef τ sig) (h : b ∉ ({r3'} : Finset (DevRef τ sig))) : V4 m d b = V3 m d b := (opT1 (F := F)).result_of_not_mem (V3 m d) h

/-- The result array at the end: the two re-layouts of the gathered rows are the embedding lookup. -/
theorem V4_r3 (d : Dev nD) : V4 m d r3' = Cert.Spec.lookup (m (aLoc d)) (m (wLoc d)) := by
  show (opT1 (F := F)).result ((opRs (F := F)).result (V2 m d)) r3' = _
  rw [StableHlo.unary_result, StableHlo.reshape_result, V2_o]
  exact Cert.FinalValue.final_eq (m (aLoc d)) (m (wLoc d)) _ _ _

theorem held_V1 (d : Dev nD) :
    (held (T d) S6 (V1 m d) : sProp 𝕄) = iprop((aLoc d ↦{fullShare} m (aLoc d)) ∗ (wLoc d ↦{fullShare} fwD m d) ∗ (tLoc d ↦{fullShare} itD m d) ∗ (oLoc d ↦{fullShare} f0D m d)
      ∗ (r2Loc d ↦{fullShare} m (r2Loc d)) ∗ r3Loc d ↦{fullShare} m (r3Loc d)) := by
  rw [held_S6, V1_t, V1_ne m d a' (by decide), V1_ne m d w' (by decide), V1_ne m d o' (by decide), V1_ne m d r2' (by decide), V1_ne m d r3' (by decide)]
  rfl

theorem held_V2 (d : Dev nD) :
    (held (T d) S6 (V2 m d) : sProp 𝕄) = iprop((aLoc d ↦{fullShare} m (aLoc d)) ∗ (wLoc d ↦{fullShare} fwD m d) ∗ (tLoc d ↦{fullShare} itD m d) ∗ (oLoc d ↦{fullShare} GK d (itD m d) (fwD m d))
      ∗ (r2Loc d ↦{fullShare} m (r2Loc d)) ∗ r3Loc d ↦{fullShare} m (r3Loc d)) := by
  rw [held_S6, V2_o, V2_ne m d a' (by decide), V2_ne m d w' (by decide), V2_ne m d t' (by decide), V2_ne m d r2' (by decide), V2_ne m d r3' (by decide),
    V1_t, V1_ne m d a' (by decide), V1_ne m d w' (by decide), V1_ne m d r2' (by decide), V1_ne m d r3' (by decide)]
  rfl

theorem V4_a (d : Dev nD) : V4 m d a' = m (aLoc d) := by
  rw [V4_ne m d a' (by decide), V3_ne m d a' (by decide), V2_ne m d a' (by decide), V1_ne m d a' (by decide)]; rfl
theorem V4_w (d : Dev nD) : V4 m d w' = m (wLoc d) := by
  rw [V4_ne m d w' (by decide), V3_ne m d w' (by decide), V2_ne m d w' (by decide), V1_ne m d w' (by decide)]; rfl

theorem hT0 : (opT0 (F := F)).bufs ⊆ S6 := show ({a', t'} : Finset (DevRef τ sig)) ⊆ S6 by decide
theorem hRs : (opRs (F := F)).bufs ⊆ S6 := show ({o', r2'} : Finset (DevRef τ sig)) ⊆ S6 by decide
theorem hT1 : (opT1 (F := F)).bufs ⊆ S6 := show ({r2', r3'} : Finset (DevRef τ sig)) ⊆ S6 by decide

theorem st0_eq (d : Dev nD) : (bigSep Finset.univ fun c : Fin ((K (F := F)).nCore 0) => (P m).st 0 d c)
    = bigSep Finset.univ fun c : Fin (grid0.bound 0) => bigSep Finset.univ fun i : Fin (grid0.bound 1) => goRes d (coordsV c i) (itD m d) (fwD m d) (f0D m d) := rfl
theorem dn0_eq (d : Dev nD) : (bigSep Finset.univ fun c : Fin ((K (F := F)).nCore 0) => (P m).dn 0 d c)
    = bigSep Finset.univ fun c : Fin (grid0.bound 0) => bigSep Finset.univ fun i : Fin (grid0.bound 1) => tdRes d (coordsV c i) (itD m d) (fwD m d) (f0D m d) := rfl

/-- What @main leaves the claim: the arguments at their launch contents, the result at the embedding lookup of them. -/
abbrev FIN (d : Dev nD) : sProp 𝕄 :=
  iprop((r3Loc d ↦{fullShare} (Cert.Spec.lookup (m (aLoc d)) (m (wLoc d)) : Buf (Elt F) (r3Loc d))) ∗ (aLoc d ↦{fullShare} m (aLoc d)) ∗ (wLoc d ↦{fullShare} m (wLoc d)))

/-- @main on device `d`'s TensorCore: the transpose of the ids; the call, the three arrays dealt to the tiles and joined back; the two
    re-layouts; the arguments kept and the result named. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the transpose of the ids
  iapply (wp_hlo_within 𝒱 (SparseCore.T d) none Set.univ (op := opT0) (S := S6) hT0 (V := V0 m d)) $$ [Hb Hheld]
  · isplitl [Hb]; · iexact Hb
    iexact Hheld
  iintro ⟨Hb, Hheld⟩
  rw [wp_ret]; imodintro
  ihave Hh := (Entails.of_eq (held_V1 m d)) $$ Hheld
  icases Hh with ⟨Ha, Hw, Ht, Ho, Hr2, Hr3⟩
  -- the call: the arrays dealt to the 32 tiles, and joined back
  ihave Hd := (arrays_split d (itD m d) (fwD m d) (f0D m d)) $$ [Ht Hw Ho]
  · isplitl [Ht]; · iexact Ht
    isplitl [Hw] <;> iassumption
  icases Hd with ⟨Hwrem, Hgo⟩
  iapply ((K (F := F)).wp_run (D (F := F)) 𝒱 (EH := EH) (P := P m) κ d 0) $$ [Hst Hgo Hb Ha Hwrem Hr2 Hr3]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hj := (arrays_join d (itD m d) (fwD m d) (f0D m d)) $$ [Hwrem Hdn']
  · isplitl [Hwrem] <;> iassumption
  icases Hj with ⟨Ht, Hw, Ho⟩
  -- the two re-layouts
  iapply (wp_hlo_within 𝒱 (SparseCore.T d) none Set.univ (op := opRs) (S := S6) hRs (V := V2 m d)) $$ [Hb Ha Hw Ht Ho Hr2 Hr3]
  · isplitl [Hb]; · iexact Hb
    rw [held_V2]
    isplitl [Ha]; · iexact Ha
    isplitl [Hw]; · iexact Hw
    isplitl [Ht]; · iexact Ht
    isplitl [Ho]; · iexact Ho
    isplitl [Hr2] <;> iassumption
  iintro ⟨Hb, Hheld⟩
  rw [wp_ret]; imodintro
  iapply (wp_hlo_within 𝒱 (SparseCore.T d) none Set.univ (op := opT1) (S := S6) hT1 (V := V3 m d)) $$ [Hb Hheld]
  · isplitl [Hb]; · iexact Hb
    iexact Hheld
  iintro ⟨Hb, Hheld⟩
  ihave Hh := (Entails.of_eq (held_S6 (F := F) d (V4 m d))) $$ Hheld
  icases Hh with ⟨Ha, Hw, -, -, -, Hr3⟩
  rw [V4_a, V4_w, V4_r3]
  rw [wp_ret]; imodintro; imodintro
  isplitl [Hst]; · iexact Hst
  isplitl [Hr3]; · iexact Hr3
  isplitl [Ha] <;> iassumption

def fq (d : Dev nD) (s' : Phys nD τ sig (Elt F)) : Prop :=
  s'.mem.mem (r3Loc d) = Cert.Spec.lookup (m (aLoc d)) (m (wLoc d)) ∧ s'.mem.mem (aLoc d) = m (aLoc d) ∧ s'.mem.mem (wLoc d) = m (wLoc d)

set_option maxRecDepth 16384 in
theorem hfin (d : Dev nD) (s' : Phys nD τ sig (Elt F)) : iprop(FIN m d ∗ SI s') ⊢ (⌜fq m d s'⌝ : sProp 𝕄) := by
  iintro ⟨⟨Hr, Ha, Hw⟩, HSI⟩
  ihave H := (persistent_entails_right (SI_pointsTo_agree (st := s') (ℓ := r3Loc d) (I := Finset.univ) (q := fullShare) (f := (Cert.Spec.lookup (m (aLoc d)) (m (wLoc d)) : Buf (Elt F) (r3Loc d))))) $$ [HSI Hr]
  · isplitl [HSI] <;> iassumption
  icases H with ⟨%h0, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := wLoc d) (I := Finset.univ) (q := fullShare) (f := m (wLoc d))) $$ [HSI Hw]
  · isplitl [HSI] <;> iassumption
  icases H with %h2
  ipureintro
  exact ⟨funext fun i => h0 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (r3Loc c) = Cert.Spec.lookup (m (aLoc c)) (m (wLoc c)) ∧ r.2.mem (aLoc c) = m (aLoc c) ∧ r.2.mem (wLoc c) = m (wLoc c)

/-- Every weakly fair execution of the program's threads terminates, nothing faulting, the result at the embedding lookup of the argument
    arrays and the arguments unchanged — when every token id names a row of the table. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.lean ====
/-
  The certificate of an embedding lookup on the SparseCore against its jnp reference: `Cert.Claim`
  (proofs.«206436_g50972671869147_cont_8to1c4_798_20_alg».proof.Defs) — the three frames, the idealization's ledger (empty), and the two idealized programs' equal results.

  Both programs compute `Cert.Spec.lookup`: entry (b, j, l) of the result is entry l of the table row that token (b, j) names.
  The kernel transposes the token ids, has each of its 32 tiles gather, for every sequence position, the table rows its 128
  tokens name and copy them to the tile's rows of a [204800, 128] array, and re-lays that array out (Proof/KITile.lean,
  Proof/KILaunch.lean; the same text at the word-level instance, Proof/KBTile.lean, Proof/KBLaunch.lean). The reference
  flattens the ids, wraps negative ones, gathers with clamped indices and masks out-of-range ones (Proof/RefRun.lean,
  Proof/RefValue.lean). Under the precondition every id names a row of the table (Proof/PreRange.lean), so the wrap, the
  clamp and the mask change nothing, and on both sides an id's table row is the row it names.
-/
import proofs.«206436_g50972671869147_cont_8to1c4_798_20_alg».proof.Defs
import proofs.«206436_g50972671869147_cont_8to1c4_798_20_alg».proof.Proof.Gen.Kernel
import proofs.«206436_g50972671869147_cont_8to1c4_798_20_alg».proof.Proof.Gen.Kernel.Skeleton
import proofs.«206436_g50972671869147_cont_8to1c4_798_20_alg».proof.Proof.Gen.KernelIdeal
import proofs.«206436_g50972671869147_cont_8to1c4_798_20_alg».proof.Proof.Gen.KernelIdeal.Skeleton
import proofs.«206436_g50972671869147_cont_8to1c4_798_20_alg».proof.Proof.Gen.ReferenceIdeal
import proofs.«206436_g50972671869147_cont_8to1c4_798_20_alg».proof.Proof.Gen.Pre_input_domain
import proofs.«206436_g50972671869147_cont_8to1c4_798_20_alg».proof.Proof.PreRange
import proofs.«206436_g50972671869147_cont_8to1c4_798_20_alg».proof.Proof.RefValue
import proofs.«206436_g50972671869147_cont_8to1c4_798_20_alg».proof.Proof.KILaunch
import proofs.«206436_g50972671869147_cont_8to1c4_798_20_alg».proof.Proof.KBLaunch
import Idealize.ShloMosaic.Adequacy
import Idealize.ShloMosaic.Init

noncomputable section

namespace Cert.Proof

open Idealize.ShloMosaic Idealize.SL.Sem

/-- The precondition gives what the kernel's run asks of the launch memory: every token id names a row of the table. -/
theorem preOK_Kernel (m : (ℓ : Loc Cert.Kernel.nD Cert.Kernel.τ Cert.Kernel.sig) → Buf (Elt Bits) ℓ) (h : Cert.Pre_Kernel m) : Cert.Proof.KB.PreOK m :=
  fun d => Cert.PreRange.inRange (F := Bits) _ _ (h d)
theorem preOK_KernelIdeal (m : (ℓ : Loc Cert.KernelIdeal.nD Cert.KernelIdeal.τ Cert.KernelIdeal.sig) → Buf (Elt Ideal) ℓ) (h : Cert.Pre_KernelIdeal m) : Cert.Proof.KI.PreOK m :=
  fun d => Cert.PreRange.inRange (F := Ideal) _ _ (h d)

theorem frame_p : Cert.frame_Kernel := fun m ρ hpre =>
  (θ_run Cert.Kernel.defs _ _).mono (fun _ h c => ⟨(h c).2.1, (h c).2.2⟩) (Cert.Proof.KB.run_main (F := Bits) m ρ (preOK_Kernel m hpre))

theorem frame_pi : Cert.frame_KernelIdeal := fun m ρ hpre =>
  (θ_run Cert.KernelIdeal.defs _ _).mono (fun _ h c => ⟨(h c).2.1, (h c).2.2⟩) (Cert.Proof.KI.run_main (F := Ideal) m ρ (preOK_KernelIdeal m hpre))

theorem frame_ri : Cert.frame_ReferenceIdeal := fun m ρ hpre =>
  (θ_run Cert.ReferenceIdeal.defs _ _).mono (fun _ h c => ⟨(h c).2.1, (h c).2.2⟩)
    (Cert.ReferenceIdeal.RefValue.run m ρ (fun c => Cert.PreRange.inRange (F := Ideal) _ _ (hpre c)))

/-- The ideal pass rewrote nothing: the idealization is the program's own text read at the ideal instance. -/
theorem preserves : Cert.preserves_Kernel_KernelIdeal := trivial

/-- At the ideal instance both programs end with the embedding lookup of their (agreeing) argument arrays. -/
theorem algebraic : Cert.algebraic_KernelIdeal_ReferenceIdeal := by
  intro m ρ m' ρ' hpre hagree
  refine ⟨fun c => Cert.Spec.lookup (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1, (h c).2.1, (h c).2.2⟩)
      (Cert.Proof.KI.run_main (F := Ideal) m ρ (preOK_KernelIdeal m hpre))
  · have hpre' : ∀ c : Dev Cert.ReferenceIdeal.nD, Cert.Spec.InRange (m' ((c.tc : Thread Cert.ReferenceIdeal.nD Cert.ReferenceIdeal.τ).loc Cert.ReferenceIdeal.main_arg0)) := by
      intro c
      rw [(hagree c).1]
      exact preOK_KernelIdeal m hpre c
    refine (θ_run Cert.ReferenceIdeal.defs _ _).mono (fun _ h c => ⟨?_, (h c).2.1, (h c).2.2⟩) (Cert.ReferenceIdeal.RefValue.run m' ρ' hpre')
    rw [(h c).1, (hagree c).1, (hagree c).2]

theorem claim : Cert.Claim := ⟨Cert.Kernel.Gen.facts, Cert.KernelIdeal.Gen.facts, Cert.ReferenceIdeal.Gen.facts, Cert.Pre_input_domain.Gen.facts,
  frame_p, frame_pi, frame_ri, preserves, algebraic⟩

end Cert.Proof

end
